-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v15_0)) (v5 : (c : Dev Cert.KernelIdeal.nD) → Buf (Elt Ideal) ((c.tc : Thread Cert.KernelIdeal.nD Cert.KernelIdeal.τ).loc Cert.KernelIdeal.main_v15_3)) (v6 : (c : Dev Cert.KernelIdeal.nD) → Buf (Elt Ideal) ((c.tc : Thread Cert.KernelIdeal.nD Cert.KernelIdeal.τ).loc Cert.KernelIdeal.main_v15_1)) (v7 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v15_0) = v4 c
          ∧ r.2.mem ((c.tc : Thread Cert.KernelIdeal.nD Cert.KernelIdeal.τ).loc Cert.KernelIdeal.main_v15_3) = v5 c
          ∧ r.2.mem ((c.tc : Thread Cert.KernelIdeal.nD Cert.KernelIdeal.τ).loc Cert.KernelIdeal.main_v15_1) = v6 c
          ∧ r.2.mem ((c.tc : Thread Cert.KernelIdeal.nD Cert.KernelIdeal.τ).loc Cert.KernelIdeal.main_v15_2) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_v74) = v5 c
          ∧ r.2.mem ((c.tc : Thread Cert.ReferenceIdeal.nD Cert.ReferenceIdeal.τ).loc Cert.ReferenceIdeal.main_v56) = v6 c
          ∧ r.2.mem ((c.tc : Thread Cert.ReferenceIdeal.nD Cert.ReferenceIdeal.τ).loc Cert.ReferenceIdeal.main_v62) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2000 : Shape := ⟨2, ![4096, 2000]⟩
abbrev S4096x4096 : Shape := ⟨2, ![4096, 4096]⟩
abbrev S2000x512 : Shape := ⟨2, ![2000, 512]⟩
abbrev S512x128 : Shape := ⟨2, ![512, 128]⟩
abbrev S128x512 : Shape := ⟨2, ![128, 512]⟩
abbrev S512 : Shape := ⟨1, ![512]⟩
abbrev S512x2000 : Shape := ⟨2, ![512, 2000]⟩
abbrev S2000 : Shape := ⟨1, ![2000]⟩
abbrev S_ : Shape := ⟨0, ![]⟩

class Facts : Prop where
  bcast_S_S4096x2000 : S_.BroadcastsInDim S4096x2000 (![] : Fin 0 → Fin S4096x2000.rank)
  reducesTo_S4096x2000_S_d0_1 : S4096x2000.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S2000x512 : S_.BroadcastsInDim S2000x512 (![] : Fin 0 → Fin S2000x512.rank)
  reducesTo_S2000x512_S_d0_1 : S2000x512.ReducesTo [0, 1] S_
  bcast_S_S512x128 : S_.BroadcastsInDim S512x128 (![] : Fin 0 → Fin S512x128.rank)
  reducesTo_S512x128_S_d0_1 : S512x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x2000 : S_.BroadcastsInDim S512x2000 (![] : Fin 0 → Fin S512x2000.rank)
  reducesTo_S512x2000_S_d0_1 : S512x2000.ReducesTo [0, 1] S_
  bcast_S_S2000 : S_.BroadcastsInDim S2000 (![] : Fin 0 → Fin S2000.rank)
  reducesTo_S2000_S_d0 : S2000.ReducesTo [0] S_

variable [Facts]

def fn_part4 {F : FTy → Type} [FloatOps F] (main_arg14 : FVec F S2000 .f32) (main_v63 : IVec S_ 1) (main_v67 : IVec S_ 1) : IVec S_ 1 :=
  let main_v68 : IVec S_ 1 := andi main_v63 main_v67
  let main_v69 : FVec F S2000 .f32 := Host.absf main_arg14
  let main_cst_26 : FVec F S_ .f32 := constant S_ .f32 0x7F800000#32
  let main_v70 : FVec F S2000 .f32 := broadcastInDim S2000 ![] bcast_S_S2000 main_cst_26
  let main_v71 : IVec S2000 1 := cmpf .olt main_v69 main_v70
  let main_c_27 : IVec S_ 1 := constantI S_ 1 1#1
  let main_v72 : IVec S_ 1 := (fun x v => Host.reduce IntOp.andi x v reducesTo_S2000_S_d0 h_S_) main_v71 main_c_27
  let main_v73 : IVec S_ 1 := andi main_v68 main_v72
  main_v73

def fn_part3 {F : FTy → Type} [FloatOps F] (main_arg11 : FVec F S512x2000 .f32) (main_arg12 : FVec F S2000 .f32) (main_arg13 : FVec F S2000 .f32) (main_arg14 : FVec F S2000 .f32) (main_v48 : IVec S_ 1) (main_v49 : FVec F S2000 .f32) (main_v50 : FVec F S2000 .f32) : IVec S_ 1 :=
  let main_v51 : IVec S2000 1 := cmpf .olt main_v49 main_v50
  let main_c_19 : IVec S_ 1 := constantI S_ 1 1#1
  let main_v52 : IVec S_ 1 := (fun x v => Host.reduce IntOp.andi x v reducesTo_S2000_S_d0 h_S_) main_v51 main_c_19
  let main_v53 : IVec S_ 1 := andi main_v48 main_v52
  let main_v54 : FVec F S512x2000 .f32 := Host.absf main_arg11
  let main_cst_20 : FVec F S_ .f32 := constant S_ .f32 0x7F800000#32
  let main_v55 : FVec F S512x2000 .f32 := broadcastInDim S512x2000 ![] bcast_S_S512x2000 main_cst_20
  let main_v56 : IVec S512x2000 1 := cmpf .olt main_v54 main_v55
  let main_c_21 : IVec S_ 1 := constantI S_ 1 1#1
  let main_v57 : IVec S_ 1 := (fun x v => Host.reduce IntOp.andi x v reducesTo_S512x2000_S_d0_1 h_S_) main_v56 main_c_21
  let main_v58 : IVec S_ 1 := andi main_v53 main_v57
  let main_v59 : FVec F S2000 .f32 := Host.absf main_arg12
  let main_cst_22 : FVec F S_ .f32 := constant S_ .f32 0x7F800000#32
  let main_v60 : FVec F S2000 .f32 := broadcastInDim S2000 ![] bcast_S_S2000 main_cst_22
  let main_v61 : IVec S2000 1 := cmpf .olt main_v59 main_v60
  let main_c_23 : IVec S_ 1 := constantI S_ 1 1#1
  let main_v62 : IVec S_ 1 := (fun x v => Host.reduce IntOp.andi x v reducesTo_S2000_S_d0 h_S_) main_v61 main_c_23
  let main_v63 : IVec S_ 1 := andi main_v58 main_v62
  let main_v64 : FVec F S2000 .f32 := Host.absf main_arg13
  let main_cst_24 : FVec F S_ .f32 := constant S_ .f32 0x7F800000#32
  let main_v65 : FVec F S2000 .f32 := broadcastInDim S2000 ![] bcast_S_S2000 main_cst_24
  let main_v66 : IVec S2000 1 := cmpf .olt main_v64 main_v65
  let main_c_25 : IVec S_ 1 := constantI S_ 1 1#1
  let main_v67 : IVec S_ 1 := (fun x v => Host.reduce IntOp.andi x v reducesTo_S2000_S_d0 h_S_) main_v66 main_c_25
  fn_part4 (F := F) main_arg14 main_v63 main_v67

def fn_part2 {F : FTy → Type} [FloatOps F] (main_arg7 : FVec F S512 .f32) (main_arg8 : FVec F S512 .f32) (main_arg9 : FVec F S512x2000 .f32) (main_arg10 : FVec F S2000 .f32) (main_arg11 : FVec F S512x2000 .f32) (main_arg12 : FVec F S2000 .f32) (main_arg13 : FVec F S2000 .f32) (main_arg14 : FVec F S2000 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x2000 .f32 := Host.absf main_arg9
  let main_cst_16 : FVec F S_ .f32 := constant S_ .f32 0x7F800000#32
  let main_v45 : FVec F S512x2000 .f32 := broadcastInDim S512x2000 ![] bcast_S_S512x2000 main_cst_16
  let main_v46 : IVec S512x2000 1 := cmpf .olt main_v44 main_v45
  let main_c_17 : IVec S_ 1 := constantI S_ 1 1#1
  let main_v47 : IVec S_ 1 := (fun x v => Host.reduce IntOp.andi x v reducesTo_S512x2000_S_d0_1 h_S_) main_v46 main_c_17
  let main_v48 : IVec S_ 1 := andi main_v43 main_v47
  let main_v49 : FVec F S2000 .f32 := Host.absf main_arg10
  let main_cst_18 : FVec F S_ .f32 := constant S_ .f32 0x7F800000#32
  let main_v50 : FVec F S2000 .f32 := broadcastInDim S2000 ![] bcast_S_S2000 main_cst_18
  fn_part3 (F := F) main_arg11 main_arg12 main_arg13 main_arg14 main_v48 main_v49 main_v50

def fn_part1 {F : FTy → Type} [FloatOps F] (main_arg4 : FVec F S512x128 .f32) (main_arg5 : FVec F S128x512 .f32) (main_arg6 : FVec F S512 .f32) (main_arg7 : FVec F S512 .f32) (main_arg8 : FVec F S512 .f32) (main_arg9 : FVec F S512x2000 .f32) (main_arg10 : FVec F S2000 .f32) (main_arg11 : FVec F S512x2000 .f32) (main_arg12 : FVec F S2000 .f32) (main_arg13 : FVec F S2000 .f32) (main_arg14 : FVec F S2000 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128x512 .f32 := Host.absf main_arg5
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x2000 .f32) (main_arg1 : FVec F S4096x4096 .f32) (main_arg2 : FVec F S2000x512 .f32) (main_arg3 : FVec F S512x128 .f32) (main_arg4 : FVec F S512x128 .f32) (main_arg5 : FVec F S128x512 .f32) (main_arg6 : FVec F S512 .f32) (main_arg7 : FVec F S512 .f32) (main_arg8 : FVec F S512 .f32) (main_arg9 : FVec F S512x2000 .f32) (main_arg10 : FVec F S2000 .f32) (main_arg11 : FVec F S512x2000 .f32) (main_arg12 : FVec F S2000 .f32) (main_arg13 : FVec F S2000 .f32) (main_arg14 : FVec F S2000 .f32) : IVec S_ 1 :=
  let main_v0 : FVec F S4096x2000 .f32 := Host.absf main_arg0
  let main_cst : FVec F S_ .f32 := constant S_ .f32 0x7F800000#32
  let main_v1 : FVec F S4096x2000 .f32 := broadcastInDim S4096x2000 ![] bcast_S_S4096x2000 main_cst
  let main_v2 : IVec S4096x2000 1 := cmpf .olt main_v0 main_v1
  let main_c : IVec S_ 1 := constantI S_ 1 1#1
  let main_v3 : IVec S_ 1 := (fun x v => Host.reduce IntOp.andi x v reducesTo_S4096x2000_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S2000x512 .f32 := Host.absf main_arg2
  let main_cst_2 : FVec F S_ .f32 := constant S_ .f32 0x7F800000#32
  let main_v10 : FVec F S2000x512 .f32 := broadcastInDim S2000x512 ![] bcast_S_S2000x512 main_cst_2
  let main_v11 : IVec S2000x512 1 := cmpf .olt main_v9 main_v10
  let main_c_3 : IVec S_ 1 := constantI S_ 1 1#1
  let main_v12 : IVec S_ 1 := (fun x v => Host.reduce IntOp.andi x v reducesTo_S2000x512_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x2000 : Shape := ⟨2, ![4096, 2000]⟩
abbrev S4096x4096 : Shape := ⟨2, ![4096, 4096]⟩
abbrev S2000x512 : Shape := ⟨2, ![2000, 512]⟩
abbrev S512x128 : Shape := ⟨2, ![512, 128]⟩
abbrev S128x512 : Shape := ⟨2, ![128, 512]⟩
abbrev S512 : Shape := ⟨1, ![512]⟩
abbrev S512x2000 : Shape := ⟨2, ![512, 2000]⟩
abbrev S2000 : Shape := ⟨1, ![2000]⟩
abbrev S512x256 : Shape := ⟨2, ![512, 256]⟩
abbrev S1x512 : Shape := ⟨2, ![1, 512]⟩
abbrev S1x2000 : Shape := ⟨2, ![1, 2000]⟩
abbrev S4096x512 : Shape := ⟨2, ![4096, 512]⟩
abbrev S512x512 : Shape := ⟨2, ![512, 512]⟩
abbrev S4096x256 : Shape := ⟨2, ![4096, 256]⟩
abbrev S512x4096 : Shape := ⟨2, ![512, 4096]⟩
abbrev S8x512 : Shape := ⟨2, ![8, 512]⟩
abbrev S6x512 : Shape := ⟨2, ![6, 512]⟩
abbrev S4096x128 : Shape := ⟨2, ![4096, 128]⟩
abbrev S128x4096 : Shape := ⟨2, ![128, 4096]⟩
abbrev S1024x128 : Shape := ⟨2, ![1024, 128]⟩
abbrev S128x2048 : Shape := ⟨2, ![128, 2048]⟩
abbrev S1024x2048 : Shape := ⟨2, ![1024, 2048]⟩
abbrev S256x512 : Shape := ⟨2, ![256, 512]⟩
abbrev S256x2000 : Shape := ⟨2, ![256, 2000]⟩

abbrev nBuf : Space → Nat
  | .hbm => 36
  | .vmem => 46
  | .smem => 0
  | _ => 0

abbrev bufTy : (tb : Table) → Fin (tcTables nBuf tb) → BufTy
  | .hbm, ⟨0, _⟩ => ⟨S4096x2000, .f32⟩
  | .hbm, ⟨1, _⟩ => ⟨S4096x4096, .f32⟩
  | .hbm, ⟨2, _⟩ => ⟨S2000x512, .f32⟩
  | .hbm, ⟨3, _⟩ => ⟨S512x128, .f32⟩
  | .hbm, ⟨4, _⟩ => ⟨S512x128, .f32⟩
  | .hbm, ⟨5, _⟩ => ⟨S128x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x2000, .f32⟩
  | .hbm, ⟨10, _⟩ => ⟨S2000, .f32⟩
  | .hbm, ⟨11, _⟩ => ⟨S512x2000, .f32⟩
  | .hbm, ⟨12, _⟩ => ⟨S2000, .f32⟩
  | .hbm, ⟨13, _⟩ => ⟨S2000, .f32⟩
  | .hbm, ⟨14, _⟩ => ⟨S2000, .f32⟩
  | .hbm, ⟨15, _⟩ => ⟨S512x256, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x2000, .f32⟩
  | .hbm, ⟨20, _⟩ => ⟨S1x2000, .f32⟩
  | .hbm, ⟨21, _⟩ => ⟨S1x2000, .f32⟩
  | .hbm, ⟨22, _⟩ => ⟨S1x2000, .f32⟩
  | .hbm, ⟨23, _⟩ => ⟨S4096x512, .f32⟩
  | .hbm, ⟨24, _⟩ => ⟨S4096x256, .f32⟩
  | .hbm, ⟨25, _⟩ => ⟨S4096x256, .f32⟩
  | .hbm, ⟨26, _⟩ => ⟨S4096x512, .f32⟩
  | .hbm, ⟨27, _⟩ => ⟨S8x512, .f32⟩
  | .hbm, ⟨28, _⟩ => ⟨S4096x128, .f32⟩
  | .hbm, ⟨29, _⟩ => ⟨S4096x128, .f32⟩
  | .hbm, ⟨30, _⟩ => ⟨S128x4096, .f32⟩
  | .hbm, ⟨31, _⟩ => ⟨S4096x4096, .f32⟩
  | .hbm, ⟨32, _⟩ => ⟨S4096x512, .f32⟩
  | .hbm, ⟨33, _⟩ => ⟨S4096x2000, .f32⟩
  | .hbm, ⟨34, _⟩ => ⟨S4096x2000, .f32⟩
  | .hbm, ⟨35, _⟩ => ⟨S4096x2000, .f32⟩
  | .local _ .vmem, ⟨0, _⟩ => ⟨S512x2000, .f32⟩
  | .local _ .vmem, ⟨1, _⟩ => ⟨S512x2000, .f32⟩
  | .local _ .vmem, ⟨2, _⟩ => ⟨S2000x512, .f32⟩
  | .local _ .vmem, ⟨3, _⟩ => ⟨S512x512, .f32⟩
  | .local _ .vmem, ⟨4, _⟩ => ⟨S512x512, .f32⟩
  | .local _ .vmem, ⟨5, _⟩ => ⟨S512x4096, .f32⟩
  | .local _ .vmem, ⟨6, _⟩ => ⟨S512x4096, .f32⟩
  | .local _ .vmem, ⟨7, _⟩ => ⟨S4096x512, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x4096, .f32⟩
  | .local _ .vmem, ⟨12, _⟩ => ⟨S512x4096, .f32⟩
  | .local _ .vmem, ⟨13, _⟩ => ⟨S4096x256, .f32⟩
  | .local _ .vmem, ⟨14, _⟩ => ⟨S128x512, .f32⟩
  | .local _ .vmem, ⟨15, _⟩ => ⟨S1x512, .f32⟩
  | .local _ .vmem, ⟨16, _⟩ => ⟨S512x256, .f32⟩
  | .local _ .vmem, ⟨17, _⟩ => ⟨S512x256, .f32⟩
  | .local _ .vmem, ⟨18, _⟩ => ⟨S512x512, .f32⟩
  | .local _ .vmem, ⟨19, _⟩ => ⟨S512x512, .f32⟩
  | .local _ .vmem, ⟨20, _⟩ => ⟨S8x512, .f32⟩
  | .local _ .vmem, ⟨21, _⟩ => ⟨S1024x128, .f32⟩
  | .local _ .vmem, ⟨22, _⟩ => ⟨S1024x128, .f32⟩
  | .local _ .vmem, ⟨23, _⟩ => ⟨S128x2048, .f32⟩
  | .local _ .vmem, ⟨24, _⟩ => ⟨S128x2048, .f32⟩
  | .local _ .vmem, ⟨25, _⟩ => ⟨S1024x2048, .f32⟩
  | .local _ .vmem, ⟨26, _⟩ => ⟨S1024x2048, .f32⟩
  | .local _ .vmem, ⟨27, _⟩ => ⟨S256x512, .f32⟩
  | .local _ .vmem, ⟨28, _⟩ => ⟨S256x512, .f32⟩
  | .local _ .vmem, ⟨29, _⟩ => ⟨S8x512, .f32⟩
  | .local _ .vmem, ⟨30, _⟩ => ⟨S1x512, .f32⟩
  | .local _ .vmem, ⟨31, _⟩ => ⟨S1x512, .f32⟩
  | .local _ .vmem, ⟨32, _⟩ => ⟨S512x2000, .f32⟩
  | .local _ .vmem, ⟨33, _⟩ => ⟨S1x2000, .f32⟩
  | .local _ .vmem, ⟨34, _⟩ => ⟨S512x2000, .f32⟩
  | .local _ .vmem, ⟨35, _⟩ => ⟨S1x2000, .f32⟩
  | .local _ .vmem, ⟨36, _⟩ => ⟨S1x2000, .f32⟩
  | .local _ .vmem, ⟨37, _⟩ => ⟨S1x2000, .f32⟩
  | .local _ .vmem, ⟨38, _⟩ => ⟨S256x512, .f32⟩
  | .local _ .vmem, ⟨39, _⟩ => ⟨S256x512, .f32⟩
  | .local _ .vmem, ⟨40, _⟩ => ⟨S256x2000, .f32⟩
  | .local _ .vmem, ⟨41, _⟩ => ⟨S256x2000, .f32⟩
  | .local _ .vmem, ⟨42, _⟩ => ⟨S256x2000, .f32⟩
  | .local _ .vmem, ⟨43, _⟩ => ⟨S256x2000, .f32⟩
  | .local _ .vmem, ⟨44, _⟩ => ⟨S256x2000, .f32⟩
  | .local _ .vmem, ⟨45, _⟩ => ⟨S256x2000, .f32⟩
  | _, _ => ⟨S4096x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev main_v10_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15_0 : Ref sig .tc := ⟨.hbm, 32, rfl⟩
abbrev main_v15_1 : Ref sig .tc := ⟨.hbm, 33, rfl⟩
abbrev main_v15_2 : Ref sig .tc := ⟨.hbm, 34, rfl⟩
abbrev main_v15_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg7_0 : Ref sig .tc := ⟨.vmem, 35, rfl⟩
abbrev cc4_stg8_0 : Ref sig .tc := ⟨.vmem, 36, rfl⟩
abbrev cc4_stg9_0 : Ref sig .tc := ⟨.vmem, 37, rfl⟩
abbrev cc4_stg10_0 : Ref sig .tc := ⟨.vmem, 38, rfl⟩
abbrev cc4_stg10_1 : Ref sig .tc := ⟨.vmem, 39, rfl⟩
abbrev cc4_stg11_0 : Ref sig .tc := ⟨.vmem, 40, rfl⟩
abbrev cc4_stg11_1 : Ref sig .tc := ⟨.vmem, 41, rfl⟩
abbrev cc4_stg12_0 : Ref sig .tc := ⟨.vmem, 42, rfl⟩
abbrev cc4_stg12_1 : Ref sig .tc := ⟨.vmem, 43, rfl⟩
abbrev cc4_stg13_0 : Ref sig .tc := ⟨.vmem, 44, rfl⟩
abbrev cc4_stg13_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc2_sem5_0 : DmaSem sig := 18
abbrev cc2_sem5_1 : DmaSem sig := 19
abbrev cc2_sem6_0 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc4_sem7_0 : DmaSem sig := 35
abbrev cc4_sem8_0 : DmaSem sig := 36
abbrev cc4_sem9_0 : DmaSem sig := 37
abbrev cc4_sem10_0 : DmaSem sig := 38
abbrev cc4_sem10_1 : DmaSem sig := 39
abbrev cc4_sem11_0 : DmaSem sig := 40
abbrev cc4_sem11_1 : DmaSem sig := 41
abbrev cc4_sem12_0 : DmaSem sig := 42
abbrev cc4_sem12_1 : DmaSem sig := 43
abbrev cc4_sem13_0 : DmaSem sig := 44
abbrev cc4_sem13_1 : DmaSem sig := 45

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def k2_cond1 (i : grid2.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_17 : BitVec 32 := 0#32
  let v31 : BitVec 1 := Scalar.cmpi .ne v30 c0_i32_17
  v31

def k2_cond2 (i : grid2.Coords) : BitVec 1 :=
  let arg0 : BitVec 32 := BitVec.ofNat 32 (i 0).val
  let c0_i32_18 : BitVec 32 := 0#32
  let v32 : BitVec 1 := Scalar.cmpi .sgt arg0 c0_i32_18
  let v33 : BitVec 32 := Scalar.extui v32
  let c0_i32_19 : BitVec 32 := 0#32
  let v34 : BitVec 1 := Scalar.cmpi .ne v33 c0_i32_19
  v34

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S8x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S128x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512x2000 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x2000 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S512x2000 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x2000 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x2000 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x2000 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S256x512 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev stage4_11 : Fin 2 → Memref sig .tc .vmem S256x2000 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev stage4_12 : Fin 2 → Memref sig .tc .vmem S256x2000 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev stage4_13 : Fin 2 → Memref sig .tc .vmem S256x2000 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

class Facts₀ : Prop where
  concatenates_S512x128_S512x128_S512x256_d1 : Shape.Concatenates [S512x128, S512x128] S512x256 1
  shapeCasts_S512_S1x512 : S512.ShapeCasts S1x512
  shapeCasts_S2000_S1x2000 : S2000.ShapeCasts S1x2000
  inb_S512x2000_S512x2000_0_0 : ∀ a, (![0, 0] : Fin 2 → Nat) a + S512x2000.size a ≤ S512x2000.size a
  h_S512x2000 : 0 < S512x2000.numel
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512x4096_S512x4096_0_0 : ∀ a, (![0, 0] : Fin 2 → Nat) a + S512x4096.size a ≤ S512x4096.size a
  h_S512x4096 : 0 < S512x4096.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  slices_S512x256_o0_0_S512x128 : S512x256.Slices ![0, 0] S512x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [0] S512
  concatenates_S1x512_S1x512_S6x512_S8x512_d0 : Shape.Concatenates [S1x512, S1x512, S6x512] S8x512 0
  inb_S8x512_S8x512_0_0 : ∀ a, (![0, 0] : Fin 2 → Nat) a + S8x512.size a ≤ S8x512.size a
  h_S8x512 : 0 < S8x512.numel
  shapeCasts_S8x512_S8x512 : S8x512.ShapeCasts S8x512
  slices_S4096x256_S4096x128_0_0 : S4096x256.Slices ![0, 0] S4096x128
  slices_S4096x256_S4096x128_0_128 : S4096x256.Slices ![0, 128] S4096x128
  transposes_S4096x128_S128x4096_1_0 : S4096x128.Transposes [1, 0] S128x4096
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1024x2048_S1024x2048_0_0 : ∀ a, (![0, 0] : Fin 2 → Nat) a + S1024x2048.size a ≤ S1024x2048.size a
  h_S1024x2048 : 0 < S1024x2048.numel
  inb_S8x512_S1x512_0_0 : ∀ a, (![0, 0] : Fin 2 → Nat) a + S1x512.size a ≤ S8x512.size a
  inb_S8x512_S1x512_1_0 : ∀ a, (![1, 0] : Fin 2 → Nat) a + S1x512.size a ≤ S8x512.size a
  inb_S256x512_S256x512_0_0 : ∀ a, (![0, 0] : Fin 2 → Nat) a + S256x512.size a ≤ S256x512.size a
  h_S256x512 : 0 < S256x512.numel
  shapeCasts_S256x512_S256x512 : S256x512.ShapeCasts S256x512
  broadcasts_S1x512_S256x512 : S1x512.Broadcasts S256x512
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x2000_S256x2000 : S1x2000.Broadcasts S256x2000
  inb_S256x2000_S256x2000_0_0 : ∀ a, (![0, 0] : Fin 2 → Nat) a + S256x2000.size a ≤ S256x2000.size a
  h_S256x2000 : 0 < S256x2000.numel
  dot_S512x2000_S2000x512_S512x512_1_0_0_1_n_n_wf : DotDims.WF S512x2000 S2000x512 S512x512 [1] [0] [0] [1] [] []
  dot_S512x4096_S4096x512_S512x512_1_0_0_1_n_n_wf : DotDims.WF S512x4096 S4096x512 S512x512 [1] [0] [0] [1] [] []
  dot_S512x512_S512x256_S512x256_1_0_0_1_n_n_wf : DotDims.WF S512x512 S512x256 S512x256 [1] [0] [0] [1] [] []
  dot_S512x4096_S4096x256_S512x256_1_0_0_1_n_n_wf : DotDims.WF S512x4096 S4096x256 S512x256 [1] [0] [0] [1] [] []
  dot_S512x128_S128x512_S512x512_1_0_0_1_n_n_wf : DotDims.WF S512x128 S128x512 S512x512 [1] [0] [0] [1] [] []
  dot_S1024x128_S128x2048_S1024x2048_1_0_0_1_n_n_wf : DotDims.WF S1024x128 S128x2048 S1024x2048 [1] [0] [0] [1] [] []
  dot_S256x512_S512x2000_S256x2000_1_0_0_1_n_n_wf : DotDims.WF S256x512 S512x2000 S256x2000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2000.size a ≤ S4096x2000.size a
  hwx0_0 : ∀ i : grid0.Coords, EltTy.bits .f32 = 32 ∨ (Rect.block (s := S4096x2000) S512x2000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S2000x512.size a
  hwx0_1 : ∀ i : grid0.Coords, EltTy.bits .f32 = 32 ∨ (Rect.block (s := S2000x512) S2000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .f32 = 32 ∨ (Rect.block (s := S4096x512) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x512.size a
  hwx1_1 : ∀ i : grid1.Coords, EltTy.bits .f32 = 32 ∨ (Rect.block (s := S4096x512) S4096x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .f32 = 32 ∨ (Rect.block (s := S512x256) S512x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S4096x256.size a
  hwx1_3 : ∀ i : grid1.Coords, EltTy.bits .f32 = 32 ∨ (Rect.block (s := S4096x256) S512x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .f32 = 32 ∨ (Rect.block (s := S4096x4096) S512x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S4096x256.size a
  hwx2_1 : ∀ i : grid2.Coords, EltTy.bits .f32 = 32 ∨ (Rect.block (s := S4096x256) S4096x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x512.size a ≤ S128x512.size a
  hwx2_2 : ∀ i : grid2.Coords, EltTy.bits .f32 = 32 ∨ (Rect.block (s := S128x512) S128x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x256.size a ≤ S4096x256.size a
  hwx2_4 : ∀ i : grid2.Coords, EltTy.bits .f32 = 32 ∨ (Rect.block (s := S4096x256) S512x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S4096x512.size a
  hwx2_5 : ∀ i : grid2.Coords, EltTy.bits .f32 = 32 ∨ (Rect.block (s := S4096x512) S512x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S8x512.size a ≤ S8x512.size a
  hwx2_6 : ∀ i : grid2.Coords, EltTy.bits .f32 = 32 ∨ (Rect.block (s := S8x512) S8x512.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S4096x128.size a
  hwx3_0 : ∀ i : grid3.Coords, EltTy.bits .f32 = 32 ∨ (Rect.block (s := S4096x128) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x2048.size a ≤ S128x4096.size a
  hwx3_1 : ∀ i : grid3.Coords, EltTy.bits .f32 = 32 ∨ (Rect.block (s := S128x4096) S128x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x2048.size a ≤ S4096x4096.size a
  hwx3_2 : ∀ i : grid3.Coords, EltTy.bits .f32 = 32 ∨ (Rect.block (s := S4096x4096) S1024x2048.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x512.size a ≤ S4096x512.size a
  hwx4_0 : ∀ i : grid4.Coords, EltTy.bits .f32 = 32 ∨ (Rect.block (s := S4096x512) S256x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8x512.size a ≤ S8x512.size a
  hwx4_1 : ∀ i : grid4.Coords, EltTy.bits .f32 = 32 ∨ (Rect.block (s := S8x512) S8x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x512.size a
  hwx4_3 : ∀ i : grid4.Coords, EltTy.bits .f32 = 32 ∨ (Rect.block (s := S1x512) S1x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512x2000.size a ≤ S512x2000.size a
  hwx4_4 : ∀ i : grid4.Coords, EltTy.bits .f32 = 32 ∨ (Rect.block (s := S512x2000) S512x2000.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x2000.size a ≤ S1x2000.size a
  hwx4_5 : ∀ i : grid4.Coords, EltTy.bits .f32 = 32 ∨ (Rect.block (s := S1x2000) S1x2000.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S512x2000.size a ≤ S512x2000.size a
  hwx4_6 : ∀ i : grid4.Coords, EltTy.bits .f32 = 32 ∨ (Rect.block (s := S512x2000) S512x2000.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x2000.size a ≤ S1x2000.size a
  hwx4_7 : ∀ i : grid4.Coords, EltTy.bits .f32 = 32 ∨ (Rect.block (s := S1x2000) S1x2000.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x2000.size a ≤ S1x2000.size a
  hwx4_8 : ∀ i : grid4.Coords, EltTy.bits .f32 = 32 ∨ (Rect.block (s := S1x2000) S1x2000.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x2000.size a ≤ S1x2000.size a
  hwx4_9 : ∀ i : grid4.Coords, EltTy.bits .f32 = 32 ∨ (Rect.block (s := S1x2000) S1x2000.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S256x512.size a ≤ S4096x512.size a
  hwx4_10 : ∀ i : grid4.Coords, EltTy.bits .f32 = 32 ∨ (Rect.block (s := S4096x512) S256x512.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S256x2000.size a ≤ S4096x2000.size a
  hwx4_11 : ∀ i : grid4.Coords, EltTy.bits .f32 = 32 ∨ (Rect.block (s := S4096x2000) S256x2000.size (cc4_transform_11 i) (hinb4_11 i)).WholeWords (EltTy.packing .f32)
  hstage4_12 : ∀ j, (stage4_12 j).IsWhole
  nbuf4_12 : grid4.bufCount reads4_12 false = 2
  hreads4_12 : ∀ i i' : grid4.Coords, (∀ a, reads4_12 a = true → i a = i' a) → cc4_transform_12 i = cc4_transform_12 i'
  hinb4_12 : ∀ (i : grid4.Coords) a, (cc4_transform_12 i a + 1) * S256x2000.size a ≤ S4096x2000.size a
  hwx4_12 : ∀ i : grid4.Coords, EltTy.bits .f32 = 32 ∨ (Rect.block (s := S4096x2000) S256x2000.size (cc4_transform_12 i) (hinb4_12 i)).WholeWords (EltTy.packing .f32)
  hstage4_13 : ∀ j, (stage4_13 j).IsWhole
  nbuf4_13 : grid4.bufCount reads4_13 false = 2
  hreads4_13 : ∀ i i' : grid4.Coords, (∀ a, reads4_13 a = true → i a = i' a) → cc4_transform_13 i = cc4_transform_13 i'
  hinb4_13 : ∀ (i : grid4.Coords) a, (cc4_transform_13 i a + 1) * S256x2000.size a ≤ S4096x2000.size a
  hwx4_13 : ∀ i : grid4.Coords, EltTy.bits .f32 = 32 ∨ (Rect.block (s := S4096x2000) S256x2000.size (cc4_transform_13 i) (hinb4_13 i)).WholeWords (EltTy.packing .f32)

variable [Facts₀]

def dot_S512x2000_S2000x512_S512x512_1_0_0_1_n_n : DotDims S512x2000 S2000x512 S512x512 where
  lhsContracting := [1]
  rhsContracting := [0]
  lhsNonContracting := [0]
  rhsNonContracting := [1]
  lhsBatch := []
  rhsBatch := []
  wf := dot_S512x2000_S2000x512_S512x512_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf
def dot_S256x512_S512x2000_S256x2000_1_0_0_1_n_n : DotDims S256x512 S512x2000 S256x2000 where
  lhsContracting := [1]
  rhsContracting := [0]
  lhsNonContracting := [0]
  rhsNonContracting := [1]
  lhsBatch := []
  rhsBatch := []
  wf := dot_S256x512_S512x2000_S256x2000_1_0_0_1_n_n_wf

abbrev win0_0 : Pipeline.Window sig grid0 :=
  Pipeline.Window.ofSpec (Memref.whole main_arg0) S512x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4096x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S4096x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10_0) S512x256.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v10_1) S512x512.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v10_2) S8x512.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond1 i == 1#1) && !(k2_cond2 i == 1#1) | ⟨_ + 7, h⟩ => absurd h (Nat.not_lt.2 (Nat.le_add_left _ _))

abbrev win3_0 : Pipeline.Window sig grid3 :=
  Pipeline.Window.ofSpec (Memref.whole main_v11) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S128x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1024x2048.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v10_1) S256x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10_2) S8x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v2) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v3) S1x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S512x2000.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v4) S1x2000.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg11) S512x2000.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v5) S1x2000.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v6) S1x2000.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v7) S1x2000.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v15_0) S256x512.size cc4_transform_10 reads4_10 true false 2 stage4_10 sem4_10
    hrank4 hreads4_10 hinb4_10 nbuf4_10 (Memref.isWhole_whole _) hwx4_10 hstage4_10

abbrev win4_11 : Pipeline.Window sig grid4 :=
  Pipeline.Window.ofSpec (Memref.whole main_v15_1) S256x2000.size cc4_transform_11 reads4_11 true false 2 stage4_11 sem4_11
    hrank4 hreads4_11 hinb4_11 nbuf4_11 (Memref.isWhole_whole _) hwx4_11 hstage4_11

abbrev win4_12 : Pipeline.Window sig grid4 :=
  Pipeline.Window.ofSpec (Memref.whole main_v15_2) S256x2000.size cc4_transform_12 reads4_12 true false 2 stage4_12 sem4_12
    hrank4 hreads4_12 hinb4_12 nbuf4_12 (Memref.isWhole_whole _) hwx4_12 hstage4_12

abbrev win4_13 : Pipeline.Window sig grid4 :=
  Pipeline.Window.ofSpec (Memref.whole main_v15_3) S256x2000.size cc4_transform_13 reads4_13 true false 2 stage4_13 sem4_13
    hrank4 hreads4_13 hinb4_13 nbuf4_13 (Memref.isWhole_whole _) hwx4_13 hstage4_13

abbrev win4 : Fin 14 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | ⟨_ + 14, h⟩ => absurd h (Nat.not_lt.2 (Nat.le_add_left _ _))
abbrev spec4 : Fin 14 → Pipeline.WinSpec sig grid4.rank := fun w => (win4 w).toWinSpec

class Facts : Prop extends Facts₀ where

variable [Facts]
-- ==== ReferenceIdeal.lean ====
abbrev S4096x2000 : Shape := ⟨2, ![4096, 2000]⟩
abbrev S4096x4096 : Shape := ⟨2, ![4096, 4096]⟩
abbrev S2000x512 : Shape := ⟨2, ![2000, 512]⟩
abbrev S512x128 : Shape := ⟨2, ![512, 128]⟩
abbrev S128x512 : Shape := ⟨2, ![128, 512]⟩
abbrev S512 : Shape := ⟨1, ![512]⟩
abbrev S512x2000 : Shape := ⟨2, ![512, 2000]⟩
abbrev S2000 : Shape := ⟨1, ![2000]⟩
abbrev S4096x512 : Shape := ⟨2, ![4096, 512]⟩
abbrev S_ : Shape := ⟨0, ![]⟩
abbrev S4096x128 : Shape := ⟨2, ![4096, 128]⟩
abbrev S128x4096 : Shape := ⟨2, ![128, 4096]⟩
abbrev S1x512 : Shape := ⟨2, ![1, 512]⟩
abbrev S1x2000 : Shape := ⟨2, ![1, 2000]⟩

abbrev nBuf : Space → Nat
  | .hbm => 152
  | .vmem => 0
  | .smem => 0
  | _ => 0

abbrev hbmTy0_0 (i : Nat) : BufTy := match i % 128 with
  | 0 => ⟨S4096x2000, .f32⟩
  | 1 => ⟨S4096x4096, .f32⟩
  | 2 => ⟨S2000x512, .f32⟩
  | 3 => ⟨S512x128, .f32⟩
  | 4 => ⟨S512x128, .f32⟩
  | 5 => ⟨S128x512, .f32⟩
  | 6 => ⟨S512, .f32⟩
  | 7 => ⟨S512, .f32⟩
  | 8 => ⟨S512, .f32⟩
  | 9 => ⟨S512x2000, .f32⟩
  | 10 => ⟨S2000, .f32⟩
  | 11 => ⟨S512x2000, .f32⟩
  | 12 => ⟨S2000, .f32⟩
  | 13 => ⟨S2000, .f32⟩
  | 14 => ⟨S2000, .f32⟩
  | 15 => ⟨S4096x512, .f32⟩
  | 16 => ⟨S4096x512, .f32⟩
  | 17 => ⟨S_, .f32⟩
  | 18 => ⟨S4096x512, .f32⟩
  | 19 => ⟨S4096x512, .i1⟩
  | 20 => ⟨S_, .f32⟩
  | 21 => ⟨S4096x512, .f32⟩
  | 22 => ⟨S4096x512, .f32⟩
  | 23 => ⟨S4096x512, .f32⟩
  | 24 => ⟨S4096x128, .f32⟩
  | 25 => ⟨S4096x128, .f32⟩
  | 26 => ⟨S_, .f32⟩
  | 27 => ⟨S4096x128, .f32⟩
  | 28 => ⟨S4096x128, .i1⟩
  | 29 => ⟨S_, .f32⟩
  | 30 => ⟨S4096x128, .f32⟩
  | 31 => ⟨S4096x128, .f32⟩
  | 32 => ⟨S4096x128, .f32⟩
  | 33 => ⟨S4096x128, .f32⟩
  | 34 => ⟨S4096x128, .f32⟩
  | 35 => ⟨S_, .f32⟩
  | 36 => ⟨S4096x128, .f32⟩
  | 37 => ⟨S4096x128, .i1⟩
  | 38 => ⟨S_, .f32⟩
  | 39 => ⟨S4096x128, .f32⟩
  | 40 => ⟨S4096x128, .f32⟩
  | 41 => ⟨S4096x128, .f32⟩
  | 42 => ⟨S128x4096, .f32⟩
  | 43 => ⟨S4096x4096, .f32⟩
  | 44 => ⟨S4096x512, .f32⟩
  | 45 => ⟨S1x512, .f32⟩
  | 46 => ⟨S4096x512, .f32⟩
  | 47 => ⟨S4096x512, .f32⟩
  | 48 => ⟨S_, .f32⟩
  | 49 => ⟨S512, .f32⟩
  | 50 => ⟨S_, .f32⟩
  | 51 => ⟨S512, .f32⟩
  | 52 => ⟨S512, .f32⟩
  | 53 => ⟨S_, .i32⟩
  | 54 => ⟨S_, .f32⟩
  | 55 => ⟨S512, .f32⟩
  | 56 => ⟨S1x512, .f32⟩
  | 57 => ⟨S_, .f32⟩
  | 58 => ⟨S1x512, .f32⟩
  | 59 => ⟨S1x512, .f32⟩
  | 60 => ⟨S4096x512, .f32⟩
  | 61 => ⟨S4096x512, .f32⟩
  | 62 => ⟨S4096x512, .f32⟩
  | 63 => ⟨S_, .f32⟩
  | 64 => ⟨S_, .f32⟩
  | 65 => ⟨S_, .f32⟩
  | 66 => ⟨S_, .f32⟩
  | 67 => ⟨S512, .f32⟩
  | 68 => ⟨S512, .f32⟩
  | 69 => ⟨S512, .f32⟩
  | 70 => ⟨S_, .f32⟩
  | 71 => ⟨S_, .i1⟩
  | 72 => ⟨S_, .f32⟩
  | 73 => ⟨S_, .f32⟩
  | 74 => ⟨S512, .f32⟩
  | 75 => ⟨S512, .f32⟩
  | 76 => ⟨S1x512, .f32⟩
  | 77 => ⟨S4096x512, .f32⟩
  | 78 => ⟨S4096x512, .f32⟩
  | 79 => ⟨S_, .f32⟩
  | 80 => ⟨S512, .f32⟩
  | 81 => ⟨S512, .f32⟩
  | 82 => ⟨S512, .f32⟩
  | 83 => ⟨S1x512, .f32⟩
  | 84 => ⟨S4096x512, .f32⟩
  | 85 => ⟨S4096x512, .f32⟩
  | 86 => ⟨S1x512, .f32⟩
  | 87 => ⟨S4096x512, .f32⟩
  | 88 => ⟨S4096x512, .f32⟩
  | 89 => ⟨S1x512, .f32⟩
  | 90 => ⟨S4096x512, .f32⟩
  | 91 => ⟨S4096x512, .f32⟩
  | 92 => ⟨S_, .f32⟩
  | 93 => ⟨S4096x512, .f32⟩
  | 94 => ⟨S4096x512, .i1⟩
  | 95 => ⟨S_, .f32⟩
  | 96 => ⟨S4096x512, .f32⟩
  | 97 => ⟨S4096x512, .f32⟩
  | 98 => ⟨S4096x512, .f32⟩
  | 99 => ⟨S4096x2000, .f32⟩
  | 100 => ⟨S1x2000, .f32⟩
  | 101 => ⟨S4096x2000, .f32⟩
  | 102 => ⟨S4096x2000, .f32⟩
  | 103 => ⟨S_, .f32⟩
  | 104 => ⟨S4096x2000, .f32⟩
  | 105 => ⟨S4096x2000, .f32⟩
  | 106 => ⟨S4096x2000, .f32⟩
  | 107 => ⟨S4096x2000, .f32⟩
  | 108 => ⟨S4096x2000, .i1⟩
  | 109 => ⟨S4096x2000, .f32⟩
  | 110 => ⟨S4096x2000, .f32⟩
  | 111 => ⟨S4096x2000, .f32⟩
  | 112 => ⟨S4096x2000, .f32⟩
  | 113 => ⟨S4096x2000, .f32⟩
  | 114 => ⟨S4096x2000, .f32⟩
  | 115 => ⟨S4096x2000, .f32⟩
  | 116 => ⟨S4096x2000, .f32⟩
  | 117 => ⟨S_, .f32⟩
  | 118 => ⟨S_, .f32⟩
  | 119 => ⟨S_, .f32⟩
  | 120 => ⟨S4096x2000, .f32⟩
  | 121 => ⟨S4096x2000, .f32⟩
  | 122 => ⟨S_, .f32⟩
  | 123 => ⟨S4096x2000, .f32⟩
  | 124 => ⟨S4096x2000, .f32⟩
  | 125 => ⟨S4096x2000, .f32⟩
  | 126 => ⟨S1x2000, .f32⟩
  | 127 => ⟨S4096x2000, .f32⟩
  | _ => ⟨S4096x2000, .f32⟩

abbrev hbmTy0_1 (i : Nat) : BufTy := match i % 128 with
  | 0 => ⟨S4096x2000, .f32⟩
  | 1 => ⟨S4096x2000, .f32⟩
  | 2 => ⟨S_, .f32⟩
  | 3 => ⟨S_, .f32⟩
  | 4 => ⟨S_, .f32⟩
  | 5 => ⟨S4096x2000, .f32⟩
  | 6 => ⟨S4096x2000, .f32⟩
  | 7 => ⟨S_, .f32⟩
  | 8 => ⟨S4096x2000, .f32⟩
  | 9 => ⟨S4096x2000, .f32⟩
  | 10 => ⟨S1x2000, .f32⟩
  | 11 => ⟨S4096x2000, .f32⟩
  | 12 => ⟨S4096x2000, .f32⟩
  | 13 => ⟨S1x2000, .f32⟩
  | 14 => ⟨S4096x2000, .f32⟩
  | 15 => ⟨S4096x2000, .f32⟩
  | 16 => ⟨S4096x2000, .f32⟩
  | 17 => ⟨S4096x2000, .f32⟩
  | 18 => ⟨S_, .f32⟩
  | 19 => ⟨S4096x2000, .f32⟩
  | 20 => ⟨S4096x2000, .f32⟩
  | 21 => ⟨S_, .f32⟩
  | 22 => ⟨S4096x2000, .f32⟩
  | 23 => ⟨S4096x2000, .f32⟩
  | _ => ⟨S4096x2000, .f32⟩

abbrev hbmTy (i : Nat) : BufTy := match i / 128 with
  | 0 => hbmTy0_0 i
  | 1 => hbmTy0_1 i
  | _ => ⟨S4096x2000, .f32⟩

abbrev bufTy : (tb : Table) → Fin (tcTables nBuf tb) → BufTy
  | .hbm, ⟨i, _⟩ => hbmTy i
  | _, _ => ⟨S4096x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_cst_6 : Ref sig .tc := ⟨.hbm, 50, rfl⟩
abbrev main_v28 : Ref sig .tc := ⟨.hbm, 51, rfl⟩
abbrev main_v29 : Ref sig .tc := ⟨.hbm, 52, rfl⟩
abbrev main_c : Ref sig .tc := ⟨.hbm, 53, rfl⟩
abbrev main_call3_cst : Ref sig .tc := ⟨.hbm, 54, rfl⟩
abbrev main_call3_v0 : Ref sig .tc := ⟨.hbm, 55, rfl⟩
abbrev main_call3_v1 : Ref sig .tc := ⟨.hbm, 56, rfl⟩
abbrev main_call3_cst_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_v6 : Ref sig .tc := ⟨.hbm, 62, rfl⟩
abbrev main_call3_v7 : Ref sig .tc := ⟨.hbm, 63, rfl⟩
abbrev main_call3_cst_1 : Ref sig .tc := ⟨.hbm, 64, rfl⟩
abbrev main_call3_v8 : Ref sig .tc := ⟨.hbm, 65, rfl⟩
abbrev main_call3_cst_2 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_cst_3 : Ref sig .tc := ⟨.hbm, 70, rfl⟩
abbrev main_call3_v12 : Ref sig .tc := ⟨.hbm, 71, rfl⟩
abbrev main_call3_cst_4 : Ref sig .tc := ⟨.hbm, 72, rfl⟩
abbrev main_call3_call0_v0 : Ref sig .tc := ⟨.hbm, 73, rfl⟩
abbrev main_call3_call0_v1 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_cst_7 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_8 : Ref sig .tc := ⟨.hbm, 92, rfl⟩
abbrev main_v46 : Ref sig .tc := ⟨.hbm, 93, rfl⟩
abbrev main_v47 : Ref sig .tc := ⟨.hbm, 94, rfl⟩
abbrev main_cst_9 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_call5_cst : Ref sig .tc := ⟨.hbm, 103, rfl⟩
abbrev main_call5_v0 : Ref sig .tc := ⟨.hbm, 104, rfl⟩
abbrev main_call5_v1 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_call5_v5 : Ref sig .tc := ⟨.hbm, 109, rfl⟩
abbrev main_call5_v6 : Ref sig .tc := ⟨.hbm, 110, rfl⟩
abbrev main_call5_v7 : Ref sig .tc := ⟨.hbm, 111, rfl⟩
abbrev main_call5_v8 : Ref sig .tc := ⟨.hbm, 112, rfl⟩
abbrev main_call5_v9 : Ref sig .tc := ⟨.hbm, 113, rfl⟩
abbrev main_call5_v10 : Ref sig .tc := ⟨.hbm, 114, rfl⟩
abbrev main_call5_v11 : Ref sig .tc := ⟨.hbm, 115, rfl⟩
abbrev main_v55 : Ref sig .tc := ⟨.hbm, 116, rfl⟩
abbrev main_cst_10 : Ref sig .tc := ⟨.hbm, 117, rfl⟩
abbrev main_cst_11 : Ref sig .tc := ⟨.hbm, 118, rfl⟩
abbrev main_call6_v0 : Ref sig .tc := ⟨.hbm, 119, rfl⟩
abbrev main_call6_v1 : Ref sig .tc := ⟨.hbm, 120, rfl⟩
abbrev main_call6_v2 : Ref sig .tc := ⟨.hbm, 121, rfl⟩
abbrev main_call6_v3 : Ref sig .tc := ⟨.hbm, 122, rfl⟩
abbrev main_call6_v4 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_cst_12 : Ref sig .tc := ⟨.hbm, 130, rfl⟩
abbrev main_cst_13 : Ref sig .tc := ⟨.hbm, 131, rfl⟩
abbrev main_call7_v0 : Ref sig .tc := ⟨.hbm, 132, rfl⟩
abbrev main_call7_v1 : Ref sig .tc := ⟨.hbm, 133, rfl⟩
abbrev main_call7_v2 : Ref sig .tc := ⟨.hbm, 134, rfl⟩
abbrev main_call7_v3 : Ref sig .tc := ⟨.hbm, 135, rfl⟩
abbrev main_call7_v4 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_cst_14 : Ref sig .tc := ⟨.hbm, 146, rfl⟩
abbrev main_v71 : Ref sig .tc := ⟨.hbm, 147, rfl⟩
abbrev main_v72 : Ref sig .tc := ⟨.hbm, 148, rfl⟩
abbrev main_cst_15 : Ref sig .tc := ⟨.hbm, 149, rfl⟩
abbrev main_v73 : Ref sig .tc := ⟨.hbm, 150, rfl⟩
abbrev main_v74 : Ref sig .tc := ⟨.hbm, 151, rfl⟩

abbrev nD : Nat := 1
abbrev τ : Topo := Topo.v7x

variable {F : FTy → Type} [FloatOps F]

class Facts₀ : Prop where
  bcast_S_S4096x512 : S_.BroadcastsInDim S4096x512 (![] : Fin 0 → Fin S4096x512.rank)
  bcast_S_S4096x128 : S_.BroadcastsInDim S4096x128 (![] : Fin 0 → Fin S4096x128.rank)
  transposes_S4096x128_S128x4096_1_0 : S4096x128.Transposes [1, 0] S128x4096
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  reducesTo_S4096x512_S512_d0 : S4096x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S2000_S1x2000_1 : S2000.BroadcastsInDim S1x2000 (![1] : Fin 1 → Fin S1x2000.rank)
  bcast_S1x2000_S4096x2000_0_1 : S1x2000.BroadcastsInDim S4096x2000 (![0, 1] : Fin 2 → Fin S4096x2000.rank)
  bcast_S_S4096x2000 : S_.BroadcastsInDim S4096x2000 (![] : Fin 0 → Fin S4096x2000.rank)
  dot_S4096x2000_S2000x512_S4096x512_1_0_0_1_n_n_wf : DotDims.WF S4096x2000 S2000x512 S4096x512 [1] [0] [0] [1] [] []
  dot_S4096x4096_S4096x512_S4096x512_1_0_0_1_n_n_wf : DotDims.WF S4096x4096 S4096x512 S4096x512 [1] [0] [0] [1] [] []
  dot_S4096x512_S512x128_S4096x128_1_0_0_1_n_n_wf : DotDims.WF S4096x512 S512x128 S4096x128 [1] [0] [0] [1] [] []
  dot_S4096x4096_S4096x128_S4096x128_1_0_0_1_n_n_wf : DotDims.WF S4096x4096 S4096x128 S4096x128 [1] [0] [0] [1] [] []
  dot_S4096x128_S128x4096_S4096x4096_1_0_0_1_n_n_wf : DotDims.WF S4096x128 S128x4096 S4096x4096 [1] [0] [0] [1] [] []
  dot_S4096x128_S128x512_S4096x512_1_0_0_1_n_n_wf : DotDims.WF S4096x128 S128x512 S4096x512 [1] [0] [0] [1] [] []
  dot_S4096x512_S512x2000_S4096x2000_1_0_0_1_n_n_wf : DotDims.WF S4096x512 S512x2000 S4096x2000 [1] [0] [0] [1] [] []

variable [Facts₀]

def dot_S4096x2000_S2000x512_S4096x512_1_0_0_1_n_n : DotDims S4096x2000 S2000x512 S4096x512 where
  lhsContracting := [1]
  rhsContracting := [0]
  lhsNonContracting := [0]
  rhsNonContracting := [1]
  lhsBatch := []
  rhsBatch := []
  wf := dot_S4096x2000_S2000x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S4096x512_S512x2000_S4096x2000_1_0_0_1_n_n : DotDims S4096x512 S512x2000 S4096x2000 where
  lhsContracting := [1]
  rhsContracting := [0]
  lhsNonContracting := [0]
  rhsNonContracting := [1]
  lhsBatch := []
  rhsBatch := []
  wf := dot_S4096x512_S512x2000_S4096x2000_1_0_0_1_n_n_wf

class Facts : Prop extends Facts₀ where

variable [Facts]
-- ==== Proof.Bits.Region0.lean ====
/-
  The first pallas_call, x · gc1_w, one block of 512 rows of x per grid point against the whole weight.
  Stated at any float instance and at any contents V of the core's buffers when the call is entered:
  the block each window holds at a point, what the body leaves in the output block (its one store, of the
  product of the two loaded blocks), the body's triple, and the pipeline's proof data with its obligation.
-/
import proofs.«117800_g2173253451805_cont_8to1_1923_4_alg».proof.Proof.Gen.Kernel.Launch
import proofs.«117800_g2173253451805_cont_8to1_1923_4_alg».proof.Proof.Gen.Kernel.Skeleton
import proofs.«117800_g2173253451805_cont_8to1_1923_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the whole weight at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rx0 : Rect S512x2000 := Rect.unit (s := S512x2000) ![0, 0] S512x2000.size inb_S512x2000_S512x2000_0_0
abbrev rw0 : Rect S2000x512 := Rect.unit (s := S2000x512) ![0, 0] S2000x512.size inb_S2000x512_S2000x512_0_0
abbrev ro0 : Rect S512x512 := Rect.unit (s := S512x512) ![0, 0] S512x512.size inb_S512x512_S512x512_0_0

/-- The output block after the body: the product of the x block and the weight, stored whole. -/
def out0_2 (x0 : Vec F S512x2000 .f32) (x1 : Vec F S2000x512 .f32) : Vec F S512x512 .f32 :=
  View.canon [⟨ro0, k0_pay1 (View.ld x0 rx0) (View.ld x1 rw0)⟩]

theorem cover0_2 (p0 : Vec F S512x512 .f32) (y : S512x512.Idx) :
    ∃ pc ∈ ([⟨ro0, p0⟩] : List (View.Piece (Elt F) S512x512 .f32)), y ∈ pc.1.set :=
  View.cover_of_tiled [⟨ro0, p0⟩] S512x512.size (by rfl) y

/-! ## The body's triple -/

set_option maxHeartbeats 1000000 in
theorem sound_kernel0 (c : Dev nD) (E : Set ℕ) (i : grid0.Coords)
    (arg1 : Memref sig .tc .vmem S512x2000 .f32) (harg1 : arg1.IsWhole) (arg2 : Memref sig .tc .vmem S2000x512 .f32) (harg2 : arg2.IsWhole)
    (arg3 : Memref sig .tc .vmem S512x512 .f32) (harg3 : arg3.IsWhole)
    (x0 : Vec F S512x2000 .f32) (x1 : Vec F S2000x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__k1_body i arg1 harg1 arg2 harg2 arg3 harg3) K := by
  simp only [cc0__k1_body_eq_skeleton]; unfold cc0__k1_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Region1.lean ====
/-
  The second pallas_call: leaky(adj · xw) · [gc2_w | gc2s_w], one block of 512 rows of adj per grid point
  against the whole of xw and of the side-by-side weight. At any float instance and any entry contents V: the
  windows' blocks, the output block the body's one store leaves, the body's triple, the proof data, the obligation.
-/
import proofs.«117800_g2173253451805_cont_8to1_1923_4_alg».proof.Proof.Gen.Kernel.Launch
import proofs.«117800_g2173253451805_cont_8to1_1923_4_alg».proof.Proof.Gen.Kernel.Skeleton
import proofs.«117800_g2173253451805_cont_8to1_1923_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in each output block -/

/-- The output block: the leaky product of the adj block with xw, times the side-by-side weight, stored whole. -/
def out1_3 (x0 : Vec F S512x4096 .f32) (x1 : Vec F S4096x512 .f32) (x2 : Vec F S512x256 .f32) : Vec F S512x256 .f32 :=
  View.canon [⟨(Rect.unit (s := S512x256) ![0, 0] S512x256.size inb_S512x256_S512x256_0_0), k1_pay1 (View.ld x0 (Rect.unit (s := S512x4096) ![0, 0] S512x4096.size inb_S512x4096_S512x4096_0_0)) (View.ld x1 (Rect.unit (s := S4096x512) ![0, 0] S4096x512.size inb_S4096x512_S4096x512_0_0)) (View.ld x2 (Rect.unit (s := S512x256) ![0, 0] S512x256.size inb_S512x256_S512x256_0_0))⟩]

theorem cover1_3 (p0 : Vec F S512x256 .f32) (y : S512x256.Idx) :
    ∃ pc ∈ ([⟨(Rect.unit (s := S512x256) ![0, 0] S512x256.size inb_S512x256_S512x256_0_0), p0⟩] : List (View.Piece (Elt F) S512x256 .f32)), y ∈ pc.1.set :=
  View.cover_of_tiled [⟨(Rect.unit (s := S512x256) ![0, 0] S512x256.size inb_S512x256_S512x256_0_0), p0⟩] S512x256.size (by rfl) y

/-! ## The body's triple -/

set_option maxHeartbeats 4000000 in
/-- On whole staging buffers, the inputs' at contents x and the outputs' at anything, the body runs to a state with the
    inputs' buffers as they were and each output's at the block computed from them. -/
theorem sound_kernel1 (c : Dev nD) (E : Set ℕ) (i : grid1.Coords) (a0 : Memref sig .tc .vmem S512x4096 .f32) (ha0 : a0.IsWhole) (a1 : Memref sig .tc .vmem S4096x512 .f32) (ha1 : a1.IsWhole) (a2 : Memref sig .tc .vmem S512x256 .f32) (ha2 : a2.IsWhole) (a3 : Memref sig .tc .vmem S512x256 .f32) (ha3 : a3.IsWhole)
    (x0 : Vec F S512x4096 .f32) (x1 : Vec F S4096x512 .f32) (x2 : Vec F S512x256 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1__k2_body i a0 ha0 a1 ha1 a2 ha2 a3 ha3) K := by
  simp only [cc1__k2_body_eq_skeleton]; unfold cc1__k2_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  · iexists _; isplitr
    swap; · iexact H3
    ipureintro
    exact View.read_writes_eq_canon _ _ _ (cover1_3 _)

/-! ## The pipeline's proof data -/

/-- The arrays as the call finds them; after the body at point t each input's buffer at its block and each output's at the
    block computed from the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Region2.lean ====
/-
  The third pallas_call: ml = leaky(adj · t) per block of 512 rows, h = ml[:, :128] · fc1_w + fc1_b for those rows, and the
  running column sums of h and of h² kept in one [8, 512] block whose index never moves: the first grid point stores
  the block's sums, every later point adds its sums to what the point before left. At any float instance and any entry
  contents V: the windows' blocks, what the body leaves in the three output buffers in each of the two cases, the
  body's triple case by case, the accumulator by recursion on the point, the proof data and the obligation.
-/
import proofs.«117800_g2173253451805_cont_8to1_1923_4_alg».proof.Proof.Gen.Kernel.Launch
import proofs.«117800_g2173253451805_cont_8to1_1923_4_alg».proof.Proof.Gen.Kernel.Skeleton
import proofs.«117800_g2173253451805_cont_8to1_1923_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions, decided over the grid -/

/-- The reset branch is taken at the first point only. -/
theorem hcond2_1 : ∀ t : Fin cfg2.N, k2_cond1 (grid2.coords t) = 1#1 ↔ t.val = 0 :=
  (by decide +kernel : ∀ t : Fin grid2.N, k2_cond1 (grid2.coords t) = 1#1 ↔ t.val = 0)
/-- The add branch is taken at every later point. -/
theorem hcond2_2 : ∀ t : Fin cfg2.N, k2_cond2 (grid2.coords t) = 1#1 ↔ t.val ≠ 0 :=
  (by decide +kernel : ∀ t : Fin grid2.N, k2_cond2 (grid2.coords t) = 1#1 ↔ t.val ≠ 0)

/-- One of the two branches is taken at every point, so no window is idle anywhere: the statistics window is stored into
    at every point, and the others are stored into (or are inputs) unconditionally. -/
theorem live2 : ∀ (w : Fin cfg2.W) (i : grid2.Coords), cfg2.idle w i = false := by decide +kernel

/-! ## What the body leaves in each output block -/

/-- The ml block: the leaky product of the adj block with t, stored whole. -/
def out2_4 (x0 : Vec F S512x4096 .f32) (x1 : Vec F S4096x256 .f32) (x2 : Vec F S128x512 .f32) (x3 : Vec F S1x512 .f32) : Vec F S512x256 .f32 :=
  View.canon [⟨(Rect.unit (s := S512x256) ![0, 0] S512x256.size inb_S512x256_S512x256_0_0), k2_pay2 (View.ld x0 (Rect.unit (s := S512x4096) ![0, 0] S512x4096.size inb_S512x4096_S512x4096_0_0)) (View.ld x1 (Rect.unit (s := S4096x256) ![0, 0] S4096x256.size inb_S4096x256_S4096x256_0_0))⟩]
/-- The h block: the first 128 columns of the ml block times fc1_w, plus the bias row, stored whole. -/
def out2_5 (x0 : Vec F S512x4096 .f32) (x1 : Vec F S4096x256 .f32) (x2 : Vec F S128x512 .f32) (x3 : Vec F S1x512 .f32) : Vec F S512x512 .f32 :=
  View.canon [⟨(Rect.unit (s := S512x512) ![0, 0] S512x512.size inb_S512x512_S512x512_0_0), k2_pay3 (View.ld x0 (Rect.unit (s := S512x4096) ![0, 0] S512x4096.size inb_S512x4096_S512x4096_0_0)) (View.ld x1 (Rect.unit (s := S4096x256) ![0, 0] S4096x256.size inb_S4096x256_S4096x256_0_0)) (View.ld x2 (Rect.unit (s := S128x512) ![0, 0] S128x512.size inb_S128x512_S128x512_0_0)) (View.ld x3 (Rect.unit (s := S1x512) ![0, 0] S1x512.size inb_S1x512_S1x512_0_0))⟩]
/-- The statistics block at the first point: this block's column sums of h and of h², and six rows of zeros. -/
def out2_6A (x0 : Vec F S512x4096 .f32) (x1 : Vec F S4096x256 .f32) (x2 : Vec F S128x512 .f32) (x3 : Vec F S1x512 .f32) : Vec F S8x512 .f32 :=
  View.canon [⟨(Rect.unit (s := S8x512) ![0, 0] S8x512.size inb_S8x512_S8x512_0_0), k2_pay4 (View.ld x0 (Rect.unit (s := S512x4096) ![0, 0] S512x4096.size inb_S512x4096_S512x4096_0_0)) (View.ld x1 (Rect.unit (s := S4096x256) ![0, 0] S4096x256.size inb_S4096x256_S4096x256_0_0)) (View.ld x2 (Rect.unit (s := S128x512) ![0, 0] S128x512.size inb_S128x512_S128x512_0_0)) (View.ld x3 (Rect.unit (s := S1x512) ![0, 0] S1x512.size inb_S1x512_S1x512_0_0))⟩]
/-- The statistics block at a later point: what the point before left, plus this block's sums. -/
def out2_6B (x0 : Vec F S512x4096 .f32) (x1 : Vec F S4096x256 .f32) (x2 : Vec F S128x512 .f32) (x3 : Vec F S1x512 .f32) (prev : Vec F S8x512 .f32) : Vec F S8x512 .f32 :=
  View.canon [⟨(Rect.unit (s := S8x512) ![0, 0] S8x512.size inb_S8x512_S8x512_0_0), k2_pay1 (k2_pay4 (View.ld x0 (Rect.unit (s := S512x4096) ![0, 0] S512x4096.size inb_S512x4096_S512x4096_0_0)) (View.ld x1 (Rect.unit (s := S4096x256) ![0, 0] S4096x256.size inb_S4096x256_S4096x256_0_0)) (View.ld x2 (Rect.unit (s := S128x512) ![0, 0] S128x512.size inb_S128x512_S128x512_0_0)) (View.ld x3 (Rect.unit (s := S1x512) ![0, 0] S1x512.size inb_S1x512_S1x512_0_0))) (View.ld prev (Rect.unit (s := S8x512) ![0, 0] S8x512.size inb_S8x512_S8x512_0_0))⟩]

theorem cover2_4 (p0 : Vec F S512x256 .f32) (y : S512x256.Idx) :
    ∃ pc ∈ ([⟨(Rect.unit (s := S512x256) ![0, 0] S512x256.size inb_S512x256_S512x256_0_0), p0⟩] : List (View.Piece (Elt F) S512x256 .f32)), y ∈ pc.1.set :=
  View.cover_of_tiled [⟨(Rect.unit (s := S512x256) ![0, 0] S512x256.size inb_S512x256_S512x256_0_0), p0⟩] S512x256.size (by rfl) y
theorem cover2_5 (p0 : Vec F S512x512 .f32) (y : S512x512.Idx) :
    ∃ pc ∈ ([⟨(Rect.unit (s := S512x512) ![0, 0] S512x512.size inb_S512x512_S512x512_0_0), p0⟩] : List (View.Piece (Elt F) S512x512 .f32)), y ∈ pc.1.set :=
  View.cover_of_tiled [⟨(Rect.unit (s := S512x512) ![0, 0] S512x512.size inb_S512x512_S512x512_0_0), p0⟩] S512x512.size (by rfl) y
theorem cover2_6 (p0 : Vec F S8x512 .f32) (y : S8x512.Idx) :
    ∃ pc ∈ ([⟨(Rect.unit (s := S8x512) ![0, 0] S8x512.size inb_S8x512_S8x512_0_0), p0⟩] : List (View.Piece (Elt F) S8x512 .f32)), y ∈ pc.1.set :=
  View.cover_of_tiled [⟨(Rect.unit (s := S8x512) ![0, 0] S8x512.size inb_S8x512_S8x512_0_0), p0⟩] S8x512.size (by rfl) y

/-! ## The body's triple, case by case -/

set_option maxHeartbeats 4000000 in
/-- At a point where the reset branch is taken and the add branch is not: the three output buffers, at anything before,
    end at the ml block, the h block and this block's sums. -/
theorem sound_kernel2_A (c : Dev nD) (E : Set ℕ) (i : grid2.Coords) (a0 : Memref sig .tc .vmem S512x4096 .f32) (ha0 : a0.IsWhole) (a1 : Memref sig .tc .vmem S4096x256 .f32) (ha1 : a1.IsWhole) (a2 : Memref sig .tc .vmem S128x512 .f32) (ha2 : a2.IsWhole) (a3 : Memref sig .tc .vmem S1x512 .f32) (ha3 : a3.IsWhole) (a4 : Memref sig .tc .vmem S512x256 .f32) (ha4 : a4.IsWhole) (a5 : Memref sig .tc .vmem S512x512 .f32) (ha5 : a5.IsWhole) (a6 : Memref sig .tc .vmem S8x512 .f32) (ha6 : a6.IsWhole)
    (hc1 : k2_cond1 i = 1#1) (hc2 : ¬ k2_cond2 i = 1#1)
    (x0 : Vec F S512x4096 .f32) (x1 : Vec F S4096x256 .f32) (x2 : Vec F S128x512 .f32) (x3 : Vec F S1x512 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (out2_4 x0 x1 x2 x3) ∗ owns (c : Thread nD τ) a5 fullShare (out2_5 x0 x1 x2 x3) ∗ owns (c : Thread nD τ) a6 fullShare (out2_6A x0 x1 x2 x3)) -∗ K ⟨⟩))
      ⊢ wp frame (wpE (defs₀ (F := F)) Variants.none c none) E (cc2__k3_body i a0 ha0 a1 ha1 a2 ha2 a3 ha3 a4 ha4 a5 ha5 a6 ha6) K := by
  simp only [cc2__k3_body_eq_skeleton]; unfold cc2__k3_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  isplitl [H5]
  · iexists _; isplitr
    swap; · iexact H5
    ipureintro
    exact View.read_writes_eq_canon _ _ _ (cover2_5 _)
  · iexists _; isplitr
    swap; · iexact H6
    ipureintro
    exact View.read_writes_eq_canon _ _ _ (cover2_6 _)

set_option maxHeartbeats 4000000 in
/-- At a point where the add branch is taken and the reset branch is not: the statistics buffer, holding prev before,
    ends at prev plus this block's sums. -/
theorem sound_kernel2_B (c : Dev nD) (E : Set ℕ) (i : grid2.Coords) (a0 : Memref sig .tc .vmem S512x4096 .f32) (ha0 : a0.IsWhole) (a1 : Memref sig .tc .vmem S4096x256 .f32) (ha1 : a1.IsWhole) (a2 : Memref sig .tc .vmem S128x512 .f32) (ha2 : a2.IsWhole) (a3 : Memref sig .tc .vmem S1x512 .f32) (ha3 : a3.IsWhole) (a4 : Memref sig .tc .vmem S512x256 .f32) (ha4 : a4.IsWhole) (a5 : Memref sig .tc .vmem S512x512 .f32) (ha5 : a5.IsWhole) (a6 : Memref sig .tc .vmem S8x512 .f32) (ha6 : a6.IsWhole)
    (hc1 : ¬ k2_cond1 i = 1#1) (hc2 : k2_cond2 i = 1#1)
    (x0 : Vec F S512x4096 .f32) (x1 : Vec F S4096x256 .f32) (x2 : Vec F S128x512 .f32) (x3 : Vec F S1x512 .f32) (prev : Vec F S8x512 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ (∃ d, owns (c : Thread nD τ) a5 fullShare d) ∗ owns (c : Thread nD τ) a6 fullShare prev
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (out2_4 x0 x1 x2 x3) ∗ owns (c : Thread nD τ) a5 fullShare (out2_5 x0 x1 x2 x3) ∗ owns (c : Thread nD τ) a6 fullShare (out2_6B x0 x1 x2 x3 prev)) -∗ K ⟨⟩))
      ⊢ wp frame (wpE (defs₀ (F := F)) Variants.none c none) E (cc2__k3_body i a0 ha0 a1 ha1 a2 ha2 a3 ha3 a4 ha4 a5 ha5 a6 ha6) K := by
  simp only [cc2__k3_body_eq_skeleton]; unfold cc2__k3_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
  subst hf0; subst hf1; subst hf2; subst hf3; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  isplitl [H5]
  · iexists _; isplitr
    swap; · iexact H5
    ipureintro
    exact View.read_writes_eq_canon _ _ _ (cover2_5 _)
  · iexists _; isplitr
    swap; · iexact H6
    ipureintro
    exact View.read_writes_eq_canon _ _ _ (cover2_6 _)

/-! ## The running statistics, by recursion on the point -/

/-- What the statistics buffer holds after the body at position n: at the first point this block's sums, at a later one
    what the point before left plus this block's sums. -/
def acc2 (c : Dev nD) : (n : ℕ) → n < cfg2.N → Vec F S8x512 .f32
  | 0, hn => out2_6A (iblk2 V c 0 ⟨0, hn⟩) (iblk2 V c 1 ⟨0, hn⟩) (iblk2 V c 2 ⟨0, hn⟩) (iblk2 V c 3 ⟨0, hn⟩)
  | n + 1, hn => out2_6B (iblk2 V c 0 ⟨n + 1, hn⟩) (iblk2 V c 1 ⟨n + 1, hn⟩) (iblk2 V c 2 ⟨n + 1, hn⟩) (iblk2 V c 3 ⟨n + 1, hn⟩) (acc2 c n (Nat.lt_of_succ_lt hn))

theorem acc2_first (c : Dev nD) (t : Fin cfg2.N) (h0 : t.val = 0) :
    acc2 V c t.val t.isLt = out2_6A (iblk2 V c 0 t) (iblk2 V c 1 t) (iblk2 V c 2 t) (iblk2 V c 3 t) := by
  obtain ⟨n, hn⟩ := t
  cases n with
  | zero => rfl
  | succ n => exact absurd h0 (Nat.succ_ne_zero n)

theorem acc2_later (c : Dev nD) (t : Fin cfg2.N) (h0 : t.val ≠ 0) :
    acc2 V c t.val t.isLt = out2_6B (iblk2 V c 0 t) (iblk2 V c 1 t) (iblk2 V c 2 t) (iblk2 V c 3 t) (acc2 V c (t.val - 1) (Nat.lt_of_le_of_lt (Nat.sub_le _ _) t.isLt)) := by
  obtain ⟨n, hn⟩ := t
  cases n with
  | zero => exact absurd rfl h0
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
    | ⟨6, _⟩ => acc2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]
theorem after2_6 (c : Dev nD) (t : Fin cfg2.N) : (dat2 V c).after 6 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- At a later point the statistics buffer holds what the body left at the point before: the block's index does not move
    and it is written back only after the last point. -/
theorem before2_6_later (c : Dev nD) (t : Fin cfg2.N) (h0 : t.val ≠ 0) (d) :
    (dat2 V c).before 6 t d = acc2 V c (t.val - 1) (Nat.lt_of_le_of_lt (Nat.sub_le _ _) t.isLt) := by
  have hN : t.val < 8 := lt_of_lt_of_eq t.isLt (show cfg2.N = 8 from N_2)
  rw [Dat.before_out_kept _ 6 rfl t h0 (Bool.eq_false_iff.mpr fun h => by have := (flush2_6 _).mp h; dsimp only at this; omega)
    (live2 6) (fun _ _ => rfl)]
  dsimp only [dat2]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

/-- At every point every window is live, so what the body must leave in a window's buffer is its stated contents. -/
theorem leaves2 (c : Dev nD) (t : Fin cfg2.N) (w : Fin cfg2.W) :
    (dat2 V c).leavesExact w t = owns (c : Thread nD τ) ((cfg2.win w).stage (cfg2.slots t w)) fullShare ((dat2 V c).after w t) := by
  unfold Dat.leavesExact
  rw [live2 w (cfg2.grid.coords t)]

set_option maxHeartbeats 2000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, leaves2]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  by_cases h0 : t.val = 0
  · rw [acc2_first V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel2_A c Set.univ _ _ _ _ _ _ _ _ _ _ _ _ _ _ _ ((hcond2_1 t).mpr h0) (fun h => (hcond2_2 t).mp h h0)
      (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc2_later V c t h0]
    simp only [before2_6_later V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel2_B c Set.univ _ _ _ _ _ _ _ _ _ _ _ _ _ _ _ (fun h => h0 ((hcond2_1 t).mp h)) ((hcond2_2 t).mpr h0)
      (iblk2 V c 0 t) (iblk2 V c 1 t) (iblk2 V c 2 t) (iblk2 V c 3 t) (acc2 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Bits.Region3.lean ====
/-
  The fourth pallas_call: mu · muᵀ on a 4 × 2 grid, a block of 1024 rows of mu against a block of 2048 columns of
  its transpose. At any float instance and any entry contents V: the windows' blocks, the output block the body's one
  store leaves, the body's triple, the proof data, the obligation.
-/
import proofs.«117800_g2173253451805_cont_8to1_1923_4_alg».proof.Proof.Gen.Kernel.Launch
import proofs.«117800_g2173253451805_cont_8to1_1923_4_alg».proof.Proof.Gen.Kernel.Skeleton
import proofs.«117800_g2173253451805_cont_8to1_1923_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in each output block -/

/-- The output block: the product of the two loaded blocks, stored whole. -/
def out3_2 (x0 : Vec F S1024x128 .f32) (x1 : Vec F S128x2048 .f32) : Vec F S1024x2048 .f32 :=
  View.canon [⟨(Rect.unit (s := S1024x2048) ![0, 0] S1024x2048.size inb_S1024x2048_S1024x2048_0_0), k3_pay1 (View.ld x0 (Rect.unit (s := S1024x128) ![0, 0] S1024x128.size inb_S1024x128_S1024x128_0_0)) (View.ld x1 (Rect.unit (s := S128x2048) ![0, 0] S128x2048.size inb_S128x2048_S128x2048_0_0))⟩]

theorem cover3_2 (p0 : Vec F S1024x2048 .f32) (y : S1024x2048.Idx) :
    ∃ pc ∈ ([⟨(Rect.unit (s := S1024x2048) ![0, 0] S1024x2048.size inb_S1024x2048_S1024x2048_0_0), p0⟩] : List (View.Piece (Elt F) S1024x2048 .f32)), y ∈ pc.1.set :=
  View.cover_of_tiled [⟨(Rect.unit (s := S1024x2048) ![0, 0] S1024x2048.size inb_S1024x2048_S1024x2048_0_0), p0⟩] S1024x2048.size (by rfl) y

/-! ## The body's triple -/

set_option maxHeartbeats 4000000 in
/-- On whole staging buffers, the inputs' at contents x and the outputs' at anything, the body runs to a state with the
    inputs' buffers as they were and each output's at the block computed from them. -/
theorem sound_kernel3 (c : Dev nD) (E : Set ℕ) (i : grid3.Coords) (a0 : Memref sig .tc .vmem S1024x128 .f32) (ha0 : a0.IsWhole) (a1 : Memref sig .tc .vmem S128x2048 .f32) (ha1 : a1.IsWhole) (a2 : Memref sig .tc .vmem S1024x2048 .f32) (ha2 : a2.IsWhole)
    (x0 : Vec F S1024x128 .f32) (x1 : Vec F S128x2048 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out3_2 x0 x1)) -∗ K ⟨⟩))
      ⊢ wp frame (wpE (defs₀ (F := F)) Variants.none c none) E (cc3__k4_body i a0 ha0 a1 ha1 a2 ha2) K := by
  simp only [cc3__k4_body_eq_skeleton]; unfold cc3__k4_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  · iexists _; isplitr
    swap; · iexact H2
    ipureintro
    exact View.read_writes_eq_canon _ _ _ (cover3_2 _)

/-! ## The pipeline's proof data -/

/-- The arrays as the call finds them; after the body at point t each input's buffer at its block and each output's at the
    block computed from the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

set_option maxHeartbeats 1000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Bits.Region4.lean ====
/-
  The fifth pallas_call: batch normalisation of a block of 256 rows of h from the column sums and sums of squares,
  the leaky unit, and the three decoder heads (softplus, exponential, logistic) with their clamps, sixteen grid points.
  At any float instance and any entry contents V: the windows' blocks, the four output blocks the body's stores leave,
  the body's triple (through its two printed parts), the proof data, the obligation.
-/
import proofs.«117800_g2173253451805_cont_8to1_1923_4_alg».proof.Proof.Gen.Kernel.Launch
import proofs.«117800_g2173253451805_cont_8to1_1923_4_alg».proof.Proof.Gen.Kernel.Skeleton
import proofs.«117800_g2173253451805_cont_8to1_1923_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's buffer holds its block at every point, fetched there or not. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's buffer holds its block at every point, fetched there or not. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's buffer holds its block at every point, fetched there or not. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's buffer holds its block at every point, fetched there or not. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-- Input window 9's buffer holds its block at every point, fetched there or not. -/
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)

/-! ## What the body leaves in each output block -/

/-- The normalised, scaled, shifted block after the leaky unit. -/
def out4_10 (x0 : Vec F S256x512 .f32) (x1 : Vec F S8x512 .f32) (x2 : Vec F S1x512 .f32) (x3 : Vec F S1x512 .f32) (x4 : Vec F S512x2000 .f32) (x5 : Vec F S1x2000 .f32) (x6 : Vec F S512x2000 .f32) (x7 : Vec F S1x2000 .f32) (x8 : Vec F S1x2000 .f32) (x9 : Vec F S1x2000 .f32) : Vec F S256x512 .f32 :=
  View.canon [⟨(Rect.unit (s := S256x512) ![0, 0] S256x512.size inb_S256x512_S256x512_0_0), k4_pay2 (View.ld x1 (Rect.unit (s := S8x512) ![0, 0] S1x512.size inb_S8x512_S1x512_0_0)) (View.ld x1 (Rect.unit (s := S8x512) ![1, 0] S1x512.size inb_S8x512_S1x512_1_0)) (View.ld x0 (Rect.unit (s := S256x512) ![0, 0] S256x512.size inb_S256x512_S256x512_0_0)) (View.ld x2 (Rect.unit (s := S1x512) ![0, 0] S1x512.size inb_S1x512_S1x512_0_0)) (View.ld x3 (Rect.unit (s := S1x512) ![0, 0] S1x512.size inb_S1x512_S1x512_0_0))⟩]

theorem cover4_10 (p0 : Vec F S256x512 .f32) (y : S256x512.Idx) :
    ∃ pc ∈ ([⟨(Rect.unit (s := S256x512) ![0, 0] S256x512.size inb_S256x512_S256x512_0_0), p0⟩] : List (View.Piece (Elt F) S256x512 .f32)), y ∈ pc.1.set :=
  View.cover_of_tiled [⟨(Rect.unit (s := S256x512) ![0, 0] S256x512.size inb_S256x512_S256x512_0_0), p0⟩] S256x512.size (by rfl) y

/-- The clamped softplus of that block times theta_w plus theta_b. -/
def out4_11 (x0 : Vec F S256x512 .f32) (x1 : Vec F S8x512 .f32) (x2 : Vec F S1x512 .f32) (x3 : Vec F S1x512 .f32) (x4 : Vec F S512x2000 .f32) (x5 : Vec F S1x2000 .f32) (x6 : Vec F S512x2000 .f32) (x7 : Vec F S1x2000 .f32) (x8 : Vec F S1x2000 .f32) (x9 : Vec F S1x2000 .f32) : Vec F S256x2000 .f32 :=
  View.canon [⟨(Rect.unit (s := S256x2000) ![0, 0] S256x2000.size inb_S256x2000_S256x2000_0_0), k4_pay4 (k4_pay3 (View.ld x1 (Rect.unit (s := S8x512) ![0, 0] S1x512.size inb_S8x512_S1x512_0_0)) (View.ld x1 (Rect.unit (s := S8x512) ![1, 0] S1x512.size inb_S8x512_S1x512_1_0)) (View.ld x0 (Rect.unit (s := S256x512) ![0, 0] S256x512.size inb_S256x512_S256x512_0_0)) (View.ld x2 (Rect.unit (s := S1x512) ![0, 0] S1x512.size inb_S1x512_S1x512_0_0)) (View.ld x3 (Rect.unit (s := S1x512) ![0, 0] S1x512.size inb_S1x512_S1x512_0_0)) (View.ld x4 (Rect.unit (s := S512x2000) ![0, 0] S512x2000.size inb_S512x2000_S512x2000_0_0))) (View.ld x5 (Rect.unit (s := S1x2000) ![0, 0] S1x2000.size inb_S1x2000_S1x2000_0_0))⟩]

theorem cover4_11 (p0 : Vec F S256x2000 .f32) (y : S256x2000.Idx) :
    ∃ pc ∈ ([⟨(Rect.unit (s := S256x2000) ![0, 0] S256x2000.size inb_S256x2000_S256x2000_0_0), p0⟩] : List (View.Piece (Elt F) S256x2000 .f32)), y ∈ pc.1.set :=
  View.cover_of_tiled [⟨(Rect.unit (s := S256x2000) ![0, 0] S256x2000.size inb_S256x2000_S256x2000_0_0), p0⟩] S256x2000.size (by rfl) y

/-- The clamped exponential of that block times mean_w plus mean_b. -/
def out4_12 (x0 : Vec F S256x512 .f32) (x1 : Vec F S8x512 .f32) (x2 : Vec F S1x512 .f32) (x3 : Vec F S1x512 .f32) (x4 : Vec F S512x2000 .f32) (x5 : Vec F S1x2000 .f32) (x6 : Vec F S512x2000 .f32) (x7 : Vec F S1x2000 .f32) (x8 : Vec F S1x2000 .f32) (x9 : Vec F S1x2000 .f32) : Vec F S256x2000 .f32 :=
  View.canon [⟨(Rect.unit (s := S256x2000) ![0, 0] S256x2000.size inb_S256x2000_S256x2000_0_0), k4_pay6 (k4_pay2 (View.ld x1 (Rect.unit (s := S8x512) ![0, 0] S1x512.size inb_S8x512_S1x512_0_0)) (View.ld x1 (Rect.unit (s := S8x512) ![1, 0] S1x512.size inb_S8x512_S1x512_1_0)) (View.ld x0 (Rect.unit (s := S256x512) ![0, 0] S256x512.size inb_S256x512_S256x512_0_0)) (View.ld x2 (Rect.unit (s := S1x512) ![0, 0] S1x512.size inb_S1x512_S1x512_0_0)) (View.ld x3 (Rect.unit (s := S1x512) ![0, 0] S1x512.size inb_S1x512_S1x512_0_0))) (View.ld x6 (Rect.unit (s := S512x2000) ![0, 0] S512x2000.size inb_S512x2000_S512x2000_0_0)) (View.ld x7 (Rect.unit (s := S1x2000) ![0, 0] S1x2000.size inb_S1x2000_S1x2000_0_0))⟩]

theorem cover4_12 (p0 : Vec F S256x2000 .f32) (y : S256x2000.Idx) :
    ∃ pc ∈ ([⟨(Rect.unit (s := S256x2000) ![0, 0] S256x2000.size inb_S256x2000_S256x2000_0_0), p0⟩] : List (View.Piece (Elt F) S256x2000 .f32)), y ∈ pc.1.set :=
  View.cover_of_tiled [⟨(Rect.unit (s := S256x2000) ![0, 0] S256x2000.size inb_S256x2000_S256x2000_0_0), p0⟩] S256x2000.size (by rfl) y

/-- The logistic of (that block times mean_w plus mean_b) times pi_w plus pi_b. -/
def out4_13 (x0 : Vec F S256x512 .f32) (x1 : Vec F S8x512 .f32) (x2 : Vec F S1x512 .f32) (x3 : Vec F S1x512 .f32) (x4 : Vec F S512x2000 .f32) (x5 : Vec F S1x2000 .f32) (x6 : Vec F S512x2000 .f32) (x7 : Vec F S1x2000 .f32) (x8 : Vec F S1x2000 .f32) (x9 : Vec F S1x2000 .f32) : Vec F S256x2000 .f32 :=
  View.canon [⟨(Rect.unit (s := S256x2000) ![0, 0] S256x2000.size inb_S256x2000_S256x2000_0_0), k4_pay1 (k4_pay5 (k4_pay2 (View.ld x1 (Rect.unit (s := S8x512) ![0, 0] S1x512.size inb_S8x512_S1x512_0_0)) (View.ld x1 (Rect.unit (s := S8x512) ![1, 0] S1x512.size inb_S8x512_S1x512_1_0)) (View.ld x0 (Rect.unit (s := S256x512) ![0, 0] S256x512.size inb_S256x512_S256x512_0_0)) (View.ld x2 (Rect.unit (s := S1x512) ![0, 0] S1x512.size inb_S1x512_S1x512_0_0)) (View.ld x3 (Rect.unit (s := S1x512) ![0, 0] S1x512.size inb_S1x512_S1x512_0_0))) (View.ld x6 (Rect.unit (s := S512x2000) ![0, 0] S512x2000.size inb_S512x2000_S512x2000_0_0)) (View.ld x7 (Rect.unit (s := S1x2000) ![0, 0] S1x2000.size inb_S1x2000_S1x2000_0_0))) (k4_pay7 (View.ld x8 (Rect.unit (s := S1x2000) ![0, 0] S1x2000.size inb_S1x2000_S1x2000_0_0))) (View.ld x9 (Rect.unit (s := S1x2000) ![0, 0] S1x2000.size inb_S1x2000_S1x2000_0_0))⟩]

theorem cover4_13 (p0 : Vec F S256x2000 .f32) (y : S256x2000.Idx) :
    ∃ pc ∈ ([⟨(Rect.unit (s := S256x2000) ![0, 0] S256x2000.size inb_S256x2000_S256x2000_0_0), p0⟩] : List (View.Piece (Elt F) S256x2000 .f32)), y ∈ pc.1.set :=
  View.cover_of_tiled [⟨(Rect.unit (s := S256x2000) ![0, 0] S256x2000.size inb_S256x2000_S256x2000_0_0), p0⟩] S256x2000.size (by rfl) y

/-! ## The body's triple -/

set_option maxHeartbeats 4000000 in
/-- On whole staging buffers, the inputs' at contents x and the outputs' at anything, the body runs to a state with the
    inputs' buffers as they were and each output's at the block computed from them. -/
theorem sound_kernel4 (c : Dev nD) (E : Set ℕ) (i : grid4.Coords) (a0 : Memref sig .tc .vmem S256x512 .f32) (ha0 : a0.IsWhole) (a1 : Memref sig .tc .vmem S8x512 .f32) (ha1 : a1.IsWhole) (a2 : Memref sig .tc .vmem S1x512 .f32) (ha2 : a2.IsWhole) (a3 : Memref sig .tc .vmem S1x512 .f32) (ha3 : a3.IsWhole) (a4 : Memref sig .tc .vmem S512x2000 .f32) (ha4 : a4.IsWhole) (a5 : Memref sig .tc .vmem S1x2000 .f32) (ha5 : a5.IsWhole) (a6 : Memref sig .tc .vmem S512x2000 .f32) (ha6 : a6.IsWhole) (a7 : Memref sig .tc .vmem S1x2000 .f32) (ha7 : a7.IsWhole) (a8 : Memref sig .tc .vmem S1x2000 .f32) (ha8 : a8.IsWhole) (a9 : Memref sig .tc .vmem S1x2000 .f32) (ha9 : a9.IsWhole) (a10 : Memref sig .tc .vmem S256x512 .f32) (ha10 : a10.IsWhole) (a11 : Memref sig .tc .vmem S256x2000 .f32) (ha11 : a11.IsWhole) (a12 : Memref sig .tc .vmem S256x2000 .f32) (ha12 : a12.IsWhole) (a13 : Memref sig .tc .vmem S256x2000 .f32) (ha13 : a13.IsWhole)
    (x0 : Vec F S256x512 .f32) (x1 : Vec F S8x512 .f32) (x2 : Vec F S1x512 .f32) (x3 : Vec F S1x512 .f32) (x4 : Vec F S512x2000 .f32) (x5 : Vec F S1x2000 .f32) (x6 : Vec F S512x2000 .f32) (x7 : Vec F S1x2000 .f32) (x8 : Vec F S1x2000 .f32) (x9 : Vec F S1x2000 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (out4_10 x0 x1 x2 x3 x4 x5 x6 x7 x8 x9) ∗ owns (c : Thread nD τ) a11 fullShare (out4_11 x0 x1 x2 x3 x4 x5 x6 x7 x8 x9) ∗ owns (c : Thread nD τ) a12 fullShare (out4_12 x0 x1 x2 x3 x4 x5 x6 x7 x8 x9) ∗ owns (c : Thread nD τ) a13 fullShare (out4_13 x0 x1 x2 x3 x4 x5 x6 x7 x8 x9)) -∗ K ⟨⟩))
      ⊢ wp frame (wpE (defs₀ (F := F)) Variants.none c none) E (cc4__k5_body i a0 ha0 a1 ha1 a2 ha2 a3 ha3 a4 ha4 a5 ha5 a6 ha6 a7 ha7 a8 ha8 a9 ha9 a10 ha10 a11 ha11 a12 ha12 a13 ha13) K := by
  simp only [cc4__k5_body_eq_skeleton]; unfold cc4__k5_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover4_10 _)
  isplitl [H11]
  · iexists _; isplitr
    swap; · iexact H11
    ipureintro
    exact View.read_writes_eq_canon _ _ _ (cover4_11 _)
  isplitl [H12]
  · iexists _; isplitr
    swap; · iexact H12
    ipureintro
    exact View.read_writes_eq_canon _ _ _ (cover4_12 _)
  · iexists _; isplitr
    swap; · iexact H13
    ipureintro
    exact View.read_writes_eq_canon _ _ _ (cover4_13 _)

/-! ## The pipeline's proof data -/

/-- The arrays as the call finds them; after the body at point t each input's buffer at its block and each output's at the
    block computed from the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => out4_10 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)
    | ⟨11, _⟩ => out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)
    | ⟨12, _⟩ => out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)
    | ⟨13, _⟩ => out4_13 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = out4_10 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) := by dsimp only [dat4]
theorem after4_11 (c : Dev nD) (t : Fin cfg4.N) : (dat4 V c).after 11 t = out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) := by dsimp only [dat4]
theorem after4_12 (c : Dev nD) (t : Fin cfg4.N) : (dat4 V c).after 12 t = out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) := by dsimp only [dat4]
theorem after4_13 (c : Dev nD) (t : Fin cfg4.N) : (dat4 V c).after 13 t = out4_13 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d))
    ∗ (∃ d, owns (c : Thread nD τ) (st4_13 t) fullShare ((dat4 V c).before 13 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t)
    ∗ owns (c : Thread nD τ) (st4_13 t) fullShare ((dat4 V c).after 13 t))

set_option maxHeartbeats 1000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12, after4_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel4 c Set.univ _ _ _ _ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.Bits.Run.lean ====
/-
  The whole program's run: @main is two stretches of host operations and five pallas_calls. The contents of the core's
  buffers at each boundary are a fold from the launch memory — a host stretch applies its operations, a call leaves its
  arrays at what its pipeline's write-backs leave and every other buffer untouched. Over that fold: the proof data of
  every pipeline at its call's entry contents, one segment per host stretch and per call, and the launch, whose
  conclusion is that every weakly fair execution terminates, faults nowhere, and ends with every unscoped buffer at the
  last boundary's contents. At any float instance.
-/
import proofs.«117800_g2173253451805_cont_8to1_1923_4_alg».proof.Proof.Gen.Kernel.Launch
import proofs.«117800_g2173253451805_cont_8to1_1923_4_alg».proof.Proof.Gen.Kernel.Skeleton
import proofs.«117800_g2173253451805_cont_8to1_1923_4_alg».proof.Proof.Gen.Kernel.Points
import proofs.«117800_g2173253451805_cont_8to1_1923_4_alg».proof.Proof.Bits.Region0
import proofs.«117800_g2173253451805_cont_8to1_1923_4_alg».proof.Proof.Bits.Region1
import proofs.«117800_g2173253451805_cont_8to1_1923_4_alg».proof.Proof.Bits.Region2
import proofs.«117800_g2173253451805_cont_8to1_1923_4_alg».proof.Proof.Bits.Region3
import proofs.«117800_g2173253451805_cont_8to1_1923_4_alg».proof.Proof.Bits.Region4
import proofs.«117800_g2173253451805_cont_8to1_1923_4_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (call 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At call 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves call 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At call 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- An input window's array leaves call 1 as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At call 2's exit: its arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- An input window's array leaves call 2 as it entered. -/
theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hw _).trans (A_eq2 (V3 m ρ) c w))
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the second host stretch (call 3's entry). -/
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b

/-- At call 3's exit: its arrays at what the pipeline leaves, every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- An input window's array leaves call 3 as it entered. -/
theorem W6_in (c : Dev nD) (w : Fin cfg3.W) (hw : (cfg3.win w).isOut = false) :
    W6 m ρ c (Proc.devRef .tc (Pipeline.arrRef spec3 w)) = W5 m ρ c (Proc.devRef .tc (Pipeline.arrRef spec3 w)) :=
  (W6_arr m ρ c w).trans (((dat3 (V5 m ρ) c).arrAt_in w hw _).trans (A_eq3 (V5 m ρ) c w))
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- At call 4's exit: its arrays at what the pipeline leaves, every other buffer as entered. -/
def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
/-- An input window's array leaves call 4 as it entered. -/
theorem W7_in (c : Dev nD) (w : Fin cfg4.W) (hw : (cfg4.win w).isOut = false) :
    W7 m ρ c (Proc.devRef .tc (Pipeline.arrRef spec4 w)) = W6 m ρ c (Proc.devRef .tc (Pipeline.arrRef spec4 w)) :=
  (W7_arr m ρ c w).trans (((dat4 (V6 m ρ) c).arrAt_in w hw _).trans (A_eq4 (V6 m ρ) c w))
abbrev V7 : (c : Dev nD) → (b : Ref sig .tc) → Buf (Elt F) ((c : Thread nD τ).loc b) := fun c b => W7 m ρ c b
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)

/-- A buffer the first host stretch does not write is as launched after it. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
/-- A buffer the second host stretch does not write is unchanged by it. -/
theorem W5_of (c : Dev nD) (r : Ref sig .tc) (h : r ∉ (hostOps3_W : List (Ref sig .tc))) :
    W5 m ρ c (Proc.devRef .tc r) = W4 m ρ c (Proc.devRef .tc r) :=
  StableHlo.after_of_writes_sub hostOps3 _ hostOps3_writes h

/-! ## The proof data family and the thread state -/

abbrev adm : (p : Fin 5) → (pcfgs (F := F) p).Adm := fun p => (cfgs p).toPCfg_adm
/-- Every pipeline's proof data, each at its call's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
  | ⟨4, _⟩ => fun c => dat4 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The calls as segments -/

-- a library lemma stated over the pinned configuration unifies with the printed one only when unification may unfold
-- plain definitions in a metavariable's type
set_option backward.isDefEq.respectTransparency.types false in
/-- Call 0 as a segment: entered with every unscoped buffer at W1, left with them at W2; its arrays are split out of
    the unscoped buffers and put back at what the pipeline leaves; the generator register goes into the class invariant and
    comes back; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 1 as a segment: entered with every unscoped buffer at W2, left with them at W3; its arrays are split out of
    the unscoped buffers and put back at what the pipeline leaves; the generator register goes into the class invariant and
    comes back; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 2 as a segment: entered with every unscoped buffer at W3, left with them at W4; its arrays are split out of
    the unscoped buffers and put back at what the pipeline leaves; the generator register goes into the class invariant and
    comes back; nothing is owed and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 3 as a segment: entered with every unscoped buffer at W5, left with them at W6; its arrays are split out of
    the unscoped buffers and put back at what the pipeline leaves; the generator register goes into the class invariant and
    comes back; nothing is owed and the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 4 as a segment: entered with every unscoped buffer at W6, left with them at W7; its arrays are split out of
    the unscoped buffers and put back at what the pipeline leaves; the generator register goes into the class invariant and
    comes back; nothing is owed and the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .region (reg3 m ρ),
    .region (reg4 m ρ) ]
theorem main_run (c : Dev nD) : main (F := F) c = Pipeline.Seg.run (segs m ρ) := (main_chain c).trans (by chain_rfl)

set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Hand

end
-- ==== Proof.Bits.Frame.lean ====
/-
  The frame: every argument array ends holding what it was launched with. No host operation writes an argument, and a call
  either reads it through an input window (whose array the pipeline leaves as it found it) or does not touch it; so the
  last boundary's contents at an argument's buffer are the launch memory's.
-/
import proofs.«117800_g2173253451805_cont_8to1_1923_4_alg».proof.Proof.Gen.Kernel.Launch
import proofs.«117800_g2173253451805_cont_8to1_1923_4_alg».proof.Proof.Gen.Kernel.Skeleton
import proofs.«117800_g2173253451805_cont_8to1_1923_4_alg».proof.Proof.Gen.Kernel.Points
import proofs.«117800_g2173253451805_cont_8to1_1923_4_alg».proof.Proof.Bits.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ) (ρ : Dev nD → PrngReg)

/-- No host operation writes argument 0 and no call may change it: the fold at its buffer walks back to the launch memory. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_in m ρ c 0 rfl
    _ = W0 m ρ c (Proc.devRef .tc main_arg0) := W1_of m ρ c main_arg0 (by decide)
    _ = m ((c : Thread nD τ).loc main_arg0) := rfl

/-- No host operation writes argument 1 and no call may change it: the fold at its buffer walks back to the launch memory. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_in m ρ c 0 rfl
    _ = W2 m ρ c (Proc.devRef .tc main_arg1) := W3_in m ρ c 0 rfl
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- No host operation writes argument 2 and no call may change it: the fold at its buffer walks back to the launch memory. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_in m ρ c 1 rfl
    _ = W0 m ρ c (Proc.devRef .tc main_arg2) := W1_of m ρ c main_arg2 (by decide)
    _ = m ((c : Thread nD τ).loc main_arg2) := rfl

/-- No host operation writes argument 3 and no call may change it: the fold at its buffer walks back to the launch memory. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

/-- No host operation writes argument 4 and no call may change it: the fold at its buffer walks back to the launch memory. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- No host operation writes argument 5 and no call may change it: the fold at its buffer walks back to the launch memory. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_in m ρ c 2 rfl
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-- No host operation writes argument 6 and no call may change it: the fold at its buffer walks back to the launch memory. -/
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-- No host operation writes argument 7 and no call may change it: the fold at its buffer walks back to the launch memory. -/
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-- No host operation writes argument 8 and no call may change it: the fold at its buffer walks back to the launch memory. -/
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-- No host operation writes argument 9 and no call may change it: the fold at its buffer walks back to the launch memory. -/
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := W7_in m ρ c 4 rfl
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

/-- No host operation writes argument 10 and no call may change it: the fold at its buffer walks back to the launch memory. -/
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

/-- No host operation writes argument 11 and no call may change it: the fold at its buffer walks back to the launch memory. -/
theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := W7_in m ρ c 6 rfl
    _ = W5 m ρ c (Proc.devRef .tc main_arg11) := W6_of_ne m ρ c main_arg11 (by decide)
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

/-- No host operation writes argument 12 and no call may change it: the fold at its buffer walks back to the launch memory. -/
theorem W7_main_arg12 (c : Dev nD) : W7 m ρ c (Proc.devRef .tc main_arg12) = m ((c : Thread nD τ).loc main_arg12) :=
  calc W7 m ρ c (Proc.devRef .tc main_arg12)
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := W5_of m ρ c main_arg12 (by decide)
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl

/-- No host operation writes argument 13 and no call may change it: the fold at its buffer walks back to the launch memory. -/
theorem W7_main_arg13 (c : Dev nD) : W7 m ρ c (Proc.devRef .tc main_arg13) = m ((c : Thread nD τ).loc main_arg13) :=
  calc W7 m ρ c (Proc.devRef .tc main_arg13)
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := W5_of m ρ c main_arg13 (by decide)
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl

/-- No host operation writes argument 14 and no call may change it: the fold at its buffer walks back to the launch memory. -/
theorem W7_main_arg14 (c : Dev nD) : W7 m ρ c (Proc.devRef .tc main_arg14) = m ((c : Thread nD τ).loc main_arg14) :=
  calc W7 m ρ c (Proc.devRef .tc main_arg14)
    _ = W6 m ρ c (Proc.devRef .tc main_arg14) := W7_of_ne m ρ c main_arg14 (by decide)
    _ = W5 m ρ c (Proc.devRef .tc main_arg14) := W6_of_ne m ρ c main_arg14 (by decide)
    _ = W4 m ρ c (Proc.devRef .tc main_arg14) := W5_of m ρ c main_arg14 (by decide)
    _ = W3 m ρ c (Proc.devRef .tc main_arg14) := W4_of_ne m ρ c main_arg14 (by decide)
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c),
    (h c _ (mem_uc main_arg11 (by decide))).trans (W7_main_arg11 m ρ c),
    (h c _ (mem_uc main_arg12 (by decide))).trans (W7_main_arg12 m ρ c),
    (h c _ (mem_uc main_arg13 (by decide))).trans (W7_main_arg13 m ρ c),
    (h c _ (mem_uc main_arg14 (by decide))).trans (W7_main_arg14 m ρ c)⟩) (run_all m ρ)

end Cert.Kernel.Hand

end
-- ==== Proof.Ideal.Region0.lean ====
/-
  The first pallas_call, x · gc1_w, one block of 512 rows of x per grid point against the whole weight.
  Stated at any float instance and at any contents V of the core's buffers when the call is entered:
  the block each window holds at a point, what the body leaves in the output block (its one store, of the
  product of the two loaded blocks), the body's triple, and the pipeline's proof data with its obligation.
-/
import proofs.«117800_g2173253451805_cont_8to1_1923_4_alg».proof.Proof.Gen.KernelIdeal.Launch
import proofs.«117800_g2173253451805_cont_8to1_1923_4_alg».proof.Proof.Gen.KernelIdeal.Skeleton
import proofs.«117800_g2173253451805_cont_8to1_1923_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the whole weight at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rx0 : Rect S512x2000 := Rect.unit (s := S512x2000) ![0, 0] S512x2000.size inb_S512x2000_S512x2000_0_0
abbrev rw0 : Rect S2000x512 := Rect.unit (s := S2000x512) ![0, 0] S2000x512.size inb_S2000x512_S2000x512_0_0
abbrev ro0 : Rect S512x512 := Rect.unit (s := S512x512) ![0, 0] S512x512.size inb_S512x512_S512x512_0_0

/-- The output block after the body: the product of the x block and the weight, stored whole. -/
def out0_2 (x0 : Vec F S512x2000 .f32) (x1 : Vec F S2000x512 .f32) : Vec F S512x512 .f32 :=
  View.canon [⟨ro0, k0_pay1 (View.ld x0 rx0) (View.ld x1 rw0)⟩]

theorem cover0_2 (p0 : Vec F S512x512 .f32) (y : S512x512.Idx) :
    ∃ pc ∈ ([⟨ro0, p0⟩] : List (View.Piece (Elt F) S512x512 .f32)), y ∈ pc.1.set :=
  View.cover_of_tiled [⟨ro0, p0⟩] S512x512.size (by rfl) y

/-! ## The body's triple -/

set_option maxHeartbeats 1000000 in
theorem sound_kernel0 (c : Dev nD) (E : Set ℕ) (i : grid0.Coords)
    (arg1 : Memref sig .tc .vmem S512x2000 .f32) (harg1 : arg1.IsWhole) (arg2 : Memref sig .tc .vmem S2000x512 .f32) (harg2 : arg2.IsWhole)
    (arg3 : Memref sig .tc .vmem S512x512 .f32) (harg3 : arg3.IsWhole)
    (x0 : Vec F S512x2000 .f32) (x1 : Vec F S2000x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__k1_body i arg1 harg1 arg2 harg2 arg3 harg3) K := by
  simp only [cc0__k1_body_eq_skeleton]; unfold cc0__k1_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Ideal.Region1.lean ====
/-
  The second pallas_call: leaky(adj · xw) · [gc2_w | gc2s_w], one block of 512 rows of adj per grid point
  against the whole of xw and of the side-by-side weight. At any float instance and any entry contents V: the
  windows' blocks, the output block the body's one store leaves, the body's triple, the proof data, the obligation.
-/
import proofs.«117800_g2173253451805_cont_8to1_1923_4_alg».proof.Proof.Gen.KernelIdeal.Launch
import proofs.«117800_g2173253451805_cont_8to1_1923_4_alg».proof.Proof.Gen.KernelIdeal.Skeleton
import proofs.«117800_g2173253451805_cont_8to1_1923_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in each output block -/

/-- The output block: the leaky product of the adj block with xw, times the side-by-side weight, stored whole. -/
def out1_3 (x0 : Vec F S512x4096 .f32) (x1 : Vec F S4096x512 .f32) (x2 : Vec F S512x256 .f32) : Vec F S512x256 .f32 :=
  View.canon [⟨(Rect.unit (s := S512x256) ![0, 0] S512x256.size inb_S512x256_S512x256_0_0), k1_pay1 (View.ld x0 (Rect.unit (s := S512x4096) ![0, 0] S512x4096.size inb_S512x4096_S512x4096_0_0)) (View.ld x1 (Rect.unit (s := S4096x512) ![0, 0] S4096x512.size inb_S4096x512_S4096x512_0_0)) (View.ld x2 (Rect.unit (s := S512x256) ![0, 0] S512x256.size inb_S512x256_S512x256_0_0))⟩]

theorem cover1_3 (p0 : Vec F S512x256 .f32) (y : S512x256.Idx) :
    ∃ pc ∈ ([⟨(Rect.unit (s := S512x256) ![0, 0] S512x256.size inb_S512x256_S512x256_0_0), p0⟩] : List (View.Piece (Elt F) S512x256 .f32)), y ∈ pc.1.set :=
  View.cover_of_tiled [⟨(Rect.unit (s := S512x256) ![0, 0] S512x256.size inb_S512x256_S512x256_0_0), p0⟩] S512x256.size (by rfl) y

/-! ## The body's triple -/

set_option maxHeartbeats 4000000 in
/-- On whole staging buffers, the inputs' at contents x and the outputs' at anything, the body runs to a state with the
    inputs' buffers as they were and each output's at the block computed from them. -/
theorem sound_kernel1 (c : Dev nD) (E : Set ℕ) (i : grid1.Coords) (a0 : Memref sig .tc .vmem S512x4096 .f32) (ha0 : a0.IsWhole) (a1 : Memref sig .tc .vmem S4096x512 .f32) (ha1 : a1.IsWhole) (a2 : Memref sig .tc .vmem S512x256 .f32) (ha2 : a2.IsWhole) (a3 : Memref sig .tc .vmem S512x256 .f32) (ha3 : a3.IsWhole)
    (x0 : Vec F S512x4096 .f32) (x1 : Vec F S4096x512 .f32) (x2 : Vec F S512x256 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1__k2_body i a0 ha0 a1 ha1 a2 ha2 a3 ha3) K := by
  simp only [cc1__k2_body_eq_skeleton]; unfold cc1__k2_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  · iexists _; isplitr
    swap; · iexact H3
    ipureintro
    exact View.read_writes_eq_canon _ _ _ (cover1_3 _)

/-! ## The pipeline's proof data -/

/-- The arrays as the call finds them; after the body at point t each input's buffer at its block and each output's at the
    block computed from the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Ideal.Region2.lean ====
/-
  The third pallas_call: ml = leaky(adj · t) per block of 512 rows, h = ml[:, :128] · fc1_w + fc1_b for those rows, and the
  running column sums of h and of h² kept in one [8, 512] block whose index never moves: the first grid point stores
  the block's sums, every later point adds its sums to what the point before left. At any float instance and any entry
  contents V: the windows' blocks, what the body leaves in the three output buffers in each of the two cases, the
  body's triple case by case, the accumulator by recursion on the point, the proof data and the obligation.
-/
import proofs.«117800_g2173253451805_cont_8to1_1923_4_alg».proof.Proof.Gen.KernelIdeal.Launch
import proofs.«117800_g2173253451805_cont_8to1_1923_4_alg».proof.Proof.Gen.KernelIdeal.Skeleton
import proofs.«117800_g2173253451805_cont_8to1_1923_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions, decided over the grid -/

/-- The reset branch is taken at the first point only. -/
theorem hcond2_1 : ∀ t : Fin cfg2.N, k2_cond1 (grid2.coords t) = 1#1 ↔ t.val = 0 :=
  (by decide +kernel : ∀ t : Fin grid2.N, k2_cond1 (grid2.coords t) = 1#1 ↔ t.val = 0)
/-- The add branch is taken at every later point. -/
theorem hcond2_2 : ∀ t : Fin cfg2.N, k2_cond2 (grid2.coords t) = 1#1 ↔ t.val ≠ 0 :=
  (by decide +kernel : ∀ t : Fin grid2.N, k2_cond2 (grid2.coords t) = 1#1 ↔ t.val ≠ 0)

/-- One of the two branches is taken at every point, so no window is idle anywhere: the statistics window is stored into
    at every point, and the others are stored into (or are inputs) unconditionally. -/
theorem live2 : ∀ (w : Fin cfg2.W) (i : grid2.Coords), cfg2.idle w i = false := by decide +kernel

/-! ## What the body leaves in each output block -/

/-- The ml block: the leaky product of the adj block with t, stored whole. -/
def out2_4 (x0 : Vec F S512x4096 .f32) (x1 : Vec F S4096x256 .f32) (x2 : Vec F S128x512 .f32) (x3 : Vec F S1x512 .f32) : Vec F S512x256 .f32 :=
  View.canon [⟨(Rect.unit (s := S512x256) ![0, 0] S512x256.size inb_S512x256_S512x256_0_0), k2_pay2 (View.ld x0 (Rect.unit (s := S512x4096) ![0, 0] S512x4096.size inb_S512x4096_S512x4096_0_0)) (View.ld x1 (Rect.unit (s := S4096x256) ![0, 0] S4096x256.size inb_S4096x256_S4096x256_0_0))⟩]
/-- The h block: the first 128 columns of the ml block times fc1_w, plus the bias row, stored whole. -/
def out2_5 (x0 : Vec F S512x4096 .f32) (x1 : Vec F S4096x256 .f32) (x2 : Vec F S128x512 .f32) (x3 : Vec F S1x512 .f32) : Vec F S512x512 .f32 :=
  View.canon [⟨(Rect.unit (s := S512x512) ![0, 0] S512x512.size inb_S512x512_S512x512_0_0), k2_pay3 (View.ld x0 (Rect.unit (s := S512x4096) ![0, 0] S512x4096.size inb_S512x4096_S512x4096_0_0)) (View.ld x1 (Rect.unit (s := S4096x256) ![0, 0] S4096x256.size inb_S4096x256_S4096x256_0_0)) (View.ld x2 (Rect.unit (s := S128x512) ![0, 0] S128x512.size inb_S128x512_S128x512_0_0)) (View.ld x3 (Rect.unit (s := S1x512) ![0, 0] S1x512.size inb_S1x512_S1x512_0_0))⟩]
/-- The statistics block at the first point: this block's column sums of h and of h², and six rows of zeros. -/
def out2_6A (x0 : Vec F S512x4096 .f32) (x1 : Vec F S4096x256 .f32) (x2 : Vec F S128x512 .f32) (x3 : Vec F S1x512 .f32) : Vec F S8x512 .f32 :=
  View.canon [⟨(Rect.unit (s := S8x512) ![0, 0] S8x512.size inb_S8x512_S8x512_0_0), k2_pay4 (View.ld x0 (Rect.unit (s := S512x4096) ![0, 0] S512x4096.size inb_S512x4096_S512x4096_0_0)) (View.ld x1 (Rect.unit (s := S4096x256) ![0, 0] S4096x256.size inb_S4096x256_S4096x256_0_0)) (View.ld x2 (Rect.unit (s := S128x512) ![0, 0] S128x512.size inb_S128x512_S128x512_0_0)) (View.ld x3 (Rect.unit (s := S1x512) ![0, 0] S1x512.size inb_S1x512_S1x512_0_0))⟩]
/-- The statistics block at a later point: what the point before left, plus this block's sums. -/
def out2_6B (x0 : Vec F S512x4096 .f32) (x1 : Vec F S4096x256 .f32) (x2 : Vec F S128x512 .f32) (x3 : Vec F S1x512 .f32) (prev : Vec F S8x512 .f32) : Vec F S8x512 .f32 :=
  View.canon [⟨(Rect.unit (s := S8x512) ![0, 0] S8x512.size inb_S8x512_S8x512_0_0), k2_pay1 (k2_pay4 (View.ld x0 (Rect.unit (s := S512x4096) ![0, 0] S512x4096.size inb_S512x4096_S512x4096_0_0)) (View.ld x1 (Rect.unit (s := S4096x256) ![0, 0] S4096x256.size inb_S4096x256_S4096x256_0_0)) (View.ld x2 (Rect.unit (s := S128x512) ![0, 0] S128x512.size inb_S128x512_S128x512_0_0)) (View.ld x3 (Rect.unit (s := S1x512) ![0, 0] S1x512.size inb_S1x512_S1x512_0_0))) (View.ld prev (Rect.unit (s := S8x512) ![0, 0] S8x512.size inb_S8x512_S8x512_0_0))⟩]

theorem cover2_4 (p0 : Vec F S512x256 .f32) (y : S512x256.Idx) :
    ∃ pc ∈ ([⟨(Rect.unit (s := S512x256) ![0, 0] S512x256.size inb_S512x256_S512x256_0_0), p0⟩] : List (View.Piece (Elt F) S512x256 .f32)), y ∈ pc.1.set :=
  View.cover_of_tiled [⟨(Rect.unit (s := S512x256) ![0, 0] S512x256.size inb_S512x256_S512x256_0_0), p0⟩] S512x256.size (by rfl) y
theorem cover2_5 (p0 : Vec F S512x512 .f32) (y : S512x512.Idx) :
    ∃ pc ∈ ([⟨(Rect.unit (s := S512x512) ![0, 0] S512x512.size inb_S512x512_S512x512_0_0), p0⟩] : List (View.Piece (Elt F) S512x512 .f32)), y ∈ pc.1.set :=
  View.cover_of_tiled [⟨(Rect.unit (s := S512x512) ![0, 0] S512x512.size inb_S512x512_S512x512_0_0), p0⟩] S512x512.size (by rfl) y
theorem cover2_6 (p0 : Vec F S8x512 .f32) (y : S8x512.Idx) :
    ∃ pc ∈ ([⟨(Rect.unit (s := S8x512) ![0, 0] S8x512.size inb_S8x512_S8x512_0_0), p0⟩] : List (View.Piece (Elt F) S8x512 .f32)), y ∈ pc.1.set :=
  View.cover_of_tiled [⟨(Rect.unit (s := S8x512) ![0, 0] S8x512.size inb_S8x512_S8x512_0_0), p0⟩] S8x512.size (by rfl) y

/-! ## The body's triple, case by case -/

set_option maxHeartbeats 4000000 in
/-- At a point where the reset branch is taken and the add branch is not: the three output buffers, at anything before,
    end at the ml block, the h block and this block's sums. -/
theorem sound_kernel2_A (c : Dev nD) (E : Set ℕ) (i : grid2.Coords) (a0 : Memref sig .tc .vmem S512x4096 .f32) (ha0 : a0.IsWhole) (a1 : Memref sig .tc .vmem S4096x256 .f32) (ha1 : a1.IsWhole) (a2 : Memref sig .tc .vmem S128x512 .f32) (ha2 : a2.IsWhole) (a3 : Memref sig .tc .vmem S1x512 .f32) (ha3 : a3.IsWhole) (a4 : Memref sig .tc .vmem S512x256 .f32) (ha4 : a4.IsWhole) (a5 : Memref sig .tc .vmem S512x512 .f32) (ha5 : a5.IsWhole) (a6 : Memref sig .tc .vmem S8x512 .f32) (ha6 : a6.IsWhole)
    (hc1 : k2_cond1 i = 1#1) (hc2 : ¬ k2_cond2 i = 1#1)
    (x0 : Vec F S512x4096 .f32) (x1 : Vec F S4096x256 .f32) (x2 : Vec F S128x512 .f32) (x3 : Vec F S1x512 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (out2_4 x0 x1 x2 x3) ∗ owns (c : Thread nD τ) a5 fullShare (out2_5 x0 x1 x2 x3) ∗ owns (c : Thread nD τ) a6 fullShare (out2_6A x0 x1 x2 x3)) -∗ K ⟨⟩))
      ⊢ wp frame (wpE (defs₀ (F := F)) Variants.none c none) E (cc2__k3_body i a0 ha0 a1 ha1 a2 ha2 a3 ha3 a4 ha4 a5 ha5 a6 ha6) K := by
  simp only [cc2__k3_body_eq_skeleton]; unfold cc2__k3_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  isplitl [H5]
  · iexists _; isplitr
    swap; · iexact H5
    ipureintro
    exact View.read_writes_eq_canon _ _ _ (cover2_5 _)
  · iexists _; isplitr
    swap; · iexact H6
    ipureintro
    exact View.read_writes_eq_canon _ _ _ (cover2_6 _)

set_option maxHeartbeats 4000000 in
/-- At a point where the add branch is taken and the reset branch is not: the statistics buffer, holding prev before,
    ends at prev plus this block's sums. -/
theorem sound_kernel2_B (c : Dev nD) (E : Set ℕ) (i : grid2.Coords) (a0 : Memref sig .tc .vmem S512x4096 .f32) (ha0 : a0.IsWhole) (a1 : Memref sig .tc .vmem S4096x256 .f32) (ha1 : a1.IsWhole) (a2 : Memref sig .tc .vmem S128x512 .f32) (ha2 : a2.IsWhole) (a3 : Memref sig .tc .vmem S1x512 .f32) (ha3 : a3.IsWhole) (a4 : Memref sig .tc .vmem S512x256 .f32) (ha4 : a4.IsWhole) (a5 : Memref sig .tc .vmem S512x512 .f32) (ha5 : a5.IsWhole) (a6 : Memref sig .tc .vmem S8x512 .f32) (ha6 : a6.IsWhole)
    (hc1 : ¬ k2_cond1 i = 1#1) (hc2 : k2_cond2 i = 1#1)
    (x0 : Vec F S512x4096 .f32) (x1 : Vec F S4096x256 .f32) (x2 : Vec F S128x512 .f32) (x3 : Vec F S1x512 .f32) (prev : Vec F S8x512 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3
        ∗ (∃ d, owns (c : Thread nD τ) a4 fullShare d) ∗ (∃ d, owns (c : Thread nD τ) a5 fullShare d) ∗ owns (c : Thread nD τ) a6 fullShare prev
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare (out2_4 x0 x1 x2 x3) ∗ owns (c : Thread nD τ) a5 fullShare (out2_5 x0 x1 x2 x3) ∗ owns (c : Thread nD τ) a6 fullShare (out2_6B x0 x1 x2 x3 prev)) -∗ K ⟨⟩))
      ⊢ wp frame (wpE (defs₀ (F := F)) Variants.none c none) E (cc2__k3_body i a0 ha0 a1 ha1 a2 ha2 a3 ha3 a4 ha4 a5 ha5 a6 ha6) K := by
  simp only [cc2__k3_body_eq_skeleton]; unfold cc2__k3_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
  subst hf0; subst hf1; subst hf2; subst hf3; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  isplitl [H5]
  · iexists _; isplitr
    swap; · iexact H5
    ipureintro
    exact View.read_writes_eq_canon _ _ _ (cover2_5 _)
  · iexists _; isplitr
    swap; · iexact H6
    ipureintro
    exact View.read_writes_eq_canon _ _ _ (cover2_6 _)

/-! ## The running statistics, by recursion on the point -/

/-- What the statistics buffer holds after the body at position n: at the first point this block's sums, at a later one
    what the point before left plus this block's sums. -/
def acc2 (c : Dev nD) : (n : ℕ) → n < cfg2.N → Vec F S8x512 .f32
  | 0, hn => out2_6A (iblk2 V c 0 ⟨0, hn⟩) (iblk2 V c 1 ⟨0, hn⟩) (iblk2 V c 2 ⟨0, hn⟩) (iblk2 V c 3 ⟨0, hn⟩)
  | n + 1, hn => out2_6B (iblk2 V c 0 ⟨n + 1, hn⟩) (iblk2 V c 1 ⟨n + 1, hn⟩) (iblk2 V c 2 ⟨n + 1, hn⟩) (iblk2 V c 3 ⟨n + 1, hn⟩) (acc2 c n (Nat.lt_of_succ_lt hn))

theorem acc2_first (c : Dev nD) (t : Fin cfg2.N) (h0 : t.val = 0) :
    acc2 V c t.val t.isLt = out2_6A (iblk2 V c 0 t) (iblk2 V c 1 t) (iblk2 V c 2 t) (iblk2 V c 3 t) := by
  obtain ⟨n, hn⟩ := t
  cases n with
  | zero => rfl
  | succ n => exact absurd h0 (Nat.succ_ne_zero n)

theorem acc2_later (c : Dev nD) (t : Fin cfg2.N) (h0 : t.val ≠ 0) :
    acc2 V c t.val t.isLt = out2_6B (iblk2 V c 0 t) (iblk2 V c 1 t) (iblk2 V c 2 t) (iblk2 V c 3 t) (acc2 V c (t.val - 1) (Nat.lt_of_le_of_lt (Nat.sub_le _ _) t.isLt)) := by
  obtain ⟨n, hn⟩ := t
  cases n with
  | zero => exact absurd rfl h0
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
    | ⟨6, _⟩ => acc2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]
theorem after2_6 (c : Dev nD) (t : Fin cfg2.N) : (dat2 V c).after 6 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- At a later point the statistics buffer holds what the body left at the point before: the block's index does not move
    and it is written back only after the last point. -/
theorem before2_6_later (c : Dev nD) (t : Fin cfg2.N) (h0 : t.val ≠ 0) (d) :
    (dat2 V c).before 6 t d = acc2 V c (t.val - 1) (Nat.lt_of_le_of_lt (Nat.sub_le _ _) t.isLt) := by
  have hN : t.val < 8 := lt_of_lt_of_eq t.isLt (show cfg2.N = 8 from N_2)
  rw [Dat.before_out_kept _ 6 rfl t h0 (Bool.eq_false_iff.mpr fun h => by have := (flush2_6 _).mp h; dsimp only at this; omega)
    (live2 6) (fun _ _ => rfl)]
  dsimp only [dat2]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

/-- At every point every window is live, so what the body must leave in a window's buffer is its stated contents. -/
theorem leaves2 (c : Dev nD) (t : Fin cfg2.N) (w : Fin cfg2.W) :
    (dat2 V c).leavesExact w t = owns (c : Thread nD τ) ((cfg2.win w).stage (cfg2.slots t w)) fullShare ((dat2 V c).after w t) := by
  unfold Dat.leavesExact
  rw [live2 w (cfg2.grid.coords t)]

set_option maxHeartbeats 2000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, leaves2]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  by_cases h0 : t.val = 0
  · rw [acc2_first V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel2_A c Set.univ _ _ _ _ _ _ _ _ _ _ _ _ _ _ _ ((hcond2_1 t).mpr h0) (fun h => (hcond2_2 t).mp h h0)
      (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc2_later V c t h0]
    simp only [before2_6_later V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel2_B c Set.univ _ _ _ _ _ _ _ _ _ _ _ _ _ _ _ (fun h => h0 ((hcond2_1 t).mp h)) ((hcond2_2 t).mpr h0)
      (iblk2 V c 0 t) (iblk2 V c 1 t) (iblk2 V c 2 t) (iblk2 V c 3 t) (acc2 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Ideal.Region3.lean ====
/-
  The fourth pallas_call: mu · muᵀ on a 4 × 2 grid, a block of 1024 rows of mu against a block of 2048 columns of
  its transpose. At any float instance and any entry contents V: the windows' blocks, the output block the body's one
  store leaves, the body's triple, the proof data, the obligation.
-/
import proofs.«117800_g2173253451805_cont_8to1_1923_4_alg».proof.Proof.Gen.KernelIdeal.Launch
import proofs.«117800_g2173253451805_cont_8to1_1923_4_alg».proof.Proof.Gen.KernelIdeal.Skeleton
import proofs.«117800_g2173253451805_cont_8to1_1923_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in each output block -/

/-- The output block: the product of the two loaded blocks, stored whole. -/
def out3_2 (x0 : Vec F S1024x128 .f32) (x1 : Vec F S128x2048 .f32) : Vec F S1024x2048 .f32 :=
  View.canon [⟨(Rect.unit (s := S1024x2048) ![0, 0] S1024x2048.size inb_S1024x2048_S1024x2048_0_0), k3_pay1 (View.ld x0 (Rect.unit (s := S1024x128) ![0, 0] S1024x128.size inb_S1024x128_S1024x128_0_0)) (View.ld x1 (Rect.unit (s := S128x2048) ![0, 0] S128x2048.size inb_S128x2048_S128x2048_0_0))⟩]

theorem cover3_2 (p0 : Vec F S1024x2048 .f32) (y : S1024x2048.Idx) :
    ∃ pc ∈ ([⟨(Rect.unit (s := S1024x2048) ![0, 0] S1024x2048.size inb_S1024x2048_S1024x2048_0_0), p0⟩] : List (View.Piece (Elt F) S1024x2048 .f32)), y ∈ pc.1.set :=
  View.cover_of_tiled [⟨(Rect.unit (s := S1024x2048) ![0, 0] S1024x2048.size inb_S1024x2048_S1024x2048_0_0), p0⟩] S1024x2048.size (by rfl) y

/-! ## The body's triple -/

set_option maxHeartbeats 4000000 in
/-- On whole staging buffers, the inputs' at contents x and the outputs' at anything, the body runs to a state with the
    inputs' buffers as they were and each output's at the block computed from them. -/
theorem sound_kernel3 (c : Dev nD) (E : Set ℕ) (i : grid3.Coords) (a0 : Memref sig .tc .vmem S1024x128 .f32) (ha0 : a0.IsWhole) (a1 : Memref sig .tc .vmem S128x2048 .f32) (ha1 : a1.IsWhole) (a2 : Memref sig .tc .vmem S1024x2048 .f32) (ha2 : a2.IsWhole)
    (x0 : Vec F S1024x128 .f32) (x1 : Vec F S128x2048 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out3_2 x0 x1)) -∗ K ⟨⟩))
      ⊢ wp frame (wpE (defs₀ (F := F)) Variants.none c none) E (cc3__k4_body i a0 ha0 a1 ha1 a2 ha2) K := by
  simp only [cc3__k4_body_eq_skeleton]; unfold cc3__k4_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  · iexists _; isplitr
    swap; · iexact H2
    ipureintro
    exact View.read_writes_eq_canon _ _ _ (cover3_2 _)

/-! ## The pipeline's proof data -/

/-- The arrays as the call finds them; after the body at point t each input's buffer at its block and each output's at the
    block computed from the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

set_option maxHeartbeats 1000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Ideal.Region4.lean ====
/-
  The fifth pallas_call: batch normalisation of a block of 256 rows of h from the column sums and sums of squares,
  the leaky unit, and the three decoder heads (softplus, exponential, logistic) with their clamps, sixteen grid points.
  At any float instance and any entry contents V: the windows' blocks, the four output blocks the body's stores leave,
  the body's triple (through its two printed parts), the proof data, the obligation.
-/
import proofs.«117800_g2173253451805_cont_8to1_1923_4_alg».proof.Proof.Gen.KernelIdeal.Launch
import proofs.«117800_g2173253451805_cont_8to1_1923_4_alg».proof.Proof.Gen.KernelIdeal.Skeleton
import proofs.«117800_g2173253451805_cont_8to1_1923_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's buffer holds its block at every point, fetched there or not. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's buffer holds its block at every point, fetched there or not. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's buffer holds its block at every point, fetched there or not. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's buffer holds its block at every point, fetched there or not. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-- Input window 9's buffer holds its block at every point, fetched there or not. -/
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)

/-! ## What the body leaves in each output block -/

/-- The normalised, scaled, shifted block after the leaky unit. -/
def out4_10 (x0 : Vec F S256x512 .f32) (x1 : Vec F S8x512 .f32) (x2 : Vec F S1x512 .f32) (x3 : Vec F S1x512 .f32) (x4 : Vec F S512x2000 .f32) (x5 : Vec F S1x2000 .f32) (x6 : Vec F S512x2000 .f32) (x7 : Vec F S1x2000 .f32) (x8 : Vec F S1x2000 .f32) (x9 : Vec F S1x2000 .f32) : Vec F S256x512 .f32 :=
  View.canon [⟨(Rect.unit (s := S256x512) ![0, 0] S256x512.size inb_S256x512_S256x512_0_0), k4_pay2 (View.ld x1 (Rect.unit (s := S8x512) ![0, 0] S1x512.size inb_S8x512_S1x512_0_0)) (View.ld x1 (Rect.unit (s := S8x512) ![1, 0] S1x512.size inb_S8x512_S1x512_1_0)) (View.ld x0 (Rect.unit (s := S256x512) ![0, 0] S256x512.size inb_S256x512_S256x512_0_0)) (View.ld x2 (Rect.unit (s := S1x512) ![0, 0] S1x512.size inb_S1x512_S1x512_0_0)) (View.ld x3 (Rect.unit (s := S1x512) ![0, 0] S1x512.size inb_S1x512_S1x512_0_0))⟩]

theorem cover4_10 (p0 : Vec F S256x512 .f32) (y : S256x512.Idx) :
    ∃ pc ∈ ([⟨(Rect.unit (s := S256x512) ![0, 0] S256x512.size inb_S256x512_S256x512_0_0), p0⟩] : List (View.Piece (Elt F) S256x512 .f32)), y ∈ pc.1.set :=
  View.cover_of_tiled [⟨(Rect.unit (s := S256x512) ![0, 0] S256x512.size inb_S256x512_S256x512_0_0), p0⟩] S256x512.size (by rfl) y

/-- The clamped softplus of that block times theta_w plus theta_b. -/
def out4_11 (x0 : Vec F S256x512 .f32) (x1 : Vec F S8x512 .f32) (x2 : Vec F S1x512 .f32) (x3 : Vec F S1x512 .f32) (x4 : Vec F S512x2000 .f32) (x5 : Vec F S1x2000 .f32) (x6 : Vec F S512x2000 .f32) (x7 : Vec F S1x2000 .f32) (x8 : Vec F S1x2000 .f32) (x9 : Vec F S1x2000 .f32) : Vec F S256x2000 .f32 :=
  View.canon [⟨(Rect.unit (s := S256x2000) ![0, 0] S256x2000.size inb_S256x2000_S256x2000_0_0), k4_pay4 (k4_pay3 (View.ld x1 (Rect.unit (s := S8x512) ![0, 0] S1x512.size inb_S8x512_S1x512_0_0)) (View.ld x1 (Rect.unit (s := S8x512) ![1, 0] S1x512.size inb_S8x512_S1x512_1_0)) (View.ld x0 (Rect.unit (s := S256x512) ![0, 0] S256x512.size inb_S256x512_S256x512_0_0)) (View.ld x2 (Rect.unit (s := S1x512) ![0, 0] S1x512.size inb_S1x512_S1x512_0_0)) (View.ld x3 (Rect.unit (s := S1x512) ![0, 0] S1x512.size inb_S1x512_S1x512_0_0)) (View.ld x4 (Rect.unit (s := S512x2000) ![0, 0] S512x2000.size inb_S512x2000_S512x2000_0_0))) (View.ld x5 (Rect.unit (s := S1x2000) ![0, 0] S1x2000.size inb_S1x2000_S1x2000_0_0))⟩]

theorem cover4_11 (p0 : Vec F S256x2000 .f32) (y : S256x2000.Idx) :
    ∃ pc ∈ ([⟨(Rect.unit (s := S256x2000) ![0, 0] S256x2000.size inb_S256x2000_S256x2000_0_0), p0⟩] : List (View.Piece (Elt F) S256x2000 .f32)), y ∈ pc.1.set :=
  View.cover_of_tiled [⟨(Rect.unit (s := S256x2000) ![0, 0] S256x2000.size inb_S256x2000_S256x2000_0_0), p0⟩] S256x2000.size (by rfl) y

/-- The clamped exponential of that block times mean_w plus mean_b. -/
def out4_12 (x0 : Vec F S256x512 .f32) (x1 : Vec F S8x512 .f32) (x2 : Vec F S1x512 .f32) (x3 : Vec F S1x512 .f32) (x4 : Vec F S512x2000 .f32) (x5 : Vec F S1x2000 .f32) (x6 : Vec F S512x2000 .f32) (x7 : Vec F S1x2000 .f32) (x8 : Vec F S1x2000 .f32) (x9 : Vec F S1x2000 .f32) : Vec F S256x2000 .f32 :=
  View.canon [⟨(Rect.unit (s := S256x2000) ![0, 0] S256x2000.size inb_S256x2000_S256x2000_0_0), k4_pay6 (k4_pay2 (View.ld x1 (Rect.unit (s := S8x512) ![0, 0] S1x512.size inb_S8x512_S1x512_0_0)) (View.ld x1 (Rect.unit (s := S8x512) ![1, 0] S1x512.size inb_S8x512_S1x512_1_0)) (View.ld x0 (Rect.unit (s := S256x512) ![0, 0] S256x512.size inb_S256x512_S256x512_0_0)) (View.ld x2 (Rect.unit (s := S1x512) ![0, 0] S1x512.size inb_S1x512_S1x512_0_0)) (View.ld x3 (Rect.unit (s := S1x512) ![0, 0] S1x512.size inb_S1x512_S1x512_0_0))) (View.ld x6 (Rect.unit (s := S512x2000) ![0, 0] S512x2000.size inb_S512x2000_S512x2000_0_0)) (View.ld x7 (Rect.unit (s := S1x2000) ![0, 0] S1x2000.size inb_S1x2000_S1x2000_0_0))⟩]

theorem cover4_12 (p0 : Vec F S256x2000 .f32) (y : S256x2000.Idx) :
    ∃ pc ∈ ([⟨(Rect.unit (s := S256x2000) ![0, 0] S256x2000.size inb_S256x2000_S256x2000_0_0), p0⟩] : List (View.Piece (Elt F) S256x2000 .f32)), y ∈ pc.1.set :=
  View.cover_of_tiled [⟨(Rect.unit (s := S256x2000) ![0, 0] S256x2000.size inb_S256x2000_S256x2000_0_0), p0⟩] S256x2000.size (by rfl) y

/-- The logistic of (that block times mean_w plus mean_b) times pi_w plus pi_b. -/
def out4_13 (x0 : Vec F S256x512 .f32) (x1 : Vec F S8x512 .f32) (x2 : Vec F S1x512 .f32) (x3 : Vec F S1x512 .f32) (x4 : Vec F S512x2000 .f32) (x5 : Vec F S1x2000 .f32) (x6 : Vec F S512x2000 .f32) (x7 : Vec F S1x2000 .f32) (x8 : Vec F S1x2000 .f32) (x9 : Vec F S1x2000 .f32) : Vec F S256x2000 .f32 :=
  View.canon [⟨(Rect.unit (s := S256x2000) ![0, 0] S256x2000.size inb_S256x2000_S256x2000_0_0), k4_pay1 (k4_pay5 (k4_pay2 (View.ld x1 (Rect.unit (s := S8x512) ![0, 0] S1x512.size inb_S8x512_S1x512_0_0)) (View.ld x1 (Rect.unit (s := S8x512) ![1, 0] S1x512.size inb_S8x512_S1x512_1_0)) (View.ld x0 (Rect.unit (s := S256x512) ![0, 0] S256x512.size inb_S256x512_S256x512_0_0)) (View.ld x2 (Rect.unit (s := S1x512) ![0, 0] S1x512.size inb_S1x512_S1x512_0_0)) (View.ld x3 (Rect.unit (s := S1x512) ![0, 0] S1x512.size inb_S1x512_S1x512_0_0))) (View.ld x6 (Rect.unit (s := S512x2000) ![0, 0] S512x2000.size inb_S512x2000_S512x2000_0_0)) (View.ld x7 (Rect.unit (s := S1x2000) ![0, 0] S1x2000.size inb_S1x2000_S1x2000_0_0))) (k4_pay7 (View.ld x8 (Rect.unit (s := S1x2000) ![0, 0] S1x2000.size inb_S1x2000_S1x2000_0_0))) (View.ld x9 (Rect.unit (s := S1x2000) ![0, 0] S1x2000.size inb_S1x2000_S1x2000_0_0))⟩]

theorem cover4_13 (p0 : Vec F S256x2000 .f32) (y : S256x2000.Idx) :
    ∃ pc ∈ ([⟨(Rect.unit (s := S256x2000) ![0, 0] S256x2000.size inb_S256x2000_S256x2000_0_0), p0⟩] : List (View.Piece (Elt F) S256x2000 .f32)), y ∈ pc.1.set :=
  View.cover_of_tiled [⟨(Rect.unit (s := S256x2000) ![0, 0] S256x2000.size inb_S256x2000_S256x2000_0_0), p0⟩] S256x2000.size (by rfl) y

/-! ## The body's triple -/

set_option maxHeartbeats 4000000 in
/-- On whole staging buffers, the inputs' at contents x and the outputs' at anything, the body runs to a state with the
    inputs' buffers as they were and each output's at the block computed from them. -/
theorem sound_kernel4 (c : Dev nD) (E : Set ℕ) (i : grid4.Coords) (a0 : Memref sig .tc .vmem S256x512 .f32) (ha0 : a0.IsWhole) (a1 : Memref sig .tc .vmem S8x512 .f32) (ha1 : a1.IsWhole) (a2 : Memref sig .tc .vmem S1x512 .f32) (ha2 : a2.IsWhole) (a3 : Memref sig .tc .vmem S1x512 .f32) (ha3 : a3.IsWhole) (a4 : Memref sig .tc .vmem S512x2000 .f32) (ha4 : a4.IsWhole) (a5 : Memref sig .tc .vmem S1x2000 .f32) (ha5 : a5.IsWhole) (a6 : Memref sig .tc .vmem S512x2000 .f32) (ha6 : a6.IsWhole) (a7 : Memref sig .tc .vmem S1x2000 .f32) (ha7 : a7.IsWhole) (a8 : Memref sig .tc .vmem S1x2000 .f32) (ha8 : a8.IsWhole) (a9 : Memref sig .tc .vmem S1x2000 .f32) (ha9 : a9.IsWhole) (a10 : Memref sig .tc .vmem S256x512 .f32) (ha10 : a10.IsWhole) (a11 : Memref sig .tc .vmem S256x2000 .f32) (ha11 : a11.IsWhole) (a12 : Memref sig .tc .vmem S256x2000 .f32) (ha12 : a12.IsWhole) (a13 : Memref sig .tc .vmem S256x2000 .f32) (ha13 : a13.IsWhole)
    (x0 : Vec F S256x512 .f32) (x1 : Vec F S8x512 .f32) (x2 : Vec F S1x512 .f32) (x3 : Vec F S1x512 .f32) (x4 : Vec F S512x2000 .f32) (x5 : Vec F S1x2000 .f32) (x6 : Vec F S512x2000 .f32) (x7 : Vec F S1x2000 .f32) (x8 : Vec F S1x2000 .f32) (x9 : Vec F S1x2000 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (out4_10 x0 x1 x2 x3 x4 x5 x6 x7 x8 x9) ∗ owns (c : Thread nD τ) a11 fullShare (out4_11 x0 x1 x2 x3 x4 x5 x6 x7 x8 x9) ∗ owns (c : Thread nD τ) a12 fullShare (out4_12 x0 x1 x2 x3 x4 x5 x6 x7 x8 x9) ∗ owns (c : Thread nD τ) a13 fullShare (out4_13 x0 x1 x2 x3 x4 x5 x6 x7 x8 x9)) -∗ K ⟨⟩))
      ⊢ wp frame (wpE (defs₀ (F := F)) Variants.none c none) E (cc4__k5_body i a0 ha0 a1 ha1 a2 ha2 a3 ha3 a4 ha4 a5 ha5 a6 ha6 a7 ha7 a8 ha8 a9 ha9 a10 ha10 a11 ha11 a12 ha12 a13 ha13) K := by
  simp only [cc4__k5_body_eq_skeleton]; unfold cc4__k5_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover4_10 _)
  isplitl [H11]
  · iexists _; isplitr
    swap; · iexact H11
    ipureintro
    exact View.read_writes_eq_canon _ _ _ (cover4_11 _)
  isplitl [H12]
  · iexists _; isplitr
    swap; · iexact H12
    ipureintro
    exact View.read_writes_eq_canon _ _ _ (cover4_12 _)
  · iexists _; isplitr
    swap; · iexact H13
    ipureintro
    exact View.read_writes_eq_canon _ _ _ (cover4_13 _)

/-! ## The pipeline's proof data -/

/-- The arrays as the call finds them; after the body at point t each input's buffer at its block and each output's at the
    block computed from the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => out4_10 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)
    | ⟨11, _⟩ => out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)
    | ⟨12, _⟩ => out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)
    | ⟨13, _⟩ => out4_13 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = out4_10 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) := by dsimp only [dat4]
theorem after4_11 (c : Dev nD) (t : Fin cfg4.N) : (dat4 V c).after 11 t = out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) := by dsimp only [dat4]
theorem after4_12 (c : Dev nD) (t : Fin cfg4.N) : (dat4 V c).after 12 t = out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) := by dsimp only [dat4]
theorem after4_13 (c : Dev nD) (t : Fin cfg4.N) : (dat4 V c).after 13 t = out4_13 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d))
    ∗ (∃ d, owns (c : Thread nD τ) (st4_13 t) fullShare ((dat4 V c).before 13 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t)
    ∗ owns (c : Thread nD τ) (st4_13 t) fullShare ((dat4 V c).after 13 t))

set_option maxHeartbeats 1000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12, after4_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel4 c Set.univ _ _ _ _ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.Ideal.Run.lean ====
/-
  The whole program's run: @main is two stretches of host operations and five pallas_calls. The contents of the core's
  buffers at each boundary are a fold from the launch memory — a host stretch applies its operations, a call leaves its
  arrays at what its pipeline's write-backs leave and every other buffer untouched. Over that fold: the proof data of
  every pipeline at its call's entry contents, one segment per host stretch and per call, and the launch, whose
  conclusion is that every weakly fair execution terminates, faults nowhere, and ends with every unscoped buffer at the
  last boundary's contents. At any float instance.
-/
import proofs.«117800_g2173253451805_cont_8to1_1923_4_alg».proof.Proof.Gen.KernelIdeal.Launch
import proofs.«117800_g2173253451805_cont_8to1_1923_4_alg».proof.Proof.Gen.KernelIdeal.Skeleton
import proofs.«117800_g2173253451805_cont_8to1_1923_4_alg».proof.Proof.Gen.KernelIdeal.Points
import proofs.«117800_g2173253451805_cont_8to1_1923_4_alg».proof.Proof.Ideal.Region0
import proofs.«117800_g2173253451805_cont_8to1_1923_4_alg».proof.Proof.Ideal.Region1
import proofs.«117800_g2173253451805_cont_8to1_1923_4_alg».proof.Proof.Ideal.Region2
import proofs.«117800_g2173253451805_cont_8to1_1923_4_alg».proof.Proof.Ideal.Region3
import proofs.«117800_g2173253451805_cont_8to1_1923_4_alg».proof.Proof.Ideal.Region4
import proofs.«117800_g2173253451805_cont_8to1_1923_4_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (call 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At call 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves call 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At call 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- An input window's array leaves call 1 as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At call 2's exit: its arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- An input window's array leaves call 2 as it entered. -/
theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hw _).trans (A_eq2 (V3 m ρ) c w))
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the second host stretch (call 3's entry). -/
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b

/-- At call 3's exit: its arrays at what the pipeline leaves, every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- An input window's array leaves call 3 as it entered. -/
theorem W6_in (c : Dev nD) (w : Fin cfg3.W) (hw : (cfg3.win w).isOut = false) :
    W6 m ρ c (Proc.devRef .tc (Pipeline.arrRef spec3 w)) = W5 m ρ c (Proc.devRef .tc (Pipeline.arrRef spec3 w)) :=
  (W6_arr m ρ c w).trans (((dat3 (V5 m ρ) c).arrAt_in w hw _).trans (A_eq3 (V5 m ρ) c w))
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- At call 4's exit: its arrays at what the pipeline leaves, every other buffer as entered. -/
def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
/-- An input window's array leaves call 4 as it entered. -/
theorem W7_in (c : Dev nD) (w : Fin cfg4.W) (hw : (cfg4.win w).isOut = false) :
    W7 m ρ c (Proc.devRef .tc (Pipeline.arrRef spec4 w)) = W6 m ρ c (Proc.devRef .tc (Pipeline.arrRef spec4 w)) :=
  (W7_arr m ρ c w).trans (((dat4 (V6 m ρ) c).arrAt_in w hw _).trans (A_eq4 (V6 m ρ) c w))
abbrev V7 : (c : Dev nD) → (b : Ref sig .tc) → Buf (Elt F) ((c : Thread nD τ).loc b) := fun c b => W7 m ρ c b
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)

/-- A buffer the first host stretch does not write is as launched after it. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
/-- A buffer the second host stretch does not write is unchanged by it. -/
theorem W5_of (c : Dev nD) (r : Ref sig .tc) (h : r ∉ (hostOps3_W : List (Ref sig .tc))) :
    W5 m ρ c (Proc.devRef .tc r) = W4 m ρ c (Proc.devRef .tc r) :=
  StableHlo.after_of_writes_sub hostOps3 _ hostOps3_writes h

/-! ## The proof data family and the thread state -/

abbrev adm : (p : Fin 5) → (pcfgs (F := F) p).Adm := fun p => (cfgs p).toPCfg_adm
/-- Every pipeline's proof data, each at its call's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
  | ⟨4, _⟩ => fun c => dat4 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The calls as segments -/

-- a library lemma stated over the pinned configuration unifies with the printed one only when unification may unfold
-- plain definitions in a metavariable's type
set_option backward.isDefEq.respectTransparency.types false in
/-- Call 0 as a segment: entered with every unscoped buffer at W1, left with them at W2; its arrays are split out of
    the unscoped buffers and put back at what the pipeline leaves; the generator register goes into the class invariant and
    comes back; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 1 as a segment: entered with every unscoped buffer at W2, left with them at W3; its arrays are split out of
    the unscoped buffers and put back at what the pipeline leaves; the generator register goes into the class invariant and
    comes back; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 2 as a segment: entered with every unscoped buffer at W3, left with them at W4; its arrays are split out of
    the unscoped buffers and put back at what the pipeline leaves; the generator register goes into the class invariant and
    comes back; nothing is owed and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 3 as a segment: entered with every unscoped buffer at W5, left with them at W6; its arrays are split out of
    the unscoped buffers and put back at what the pipeline leaves; the generator register goes into the class invariant and
    comes back; nothing is owed and the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 4 as a segment: entered with every unscoped buffer at W6, left with them at W7; its arrays are split out of
    the unscoped buffers and put back at what the pipeline leaves; the generator register goes into the class invariant and
    comes back; nothing is owed and the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .region (reg3 m ρ),
    .region (reg4 m ρ) ]
theorem main_run (c : Dev nD) : main (F := F) c = Pipeline.Seg.run (segs m ρ) := (main_chain c).trans (by chain_rfl)

set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Hand

end
-- ==== Proof.Ideal.Frame.lean ====
/-
  The frame: every argument array ends holding what it was launched with. No host operation writes an argument, and a call
  either reads it through an input window (whose array the pipeline leaves as it found it) or does not touch it; so the
  last boundary's contents at an argument's buffer are the launch memory's.
-/
import proofs.«117800_g2173253451805_cont_8to1_1923_4_alg».proof.Proof.Gen.KernelIdeal.Launch
import proofs.«117800_g2173253451805_cont_8to1_1923_4_alg».proof.Proof.Gen.KernelIdeal.Skeleton
import proofs.«117800_g2173253451805_cont_8to1_1923_4_alg».proof.Proof.Gen.KernelIdeal.Points
import proofs.«117800_g2173253451805_cont_8to1_1923_4_alg».proof.Proof.Ideal.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ) (ρ : Dev nD → PrngReg)

/-- No host operation writes argument 0 and no call may change it: the fold at its buffer walks back to the launch memory. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_in m ρ c 0 rfl
    _ = W0 m ρ c (Proc.devRef .tc main_arg0) := W1_of m ρ c main_arg0 (by decide)
    _ = m ((c : Thread nD τ).loc main_arg0) := rfl

/-- No host operation writes argument 1 and no call may change it: the fold at its buffer walks back to the launch memory. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_in m ρ c 0 rfl
    _ = W2 m ρ c (Proc.devRef .tc main_arg1) := W3_in m ρ c 0 rfl
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- No host operation writes argument 2 and no call may change it: the fold at its buffer walks back to the launch memory. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_in m ρ c 1 rfl
    _ = W0 m ρ c (Proc.devRef .tc main_arg2) := W1_of m ρ c main_arg2 (by decide)
    _ = m ((c : Thread nD τ).loc main_arg2) := rfl

/-- No host operation writes argument 3 and no call may change it: the fold at its buffer walks back to the launch memory. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

/-- No host operation writes argument 4 and no call may change it: the fold at its buffer walks back to the launch memory. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- No host operation writes argument 5 and no call may change it: the fold at its buffer walks back to the launch memory. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_in m ρ c 2 rfl
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-- No host operation writes argument 6 and no call may change it: the fold at its buffer walks back to the launch memory. -/
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-- No host operation writes argument 7 and no call may change it: the fold at its buffer walks back to the launch memory. -/
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-- No host operation writes argument 8 and no call may change it: the fold at its buffer walks back to the launch memory. -/
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-- No host operation writes argument 9 and no call may change it: the fold at its buffer walks back to the launch memory. -/
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := W7_in m ρ c 4 rfl
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

/-- No host operation writes argument 10 and no call may change it: the fold at its buffer walks back to the launch memory. -/
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

/-- No host operation writes argument 11 and no call may change it: the fold at its buffer walks back to the launch memory. -/
theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := W7_in m ρ c 6 rfl
    _ = W5 m ρ c (Proc.devRef .tc main_arg11) := W6_of_ne m ρ c main_arg11 (by decide)
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

/-- No host operation writes argument 12 and no call may change it: the fold at its buffer walks back to the launch memory. -/
theorem W7_main_arg12 (c : Dev nD) : W7 m ρ c (Proc.devRef .tc main_arg12) = m ((c : Thread nD τ).loc main_arg12) :=
  calc W7 m ρ c (Proc.devRef .tc main_arg12)
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := W5_of m ρ c main_arg12 (by decide)
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl

/-- No host operation writes argument 13 and no call may change it: the fold at its buffer walks back to the launch memory. -/
theorem W7_main_arg13 (c : Dev nD) : W7 m ρ c (Proc.devRef .tc main_arg13) = m ((c : Thread nD τ).loc main_arg13) :=
  calc W7 m ρ c (Proc.devRef .tc main_arg13)
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := W5_of m ρ c main_arg13 (by decide)
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl

/-- No host operation writes argument 14 and no call may change it: the fold at its buffer walks back to the launch memory. -/
theorem W7_main_arg14 (c : Dev nD) : W7 m ρ c (Proc.devRef .tc main_arg14) = m ((c : Thread nD τ).loc main_arg14) :=
  calc W7 m ρ c (Proc.devRef .tc main_arg14)
    _ = W6 m ρ c (Proc.devRef .tc main_arg14) := W7_of_ne m ρ c main_arg14 (by decide)
    _ = W5 m ρ c (Proc.devRef .tc main_arg14) := W6_of_ne m ρ c main_arg14 (by decide)
    _ = W4 m ρ c (Proc.devRef .tc main_arg14) := W5_of m ρ c main_arg14 (by decide)
    _ = W3 m ρ c (Proc.devRef .tc main_arg14) := W4_of_ne m ρ c main_arg14 (by decide)
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c),
    (h c _ (mem_uc main_arg11 (by decide))).trans (W7_main_arg11 m ρ c),
    (h c _ (mem_uc main_arg12 (by decide))).trans (W7_main_arg12 m ρ c),
    (h c _ (mem_uc main_arg13 (by decide))).trans (W7_main_arg13 m ρ c),
    (h c _ (mem_uc main_arg14 (by decide))).trans (W7_main_arg14 m ρ c)⟩) (run_all m ρ)

end Cert.KernelIdeal.Hand

end
-- ==== Proof.LibAfterAssign.lean ====
import Idealize.ShloMosaic.Lib.StableHlo.Run

/-!
# Reading a long straight line of operations one operation at a time

`StableHlo.after ops V` is the contents of every buffer after the operations `ops`, in order, from the
contents `V`: each operation rewrites the buffers it writes and leaves the rest. Read back in one step,
the contents of the last result are the composed term of all the operations, in which a value with
several consumers is repeated once per consumer; for a long line that term is too large to compute.

This module reads the fold one operation at a time instead. Suppose the line is in SINGLE-ASSIGNMENT
form, stated by a list `ws` of references, one per operation: the `k`-th operation writes exactly the
`k`-th reference (`WritesAre ops ws`). Split the line at position `k`, into the `k` operations before and
the rest (`after_take_drop`). Then

* a reference that no operation from position `k` on writes holds, at the end, what it held after the
  first `k` operations (`after_take_at_unwritten`);
* if the result `y` of the `k`-th operation is written by no later operation, then at the end it holds
  what the `k`-th operation put there, computed from the contents after the first `k` operations
  (`after_at_written`).

Together: if moreover no operation from position `k` on writes an operand of the `k`-th operation, then
the final contents satisfy that operation's own equation — at its result, the fold holds the operation's
function of THE FOLD at its operands (`after_nullary`, `after_unary`, `after_binary`, `after_ternary`,
`after_reshape`, one per builder). The equations of a line can then be used in program order, each
rewriting the operands by the equations already obtained, and no composed term is ever formed.

For a literal line the hypotheses are computations: `WritesAre ops ws` is the conjunction of the
builders' `*_writes` facts (each `rfl`), `ops.drop k = op :: post` is `rfl`, and a reference's absence
from `ws.drop k` is decided.
-/

namespace Cert.Lib.AfterAssign

open Idealize.ShloMosaic Idealize.ShloMosaic.StableHlo

variable {τ : Topo} {sig : RefSig} {Val : EltTy → Type}

/-! ## The fold of a concatenation -/

/-- The contents after two lines run one after the other: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line split at position `k`: the fold of the rest over the fold of the first `k` operations. -/
theorem after_take_drop (k : Nat) (ops : List (HloOp τ sig Val)) (V : Valuation τ sig Val) :
    after ops V = after (ops.drop k) (after (ops.take k) V) := by
  rw [← after_append, List.take_append_drop]

/-! ## Single assignment -/

/-- The `k`-th operation of the line writes exactly the `k`-th reference of the list (and the two have
    the same length). -/
def WritesAre : List (HloOp τ sig Val) → List (Ref sig .tc) → Prop
  | [], [] => True
  | op :: ops, w :: ws => op.writes = {Proc.devRef (τ := τ) .tc w} ∧ WritesAre ops ws
  | [], _ :: _ => False
  | _ :: _, [] => False

/-- The rest of a line from position `k` writes the rest of the list from position `k`. -/
theorem WritesAre.drop : ∀ (k : Nat) {ops : List (HloOp τ sig Val)} {ws : List (Ref sig .tc)},
    WritesAre ops ws → WritesAre (ops.drop k) (ws.drop k)
  | 0, _, _, h => h
  | _ + 1, [], [], h => h
  | k + 1, _ :: _, _ :: _, h => WritesAre.drop k h.2
  | _ + 1, [], _ :: _, h => h.elim
  | _ + 1, _ :: _, [], h => h.elim

/-- A reference that is not among the references a line writes keeps its contents. -/
theorem after_of_not_written : ∀ {ops : List (HloOp τ sig Val)} {ws : List (Ref sig .tc)},
    WritesAre ops ws → ∀ (V : Valuation τ sig Val) {r : Ref sig .tc}, r ∉ ws →
      after ops V (Proc.devRef .tc r) = V (Proc.devRef .tc r)
  | [], [], _, _, _, _ => rfl
  | op :: ops, w :: ws, h, V, r, hr => by
    rw [after_cons, after_of_not_written h.2 _ (fun hm => hr (List.mem_cons_of_mem _ hm))]
    refine HloOp.result_of_not_mem _ _ ?_
    rw [h.1, Finset.mem_singleton]
    refine devRef_ne_of_ne (fun e => hr ?_)
    rw [e]
    exact List.mem_cons_self
  | [], _ :: _, h, _, _, _ => h.elim
  | _ :: _, [], h, _, _, _ => h.elim

/-- A reference that no operation from position `k` on writes holds, after the whole line, what it held
    after the first `k` operations. -/
theorem after_take_at_unwritten {ops : List (HloOp τ sig Val)} {ws : List (Ref sig .tc)}
    (h : WritesAre ops ws) (k : Nat) (V : Valuation τ sig Val) {a : Ref sig .tc} (ha : a ∉ ws.drop k) :
    after (ops.take k) V (Proc.devRef .tc a) = after ops V (Proc.devRef .tc a) := by
  rw [after_take_drop k ops V]
  exact (after_of_not_written (WritesAre.drop k h) _ ha).symm

/-- If no operation after the `k`-th writes the reference `y`, the whole line leaves at `y` what the
    `k`-th operation leaves there, from the contents after the first `k` operations. -/
theorem after_at_written {ops : List (HloOp τ sig Val)} {ws : List (Ref sig .tc)}
    (h : WritesAre ops ws) (k : Nat) {op : HloOp τ sig Val} {post : List (HloOp τ sig Val)}
    (hk : ops.drop k = op :: post) (V : Valuation τ sig Val) {y : Ref sig .tc}
    (hy : y ∉ ws.drop (k + 1)) :
    after ops V (Proc.devRef .tc y) = op.result (after (ops.take k) V) (Proc.devRef .tc y) := by
  have hpost : WritesAre post (ws.drop (k + 1)) := by
    have h' := WritesAre.drop (k + 1) h
    rwa [← List.tail_drop (l := ops) (i := k), hk, List.tail_cons] at h'
  rw [after_take_drop k ops V, hk, after_cons]
  exact after_of_not_written hpost _ hy

/-! ## Each builder's equation, at the fold itself -/

/-- A constant: if no later operation writes its result, the whole line leaves the constant there. -/
theorem after_nullary {ops : List (HloOp τ sig Val)} {ws : List (Ref sig .tc)} (h : WritesAre ops ws)
    (k : Nat) {y : Ref sig .tc} {v : y.ty.Contents Val} {hy} {post : List (HloOp τ sig Val)}
    (hk : ops.drop k = nullary (τ := τ) y v hy :: post) (V : Valuation τ sig Val)
    (hyw : y ∉ ws.drop (k + 1)) :
    after ops V (Proc.devRef .tc y) = v := by
  rw [after_at_written h k hk V hyw, nullary_result]

/-- A one-operand operation: if no later operation writes its result and none from it on writes its
    operand, the whole line leaves at the result the operation's function of what the whole line leaves
    at the operand. -/
theorem after_unary {ops : List (HloOp τ sig Val)} {ws : List (Ref sig .tc)} (h : WritesAre ops ws)
    (k : Nat) {x y : Ref sig .tc} {f : x.ty.Contents Val → y.ty.Contents Val} {hx hy}
    {post : List (HloOp τ sig Val)}
    (hk : ops.drop k = unary (τ := τ) x y f hx hy :: post) (V : Valuation τ sig Val)
    (hyw : y ∉ ws.drop (k + 1)) (hxw : x ∉ ws.drop k) :
    after ops V (Proc.devRef .tc y) = f (after ops V (Proc.devRef .tc x)) := by
  rw [after_at_written h k hk V hyw, unary_result, after_take_at_unwritten h k V hxw]

/-- A two-operand operation: if no later operation writes its result and none from it on writes an
    operand, the whole line leaves at the result the operation's function of what the whole line leaves
    at the two operands. -/
theorem after_binary {ops : List (HloOp τ sig Val)} {ws : List (Ref sig .tc)} (h : WritesAre ops ws)
    (k : Nat) {a b y : Ref sig .tc} {f : a.ty.Contents Val → b.ty.Contents Val → y.ty.Contents Val}
    {ha hb hy} {post : List (HloOp τ sig Val)}
    (hk : ops.drop k = binary (τ := τ) a b y f ha hb hy :: post) (V : Valuation τ sig Val)
    (hyw : y ∉ ws.drop (k + 1)) (haw : a ∉ ws.drop k) (hbw : b ∉ ws.drop k) :
    after ops V (Proc.devRef .tc y)
      = f (after ops V (Proc.devRef .tc a)) (after ops V (Proc.devRef .tc b)) := by
  rw [after_at_written h k hk V hyw, binary_result, after_take_at_unwritten h k V haw,
    after_take_at_unwritten h k V hbw]

/-- A three-operand operation, likewise. -/
theorem after_ternary {ops : List (HloOp τ sig Val)} {ws : List (Ref sig .tc)} (h : WritesAre ops ws)
    (k : Nat) {c a b y : Ref sig .tc}
    {f : c.ty.Contents Val → a.ty.Contents Val → b.ty.Contents Val → y.ty.Contents Val}
    {hc ha hb hy} {post : List (HloOp τ sig Val)}
    (hk : ops.drop k = ternary (τ := τ) c a b y f hc ha hb hy :: post) (V : Valuation τ sig Val)
    (hyw : y ∉ ws.drop (k + 1)) (hcw : c ∉ ws.drop k) (haw : a ∉ ws.drop k) (hbw : b ∉ ws.drop k) :
    after ops V (Proc.devRef .tc y)
      = f (after ops V (Proc.devRef .tc c)) (after ops V (Proc.devRef .tc a))
          (after ops V (Proc.devRef .tc b)) := by
  rw [after_at_written h k hk V hyw, ternary_result, after_take_at_unwritten h k V hcw,
    after_take_at_unwritten h k V haw, after_take_at_unwritten h k V hbw]

/-- A reshape: if no later operation writes its result and none from it on writes its operand, the
    whole line leaves at the result the operand's final contents in row-major order at the result's
    shape. -/
theorem after_reshape {ops : List (HloOp τ sig Val)} {ws : List (Ref sig .tc)} (h : WritesAre ops ws)
    (k : Nat) {x y : Ref sig .tc} {he : x.ty.elt = y.ty.elt} {hn : x.ty.shape.ShapeCasts y.ty.shape}
    {hx hy} {post : List (HloOp τ sig Val)}
    (hk : ops.drop k = reshape (τ := τ) (Val := Val) x y he hn hx hy :: post) (V : Valuation τ sig Val)
    (hyw : y ∉ ws.drop (k + 1)) (hxw : x ∉ ws.drop k) :
    after ops V (Proc.devRef .tc y)
      = fun i => he ▸ shapeCast y.ty.shape (after ops V (Proc.devRef .tc x)) hn i := by
  rw [after_at_written h k hk V hyw, reshape_result, after_take_at_unwritten h k V hxw]

end Cert.Lib.AfterAssign
-- ==== Proof.Ref.Run.lean ====
import proofs.«117800_g2173253451805_cont_8to1_1923_4_alg».proof.Proof.Gen.ReferenceIdeal
import proofs.«117800_g2173253451805_cont_8to1_1923_4_alg».proof.Proof.LibAfterAssign
import Idealize.ShloMosaic.Lib.StableHlo.Run

/-!
# The reference program as one straight line, and its run

The reference's `@main` is a sequence of host operations, some of them inside the module's
outlined functions (`_where`, `_where_0`, `_var` — which itself calls `_where_1` —, `softplus`,
`clip`). A call means its callee's body on the call's operands, each value of the body in a buffer of
that call's record; so `@main` is the straight line `ops` below: its own operations in program order,
and at each call site the callee's operations over the call's arguments and record (the nested call
of `_var` expanded in its place too). There are 137 operations, one per buffer of the signature that is
not an argument.

* `main_eq`: `@main` is `StableHlo.seq ops` (the functions' definitions unfolded, sequencing reassociated).
* `run_main`: every weakly fair execution terminates and every TensorCore buffer ends at the fold
  `StableHlo.after ops` of the operations over the launch contents.
* `writesAre`: the line is in single-assignment form — operation `k` writes exactly `ws[k]`, and the 137
  references of `ws` are distinct and none is an argument — so the fold can be read one operation at a time.
* `frame`: the fifteen argument buffers end as they were launched, no operation writing one.
-/

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-- `@main`'s 137 operations in program order, each outlined function's operations in place of its call,
    over the call's arguments and the call's record of buffers. -/
abbrev ops : List (HloOp τ sig (Elt F)) :=
  [ StableHlo.binary main_arg0 main_arg2 main_v0 ((fun l r => Host.dotGeneral dot_S4096x2000_S2000x512_S4096x512_1_0_0_1_n_n none l r) : (⟨S4096x2000, .f32⟩ : BufTy).Contents (Elt F) → (⟨S2000x512, .f32⟩ : BufTy).Contents (Elt F) → (⟨S4096x512, .f32⟩ : BufTy).Contents (Elt F)),
    StableHlo.binary main_arg1 main_v0 main_v1 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.nullary main_cst (constant S_ .f32 0x00000000#32),
    StableHlo.unary main_cst main_v2 (broadcastInDim S4096x512 ![] bcast_S_S4096x512 : (⟨S_, .f32⟩ : BufTy).Contents (Elt F) → (⟨S4096x512, .f32⟩ : BufTy).Contents (Elt F)),
    StableHlo.binary main_v1 main_v2 main_v3 (cmpf .ogt : (⟨S4096x512, .f32⟩ : BufTy).Contents (Elt F) → (⟨S4096x512, .f32⟩ : BufTy).Contents (Elt F) → (⟨S4096x512, .i1⟩ : BufTy).Contents (Elt F)),
    StableHlo.nullary main_cst_0 (constant S_ .f32 0x3C23D70A#32),
    StableHlo.unary main_cst_0 main_v4 (broadcastInDim S4096x512 ![] bcast_S_S4096x512 : (⟨S_, .f32⟩ : BufTy).Contents (Elt F) → (⟨S4096x512, .f32⟩ : BufTy).Contents (Elt F)),
    StableHlo.binary main_v4 main_v1 main_v5 (mulf : (⟨S4096x512, .f32⟩ : BufTy).Contents (Elt F) → (⟨S4096x512, .f32⟩ : BufTy).Contents (Elt F) → (⟨S4096x512, .f32⟩ : BufTy).Contents (Elt F)),
    StableHlo.TRef.ternary (.of main_v3 : StableHlo.TRef sig ⟨S4096x512, .i1⟩) (.of main_v1 : StableHlo.TRef sig ⟨S4096x512, .f32⟩) (.of main_v5 : StableHlo.TRef sig ⟨S4096x512, .f32⟩) main_call0.v0 select,
    StableHlo.binary main_v6 main_arg3 main_v7 ((fun l r => Host.dotGeneral dot_S4096x512_S512x128_S4096x128_1_0_0_1_n_n none l r) : (⟨S4096x512, .f32⟩ : BufTy).Contents (Elt F) → (⟨S512x128, .f32⟩ : BufTy).Contents (Elt F) → (⟨S4096x128, .f32⟩ : BufTy).Contents (Elt F)),
    StableHlo.binary main_arg1 main_v7 main_v8 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    StableHlo.nullary main_cst_1 (constant S_ .f32 0x00000000#32),
    StableHlo.unary main_cst_1 main_v9 (broadcastInDim S4096x128 ![] bcast_S_S4096x128 : (⟨S_, .f32⟩ : BufTy).Contents (Elt F) → (⟨S4096x128, .f32⟩ : BufTy).Contents (Elt F)),
    StableHlo.binary main_v8 main_v9 main_v10 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_2 (constant S_ .f32 0x3C23D70A#32),
    StableHlo.unary main_cst_2 main_v11 (broadcastInDim S4096x128 ![] bcast_S_S4096x128 : (⟨S_, .f32⟩ : BufTy).Contents (Elt F) → (⟨S4096x128, .f32⟩ : BufTy).Contents (Elt F)),
    StableHlo.binary main_v11 main_v8 main_v12 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v10 : StableHlo.TRef sig ⟨S4096x128, .i1⟩) (.of main_v8 : StableHlo.TRef sig ⟨S4096x128, .f32⟩) (.of main_v12 : StableHlo.TRef sig ⟨S4096x128, .f32⟩) main_call1.v0 select,
    StableHlo.binary main_v6 main_arg4 main_v14 ((fun l r => Host.dotGeneral dot_S4096x512_S512x128_S4096x128_1_0_0_1_n_n none l r) : (⟨S4096x512, .f32⟩ : BufTy).Contents (Elt F) → (⟨S512x128, .f32⟩ : BufTy).Contents (Elt F) → (⟨S4096x128, .f32⟩ : BufTy).Contents (Elt F)),
    StableHlo.binary main_arg1 main_v14 main_v15 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    StableHlo.nullary main_cst_3 (constant S_ .f32 0x00000000#32),
    StableHlo.unary main_cst_3 main_v16 (broadcastInDim S4096x128 ![] bcast_S_S4096x128 : (⟨S_, .f32⟩ : BufTy).Contents (Elt F) → (⟨S4096x128, .f32⟩ : BufTy).Contents (Elt F)),
    StableHlo.binary main_v15 main_v16 main_v17 (cmpf .ogt : (⟨S4096x128, .f32⟩ : BufTy).Contents (Elt F) → (⟨S4096x128, .f32⟩ : BufTy).Contents (Elt F) → (⟨S4096x128, .i1⟩ : BufTy).Contents (Elt F)),
    StableHlo.nullary main_cst_4 (constant S_ .f32 0x3C23D70A#32),
    StableHlo.unary main_cst_4 main_v18 (broadcastInDim S4096x128 ![] bcast_S_S4096x128 : (⟨S_, .f32⟩ : BufTy).Contents (Elt F) → (⟨S4096x128, .f32⟩ : BufTy).Contents (Elt F)),
    StableHlo.binary main_v18 main_v15 main_v19 (mulf : (⟨S4096x128, .f32⟩ : BufTy).Contents (Elt F) → (⟨S4096x128, .f32⟩ : BufTy).Contents (Elt F) → (⟨S4096x128, .f32⟩ : BufTy).Contents (Elt F)),
    StableHlo.TRef.ternary (.of main_v17 : StableHlo.TRef sig ⟨S4096x128, .i1⟩) (.of main_v15 : StableHlo.TRef sig ⟨S4096x128, .f32⟩) (.of main_v19 : StableHlo.TRef sig ⟨S4096x128, .f32⟩) main_call2.v0 select,
    StableHlo.unary main_v13 main_v21 ((transpose S128x4096 [1, 0] · transposes_S4096x128_S128x4096_1_0) : (⟨S4096x128, .f32⟩ : BufTy).Contents (Elt F) → (⟨S128x4096, .f32⟩ : BufTy).Contents (Elt F)),
    StableHlo.binary main_v13 main_v21 main_v22 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
    StableHlo.binary main_v13 main_arg5 main_v23 ((fun l r => Host.dotGeneral dot_S4096x128_S128x512_S4096x512_1_0_0_1_n_n none l r) : (⟨S4096x128, .f32⟩ : BufTy).Contents (Elt F) → (⟨S128x512, .f32⟩ : BufTy).Contents (Elt F) → (⟨S4096x512, .f32⟩ : BufTy).Contents (Elt F)),
    StableHlo.unary main_arg6 main_v24 (broadcastInDim S1x512 ![1] bcast_S512_S1x512_1 : (⟨S512, .f32⟩ : BufTy).Contents (Elt F) → (⟨S1x512, .f32⟩ : BufTy).Contents (Elt F)),
    StableHlo.unary main_v24 main_v25 (broadcastInDim S4096x512 ![0, 1] bcast_S1x512_S4096x512_0_1 : (⟨S1x512, .f32⟩ : BufTy).Contents (Elt F) → (⟨S4096x512, .f32⟩ : BufTy).Contents (Elt F)),
    StableHlo.binary main_v23 main_v25 main_v26 (addf : (⟨S4096x512, .f32⟩ : BufTy).Contents (Elt F) → (⟨S4096x512, .f32⟩ : BufTy).Contents (Elt F) → (⟨S4096x512, .f32⟩ : BufTy).Contents (Elt F)),
    StableHlo.nullary main_cst_5 (constant S_ .f32 0x00000000#32),
    StableHlo.binary main_v26 main_cst_5 main_v27 ((fun x v => Host.reduceAdd x v reducesTo_S4096x512_S512_d0 h_S_) : (⟨S4096x512, .f32⟩ : BufTy).Contents (Elt F) → (⟨S_, .f32⟩ : BufTy).Contents (Elt F) → (⟨S512, .f32⟩ : BufTy).Contents (Elt F)),
    StableHlo.nullary main_cst_6 (constant S_ .f32 0x45800000#32),
    StableHlo.unary main_cst_6 main_v28 (broadcastInDim S512 ![] bcast_S_S512 : (⟨S_, .f32⟩ : BufTy).Contents (Elt F) → (⟨S512, .f32⟩ : BufTy).Contents (Elt F)),
    StableHlo.binary main_v27 main_v28 main_v29 (Host.divf : (⟨S512, .f32⟩ : BufTy).Contents (Elt F) → (⟨S512, .f32⟩ : BufTy).Contents (Elt F) → (⟨S512, .f32⟩ : BufTy).Contents (Elt F)),
    StableHlo.nullary main_c (constantI S_ 32 0#32),
    StableHlo.TRef.nullary main_call3.cst (constant S_ .f32 0x00000000#32),
    StableHlo.TRef.binary (.of main_v26 : StableHlo.TRef sig ⟨S4096x512, .f32⟩) main_call3.cst main_call3.v0 (fun x v => Host.reduceAdd x v reducesTo_S4096x512_S512_d0 h_S_),
    StableHlo.TRef.unary main_call3.v0 main_call3.v1 (broadcastInDim S1x512 ![1] bcast_S512_S1x512_1),
    StableHlo.TRef.nullary main_call3.cst_0 (constant S_ .f32 0x45800000#32),
    StableHlo.TRef.unary main_call3.cst_0 main_call3.v2 (broadcastInDim S1x512 ![] bcast_S_S1x512),
    StableHlo.TRef.binary main_call3.v1 main_call3.v2 main_call3.v3 Host.divf,
    StableHlo.TRef.unary main_call3.v3 main_call3.v4 (broadcastInDim S4096x512 ![0, 1] bcast_S1x512_S4096x512_0_1),
    StableHlo.TRef.binary (.of main_v26 : StableHlo.TRef sig ⟨S4096x512, .f32⟩) main_call3.v4 main_call3.v5 subf,
    StableHlo.TRef.binary main_call3.v5 main_call3.v5 main_call3.v6 mulf,
    StableHlo.TRef.unary (.of main_c : StableHlo.TRef sig ⟨S_, .i32⟩) main_call3.v7 (sitofp .f32),
    StableHlo.TRef.nullary main_call3.cst_1 (constant S_ .f32 0x45800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S4096x512_S512_d0 h_S_),
    StableHlo.TRef.unary main_call3.v8 main_call3.v10 (broadcastInDim S512 ![] bcast_S_S512),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S512 ![] bcast_S_S512),
    StableHlo.TRef.ternary main_call3.v12 main_call3.v11 main_call3.call0.v1 main_call3.call0.v2 (fun p a b => select (broadcastInDim S512 ![] bcast_S_S512 p) a b),
    StableHlo.unary main_v29 main_v31 (broadcastInDim S1x512 ![1] bcast_S512_S1x512_1 : (⟨S512, .f32⟩ : BufTy).Contents (Elt F) → (⟨S1x512, .f32⟩ : BufTy).Contents (Elt F)),
    StableHlo.unary main_v31 main_v32 (broadcastInDim S4096x512 ![0, 1] bcast_S1x512_S4096x512_0_1 : (⟨S1x512, .f32⟩ : BufTy).Contents (Elt F) → (⟨S4096x512, .f32⟩ : BufTy).Contents (Elt F)),
    StableHlo.binary main_v26 main_v32 main_v33 (subf : (⟨S4096x512, .f32⟩ : BufTy).Contents (Elt F) → (⟨S4096x512, .f32⟩ : BufTy).Contents (Elt F) → (⟨S4096x512, .f32⟩ : BufTy).Contents (Elt F)),
    StableHlo.nullary main_cst_7 (constant S_ .f32 0x3727C5AC#32),
    StableHlo.unary main_cst_7 main_v34 (broadcastInDim S512 ![] bcast_S_S512 : (⟨S_, .f32⟩ : BufTy).Contents (Elt F) → (⟨S512, .f32⟩ : BufTy).Contents (Elt F)),
    StableHlo.binary main_v30 main_v34 main_v35 (addf : (⟨S512, .f32⟩ : BufTy).Contents (Elt F) → (⟨S512, .f32⟩ : BufTy).Contents (Elt F) → (⟨S512, .f32⟩ : BufTy).Contents (Elt F)),
    StableHlo.unary main_v35 main_v36 (Host.sqrt : (⟨S512, .f32⟩ : BufTy).Contents (Elt F) → (⟨S512, .f32⟩ : BufTy).Contents (Elt F)),
    StableHlo.unary main_v36 main_v37 (broadcastInDim S1x512 ![1] bcast_S512_S1x512_1 : (⟨S512, .f32⟩ : BufTy).Contents (Elt F) → (⟨S1x512, .f32⟩ : BufTy).Contents (Elt F)),
    StableHlo.unary main_v37 main_v38 (broadcastInDim S4096x512 ![0, 1] bcast_S1x512_S4096x512_0_1 : (⟨S1x512, .f32⟩ : BufTy).Contents (Elt F) → (⟨S4096x512, .f32⟩ : BufTy).Contents (Elt F)),
    StableHlo.binary main_v33 main_v38 main_v39 (Host.divf : (⟨S4096x512, .f32⟩ : BufTy).Contents (Elt F) → (⟨S4096x512, .f32⟩ : BufTy).Contents (Elt F) → (⟨S4096x512, .f32⟩ : BufTy).Contents (Elt F)),
    StableHlo.unary main_arg7 main_v40 (broadcastInDim S1x512 ![1] bcast_S512_S1x512_1 : (⟨S512, .f32⟩ : BufTy).Contents (Elt F) → (⟨S1x512, .f32⟩ : BufTy).Contents (Elt F)),
    StableHlo.unary main_v40 main_v41 (broadcastInDim S4096x512 ![0, 1] bcast_S1x512_S4096x512_0_1 : (⟨S1x512, .f32⟩ : BufTy).Contents (Elt F) → (⟨S4096x512, .f32⟩ : BufTy).Contents (Elt F)),
    StableHlo.binary main_v39 main_v41 main_v42 (mulf : (⟨S4096x512, .f32⟩ : BufTy).Contents (Elt F) → (⟨S4096x512, .f32⟩ : BufTy).Contents (Elt F) → (⟨S4096x512, .f32⟩ : BufTy).Contents (Elt F)),
    StableHlo.unary main_arg8 main_v43 (broadcastInDim S1x512 ![1] bcast_S512_S1x512_1 : (⟨S512, .f32⟩ : BufTy).Contents (Elt F) → (⟨S1x512, .f32⟩ : BufTy).Contents (Elt F)),
    StableHlo.unary main_v43 main_v44 (broadcastInDim S4096x512 ![0, 1] bcast_S1x512_S4096x512_0_1 : (⟨S1x512, .f32⟩ : BufTy).Contents (Elt F) → (⟨S4096x512, .f32⟩ : BufTy).Contents (Elt F)),
    StableHlo.binary main_v42 main_v44 main_v45 (addf : (⟨S4096x512, .f32⟩ : BufTy).Contents (Elt F) → (⟨S4096x512, .f32⟩ : BufTy).Contents (Elt F) → (⟨S4096x512, .f32⟩ : BufTy).Contents (Elt F)),
    StableHlo.nullary main_cst_8 (constant S_ .f32 0x00000000#32),
    StableHlo.unary main_cst_8 main_v46 (broadcastInDim S4096x512 ![] bcast_S_S4096x512 : (⟨S_, .f32⟩ : BufTy).Contents (Elt F) → (⟨S4096x512, .f32⟩ : BufTy).Contents (Elt F)),
    StableHlo.binary main_v45 main_v46 main_v47 (cmpf .ogt : (⟨S4096x512, .f32⟩ : BufTy).Contents (Elt F) → (⟨S4096x512, .f32⟩ : BufTy).Contents (Elt F) → (⟨S4096x512, .i1⟩ : BufTy).Contents (Elt F)),
    StableHlo.nullary main_cst_9 (constant S_ .f32 0x3C23D70A#32),
    StableHlo.unary main_cst_9 main_v48 (broadcastInDim S4096x512 ![] bcast_S_S4096x512 : (⟨S_, .f32⟩ : BufTy).Contents (Elt F) → (⟨S4096x512, .f32⟩ : BufTy).Contents (Elt F)),
    StableHlo.binary main_v48 main_v45 main_v49 (mulf : (⟨S4096x512, .f32⟩ : BufTy).Contents (Elt F) → (⟨S4096x512, .f32⟩ : BufTy).Contents (Elt F) → (⟨S4096x512, .f32⟩ : BufTy).Contents (Elt F)),
    StableHlo.TRef.ternary (.of main_v47 : StableHlo.TRef sig ⟨S4096x512, .i1⟩) (.of main_v45 : StableHlo.TRef sig ⟨S4096x512, .f32⟩) (.of main_v49 : StableHlo.TRef sig ⟨S4096x512, .f32⟩) main_call4.v0 select,
    StableHlo.binary main_v50 main_arg9 main_v51 ((fun l r => Host.dotGeneral dot_S4096x512_S512x2000_S4096x2000_1_0_0_1_n_n none l r) : (⟨S4096x512, .f32⟩ : BufTy).Contents (Elt F) → (⟨S512x2000, .f32⟩ : BufTy).Contents (Elt F) → (⟨S4096x2000, .f32⟩ : BufTy).Contents (Elt F)),
    StableHlo.unary main_arg10 main_v52 (broadcastInDim S1x2000 ![1] bcast_S2000_S1x2000_1 : (⟨S2000, .f32⟩ : BufTy).Contents (Elt F) → (⟨S1x2000, .f32⟩ : BufTy).Contents (Elt F)),
    StableHlo.unary main_v52 main_v53 (broadcastInDim S4096x2000 ![0, 1] bcast_S1x2000_S4096x2000_0_1 : (⟨S1x2000, .f32⟩ : BufTy).Contents (Elt F) → (⟨S4096x2000, .f32⟩ : BufTy).Contents (Elt F)),
    StableHlo.binary main_v51 main_v53 main_v54 (addf : (⟨S4096x2000, .f32⟩ : BufTy).Contents (Elt F) → (⟨S4096x2000, .f32⟩ : BufTy).Contents (Elt F) → (⟨S4096x2000, .f32⟩ : BufTy).Contents (Elt F)),
    StableHlo.TRef.nullary main_call5.cst (constant S_ .f32 0x00000000#32),
    StableHlo.TRef.unary main_call5.cst main_call5.v0 (broadcastInDim S4096x2000 ![] bcast_S_S4096x2000),
    StableHlo.TRef.binary (.of main_v54 : StableHlo.TRef sig ⟨S4096x2000, .f32⟩) main_call5.v0 main_call5.v1 maximumf,
    StableHlo.TRef.unary main_call5.cst main_call5.v2 (broadcastInDim S4096x2000 ![] bcast_S_S4096x2000),
    StableHlo.TRef.binary (.of main_v54 : StableHlo.TRef sig ⟨S4096x2000, .f32⟩) main_call5.v2 main_call5.v3 subf,
    StableHlo.TRef.binary main_call5.v3 main_call5.v3 main_call5.v4 (cmpf .une),
    StableHlo.TRef.unary main_call5.cst main_call5.v5 (broadcastInDim S4096x2000 ![] bcast_S_S4096x2000),
    StableHlo.TRef.binary (.of main_v54 : StableHlo.TRef sig ⟨S4096x2000, .f32⟩) main_call5.v5 main_call5.v6 addf,
    StableHlo.TRef.unary main_call5.v3 main_call5.v7 Host.absf,
    StableHlo.TRef.unary main_call5.v7 main_call5.v8 Host.negf,
    StableHlo.TRef.unary main_call5.v8 main_call5.v9 Host.exp,
    StableHlo.TRef.unary main_call5.v9 main_call5.v10 Host.log1p,
    StableHlo.TRef.binary main_call5.v1 main_call5.v10 main_call5.v11 addf,
    StableHlo.TRef.ternary main_call5.v4 main_call5.v6 main_call5.v11 main_call5.v12 select,
    StableHlo.nullary main_cst_10 (constant S_ .f32 0x3727C5AC#32),
    StableHlo.nullary main_cst_11 (constant S_ .f32 0x49742400#32),
    StableHlo.TRef.unary (.of main_cst_10 : StableHlo.TRef sig ⟨S_, .f32⟩) main_call6.v0 id,
    StableHlo.TRef.unary main_call6.v0 main_call6.v1 (broadcastInDim S4096x2000 ![] bcast_S_S4096x2000),
    StableHlo.TRef.binary main_call6.v1 (.of main_v55 : StableHlo.TRef sig ⟨S4096x2000, .f32⟩) main_call6.v2 maximumf,
    StableHlo.TRef.unary (.of main_cst_11 : StableHlo.TRef sig ⟨S_, .f32⟩) main_call6.v3 id,
    StableHlo.TRef.unary main_call6.v3 main_call6.v4 (broadcastInDim S4096x2000 ![] bcast_S_S4096x2000),
    StableHlo.TRef.binary main_call6.v4 main_call6.v2 main_call6.v5 minimumf,
    StableHlo.binary main_v50 main_arg11 main_v57 ((fun l r => Host.dotGeneral dot_S4096x512_S512x2000_S4096x2000_1_0_0_1_n_n none l r) : (⟨S4096x512, .f32⟩ : BufTy).Contents (Elt F) → (⟨S512x2000, .f32⟩ : BufTy).Contents (Elt F) → (⟨S4096x2000, .f32⟩ : BufTy).Contents (Elt F)),
    StableHlo.unary main_arg12 main_v58 (broadcastInDim S1x2000 ![1] bcast_S2000_S1x2000_1 : (⟨S2000, .f32⟩ : BufTy).Contents (Elt F) → (⟨S1x2000, .f32⟩ : BufTy).Contents (Elt F)),
    StableHlo.unary main_v58 main_v59 (broadcastInDim S4096x2000 ![0, 1] bcast_S1x2000_S4096x2000_0_1 : (⟨S1x2000, .f32⟩ : BufTy).Contents (Elt F) → (⟨S4096x2000, .f32⟩ : BufTy).Contents (Elt F)),
    StableHlo.binary main_v57 main_v59 main_v60 (addf : (⟨S4096x2000, .f32⟩ : BufTy).Contents (Elt F) → (⟨S4096x2000, .f32⟩ : BufTy).Contents (Elt F) → (⟨S4096x2000, .f32⟩ : BufTy).Contents (Elt F)),
    StableHlo.unary main_v60 main_v61 (Host.exp : (⟨S4096x2000, .f32⟩ : BufTy).Contents (Elt F) → (⟨S4096x2000, .f32⟩ : BufTy).Contents (Elt F)),
    StableHlo.nullary main_cst_12 (constant S_ .f32 0x3727C5AC#32),
    StableHlo.nullary main_cst_13 (constant S_ .f32 0x49742400#32),
    StableHlo.TRef.unary (.of main_cst_12 : StableHlo.TRef sig ⟨S_, .f32⟩) main_call7.v0 id,
    StableHlo.TRef.unary main_call7.v0 main_call7.v1 (broadcastInDim S4096x2000 ![] bcast_S_S4096x2000),
    StableHlo.TRef.binary main_call7.v1 (.of main_v61 : StableHlo.TRef sig ⟨S4096x2000, .f32⟩) main_call7.v2 maximumf,
    StableHlo.TRef.unary (.of main_cst_13 : StableHlo.TRef sig ⟨S_, .f32⟩) main_call7.v3 id,
    StableHlo.TRef.unary main_call7.v3 main_call7.v4 (broadcastInDim S4096x2000 ![] bcast_S_S4096x2000),
    StableHlo.TRef.binary main_call7.v4 main_call7.v2 main_call7.v5 minimumf,
    StableHlo.unary main_arg13 main_v63 (broadcastInDim S1x2000 ![1] bcast_S2000_S1x2000_1 : (⟨S2000, .f32⟩ : BufTy).Contents (Elt F) → (⟨S1x2000, .f32⟩ : BufTy).Contents (Elt F)),
    StableHlo.unary main_v63 main_v64 (broadcastInDim S4096x2000 ![0, 1] bcast_S1x2000_S4096x2000_0_1 : (⟨S1x2000, .f32⟩ : BufTy).Contents (Elt F) → (⟨S4096x2000, .f32⟩ : BufTy).Contents (Elt F)),
    StableHlo.binary main_v60 main_v64 main_v65 (mulf : (⟨S4096x2000, .f32⟩ : BufTy).Contents (Elt F) → (⟨S4096x2000, .f32⟩ : BufTy).Contents (Elt F) → (⟨S4096x2000, .f32⟩ : BufTy).Contents (Elt F)),
    StableHlo.unary main_arg14 main_v66 (broadcastInDim S1x2000 ![1] bcast_S2000_S1x2000_1 : (⟨S2000, .f32⟩ : BufTy).Contents (Elt F) → (⟨S1x2000, .f32⟩ : BufTy).Contents (Elt F)),
    StableHlo.unary main_v66 main_v67 (broadcastInDim S4096x2000 ![0, 1] bcast_S1x2000_S4096x2000_0_1 : (⟨S1x2000, .f32⟩ : BufTy).Contents (Elt F) → (⟨S4096x2000, .f32⟩ : BufTy).Contents (Elt F)),
    StableHlo.binary main_v65 main_v67 main_v68 (addf : (⟨S4096x2000, .f32⟩ : BufTy).Contents (Elt F) → (⟨S4096x2000, .f32⟩ : BufTy).Contents (Elt F) → (⟨S4096x2000, .f32⟩ : BufTy).Contents (Elt F)),
    StableHlo.unary main_v68 main_v69 (Host.negf : (⟨S4096x2000, .f32⟩ : BufTy).Contents (Elt F) → (⟨S4096x2000, .f32⟩ : BufTy).Contents (Elt F)),
    StableHlo.unary main_v69 main_v70 (Host.exp : (⟨S4096x2000, .f32⟩ : BufTy).Contents (Elt F) → (⟨S4096x2000, .f32⟩ : BufTy).Contents (Elt F)),
    StableHlo.nullary main_cst_14 (constant S_ .f32 0x3F800000#32),
    StableHlo.unary main_cst_14 main_v71 (broadcastInDim S4096x2000 ![] bcast_S_S4096x2000 : (⟨S_, .f32⟩ : BufTy).Contents (Elt F) → (⟨S4096x2000, .f32⟩ : BufTy).Contents (Elt F)),
    StableHlo.binary main_v71 main_v70 main_v72 (addf : (⟨S4096x2000, .f32⟩ : BufTy).Contents (Elt F) → (⟨S4096x2000, .f32⟩ : BufTy).Contents (Elt F) → (⟨S4096x2000, .f32⟩ : BufTy).Contents (Elt F)),
    StableHlo.nullary main_cst_15 (constant S_ .f32 0x3F800000#32),
    StableHlo.unary main_cst_15 main_v73 (broadcastInDim S4096x2000 ![] bcast_S_S4096x2000 : (⟨S_, .f32⟩ : BufTy).Contents (Elt F) → (⟨S4096x2000, .f32⟩ : BufTy).Contents (Elt F)),
    StableHlo.binary main_v73 main_v72 main_v74 (Host.divf : (⟨S4096x2000, .f32⟩ : BufTy).Contents (Elt F) → (⟨S4096x2000, .f32⟩ : BufTy).Contents (Elt F) → (⟨S4096x2000, .f32⟩ : BufTy).Contents (Elt F)) ]

-- the chain of 137 binds is reassociated one statement at a time, each step under all the earlier ones
set_option maxRecDepth 8192 in
set_option maxHeartbeats 4000000 in
/-- `@main` is that straight line: its two windows and the functions' definitions unfolded at their calls
    (the records at their fields), both sides are one chain of `hlo` steps once sequencing is reassociated. -/
theorem main_eq (c : Dev nD) : main (F := F) c = StableHlo.seq ops := by
  simp only [main, main_part0, main_part1, fn_where.body, fn_where_0.body, fn_where_1.body, fn_var.body,
    fn_softplus.body, fn_clip.body, StableHlo.seq, bind_assoc, pure_bind]

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., binary_bufs_sub .., nullary_bufs_sub .., unary_bufs_sub .., binary_bufs_sub .., nullary_bufs_sub ..,
    unary_bufs_sub .., binary_bufs_sub .., ternary_bufs_sub .., binary_bufs_sub .., binary_bufs_sub .., nullary_bufs_sub ..,
    unary_bufs_sub .., binary_bufs_sub .., nullary_bufs_sub .., unary_bufs_sub .., binary_bufs_sub .., ternary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub .., unary_bufs_sub .., unary_bufs_sub .., binary_bufs_sub .., nullary_bufs_sub .., unary_bufs_sub ..,
    binary_bufs_sub .., unary_bufs_sub .., binary_bufs_sub .., binary_bufs_sub .., unary_bufs_sub .., binary_bufs_sub ..,
    unary_bufs_sub .., unary_bufs_sub .., unary_bufs_sub .., unary_bufs_sub .., binary_bufs_sub .., ternary_bufs_sub ..,
    nullary_bufs_sub .., nullary_bufs_sub .., unary_bufs_sub .., unary_bufs_sub .., binary_bufs_sub .., unary_bufs_sub ..,
    unary_bufs_sub .., binary_bufs_sub .., binary_bufs_sub .., unary_bufs_sub .., unary_bufs_sub .., binary_bufs_sub ..,
    unary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., nullary_bufs_sub ..,
    unary_bufs_sub .., binary_bufs_sub .., nullary_bufs_sub .., unary_bufs_sub .., binary_bufs_sub ..⟩

/-- From any memory with zero counters, every weakly fair execution of `@main` on the TensorCores terminates, and
    every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

/-- The reference each operation writes, in the operations' order. -/
abbrev ws : List (Ref sig .tc) :=
  [ main_v0, main_v1, main_cst, main_v2, main_v3, main_cst_0, main_v4, main_v5,
    main_v6, main_v7, main_v8, main_cst_1, main_v9, main_v10, main_cst_2, main_v11,
    main_v12, main_v13, main_v14, main_v15, main_cst_3, main_v16, main_v17, main_cst_4,
    main_v18, main_v19, main_v20, main_v21, main_v22, main_v23, main_v24, main_v25,
    main_v26, main_cst_5, main_v27, main_cst_6, main_v28, main_v29, main_c, main_call3_cst,
    main_call3_v0, main_call3_v1, main_call3_cst_0, main_call3_v2, main_call3_v3, main_call3_v4, main_call3_v5, main_call3_v6,
    main_call3_v7, main_call3_cst_1, main_call3_v8, main_call3_cst_2, main_call3_v9, main_call3_v10, main_call3_v11, main_call3_cst_3,
    main_call3_v12, main_call3_cst_4, main_call3_call0_v0, main_call3_call0_v1, main_v30, main_v31, main_v32, main_v33,
    main_cst_7, main_v34, main_v35, main_v36, main_v37, main_v38, main_v39, main_v40,
    main_v41, main_v42, main_v43, main_v44, main_v45, main_cst_8, main_v46, main_v47,
    main_cst_9, main_v48, main_v49, main_v50, main_v51, main_v52, main_v53, main_v54,
    main_call5_cst, main_call5_v0, main_call5_v1, main_call5_v2, main_call5_v3, main_call5_v4, main_call5_v5, main_call5_v6,
    main_call5_v7, main_call5_v8, main_call5_v9, main_call5_v10, main_call5_v11, main_v55, main_cst_10, main_cst_11,
    main_call6_v0, main_call6_v1, main_call6_v2, main_call6_v3, main_call6_v4, main_v56, main_v57, main_v58,
    main_v59, main_v60, main_v61, main_cst_12, main_cst_13, main_call7_v0, main_call7_v1, main_call7_v2,
    main_call7_v3, main_call7_v4, main_v62, main_v63, main_v64, main_v65, main_v66, main_v67,
    main_v68, main_v69, main_v70, main_cst_14, main_v71, main_v72, main_cst_15, main_v73,
    main_v74 ]

/-- The line is in single-assignment form: operation `k` writes exactly the `k`-th reference of `ws`. -/
theorem writesAre : Cert.Lib.AfterAssign.WritesAre (ops (F := F)) ws :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, trivial⟩

/-- The argument buffers end as they were launched: no operation of the line writes one. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c main_arg0).trans (Cert.Lib.AfterAssign.after_of_not_written writesAre _ (by decide)),
     (h c main_arg1).trans (Cert.Lib.AfterAssign.after_of_not_written writesAre _ (by decide)),
     (h c main_arg2).trans (Cert.Lib.AfterAssign.after_of_not_written writesAre _ (by decide)),
     (h c main_arg3).trans (Cert.Lib.AfterAssign.after_of_not_written writesAre _ (by decide)),
     (h c main_arg4).trans (Cert.Lib.AfterAssign.after_of_not_written writesAre _ (by decide)),
     (h c main_arg5).trans (Cert.Lib.AfterAssign.after_of_not_written writesAre _ (by decide)),
     (h c main_arg6).trans (Cert.Lib.AfterAssign.after_of_not_written writesAre _ (by decide)),
     (h c main_arg7).trans (Cert.Lib.AfterAssign.after_of_not_written writesAre _ (by decide)),
     (h c main_arg8).trans (Cert.Lib.AfterAssign.after_of_not_written writesAre _ (by decide)),
     (h c main_arg9).trans (Cert.Lib.AfterAssign.after_of_not_written writesAre _ (by decide)),
     (h c main_arg10).trans (Cert.Lib.AfterAssign.after_of_not_written writesAre _ (by decide)),
     (h c main_arg11).trans (Cert.Lib.AfterAssign.after_of_not_written writesAre _ (by decide)),
     (h c main_arg12).trans (Cert.Lib.AfterAssign.after_of_not_written writesAre _ (by decide)),
     (h c main_arg13).trans (Cert.Lib.AfterAssign.after_of_not_written writesAre _ (by decide)),
     (h c main_arg14).trans (Cert.Lib.AfterAssign.after_of_not_written writesAre _ (by decide))⟩)
    (run_main m ρ)

end Cert.ReferenceIdeal.Hand

end
-- ==== Proof.Ideal.Fold.lean ====
/-
  The host stretches' results, read off the fold of boundary contents: before the first call the two second-layer
  weights are laid side by side and the seven vectors are recast as one-row matrices; between the third and fourth calls
  mu and logvar are the left and right halves of ml, and the transpose of mu is taken.
-/
import proofs.«117800_g2173253451805_cont_8to1_1923_4_alg».proof.Proof.Gen.KernelIdeal.Launch
import proofs.«117800_g2173253451805_cont_8to1_1923_4_alg».proof.Proof.Gen.KernelIdeal.Skeleton
import proofs.«117800_g2173253451805_cont_8to1_1923_4_alg».proof.Proof.Gen.KernelIdeal.Points
import proofs.«117800_g2173253451805_cont_8to1_1923_4_alg».proof.Proof.Ideal.Run
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ) (ρ : Dev nD → PrngReg)

/-- The side-by-side weight. -/
theorem W1_v0 (c : Dev nD) : W1 m ρ c (Proc.devRef .tc main_v0)
    = concatenate S512x256 1 [⟨S512x128, W0 m ρ c (Proc.devRef .tc main_arg3)⟩, ⟨S512x128, W0 m ρ c (Proc.devRef .tc main_arg4)⟩] concatenates_S512x128_S512x128_S512x256_d1 := by
  show StableHlo.after hostOps0 (W0 m ρ c) (Proc.devRef .tc main_v0) = _
  after_results
  all_goals rfl
/-- Argument 6 as a one-row matrix. -/
theorem W1_v1 (c : Dev nD) : W1 m ρ c (Proc.devRef .tc main_v1) = shapeCast S1x512 (W0 m ρ c (Proc.devRef .tc main_arg6)) shapeCasts_S512_S1x512 := by
  show StableHlo.after hostOps0 (W0 m ρ c) (Proc.devRef .tc main_v1) = _
  after_results
  all_goals rfl
/-- Argument 7 as a one-row matrix. -/
theorem W1_v2 (c : Dev nD) : W1 m ρ c (Proc.devRef .tc main_v2) = shapeCast S1x512 (W0 m ρ c (Proc.devRef .tc main_arg7)) shapeCasts_S512_S1x512 := by
  show StableHlo.after hostOps0 (W0 m ρ c) (Proc.devRef .tc main_v2) = _
  after_results
  all_goals rfl
/-- Argument 8 as a one-row matrix. -/
theorem W1_v3 (c : Dev nD) : W1 m ρ c (Proc.devRef .tc main_v3) = shapeCast S1x512 (W0 m ρ c (Proc.devRef .tc main_arg8)) shapeCasts_S512_S1x512 := by
  show StableHlo.after hostOps0 (W0 m ρ c) (Proc.devRef .tc main_v3) = _
  after_results
  all_goals rfl
/-- Argument 10 as a one-row matrix. -/
theorem W1_v4 (c : Dev nD) : W1 m ρ c (Proc.devRef .tc main_v4) = shapeCast S1x2000 (W0 m ρ c (Proc.devRef .tc main_arg10)) shapeCasts_S2000_S1x2000 := by
  show StableHlo.after hostOps0 (W0 m ρ c) (Proc.devRef .tc main_v4) = _
  after_results
  all_goals rfl
/-- Argument 12 as a one-row matrix. -/
theorem W1_v5 (c : Dev nD) : W1 m ρ c (Proc.devRef .tc main_v5) = shapeCast S1x2000 (W0 m ρ c (Proc.devRef .tc main_arg12)) shapeCasts_S2000_S1x2000 := by
  show StableHlo.after hostOps0 (W0 m ρ c) (Proc.devRef .tc main_v5) = _
  after_results
  all_goals rfl
/-- Argument 13 as a one-row matrix. -/
theorem W1_v6 (c : Dev nD) : W1 m ρ c (Proc.devRef .tc main_v6) = shapeCast S1x2000 (W0 m ρ c (Proc.devRef .tc main_arg13)) shapeCasts_S2000_S1x2000 := by
  show StableHlo.after hostOps0 (W0 m ρ c) (Proc.devRef .tc main_v6) = _
  after_results
  all_goals rfl
/-- Argument 14 as a one-row matrix. -/
theorem W1_v7 (c : Dev nD) : W1 m ρ c (Proc.devRef .tc main_v7) = shapeCast S1x2000 (W0 m ρ c (Proc.devRef .tc main_arg14)) shapeCasts_S2000_S1x2000 := by
  show StableHlo.after hostOps0 (W0 m ρ c) (Proc.devRef .tc main_v7) = _
  after_results
  all_goals rfl

/-- mu: the left half of ml. -/
theorem W5_v11 (c : Dev nD) : W5 m ρ c (Proc.devRef .tc main_v11)
    = extractStridedSlice S4096x128 ![0, 0] (W4 m ρ c (Proc.devRef .tc main_v10_0)) slices_S4096x256_S4096x128_0_0 := by
  show StableHlo.after hostOps3 (W4 m ρ c) (Proc.devRef .tc main_v11) = _
  after_results
  all_goals rfl
/-- logvar: the right half of ml. -/
theorem W5_v12 (c : Dev nD) : W5 m ρ c (Proc.devRef .tc main_v12)
    = extractStridedSlice S4096x128 ![0, 128] (W4 m ρ c (Proc.devRef .tc main_v10_0)) slices_S4096x256_S4096x128_0_128 := by
  show StableHlo.after hostOps3 (W4 m ρ c) (Proc.devRef .tc main_v12) = _
  after_results
  all_goals rfl
/-- The transpose of mu. -/
theorem W5_v13 (c : Dev nD) : W5 m ρ c (Proc.devRef .tc main_v13)
    = transpose S128x4096 [1, 0] (extractStridedSlice S4096x128 ![0, 0] (W4 m ρ c (Proc.devRef .tc main_v10_0)) slices_S4096x256_S4096x128_0_0) transposes_S4096x128_S128x4096_1_0 := by
  show StableHlo.after hostOps3 (W4 m ρ c) (Proc.devRef .tc main_v13) = _
  after_results
  all_goals rfl

end Cert.KernelIdeal.Hand

end
-- ==== Proof.Ideal.Transport.lean ====
/-
  Buffers carried unchanged: a call leaves every array it does not write back as it found it (an input window's array by
  the pipeline's own account, any other buffer because the call never holds it), and a host stretch leaves every buffer it
  does not write. So what a later call, or the end, reads at such a buffer is what an earlier boundary held there.
-/
import proofs.«117800_g2173253451805_cont_8to1_1923_4_alg».proof.Proof.Gen.KernelIdeal.Launch
import proofs.«117800_g2173253451805_cont_8to1_1923_4_alg».proof.Proof.Gen.KernelIdeal.Skeleton
import proofs.«117800_g2173253451805_cont_8to1_1923_4_alg».proof.Proof.Gen.KernelIdeal.Points
import proofs.«117800_g2173253451805_cont_8to1_1923_4_alg».proof.Proof.Ideal.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ) (ρ : Dev nD → PrngReg)

theorem tr_arg0_W1_W0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := W1_of m ρ c main_arg0 (by decide)

theorem tr_arg2_W1_W0 (c : Dev nD) : W1 m ρ c (Proc.devRef .tc main_arg2) = W0 m ρ c (Proc.devRef .tc main_arg2) :=
  calc W1 m ρ c (Proc.devRef .tc main_arg2)
    _ = W0 m ρ c (Proc.devRef .tc main_arg2) := W1_of m ρ c main_arg2 (by decide)

theorem tr_arg1_W2_W0 (c : Dev nD) : W2 m ρ c (Proc.devRef .tc main_arg1) = W0 m ρ c (Proc.devRef .tc main_arg1) :=
  calc W2 m ρ c (Proc.devRef .tc main_arg1)
    _ = W1 m ρ c (Proc.devRef .tc main_arg1) := W2_of_ne m ρ c main_arg1 (by decide)
    _ = W0 m ρ c (Proc.devRef .tc main_arg1) := W1_of m ρ c main_arg1 (by decide)

theorem tr_v0_W2_W1 (c : Dev nD) : W2 m ρ c (Proc.devRef .tc main_v0) = W1 m ρ c (Proc.devRef .tc main_v0) :=
  calc W2 m ρ c (Proc.devRef .tc main_v0)
    _ = W1 m ρ c (Proc.devRef .tc main_v0) := W2_of_ne m ρ c main_v0 (by decide)

theorem tr_arg1_W3_W0 (c : Dev nD) : W3 m ρ c (Proc.devRef .tc main_arg1) = W0 m ρ c (Proc.devRef .tc main_arg1) :=
  calc W3 m ρ c (Proc.devRef .tc main_arg1)
    _ = W2 m ρ c (Proc.devRef .tc main_arg1) := W3_in m ρ c 0 rfl
    _ = W1 m ρ c (Proc.devRef .tc main_arg1) := W2_of_ne m ρ c main_arg1 (by decide)
    _ = W0 m ρ c (Proc.devRef .tc main_arg1) := W1_of m ρ c main_arg1 (by decide)

theorem tr_arg5_W3_W0 (c : Dev nD) : W3 m ρ c (Proc.devRef .tc main_arg5) = W0 m ρ c (Proc.devRef .tc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of m ρ c main_arg5 (by decide)

theorem tr_v1_W3_W1 (c : Dev nD) : W3 m ρ c (Proc.devRef .tc main_v1) = W1 m ρ c (Proc.devRef .tc main_v1) :=
  calc W3 m ρ c (Proc.devRef .tc main_v1)
    _ = W2 m ρ c (Proc.devRef .tc main_v1) := W3_of_ne m ρ c main_v1 (by decide)
    _ = W1 m ρ c (Proc.devRef .tc main_v1) := W2_of_ne m ρ c main_v1 (by decide)

theorem tr_v10_1_W6_W4 (c : Dev nD) : W6 m ρ c (Proc.devRef .tc main_v10_1) = W4 m ρ c (Proc.devRef .tc main_v10_1) :=
  calc W6 m ρ c (Proc.devRef .tc main_v10_1)
    _ = W5 m ρ c (Proc.devRef .tc main_v10_1) := W6_of_ne m ρ c main_v10_1 (by decide)
    _ = W4 m ρ c (Proc.devRef .tc main_v10_1) := W5_of m ρ c main_v10_1 (by decide)

theorem tr_v10_2_W6_W4 (c : Dev nD) : W6 m ρ c (Proc.devRef .tc main_v10_2) = W4 m ρ c (Proc.devRef .tc main_v10_2) :=
  calc W6 m ρ c (Proc.devRef .tc main_v10_2)
    _ = W5 m ρ c (Proc.devRef .tc main_v10_2) := W6_of_ne m ρ c main_v10_2 (by decide)
    _ = W4 m ρ c (Proc.devRef .tc main_v10_2) := W5_of m ρ c main_v10_2 (by decide)

theorem tr_v2_W6_W1 (c : Dev nD) : W6 m ρ c (Proc.devRef .tc main_v2) = W1 m ρ c (Proc.devRef .tc main_v2) :=
  calc W6 m ρ c (Proc.devRef .tc main_v2)
    _ = W5 m ρ c (Proc.devRef .tc main_v2) := W6_of_ne m ρ c main_v2 (by decide)
    _ = W4 m ρ c (Proc.devRef .tc main_v2) := W5_of m ρ c main_v2 (by decide)
    _ = W3 m ρ c (Proc.devRef .tc main_v2) := W4_of_ne m ρ c main_v2 (by decide)
    _ = W2 m ρ c (Proc.devRef .tc main_v2) := W3_of_ne m ρ c main_v2 (by decide)
    _ = W1 m ρ c (Proc.devRef .tc main_v2) := W2_of_ne m ρ c main_v2 (by decide)

theorem tr_v3_W6_W1 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := W5_of m ρ c main_v3 (by decide)
    _ = W3 m ρ c (Proc.devRef .tc main_v3) := W4_of_ne m ρ c main_v3 (by decide)
    _ = W2 m ρ c (Proc.devRef .tc main_v3) := W3_of_ne m ρ c main_v3 (by decide)
    _ = W1 m ρ c (Proc.devRef .tc main_v3) := W2_of_ne m ρ c main_v3 (by decide)

theorem tr_v4_W6_W1 (c : Dev nD) : W6 m ρ c (Proc.devRef .tc main_v4) = W1 m ρ c (Proc.devRef .tc main_v4) :=
  calc W6 m ρ c (Proc.devRef .tc main_v4)
    _ = W5 m ρ c (Proc.devRef .tc main_v4) := W6_of_ne m ρ c main_v4 (by decide)
    _ = W4 m ρ c (Proc.devRef .tc main_v4) := W5_of m ρ c main_v4 (by decide)
    _ = W3 m ρ c (Proc.devRef .tc main_v4) := W4_of_ne m ρ c main_v4 (by decide)
    _ = W2 m ρ c (Proc.devRef .tc main_v4) := W3_of_ne m ρ c main_v4 (by decide)
    _ = W1 m ρ c (Proc.devRef .tc main_v4) := W2_of_ne m ρ c main_v4 (by decide)

theorem tr_v5_W6_W1 (c : Dev nD) : W6 m ρ c (Proc.devRef .tc main_v5) = W1 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := W5_of m ρ c main_v5 (by decide)
    _ = W3 m ρ c (Proc.devRef .tc main_v5) := W4_of_ne m ρ c main_v5 (by decide)
    _ = W2 m ρ c (Proc.devRef .tc main_v5) := W3_of_ne m ρ c main_v5 (by decide)
    _ = W1 m ρ c (Proc.devRef .tc main_v5) := W2_of_ne m ρ c main_v5 (by decide)

theorem tr_v6_W6_W1 (c : Dev nD) : W6 m ρ c (Proc.devRef .tc main_v6) = W1 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := W5_of m ρ c main_v6 (by decide)
    _ = W3 m ρ c (Proc.devRef .tc main_v6) := W4_of_ne m ρ c main_v6 (by decide)
    _ = W2 m ρ c (Proc.devRef .tc main_v6) := W3_of_ne m ρ c main_v6 (by decide)
    _ = W1 m ρ c (Proc.devRef .tc main_v6) := W2_of_ne m ρ c main_v6 (by decide)

theorem tr_v7_W6_W1 (c : Dev nD) : W6 m ρ c (Proc.devRef .tc main_v7) = W1 m ρ c (Proc.devRef .tc main_v7) :=
  calc W6 m ρ c (Proc.devRef .tc main_v7)
    _ = W5 m ρ c (Proc.devRef .tc main_v7) := W6_of_ne m ρ c main_v7 (by decide)
    _ = W4 m ρ c (Proc.devRef .tc main_v7) := W5_of m ρ c main_v7 (by decide)
    _ = W3 m ρ c (Proc.devRef .tc main_v7) := W4_of_ne m ρ c main_v7 (by decide)
    _ = W2 m ρ c (Proc.devRef .tc main_v7) := W3_of_ne m ρ c main_v7 (by decide)
    _ = W1 m ρ c (Proc.devRef .tc main_v7) := W2_of_ne m ρ c main_v7 (by decide)

theorem tr_arg9_W6_W0 (c : Dev nD) : W6 m ρ c (Proc.devRef .tc main_arg9) = W0 m ρ c (Proc.devRef .tc main_arg9) :=
  calc W6 m ρ c (Proc.devRef .tc main_arg9)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := W1_of m ρ c main_arg9 (by decide)

theorem tr_arg11_W6_W0 (c : Dev nD) : W6 m ρ c (Proc.devRef .tc main_arg11) = W0 m ρ c (Proc.devRef .tc main_arg11) :=
  calc W6 m ρ c (Proc.devRef .tc main_arg11)
    _ = W5 m ρ c (Proc.devRef .tc main_arg11) := W6_of_ne m ρ c main_arg11 (by decide)
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := W1_of m ρ c main_arg11 (by decide)

theorem tr_v14_W7_W6 (c : Dev nD) : W7 m ρ c (Proc.devRef .tc main_v14) = W6 m ρ c (Proc.devRef .tc main_v14) :=
  calc W7 m ρ c (Proc.devRef .tc main_v14)
    _ = W6 m ρ c (Proc.devRef .tc main_v14) := W7_of_ne m ρ c main_v14 (by decide)

theorem tr_v11_W7_W5 (c : Dev nD) : W7 m ρ c (Proc.devRef .tc main_v11) = W5 m ρ c (Proc.devRef .tc main_v11) :=
  calc W7 m ρ c (Proc.devRef .tc main_v11)
    _ = W6 m ρ c (Proc.devRef .tc main_v11) := W7_of_ne m ρ c main_v11 (by decide)
    _ = W5 m ρ c (Proc.devRef .tc main_v11) := W6_in m ρ c 0 rfl

theorem tr_v12_W7_W5 (c : Dev nD) : W7 m ρ c (Proc.devRef .tc main_v12) = W5 m ρ c (Proc.devRef .tc main_v12) :=
  calc W7 m ρ c (Proc.devRef .tc main_v12)
    _ = W6 m ρ c (Proc.devRef .tc main_v12) := W7_of_ne m ρ c main_v12 (by decide)
    _ = W5 m ρ c (Proc.devRef .tc main_v12) := W6_of_ne m ρ c main_v12 (by decide)

end Cert.KernelIdeal.Hand

end
-- ==== Proof.Spec.lean ====
/-
  The few scalar functions and constants in which both programs' results are stated, on the extended reals.
  The float literals are kept as the words the programs print; the same word on both sides is never evaluated.
-/
import Idealize.ShloMosaic.PureOps.Ideal
import Idealize.ShloMosaic.PureOps.Ideal.Laws
import Idealize.ShloMosaic.Lib.ValueIdx

noncomputable section

namespace Cert.Spec

open Idealize.ShloMosaic

/-- The word of +0.0. -/
def z : EReal := Ideal.ofBits .f32 0x00000000#32
/-- The word the programs print for the slope 0.01 of the leaky unit. -/
def slope : EReal := Ideal.ofBits .f32 0x3C23D70A#32
/-- The word printed for 1e-5 (the variance's epsilon, and the clamps' lower bound). -/
def eps : EReal := Ideal.ofBits .f32 0x3727C5AC#32
/-- The word printed for 1e6 (the clamps' upper bound). -/
def big : EReal := Ideal.ofBits .f32 0x49742400#32
/-- The word printed for 4096.0 (the number of rows). -/
def rows : EReal := Ideal.ofBits .f32 0x45800000#32
/-- The word printed for 1.0. -/
def one : EReal := Ideal.ofBits .f32 0x3F800000#32

/-- The leaky unit: v where v > 0, else slope · v — as both programs spell it (a select on an ordered comparison). -/
def lk (v : EReal) : EReal := Scalar.select (FloatOps.cmpf (F := Ideal) (φ := .f32) .ogt v z) v (slope * v)

/-- The clamp to [eps, big] as both programs spell it. -/
def clamp (v : EReal) : EReal := min big (max eps v)

/-- |y| as the library reads absf: max y (−y). -/
def abs (y : EReal) : EReal := max y (-y)

end Cert.Spec

end
-- ==== Proof.LibPlainDot.lean ====
/-
  A matrix product whose dimension numbers are the plain ones — rows by one contracted axis times that axis by
  columns, no batch axis — read at an output index (r, c): the sum over the contracted coordinate k of
  left (r, k) times right (k, c). Stated for any dimension record with those axis lists, so that a kernel's
  tile product and a host's whole product are both this one sum over `Fin K`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The contraction sum of a plain product is the sum over the one contracted coordinate. -/
theorem contr_sum (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have h1 : d.lhsContracting = [1] := by rw [← hd]
  have h2 : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ =>
      subst hd
      unfold DotDims.lhsIdx
      rw [dif_neg (by exact List.not_mem_nil), dif_pos (by exact List.mem_singleton.mpr rfl)]
      rfl
    | ⟨1, _⟩ => exact (d.lhsIdx_val_of_single h1 j _).trans hk)
  have er : d.rhsIdx j ((contrEquiv1 d K hr hs).symm k) = ix2 k (j 1) := funext fun a => Fin.ext (by
    match a with
    | ⟨0, _⟩ => exact (d.rhsIdx_val_of_single h2 j _).trans hk
    | ⟨1, _⟩ =>
      subst hd
      unfold DotDims.rhsIdx
      rw [dif_neg (by exact List.not_mem_nil), dif_pos (by exact List.mem_singleton.mpr rfl)]
      rfl)
  exact congrArg₂ (· * ·) (congrArg l el) (congrArg r er)

/-- A host product with plain dimension numbers, at the exact reals, read at an index. -/
theorem dotGeneral_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (contr_sum d h1 h2 h3 h4 h5 h6 l r j)

/-- A tile product into the zero accumulator with plain dimension numbers, at the exact reals, read at an index. -/
theorem matmul_zero_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 k (j 1)) :=
  (Ideal.matmul_constant_zero_apply d prec l r j).trans (contr_sum d h1 h2 h3 h4 h5 h6 l r j)

end Idealize.ShloMosaic.PlainDot

end
-- ==== Proof.Ideal.Value0.lean ====
/-
  The first call's result array, index by index: the product x · w, each entry the sum over the 2000
  contracted coordinates of x (row, k) · w (k, column), as one function of the two argument arrays the call finds.
  Point t of the grid writes rows 512 t … 512 t + 511; its x block is those rows of x, its weight block the whole
  weight; the eight blocks cover the array.
-/
import proofs.«117800_g2173253451805_cont_8to1_1923_4_alg».proof.Proof.Ideal.Region0
import proofs.«117800_g2173253451805_cont_8to1_1923_4_alg».proof.Proof.Spec
import proofs.«117800_g2173253451805_cont_8to1_1923_4_alg».proof.Proof.LibPlainDot
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal Cert.KernelIdeal.Gen Cert.KernelIdeal.Hand Idealize.ShloMosaic.ValueIdx
open Idealize.ShloMosaic.PlainDot

-- the TensorCore's buffer contents when the call is entered
variable (V : (c : Dev nD) → (b : Ref sig .tc) → Buf (Elt Ideal) ((c : Thread nD τ).loc b))

/-- The product of the whole arrays, read at an index. -/
def prod0 (x : FVec Ideal S4096x2000 .f32) (w : FVec Ideal S2000x512 .f32) : FVec Ideal S4096x512 .f32 :=
  fun i => ∑ k : Fin 2000, x (ix2 (i 0) k) * w (ix2 k (i 1))

theorem hz0 : (![0, 0] : Fin 2 → Nat) = fun _ => 0 := funext fun a => by fin_cases a <;> rfl

/-- The body's payload read at an index: the tile product of the two loaded blocks (the changes of float format are
    the identity on the extended reals, the accumulator is the zero constant). -/
theorem pay0_apply (x0 : Vec Ideal S512x2000 .f32) (x1 : Vec Ideal S2000x512 .f32) (j : S512x512.Idx) :
    k0_pay1 x0 x1 j = ∑ k : Fin 2000, x0 (ix2 (j 0) k) * x1 (ix2 k (j 1)) := by
  unfold k0_pay1
  exact matmul_zero_plain dot_S512x2000_S2000x512_S512x512_1_0_0_1_n_n rfl rfl rfl rfl rfl rfl none _ _ j

/-- The printed index maps, decided over the grid: the x window moves with the output window along the rows, the weight
    window stays at block (0, 0), and the output's row block index is below 8. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every row block of the output is some point's. -/
theorem idx_onto0 : ∀ q0 : Fin 8, ∃ t : Fin cfg0.N, win0_2.index t = ![q0.val, 0] :=
  (by decide +kernel : ∀ q0 : Fin 8, ∃ t : Fin grid0.N, win0_2.index t = ![q0.val, 0])

/-- An entry of the x window's block at point t is the entry of x at block index × block size + the coordinate
    inside the block, per axis. -/
theorem iblk0_0_apply (c : Dev nD) (t : Fin cfg0.N) (x : S512x2000.Idx) (i : S4096x2000.Idx)
    (h0 : (i 0).val = win0_0.index t (0 : Fin 2) * 512 + 1 * (x 0).val)
    (h1 : (i 1).val = win0_0.index t (1 : Fin 2) * 2000 + 1 * (x 1).val) :
    (iblk0 V c 0 t : Vec Ideal S512x2000 .f32) x = (V c main_arg0 : FVec Ideal S4096x2000 .f32) i := by
  unfold iblk0
  rw [View.read_apply]
  show V c main_arg0 _ = V c main_arg0 _
  congr 1
  funext a
  apply Fin.ext
  match a with
  | ⟨0, _⟩ => exact h0.symm
  | ⟨1, _⟩ => exact h1.symm

/-- The same for the weight window. -/
theorem iblk0_1_apply (c : Dev nD) (t : Fin cfg0.N) (x : S2000x512.Idx) (i : S2000x512.Idx)
    (h0 : (i 0).val = win0_1.index t (0 : Fin 2) * 2000 + 1 * (x 0).val)
    (h1 : (i 1).val = win0_1.index t (1 : Fin 2) * 512 + 1 * (x 1).val) :
    (iblk0 V c 1 t : Vec Ideal S2000x512 .f32) x = (V c main_arg2 : FVec Ideal S2000x512 .f32) i := by
  unfold iblk0
  rw [View.read_apply]
  show V c main_arg2 _ = V c main_arg2 _
  congr 1
  funext a
  apply Fin.ext
  match a with
  | ⟨0, _⟩ => exact h0.symm
  | ⟨1, _⟩ => exact h1.symm

/-- What point t writes back is block t of the product of the arrays as the call finds them. -/
theorem flushed0_2_eq (c : Dev nD) (t : Fin cfg0.N) :
    (dat0 V c).flushed 2 t = ((cfg0.win 2).blk t).view.read (Elt Ideal) (prod0 (V c main_arg0) (V c main_arg2)) := by
  show (cfg0.win 2).cut (grid0.coords t) ((dat0 V c).after 2 t) = _
  rw [after0_2]
  unfold out0_2
  rw [View.canon_unit_zero hz0]
  simp only [View.ld_unit_zero (S := S512x2000) hz0, View.ld_unit_zero (S := S2000x512) hz0]
  obtain ⟨e0, e1, e2, e3, e4, e5⟩ := idx_facts0 t
  funext j
  show k0_pay1 (iblk0 V c 0 t) (iblk0 V c 1 t) j = prod0 (V c main_arg0) (V c main_arg2) (((cfg0.win 2).blk t).view.emb j)
  refine (pay0_apply (iblk0 V c 0 t) (iblk0 V c 1 t) j).trans ?_
  unfold prod0
  refine Finset.sum_congr rfl fun k _ => ?_
  refine congrArg₂ (· * ·) (iblk0_0_apply V c t _ _ ?_ ?_) (iblk0_1_apply V c t _ _ ?_ ?_)
  · show win0_2.index t (0 : Fin 2) * 512 + 1 * (j 0).val = win0_0.index t (0 : Fin 2) * 512 + 1 * (j 0).val
    omega
  · show k.val = win0_0.index t (1 : Fin 2) * 2000 + 1 * k.val
    omega
  · show k.val = win0_1.index t (0 : Fin 2) * 2000 + 1 * k.val
    omega
  · show win0_2.index t (1 : Fin 2) * 512 + 1 * (j 1).val = win0_1.index t (1 : Fin 2) * 512 + 1 * (j 1).val
    omega

/-- An index of the array is in point t's block iff each coordinate is in the block's range on its axis. -/
theorem mem_blk0_2 (t : Fin cfg0.N) (i : S4096x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v8).slice (win0_2.rect t)).set ↔ _
  rw [View.set_slice_whole, Rect.mem_set_unit]
  exact Iff.rfl

/-- Every index of the array is in some point's block: the one whose row block holds the index's row. -/
theorem covered0_2 (i : S4096x512.Idx) :
    ∃ t : Fin cfg0.N, (cfg0.win 2).flush t = true ∧ i ∈ ((cfg0.win 2).blk t).view.set := by
  have hi0 : (i 0).val < 4096 := (i 0).isLt
  have hi1 : (i 1).val < 512 := (i 1).isLt
  obtain ⟨t, ht⟩ := idx_onto0 ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk0_2]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- The array after the call is the product of the two arrays the call finds. -/
theorem final0_2 (c : Dev nD) : (dat0 V c).arrAt 2 cfg0.N = prod0 (V c main_arg0) (V c main_arg2) :=
  (dat0 V c).arrAt_eq_of_cover 2 (prod0 (V c main_arg0) (V c main_arg2)) (fun t _ => flushed0_2_eq V c t) covered0_2

end Cert.KernelIdeal.Hand

end
-- ==== Proof.Ideal.Value1.lean ====
/-
  The second call's result array, index by index: the leaky unit of adj · xw, times the side-by-side weight wg —
  each entry the sum over the 512 hidden coordinates l of lk (∑ k, adj (row, k) · xw (k, l)) · wg (l, column) —
  as one function of the three arrays the call finds.
  Point t of the grid writes rows 512 t … 512 t + 511; its adj block is those rows of adj, its other two blocks
  are the whole of xw and of wg; the eight blocks cover the array.
-/
import proofs.«117800_g2173253451805_cont_8to1_1923_4_alg».proof.Proof.Ideal.Region1
import proofs.«117800_g2173253451805_cont_8to1_1923_4_alg».proof.Proof.Spec
import proofs.«117800_g2173253451805_cont_8to1_1923_4_alg».proof.Proof.LibPlainDot
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal Cert.KernelIdeal.Gen Cert.KernelIdeal.Hand Idealize.ShloMosaic.ValueIdx
open Idealize.ShloMosaic.PlainDot

-- the TensorCore's buffer contents when the call is entered
variable (V : (c : Dev nD) → (b : Ref sig .tc) → Buf (Elt Ideal) ((c : Thread nD τ).loc b))

/-- The leaky product of the whole arrays, read at an index. -/
def prod1 (adj : FVec Ideal S4096x4096 .f32) (xw : FVec Ideal S4096x512 .f32) (wg : FVec Ideal S512x256 .f32) : FVec Ideal S4096x256 .f32 :=
  fun i => ∑ l : Fin 512, Cert.Spec.lk (∑ k : Fin 4096, adj (ix2 (i 0) k) * xw (ix2 k l)) * wg (ix2 l (i 1))

theorem hz1 : (![0, 0] : Fin 2 → Nat) = fun _ => 0 := funext fun a => by fin_cases a <;> rfl

/-- The leaky unit as the body spells it on a vector — a select on the ordered comparison with the broadcast zero word,
    between the vector and the broadcast slope word times the vector — read at an index. -/
theorem lk_vec_apply {s : Shape} (v : FVec Ideal s .f32) (i : s.Idx) :
    (select (cmpf .ogt v (broadcast s (Scalar.ofBits (F := Ideal) .f32 0x00000000#32))) v
      (mulf (broadcast s (Scalar.ofBits (F := Ideal) .f32 0x3C23D70A#32)) v)) i = Cert.Spec.lk (v i) := rfl

/-- The body's payload read at an index: the tile product of the leaky unit of the first tile product with the third
    block (casts of a shape to itself and the changes of float format are the identity, both accumulators the zero
    constant). -/
theorem pay1_apply (x0 : Vec Ideal S512x4096 .f32) (x1 : Vec Ideal S4096x512 .f32) (x2 : Vec Ideal S512x256 .f32) (j : S512x256.Idx) :
    k1_pay1 x0 x1 x2 j = ∑ l : Fin 512, Cert.Spec.lk (∑ k : Fin 4096, x0 (ix2 (j 0) k) * x1 (ix2 k l)) * x2 (ix2 l (j 1)) := by
  unfold k1_pay1
  simp only [shapeCast_self]
  refine (matmul_zero_plain dot_S512x512_S512x256_S512x256_1_0_0_1_n_n rfl rfl rfl rfl rfl rfl none _ _ j).trans ?_
  refine Finset.sum_congr rfl fun l _ => ?_
  refine congrArg₂ (· * ·) ?_ rfl
  refine (lk_vec_apply _ (ix2 (j 0) l)).trans ?_
  exact congrArg Cert.Spec.lk (matmul_zero_plain dot_S512x4096_S4096x512_S512x512_1_0_0_1_n_n rfl rfl rfl rfl rfl rfl none _ _ (ix2 (j 0) l))

/-- The printed index maps, decided over the grid: the adj window moves with the output window along the rows, the
    other two input windows stay at block (0, 0), and the output's row block index is below 8. -/
theorem idx_facts1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 7 :=
  (by decide +kernel : ∀ t : Fin grid1.N, _)

/-- Every row block of the output is some point's. -/
theorem idx_onto1 : ∀ q0 : Fin 8, ∃ t : Fin cfg1.N, win1_3.index t = ![q0.val, 0] :=
  (by decide +kernel : ∀ q0 : Fin 8, ∃ t : Fin grid1.N, win1_3.index t = ![q0.val, 0])

/-- An entry of the adj window's block at point t is the entry of adj at block index × block size + the coordinate
    inside the block, per axis. -/
theorem iblk1_0_apply (c : Dev nD) (t : Fin cfg1.N) (x : S512x4096.Idx) (i : S4096x4096.Idx)
    (h0 : (i 0).val = win1_0.index t (0 : Fin 2) * 512 + 1 * (x 0).val)
    (h1 : (i 1).val = win1_0.index t (1 : Fin 2) * 4096 + 1 * (x 1).val) :
    (iblk1 V c 0 t : Vec Ideal S512x4096 .f32) x = (V c main_arg1 : FVec Ideal S4096x4096 .f32) i := by
  unfold iblk1
  rw [View.read_apply]
  show V c main_arg1 _ = V c main_arg1 _
  congr 1
  funext a
  apply Fin.ext
  match a with
  | ⟨0, _⟩ => exact h0.symm
  | ⟨1, _⟩ => exact h1.symm

/-- The same for the xw window. -/
theorem iblk1_1_apply (c : Dev nD) (t : Fin cfg1.N) (x : S4096x512.Idx) (i : S4096x512.Idx)
    (h0 : (i 0).val = win1_1.index t (0 : Fin 2) * 4096 + 1 * (x 0).val)
    (h1 : (i 1).val = win1_1.index t (1 : Fin 2) * 512 + 1 * (x 1).val) :
    (iblk1 V c 1 t : Vec Ideal S4096x512 .f32) x = (V c main_v8 : FVec Ideal S4096x512 .f32) i := by
  unfold iblk1
  rw [View.read_apply]
  show V c main_v8 _ = V c main_v8 _
  congr 1
  funext a
  apply Fin.ext
  match a with
  | ⟨0, _⟩ => exact h0.symm
  | ⟨1, _⟩ => exact h1.symm

/-- The same for the weight window. -/
theorem iblk1_2_apply (c : Dev nD) (t : Fin cfg1.N) (x : S512x256.Idx) (i : S512x256.Idx)
    (h0 : (i 0).val = win1_2.index t (0 : Fin 2) * 512 + 1 * (x 0).val)
    (h1 : (i 1).val = win1_2.index t (1 : Fin 2) * 256 + 1 * (x 1).val) :
    (iblk1 V c 2 t : Vec Ideal S512x256 .f32) x = (V c main_v0 : FVec Ideal S512x256 .f32) i := by
  unfold iblk1
  rw [View.read_apply]
  show V c main_v0 _ = V c main_v0 _
  congr 1
  funext a
  apply Fin.ext
  match a with
  | ⟨0, _⟩ => exact h0.symm
  | ⟨1, _⟩ => exact h1.symm

/-- What point t writes back is block t of the leaky product of the arrays as the call finds them. -/
theorem flushed1_3_eq (c : Dev nD) (t : Fin cfg1.N) :
    (dat1 V c).flushed 3 t = ((cfg1.win 3).blk t).view.read (Elt Ideal) (prod1 (V c main_arg1) (V c main_v8) (V c main_v0)) := by
  show (cfg1.win 3).cut (grid1.coords t) ((dat1 V c).after 3 t) = _
  rw [after1_3]
  unfold out1_3
  rw [View.canon_unit_zero hz1]
  simp only [View.ld_unit_zero (S := S512x4096) hz1, View.ld_unit_zero (S := S4096x512) hz1, View.ld_unit_zero (S := S512x256) hz1]
  obtain ⟨e0, e1, e2, e3, e4, e5, e6, e7⟩ := idx_facts1 t
  funext j
  show k1_pay1 (iblk1 V c 0 t) (iblk1 V c 1 t) (iblk1 V c 2 t) j
    = prod1 (V c main_arg1) (V c main_v8) (V c main_v0) (((cfg1.win 3).blk t).view.emb j)
  refine (pay1_apply (iblk1 V c 0 t) (iblk1 V c 1 t) (iblk1 V c 2 t) j).trans ?_
  unfold prod1
  refine Finset.sum_congr rfl fun l _ => ?_
  refine congrArg₂ (· * ·) (congrArg Cert.Spec.lk (Finset.sum_congr rfl fun k _ =>
    congrArg₂ (· * ·) (iblk1_0_apply V c t _ _ ?_ ?_) (iblk1_1_apply V c t _ _ ?_ ?_))) (iblk1_2_apply V c t _ _ ?_ ?_)
  · show win1_3.index t (0 : Fin 2) * 512 + 1 * (j 0).val = win1_0.index t (0 : Fin 2) * 512 + 1 * (j 0).val
    omega
  · show k.val = win1_0.index t (1 : Fin 2) * 4096 + 1 * k.val
    omega
  · show k.val = win1_1.index t (0 : Fin 2) * 4096 + 1 * k.val
    omega
  · show l.val = win1_1.index t (1 : Fin 2) * 512 + 1 * l.val
    omega
  · show l.val = win1_2.index t (0 : Fin 2) * 512 + 1 * l.val
    omega
  · show win1_3.index t (1 : Fin 2) * 256 + 1 * (j 1).val = win1_2.index t (1 : Fin 2) * 256 + 1 * (j 1).val
    omega

/-- An index of the array is in point t's block iff each coordinate is in the block's range on its axis. -/
theorem mem_blk1_3 (t : Fin cfg1.N) (i : S4096x256.Idx) :
    i ∈ ((cfg1.win 3).blk t).view.set ↔ ∀ a : Fin 2, win1_3.index t a * S512x256.size a ≤ (i a).val ∧ (i a).val < win1_3.index t a * S512x256.size a + S512x256.size a := by
  show i ∈ ((View.whole main_v9).slice (win1_3.rect t)).set ↔ _
  rw [View.set_slice_whole, Rect.mem_set_unit]
  exact Iff.rfl

/-- Every index of the array is in some point's block: the one whose row block holds the index's row. -/
theorem covered1_3 (i : S4096x256.Idx) :
    ∃ t : Fin cfg1.N, (cfg1.win 3).flush t = true ∧ i ∈ ((cfg1.win 3).blk t).view.set := by
  have hi0 : (i 0).val < 4096 := (i 0).isLt
  have hi1 : (i 1).val < 256 := (i 1).isLt
  obtain ⟨t, ht⟩ := idx_onto1 ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_blk1_3]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 256 ≤ (i 1).val ∧ (i 1).val < win1_3.index t (1 : Fin 2) * 256 + 256; omega

/-- The array after the call is the leaky product of the three arrays the call finds. -/
theorem final1_3 (c : Dev nD) : (dat1 V c).arrAt 3 cfg1.N = prod1 (V c main_arg1) (V c main_v8) (V c main_v0) :=
  (dat1 V c).arrAt_eq_of_cover 3 (prod1 (V c main_arg1) (V c main_v8) (V c main_v0)) (fun t _ => flushed1_3_eq V c t) covered1_3

end Cert.KernelIdeal.Hand

end
-- ==== Proof.LibAxisFolds.lean ====
/-
  Sums and maxima of a two-axis array of extended reals along one of its axes, read at an index, and the one entry
  of a one-by-one array. Every float operation is the exact one; the extents are variables, only the ranks and the
  axis lists are literal.

  * `colSum_apply`: the sum of an a-by-b array along its first axis, read at column c, is the sum over k < a of
    the entries (k, c); the accumulator word is the sum's neutral element and contributes nothing.
  * `rowMax_apply`: the maximum of an a-by-b array along its second axis, read at row r, is the fold of max, from
    the value the accumulator word denotes, over the entries (r, k), k < b.
  * `colMax_apply`: the maximum along the first axis, read at column c, is the same fold over the entries (k, c),
    k < a.
  * `extractAt_00`: the element extracted at position (0, 0) of a one-by-one array is its entry (0, 0).
-/
import Idealize.ShloMosaic.Lib.ValueIdx
import Idealize.ShloMosaic.PureOps.Ideal.Laws

noncomputable section

open scoped BigOperators

namespace Cert.LibAxisFolds

open Idealize.ShloMosaic Idealize.ShloMosaic.ValueIdx

/-- The sum of an `[a, b]` array along its first axis, read at column `c`: the sum over that column. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => congrArg src ?_
  funext ax; apply Fin.ext
  match ax with
  | ⟨0, _⟩ => rfl
  | ⟨1, _⟩ => rfl

/-- The maximum of an `[a, b]` array along its second axis, read at row `r`: the maximum over that row, from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine Finset.fold_congr fun k _ => congrArg src ?_
  funext ax; apply Fin.ext
  match ax with
  | ⟨0, _⟩ => rfl
  | ⟨1, _⟩ => rfl

/-- The maximum of an `[a, b]` array along its first axis, read at column `c`. -/
theorem colMax_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine Finset.fold_congr fun k _ => congrArg src ?_
  funext ax; apply Fin.ext
  match ax with
  | ⟨0, _⟩ => rfl
  | ⟨1, _⟩ => rfl

/-- The one entry of a `[1, 1]` array, extracted at position (0, 0). -/
theorem extractAt_00 {α : Type} (v : (⟨2, ![1, 1]⟩ : Shape).Idx → α)
    (h : ∀ a, (![0, 0] : Fin 2 → Nat) a < (⟨2, ![1, 1]⟩ : Shape).size a) :
    extractAt ![0, 0] v h = v (ix2 (0 : Fin 1) (0 : Fin 1)) :=
  congrArg v (funext fun a => Fin.ext (by match a with | ⟨0, _⟩ => rfl | ⟨1, _⟩ => rfl))

end Cert.LibAxisFolds

end
-- ==== Proof.Ideal.Value2ml.lean ====
/-
  The third pallas_call's first result. After the call the array ml holds the leaky unit of adj · t, index by index:
  point t of the grid writes back rows 512·t … 512·t + 511, each entry the leaky unit of a row of the adj block
  against a column of t, and the eight blocks cover the array.
-/
import proofs.«117800_g2173253451805_cont_8to1_1923_4_alg».proof.Proof.Ideal.Region2
import proofs.«117800_g2173253451805_cont_8to1_1923_4_alg».proof.Proof.Spec
import proofs.«117800_g2173253451805_cont_8to1_1923_4_alg».proof.Proof.LibPlainDot
import proofs.«117800_g2173253451805_cont_8to1_1923_4_alg».proof.Proof.LibAxisFolds
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adj, ml and h blocks move with the point, every other block stays at the origin. -/
theorem idx2 : ∀ t : Fin cfg2.N,
    win2_0.index t (0 : Fin 2) = t.val ∧ win2_0.index t (1 : Fin 2) = 0
  ∧ win2_1.index t (0 : Fin 2) = 0 ∧ win2_1.index t (1 : Fin 2) = 0
  ∧ win2_2.index t (0 : Fin 2) = 0 ∧ win2_2.index t (1 : Fin 2) = 0
  ∧ win2_3.index t (0 : Fin 2) = 0 ∧ win2_3.index t (1 : Fin 2) = 0
  ∧ win2_4.index t (0 : Fin 2) = t.val ∧ win2_4.index t (1 : Fin 2) = 0
  ∧ win2_5.index t (0 : Fin 2) = t.val ∧ win2_5.index t (1 : Fin 2) = 0
  ∧ win2_6.index t (0 : Fin 2) = 0 ∧ win2_6.index t (1 : Fin 2) = 0 :=
  (by decide +kernel : ∀ t : Fin grid2.N, _)

/-- The product inside the ml payload, read at an index. -/
theorem pay2_prod (x0 : Vec Ideal S512x4096 .f32) (x1 : Vec Ideal S4096x256 .f32) (j : S512x256.Idx) :
    matmul dot_S512x4096_S4096x256_S512x256_1_0_0_1_n_n none (truncf .bf16 x0 bitsLt_bf16_f32)
      (truncf .bf16 (shapeCast S4096x256 x1 shapeCasts_S4096x256_S4096x256) bitsLt_bf16_f32) (constant (F := Ideal) S512x256 .f32 0x00000000#32) j
      = ∑ k : Fin 4096, x0 (ix2 (j 0) k) * x1 (ix2 k (j 1)) := by
  rw [shapeCast_self]
  exact PlainDot.matmul_zero_plain _ rfl rfl rfl rfl rfl rfl none _ _ j

/-- The ml payload at an index: the leaky unit of a row of the adj block against a column of t. -/
theorem pay2_apply (x0 : Vec Ideal S512x4096 .f32) (x1 : Vec Ideal S4096x256 .f32) (p : Fin 512) (q : Fin 256) :
    k2_pay2 x0 x1 (ix2 p q) = lk (∑ k : Fin 4096, x0 (ix2 p k) * x1 (ix2 k q)) := by
  unfold k2_pay2 lk
  simp only [select_apply, cmpf_apply, mulf_apply, broadcast_apply, pay2_prod]
  rfl

/-- ml as one function of adj and t: the leaky unit of their product. -/
def mlK (adj : FVec Ideal S4096x4096 .f32) (tt : FVec Ideal S4096x256 .f32) : FVec Ideal S4096x256 .f32 :=
  fun i => lk (∑ k : Fin 4096, adj (ix2 (i 0) k) * tt (ix2 k (i 1)))

/-- An entry of the adj block at point t is the entry of adj 512·t rows further down. -/
theorem adj_blk (c : Dev nD) (t : Fin cfg2.N) (p : Fin 512) (k : Fin 4096) (r : Fin 4096) (hr : r.val = t.val * 512 + p.val) :
    iblk2 V c 0 t (ix2 p k) = V c main_arg1 (ix2 r k) := by
  show V c main_arg1 (((cfg2.win 0).blk t).view.emb (ix2 p k)) = V c main_arg1 (ix2 r k)
  refine congrArg _ (funext fun a => Fin.ext ?_)
  obtain ⟨e0, e1, -⟩ := idx2 t
  match a with
  | ⟨0, _⟩ => show win2_0.index t (0 : Fin 2) * 512 + 1 * p.val = r.val; omega
  | ⟨1, _⟩ => show win2_0.index t (1 : Fin 2) * 4096 + 1 * k.val = k.val; omega

/-- The t block is all of t. -/
theorem t_blk (c : Dev nD) (t : Fin cfg2.N) (k : Fin 4096) (q q' : Fin 256) (hq : q'.val = q.val) :
    iblk2 V c 1 t (ix2 k q) = V c main_v9 (ix2 k q') := by
  show V c main_v9 (((cfg2.win 1).blk t).view.emb (ix2 k q)) = V c main_v9 (ix2 k q')
  refine congrArg _ (funext fun a => Fin.ext ?_)
  obtain ⟨-, -, e2, e3, -⟩ := idx2 t
  match a with
  | ⟨0, _⟩ => show win2_1.index t (0 : Fin 2) * 4096 + 1 * k.val = k.val; omega
  | ⟨1, _⟩ => show win2_1.index t (1 : Fin 2) * 256 + 1 * q.val = q'.val; omega

/-- What point t writes back into ml is block t of mlK. -/
theorem flushed2_4 (c : Dev nD) (t : Fin cfg2.N) :
    (dat2 V c).flushed 4 t = ((cfg2.win 4).blk t).view.read (Elt Ideal) (mlK (V c main_arg1) (V c main_v9)) := by
  show (cfg2.win 4).cut (grid2.coords t) ((dat2 V c).after 4 t) = _
  rw [after2_4]
  unfold out2_4
  rw [View.canon_unit_zero hz]
  simp only [View.ld_unit_zero (S := S512x4096) hz, View.ld_unit_zero (S := S4096x256) hz]
  funext j
  obtain ⟨p, q, rfl⟩ : ∃ (p : Fin 512) (q : Fin 256), j = ix2 p q := ⟨j 0, j 1, eq_ix2 j⟩
  show k2_pay2 (iblk2 V c 0 t) (iblk2 V c 1 t) (ix2 p q) = mlK (V c main_arg1) (V c main_v9) (((cfg2.win 4).blk t).view.emb (ix2 p q))
  refine (pay2_apply (iblk2 V c 0 t) (iblk2 V c 1 t) p q).trans ?_
  unfold mlK
  obtain ⟨-, -, -, -, -, -, -, -, e8, e9, -⟩ := idx2 t
  have hN : t.val < 8 := lt_of_lt_of_eq t.isLt (show cfg2.N = 8 from N_2)
  have hr0 : ((((cfg2.win 4).blk t).view.emb (ix2 p q)) 0).val = t.val * 512 + p.val := by
    show win2_4.index t (0 : Fin 2) * 512 + 1 * p.val = _; omega
  have hr1 : ((((cfg2.win 4).blk t).view.emb (ix2 p q)) 1).val = q.val := by
    show win2_4.index t (1 : Fin 2) * 256 + 1 * q.val = _; omega
  refine congrArg lk (Finset.sum_congr rfl fun k _ => ?_)
  rw [adj_blk V c t p k _ hr0, t_blk V c t k q _ hr1]

/-- An index of ml is in point t's block iff each coordinate is in the block's range. -/
theorem mem_blk2_4 (t : Fin cfg2.N) (i : S4096x256.Idx) :
    i ∈ ((cfg2.win 4).blk t).view.set ↔ ∀ a : Fin 2, win2_4.index t a * S512x256.size a ≤ (i a).val ∧ (i a).val < win2_4.index t a * S512x256.size a + S512x256.size a := by
  show i ∈ ((View.whole main_v10_0).slice (win2_4.rect t)).set ↔ _
  rw [View.set_slice_whole, Rect.mem_set_unit]
  exact Iff.rfl

/-- Every row of ml lies in the block of the point (row / 512). -/
theorem cover2_4' (i : S4096x256.Idx) : ∃ t : Fin cfg2.N, (cfg2.win 4).flush t = true ∧ i ∈ ((cfg2.win 4).blk t).view.set := by
  have hi0 : (i 0).val < 4096 := (i 0).isLt
  have hi1 : (i 1).val < 256 := (i 1).isLt
  refine ⟨⟨(i 0).val / 512, by rw [show cfg2.N = 8 from N_2]; omega⟩, flush2_4 _, ?_⟩
  rw [mem_blk2_4]
  obtain ⟨-, -, -, -, -, -, -, -, e8, e9, -⟩ := idx2 ⟨(i 0).val / 512, by rw [show cfg2.N = 8 from N_2]; omega⟩
  intro a
  match a with
  | ⟨0, _⟩ => show win2_4.index _ (0 : Fin 2) * 512 ≤ (i 0).val ∧ (i 0).val < win2_4.index _ (0 : Fin 2) * 512 + 512; rw [e8]; dsimp only; omega
  | ⟨1, _⟩ => show win2_4.index _ (1 : Fin 2) * 256 ≤ (i 1).val ∧ (i 1).val < win2_4.index _ (1 : Fin 2) * 256 + 256; rw [e9]; omega

/-- After the call, ml is the leaky unit of adj · t. -/
theorem final2_4 (c : Dev nD) : (dat2 V c).arrAt 4 cfg2.N = mlK (V c main_arg1) (V c main_v9) :=
  (dat2 V c).arrAt_eq_of_cover 4 (mlK (V c main_arg1) (V c main_v9)) (fun t _ => flushed2_4 V c t) cover2_4'

end Cert.KernelIdeal.Hand

end
-- ==== Proof.Ideal.Value3.lean ====
/-
  The fourth call's result array, index by index: the product a · b, each entry the sum over the 128 contracted
  coordinates of a (row, k) · b (k, column), as one function of the two arrays the call finds.
  The grid is 4 × 2; the point with coordinates (p, q) writes rows 1024 p … and columns 2048 q … ; its first block is
  those rows of a, its second those columns of b; the eight blocks cover the array.
-/
import proofs.«117800_g2173253451805_cont_8to1_1923_4_alg».proof.Proof.Ideal.Region3
import proofs.«117800_g2173253451805_cont_8to1_1923_4_alg».proof.Proof.Spec
import proofs.«117800_g2173253451805_cont_8to1_1923_4_alg».proof.Proof.LibPlainDot
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal Cert.KernelIdeal.Gen Cert.KernelIdeal.Hand Idealize.ShloMosaic.ValueIdx
open Idealize.ShloMosaic.PlainDot

-- the TensorCore's buffer contents when the call is entered
variable (V : (c : Dev nD) → (b : Ref sig .tc) → Buf (Elt Ideal) ((c : Thread nD τ).loc b))

/-- The product of the whole arrays, read at an index. -/
def prod3 (a : FVec Ideal S4096x128 .f32) (b : FVec Ideal S128x4096 .f32) : FVec Ideal S4096x4096 .f32 :=
  fun i => ∑ k : Fin 128, a (ix2 (i 0) k) * b (ix2 k (i 1))

theorem hz3 : (![0, 0] : Fin 2 → Nat) = fun _ => 0 := funext fun a => by fin_cases a <;> rfl

/-- The body's payload read at an index: the tile product of the two loaded blocks (a cast of a shape to itself and the
    changes of float format are the identity, the accumulator is the zero constant). -/
theorem pay3_apply (x0 : Vec Ideal S1024x128 .f32) (x1 : Vec Ideal S128x2048 .f32) (j : S1024x2048.Idx) :
    k3_pay1 x0 x1 j = ∑ k : Fin 128, x0 (ix2 (j 0) k) * x1 (ix2 k (j 1)) := by
  unfold k3_pay1
  simp only [shapeCast_self]
  exact matmul_zero_plain dot_S1024x128_S128x2048_S1024x2048_1_0_0_1_n_n rfl rfl rfl rfl rfl rfl none _ _ j

/-- The printed index maps, decided over the grid: the first window moves with the output along the rows and stays at
    column block 0, the second moves with the output along the columns and stays at row block 0, and the output's
    block indices are below 4 and below 2. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = win3_2.index t (1 : Fin 2)
    ∧ win3_2.index t (0 : Fin 2) ≤ 3
    ∧ win3_2.index t (1 : Fin 2) ≤ 1 :=
  (by decide +kernel : ∀ t : Fin grid3.N, _)

/-- Every block of the output is some point's. -/
theorem idx_onto3 : ∀ (q0 : Fin 4) (q1 : Fin 2), ∃ t : Fin cfg3.N, win3_2.index t = ![q0.val, q1.val] :=
  (by decide +kernel : ∀ (q0 : Fin 4) (q1 : Fin 2), ∃ t : Fin grid3.N, win3_2.index t = ![q0.val, q1.val])

/-- An entry of the first window's block at point t is the entry of its array at block index × block size + the
    coordinate inside the block, per axis. -/
theorem iblk3_0_apply (c : Dev nD) (t : Fin cfg3.N) (x : S1024x128.Idx) (i : S4096x128.Idx)
    (h0 : (i 0).val = win3_0.index t (0 : Fin 2) * 1024 + 1 * (x 0).val)
    (h1 : (i 1).val = win3_0.index t (1 : Fin 2) * 128 + 1 * (x 1).val) :
    (iblk3 V c 0 t : Vec Ideal S1024x128 .f32) x = (V c main_v11 : FVec Ideal S4096x128 .f32) i := by
  unfold iblk3
  rw [View.read_apply]
  show V c main_v11 _ = V c main_v11 _
  congr 1
  funext a
  apply Fin.ext
  match a with
  | ⟨0, _⟩ => exact h0.symm
  | ⟨1, _⟩ => exact h1.symm

/-- The same for the second window. -/
theorem iblk3_1_apply (c : Dev nD) (t : Fin cfg3.N) (x : S128x2048.Idx) (i : S128x4096.Idx)
    (h0 : (i 0).val = win3_1.index t (0 : Fin 2) * 128 + 1 * (x 0).val)
    (h1 : (i 1).val = win3_1.index t (1 : Fin 2) * 2048 + 1 * (x 1).val) :
    (iblk3 V c 1 t : Vec Ideal S128x2048 .f32) x = (V c main_v13 : FVec Ideal S128x4096 .f32) i := by
  unfold iblk3
  rw [View.read_apply]
  show V c main_v13 _ = V c main_v13 _
  congr 1
  funext a
  apply Fin.ext
  match a with
  | ⟨0, _⟩ => exact h0.symm
  | ⟨1, _⟩ => exact h1.symm

/-- What point t writes back is block t of the product of the arrays as the call finds them. -/
theorem flushed3_2_eq (c : Dev nD) (t : Fin cfg3.N) :
    (dat3 V c).flushed 2 t = ((cfg3.win 2).blk t).view.read (Elt Ideal) (prod3 (V c main_v11) (V c main_v13)) := by
  show (cfg3.win 2).cut (grid3.coords t) ((dat3 V c).after 2 t) = _
  rw [after3_2]
  unfold out3_2
  rw [View.canon_unit_zero hz3]
  simp only [View.ld_unit_zero (S := S1024x128) hz3, View.ld_unit_zero (S := S128x2048) hz3]
  obtain ⟨e0, e1, e2, e3, e4, e5⟩ := idx_facts3 t
  funext j
  show k3_pay1 (iblk3 V c 0 t) (iblk3 V c 1 t) j = prod3 (V c main_v11) (V c main_v13) (((cfg3.win 2).blk t).view.emb j)
  refine (pay3_apply (iblk3 V c 0 t) (iblk3 V c 1 t) j).trans ?_
  unfold prod3
  refine Finset.sum_congr rfl fun k _ => ?_
  refine congrArg₂ (· * ·) (iblk3_0_apply V c t _ _ ?_ ?_) (iblk3_1_apply V c t _ _ ?_ ?_)
  · show win3_2.index t (0 : Fin 2) * 1024 + 1 * (j 0).val = win3_0.index t (0 : Fin 2) * 1024 + 1 * (j 0).val
    omega
  · show k.val = win3_0.index t (1 : Fin 2) * 128 + 1 * k.val
    omega
  · show k.val = win3_1.index t (0 : Fin 2) * 128 + 1 * k.val
    omega
  · show win3_2.index t (1 : Fin 2) * 2048 + 1 * (j 1).val = win3_1.index t (1 : Fin 2) * 2048 + 1 * (j 1).val
    omega

/-- An index of the array is in point t's block iff each coordinate is in the block's range on its axis. -/
theorem mem_blk3_2 (t : Fin cfg3.N) (i : S4096x4096.Idx) :
    i ∈ ((cfg3.win 2).blk t).view.set ↔ ∀ a : Fin 2, win3_2.index t a * S1024x2048.size a ≤ (i a).val ∧ (i a).val < win3_2.index t a * S1024x2048.size a + S1024x2048.size a := by
  show i ∈ ((View.whole main_v14).slice (win3_2.rect t)).set ↔ _
  rw [View.set_slice_whole, Rect.mem_set_unit]
  exact Iff.rfl

/-- Every index of the array is in some point's block: the one whose row and column blocks hold the index. -/
theorem covered3_2 (i : S4096x4096.Idx) :
    ∃ t : Fin cfg3.N, (cfg3.win 2).flush t = true ∧ i ∈ ((cfg3.win 2).blk t).view.set := by
  have hi0 : (i 0).val < 4096 := (i 0).isLt
  have hi1 : (i 1).val < 4096 := (i 1).isLt
  obtain ⟨t, ht⟩ := idx_onto3 ⟨(i 0).val / 1024, by omega⟩ ⟨(i 1).val / 2048, by omega⟩
  have q0 : win3_2.index t (0 : Fin 2) = (i 0).val / 1024 := congrFun ht 0
  have q1 : win3_2.index t (1 : Fin 2) = (i 1).val / 2048 := congrFun ht 1
  refine ⟨t, flush3_2 t, ?_⟩
  rw [mem_blk3_2]
  intro a
  match a with
  | ⟨0, _⟩ => show win3_2.index t (0 : Fin 2) * 1024 ≤ (i 0).val ∧ (i 0).val < win3_2.index t (0 : Fin 2) * 1024 + 1024; omega
  | ⟨1, _⟩ => show win3_2.index t (1 : Fin 2) * 2048 ≤ (i 1).val ∧ (i 1).val < win3_2.index t (1 : Fin 2) * 2048 + 2048; omega

/-- The array after the call is the product of the two arrays the call finds. -/
theorem final3_2 (c : Dev nD) : (dat3 V c).arrAt 2 cfg3.N = prod3 (V c main_v11) (V c main_v13) :=
  (dat3 V c).arrAt_eq_of_cover 2 (prod3 (V c main_v11) (V c main_v13)) (fun t _ => flushed3_2_eq V c t) covered3_2

end Cert.KernelIdeal.Hand

end
-- ==== Proof.Ideal.OutputsA.lean ====
/-
  The idealized kernel's first results as closed forms of the argument arrays. Each call's array is the closed form of
  its inputs as the call finds them; carried back through the fold of boundary contents to the launch memory these are:
  xw = x · gc1_w; t = leaky(adj · xw) · [gc2_w | gc2s_w]; ml = leaky(adj · t); mu and logvar its halves;
  adj_rec = mu · muᵀ.
-/
import proofs.«117800_g2173253451805_cont_8to1_1923_4_alg».proof.Proof.Ideal.Fold
import proofs.«117800_g2173253451805_cont_8to1_1923_4_alg».proof.Proof.Ideal.Transport
import proofs.«117800_g2173253451805_cont_8to1_1923_4_alg».proof.Proof.Ideal.Value0
import proofs.«117800_g2173253451805_cont_8to1_1923_4_alg».proof.Proof.Ideal.Value1
import proofs.«117800_g2173253451805_cont_8to1_1923_4_alg».proof.Proof.Ideal.Value2ml
import proofs.«117800_g2173253451805_cont_8to1_1923_4_alg».proof.Proof.Ideal.Value3

set_option maxRecDepth 16384

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen Cert.Spec

/-! ## The closed forms, over the argument arrays -/

section Forms
variable (a0 : FVec Ideal S4096x2000 .f32) (a1 : FVec Ideal S4096x4096 .f32) (a2 : FVec Ideal S2000x512 .f32)
  (a3 a4 : FVec Ideal S512x128 .f32)

/-- The two second-layer weights side by side. -/
def kWG : FVec Ideal S512x256 .f32 := concatenate S512x256 1 [⟨S512x128, a3⟩, ⟨S512x128, a4⟩] concatenates_S512x128_S512x128_S512x256_d1
/-- x · gc1_w. -/
def kXW : FVec Ideal S4096x512 .f32 := prod0 a0 a2
/-- leaky(adj · xw) · [gc2_w | gc2s_w]. -/
def kT : FVec Ideal S4096x256 .f32 := prod1 a1 (kXW a0 a2) (kWG a3 a4)
/-- leaky(adj · t). -/
def kML : FVec Ideal S4096x256 .f32 := mlK a1 (kT a0 a1 a2 a3 a4)
/-- mu: the left half of ml. -/
def kMU : FVec Ideal S4096x128 .f32 := extractStridedSlice S4096x128 ![0, 0] (kML a0 a1 a2 a3 a4) slices_S4096x256_S4096x128_0_0
/-- logvar: the right half of ml. -/
def kLV : FVec Ideal S4096x128 .f32 := extractStridedSlice S4096x128 ![0, 128] (kML a0 a1 a2 a3 a4) slices_S4096x256_S4096x128_0_128
/-- mu · muᵀ. -/
def kADJ : FVec Ideal S4096x4096 .f32 :=
  prod3 (kMU a0 a1 a2 a3 a4) (transpose S128x4096 [1, 0] (kMU a0 a1 a2 a3 a4) transposes_S4096x128_S128x4096_1_0)
end Forms

/-! ## The fold at the calls' arrays -/

variable (m : (ℓ : Loc nD τ sig) → Buf (Elt Ideal) ℓ) (ρ : Dev nD → PrngReg)

/-- Argument k as launched on core c. -/
abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)
abbrev arg4 (c : Dev nD) := m ((c : Thread nD τ).loc main_arg4)

theorem at_v0 (c : Dev nD) : W1 m ρ c (Proc.devRef .tc main_v0) = kWG (arg3 m c) (arg4 m c) := W1_v0 m ρ c

theorem at_v8 (c : Dev nD) : W2 m ρ c (Proc.devRef .tc main_v8) = kXW (arg0 m c) (arg2 m c) := by
  refine (W2_arr m ρ c 2).trans ((final0_2 (V1 m ρ) c).trans ?_)
  show prod0 (W1 m ρ c (Proc.devRef .tc main_arg0)) (W1 m ρ c (Proc.devRef .tc main_arg2)) = _
  rw [tr_arg0_W1_W0, tr_arg2_W1_W0]
  rfl

theorem at_v9 (c : Dev nD) : W3 m ρ c (Proc.devRef .tc main_v9) = kT (arg0 m c) (arg1 m c) (arg2 m c) (arg3 m c) (arg4 m c) := by
  refine (W3_arr m ρ c 3).trans ((final1_3 (V2 m ρ) c).trans ?_)
  show prod1 (W2 m ρ c (Proc.devRef .tc main_arg1)) (W2 m ρ c (Proc.devRef .tc main_v8)) (W2 m ρ c (Proc.devRef .tc main_v0)) = _
  rw [tr_arg1_W2_W0, at_v8, tr_v0_W2_W1, at_v0]
  rfl

theorem at_v10_0 (c : Dev nD) : W4 m ρ c (Proc.devRef .tc main_v10_0) = kML (arg0 m c) (arg1 m c) (arg2 m c) (arg3 m c) (arg4 m c) := by
  refine (W4_arr m ρ c 4).trans ((final2_4 (V3 m ρ) c).trans ?_)
  show mlK (W3 m ρ c (Proc.devRef .tc main_arg1)) (W3 m ρ c (Proc.devRef .tc main_v9)) = _
  rw [tr_arg1_W3_W0, at_v9]
  rfl

theorem at_v11 (c : Dev nD) : W5 m ρ c (Proc.devRef .tc main_v11) = kMU (arg0 m c) (arg1 m c) (arg2 m c) (arg3 m c) (arg4 m c) := by
  rw [W5_v11, at_v10_0]; rfl
theorem at_v12 (c : Dev nD) : W5 m ρ c (Proc.devRef .tc main_v12) = kLV (arg0 m c) (arg1 m c) (arg2 m c) (arg3 m c) (arg4 m c) := by
  rw [W5_v12, at_v10_0]; rfl
theorem at_v13 (c : Dev nD) : W5 m ρ c (Proc.devRef .tc main_v13)
    = transpose S128x4096 [1, 0] (kMU (arg0 m c) (arg1 m c) (arg2 m c) (arg3 m c) (arg4 m c)) transposes_S4096x128_S128x4096_1_0 := by
  rw [W5_v13, at_v10_0]; rfl

theorem at_v14 (c : Dev nD) : W6 m ρ c (Proc.devRef .tc main_v14) = kADJ (arg0 m c) (arg1 m c) (arg2 m c) (arg3 m c) (arg4 m c) := by
  refine (W6_arr m ρ c 2).trans ((final3_2 (V5 m ρ) c).trans ?_)
  show prod3 (W5 m ρ c (Proc.devRef .tc main_v11)) (W5 m ρ c (Proc.devRef .tc main_v13)) = _
  rw [at_v11, at_v13]
  rfl

/-! ## The first four results at the end -/

theorem end_v14 (c : Dev nD) : W7 m ρ c (Proc.devRef .tc main_v14) = kADJ (arg0 m c) (arg1 m c) (arg2 m c) (arg3 m c) (arg4 m c) :=
  (tr_v14_W7_W6 m ρ c).trans (at_v14 m ρ c)
theorem end_v11 (c : Dev nD) : W7 m ρ c (Proc.devRef .tc main_v11) = kMU (arg0 m c) (arg1 m c) (arg2 m c) (arg3 m c) (arg4 m c) :=
  (tr_v11_W7_W5 m ρ c).trans (at_v11 m ρ c)
theorem end_v12 (c : Dev nD) : W7 m ρ c (Proc.devRef .tc main_v12) = kLV (arg0 m c) (arg1 m c) (arg2 m c) (arg3 m c) (arg4 m c) :=
  (tr_v12_W7_W5 m ρ c).trans (at_v12 m ρ c)

end Cert.KernelIdeal.Hand

end
-- ==== Proof.Ideal.Value2h.lean ====
/-
  The third call's second and third results. After the call the array h holds, index by index, the first 128 columns
  of ml against fc1_w plus the bias row: point t of the grid writes back rows 512 t … 512 t + 511 and the eight blocks
  cover the array. The statistics array is written back once, after the last point, and holds the recursion over the
  eight row blocks of adj: the first block's column sums, then each later block's sums added on.
-/
import proofs.«117800_g2173253451805_cont_8to1_1923_4_alg».proof.Proof.Ideal.Value2ml

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! ## The h array -/

/-- h as one function of adj, t, fc1_w and the bias row: the first 128 columns of ml against fc1_w, plus the bias. -/
def hK (adj : FVec Ideal S4096x4096 .f32) (tt : FVec Ideal S4096x256 .f32) (fw : FVec Ideal S128x512 .f32) (fb1 : FVec Ideal S1x512 .f32) : FVec Ideal S4096x512 .f32 :=
  fun i => (∑ k : Fin 128, mlK adj tt (ix2 (i 0) (Fin.castLE (by decide) k)) * fw (ix2 k (i 1))) + fb1 (ix2 (0 : Fin 1) (i 1))

/-- The h payload at an index: the first 128 entries of a row of the ml payload against a column of the weight block,
    plus the bias block's entry in that column. -/
theorem pay2h_apply (x0 : Vec Ideal S512x4096 .f32) (x1 : Vec Ideal S4096x256 .f32) (x2 : Vec Ideal S128x512 .f32) (x3 : Vec Ideal S1x512 .f32)
    (p q : Fin 512) :
    k2_pay3 x0 x1 x2 x3 (ix2 p q)
      = (∑ k : Fin 128, k2_pay2 x0 x1 (ix2 p (Fin.castLE (by decide) k)) * x2 (ix2 k q)) + x3 (ix2 (0 : Fin 1) q) := by
  unfold k2_pay3
  simp only [shapeCast_self]
  refine congrArg₂ (· + ·) ?_ (broadcastTo_1b_ab_apply x3 _ p q)
  refine (PlainDot.matmul_zero_plain dot_S512x128_S128x512_S512x512_1_0_0_1_n_n rfl rfl rfl rfl rfl rfl none _ _ (ix2 p q)).trans ?_
  refine Finset.sum_congr rfl fun k _ => congrArg₂ (· * ·) ?_ rfl
  exact slice2_axis1_apply 0 (k2_pay2 x0 x1) slices_S512x256_o0_0_S512x128 p k (Fin.castLE (by decide) k) (Nat.zero_add _).symm

/-- The fc1_w block is all of fc1_w. -/
theorem fw_blk (c : Dev nD) (t : Fin cfg2.N) (k : Fin 128) (q q' : Fin 512) (hq : q'.val = q.val) :
    iblk2 V c 2 t (ix2 k q) = V c main_arg5 (ix2 k q') := by
  show V c main_arg5 (((cfg2.win 2).blk t).view.emb (ix2 k q)) = V c main_arg5 (ix2 k q')
  refine congrArg _ (funext fun a => Fin.ext ?_)
  obtain ⟨-, -, -, -, e4, e5, -⟩ := idx2 t
  match a with
  | ⟨0, _⟩ => show win2_2.index t (0 : Fin 2) * 128 + 1 * k.val = k.val; omega
  | ⟨1, _⟩ => show win2_2.index t (1 : Fin 2) * 512 + 1 * q.val = q'.val; omega

/-- The bias block is the whole bias row. -/
theorem fb1_blk (c : Dev nD) (t : Fin cfg2.N) (u : Fin 1) (q q' : Fin 512) (hq : q'.val = q.val) :
    iblk2 V c 3 t (ix2 u q) = V c main_v1 (ix2 (0 : Fin 1) q') := by
  show V c main_v1 (((cfg2.win 3).blk t).view.emb (ix2 u q)) = V c main_v1 (ix2 (0 : Fin 1) q')
  refine congrArg _ (funext fun a => Fin.ext ?_)
  obtain ⟨-, -, -, -, -, -, e6, e7, -⟩ := idx2 t
  have hu : u.val = 0 := by omega
  match a with
  | ⟨0, _⟩ => show win2_3.index t (0 : Fin 2) * 1 + 1 * u.val = 0; omega
  | ⟨1, _⟩ => show win2_3.index t (1 : Fin 2) * 512 + 1 * q.val = q'.val; omega

/-- The h payload of the four blocks at point t, at an index: hK of the arrays 512·t rows further down. -/
theorem pay2h_blocks (c : Dev nD) (t : Fin cfg2.N) (p q : Fin 512) (r : Fin 4096) (q' : Fin 512)
    (hr : r.val = t.val * 512 + p.val) (hq : q'.val = q.val) :
    k2_pay3 (iblk2 V c 0 t) (iblk2 V c 1 t) (iblk2 V c 2 t) (iblk2 V c 3 t) (ix2 p q)
      = hK (V c main_arg1) (V c main_v9) (V c main_arg5) (V c main_v1) (ix2 r q') := by
  refine (pay2h_apply (iblk2 V c 0 t) (iblk2 V c 1 t) (iblk2 V c 2 t) (iblk2 V c 3 t) p q).trans ?_
  unfold hK
  refine congrArg₂ (· + ·) (Finset.sum_congr rfl fun k _ => congrArg₂ (· * ·) ?_ (fw_blk V c t k q q' hq)) (fb1_blk V c t 0 q q' hq)
  refine (pay2_apply (iblk2 V c 0 t) (iblk2 V c 1 t) p (Fin.castLE (by decide) k)).trans ?_
  unfold mlK
  refine congrArg lk (Finset.sum_congr rfl fun k' _ => ?_)
  rw [adj_blk V c t p k' r hr, t_blk V c t k' (Fin.castLE (by decide) k) (Fin.castLE (by decide) k) rfl]

/-- What point t writes back into h is block t of hK. -/
theorem flushed2_5 (c : Dev nD) (t : Fin cfg2.N) :
    (dat2 V c).flushed 5 t = ((cfg2.win 5).blk t).view.read (Elt Ideal) (hK (V c main_arg1) (V c main_v9) (V c main_arg5) (V c main_v1)) := by
  show (cfg2.win 5).cut (grid2.coords t) ((dat2 V c).after 5 t) = _
  rw [after2_5]
  unfold out2_5
  rw [View.canon_unit_zero hz]
  simp only [View.ld_unit_zero (S := S512x4096) hz, View.ld_unit_zero (S := S4096x256) hz, View.ld_unit_zero (S := S128x512) hz,
    View.ld_unit_zero (S := S1x512) hz]
  funext j
  obtain ⟨p, q, rfl⟩ : ∃ (p : Fin 512) (q : Fin 512), j = ix2 p q := ⟨j 0, j 1, eq_ix2 j⟩
  show k2_pay3 (iblk2 V c 0 t) (iblk2 V c 1 t) (iblk2 V c 2 t) (iblk2 V c 3 t) (ix2 p q)
    = hK (V c main_arg1) (V c main_v9) (V c main_arg5) (V c main_v1) (((cfg2.win 5).blk t).view.emb (ix2 p q))
  obtain ⟨-, -, -, -, -, -, -, -, -, -, e10, e11, -⟩ := idx2 t
  have hr0 : ((((cfg2.win 5).blk t).view.emb (ix2 p q)) 0).val = t.val * 512 + p.val := by
    show win2_5.index t (0 : Fin 2) * 512 + 1 * p.val = _; omega
  have hr1 : ((((cfg2.win 5).blk t).view.emb (ix2 p q)) 1).val = q.val := by
    show win2_5.index t (1 : Fin 2) * 512 + 1 * q.val = _; omega
  refine (pay2h_blocks V c t p q _ _ hr0 hr1).trans ?_
  exact congrArg _ (eq_ix2 _).symm

/-- An index of h is in point t's block iff each coordinate is in the block's range. -/
theorem mem_blk2_5 (t : Fin cfg2.N) (i : S4096x512.Idx) :
    i ∈ ((cfg2.win 5).blk t).view.set ↔ ∀ a : Fin 2, win2_5.index t a * S512x512.size a ≤ (i a).val ∧ (i a).val < win2_5.index t a * S512x512.size a + S512x512.size a := by
  show i ∈ ((View.whole main_v10_1).slice (win2_5.rect t)).set ↔ _
  rw [View.set_slice_whole, Rect.mem_set_unit]
  exact Iff.rfl

/-- Every row of h lies in the block of the point (row / 512). -/
theorem cover2_5' (i : S4096x512.Idx) : ∃ t : Fin cfg2.N, (cfg2.win 5).flush t = true ∧ i ∈ ((cfg2.win 5).blk t).view.set := by
  have hi0 : (i 0).val < 4096 := (i 0).isLt
  have hi1 : (i 1).val < 512 := (i 1).isLt
  refine ⟨⟨(i 0).val / 512, by rw [show cfg2.N = 8 from N_2]; omega⟩, flush2_5 _, ?_⟩
  rw [mem_blk2_5]
  obtain ⟨-, -, -, -, -, -, -, -, -, -, e10, e11, -⟩ := idx2 ⟨(i 0).val / 512, by rw [show cfg2.N = 8 from N_2]; omega⟩
  intro a
  match a with
  | ⟨0, _⟩ => show win2_5.index _ (0 : Fin 2) * 512 ≤ (i 0).val ∧ (i 0).val < win2_5.index _ (0 : Fin 2) * 512 + 512; rw [e10]; dsimp only; omega
  | ⟨1, _⟩ => show win2_5.index _ (1 : Fin 2) * 512 ≤ (i 1).val ∧ (i 1).val < win2_5.index _ (1 : Fin 2) * 512 + 512; rw [e11]; omega

/-- After the call, h is hK of the four arrays the call finds. -/
theorem final2_5 (c : Dev nD) : (dat2 V c).arrAt 5 cfg2.N = hK (V c main_arg1) (V c main_v9) (V c main_arg5) (V c main_v1) :=
  (dat2 V c).arrAt_eq_of_cover 5 (hK (V c main_arg1) (V c main_v9) (V c main_arg5) (V c main_v1)) (fun t _ => flushed2_5 V c t) cover2_5'

/-! ## The statistics array -/

/-- Row block b of adj: its rows 512 b … 512 b + 511. -/
def rowsOf (adj : FVec Ideal S4096x4096 .f32) (b : ℕ) (hb : b < 8) : Vec Ideal S512x4096 .f32 :=
  fun j => adj (ix2 ⟨b * 512 + (j 0).val, by have := idx2_lt0 j; omega⟩ (j 1))

/-- The statistics block after the body at point n, as a recursion over the row blocks of adj: the first block's sums,
    then each later block's sums added onto what the point before left. -/
def statAt (adj : FVec Ideal S4096x4096 .f32) (tt : FVec Ideal S4096x256 .f32) (fw : FVec Ideal S128x512 .f32) (fb1 : FVec Ideal S1x512 .f32) :
    (n : ℕ) → n < 8 → FVec Ideal S8x512 .f32
  | 0, h => k2_pay4 (rowsOf adj 0 h) tt fw fb1
  | n + 1, h => k2_pay1 (k2_pay4 (rowsOf adj (n + 1) h) tt fw fb1) (statAt adj tt fw fb1 n (by omega))

/-- What the first point's store leaves is its payload. -/
theorem out2_6A_eq (x0 : Vec Ideal S512x4096 .f32) (x1 : Vec Ideal S4096x256 .f32) (x2 : Vec Ideal S128x512 .f32) (x3 : Vec Ideal S1x512 .f32) :
    out2_6A x0 x1 x2 x3 = k2_pay4 x0 x1 x2 x3 := by
  unfold out2_6A
  rw [View.canon_unit_zero hz]
  simp only [View.ld_unit_zero (S := S512x4096) hz, View.ld_unit_zero (S := S4096x256) hz, View.ld_unit_zero (S := S128x512) hz,
    View.ld_unit_zero (S := S1x512) hz]

/-- What a later point's store leaves is its payload, of what the point before left. -/
theorem out2_6B_eq (x0 : Vec Ideal S512x4096 .f32) (x1 : Vec Ideal S4096x256 .f32) (x2 : Vec Ideal S128x512 .f32) (x3 : Vec Ideal S1x512 .f32)
    (prev : Vec Ideal S8x512 .f32) :
    out2_6B x0 x1 x2 x3 prev = k2_pay1 (k2_pay4 x0 x1 x2 x3) prev := by
  unfold out2_6B
  rw [View.canon_unit_zero hz]
  simp only [View.ld_unit_zero (S := S512x4096) hz, View.ld_unit_zero (S := S4096x256) hz, View.ld_unit_zero (S := S128x512) hz,
    View.ld_unit_zero (S := S1x512) hz, View.ld_unit_zero (S := S8x512) hz]

/-- The adj block at point t is row block t of adj. -/
theorem adj_rows (c : Dev nD) (t : Fin cfg2.N) (hb : t.val < 8) :
    (iblk2 V c 0 t : Vec Ideal S512x4096 .f32) = rowsOf (V c main_arg1) t.val hb := by
  funext j
  obtain ⟨p, k, rfl⟩ : ∃ (p : Fin 512) (k : Fin 4096), j = ix2 p k := ⟨j 0, j 1, eq_ix2 j⟩
  unfold rowsOf
  exact adj_blk V c t p k _ rfl

/-- The t block is the array t. -/
theorem t_whole (c : Dev nD) (t : Fin cfg2.N) : (iblk2 V c 1 t : Vec Ideal S4096x256 .f32) = V c main_v9 := by
  funext j
  obtain ⟨k, q, rfl⟩ : ∃ (k : Fin 4096) (q : Fin 256), j = ix2 k q := ⟨j 0, j 1, eq_ix2 j⟩
  exact t_blk V c t k q q rfl

/-- The fc1_w block is the array fc1_w. -/
theorem fw_whole (c : Dev nD) (t : Fin cfg2.N) : (iblk2 V c 2 t : Vec Ideal S128x512 .f32) = V c main_arg5 := by
  funext j
  obtain ⟨k, q, rfl⟩ : ∃ (k : Fin 128) (q : Fin 512), j = ix2 k q := ⟨j 0, j 1, eq_ix2 j⟩
  exact fw_blk V c t k q q rfl

/-- The bias block is the bias row. -/
theorem fb1_whole (c : Dev nD) (t : Fin cfg2.N) : (iblk2 V c 3 t : Vec Ideal S1x512 .f32) = V c main_v1 := by
  funext j
  obtain ⟨u, q, rfl⟩ : ∃ (u : Fin 1) (q : Fin 512), j = ix2 u q := ⟨j 0, j 1, eq_ix2 j⟩
  obtain rfl : u = 0 := Subsingleton.elim _ _
  exact fb1_blk V c t 0 q q rfl

/-- The running statistics of the blocks are the recursion over the row blocks of the arrays. -/
theorem acc2_eq (c : Dev nD) : ∀ (n : ℕ) (hn : n < cfg2.N) (h8 : n < 8),
    acc2 V c n hn = statAt (V c main_arg1) (V c main_v9) (V c main_arg5) (V c main_v1) n h8
  | 0, hn, h8 => by
    show out2_6A (iblk2 V c 0 ⟨0, hn⟩) (iblk2 V c 1 ⟨0, hn⟩) (iblk2 V c 2 ⟨0, hn⟩) (iblk2 V c 3 ⟨0, hn⟩)
      = k2_pay4 (rowsOf (V c main_arg1) 0 h8) (V c main_v9) (V c main_arg5) (V c main_v1)
    rw [out2_6A_eq, adj_rows V c ⟨0, hn⟩ h8, t_whole V c ⟨0, hn⟩, fw_whole V c ⟨0, hn⟩, fb1_whole V c ⟨0, hn⟩]
  | n + 1, hn, h8 => by
    show out2_6B (iblk2 V c 0 ⟨n + 1, hn⟩) (iblk2 V c 1 ⟨n + 1, hn⟩) (iblk2 V c 2 ⟨n + 1, hn⟩) (iblk2 V c 3 ⟨n + 1, hn⟩)
        (acc2 V c n (Nat.lt_of_succ_lt hn))
      = k2_pay1 (k2_pay4 (rowsOf (V c main_arg1) (n + 1) h8) (V c main_v9) (V c main_arg5) (V c main_v1))
          (statAt (V c main_arg1) (V c main_v9) (V c main_arg5) (V c main_v1) n (by omega))
    rw [out2_6B_eq, acc2_eq c n (Nat.lt_of_succ_lt hn) (by omega), adj_rows V c ⟨n + 1, hn⟩ h8, t_whole V c ⟨n + 1, hn⟩,
      fw_whole V c ⟨n + 1, hn⟩, fb1_whole V c ⟨n + 1, hn⟩]

/-- The one write-back, after the last point, writes the recursion's last value. -/
theorem flushed2_6 (c : Dev nD) (t : Fin cfg2.N) (hf : (cfg2.win 6).flush t = true) :
    (dat2 V c).flushed 6 t = ((cfg2.win 6).blk t).view.read (Elt Ideal)
      (statAt (V c main_arg1) (V c main_v9) (V c main_arg5) (V c main_v1) 7 (by norm_num)) := by
  have hN : t.val < 8 := lt_of_lt_of_eq t.isLt (show cfg2.N = 8 from N_2)
  have h7 : t.val = 7 := by have := (flush2_6 t).mp hf; omega
  show (cfg2.win 6).cut (grid2.coords t) ((dat2 V c).after 6 t) = _
  rw [after2_6, acc2_eq V c t.val t.isLt hN]
  have hlast : ∀ (n : ℕ) (hn : n < 8), n = 7 →
      statAt (V c main_arg1) (V c main_v9) (V c main_arg5) (V c main_v1) n hn
        = statAt (V c main_arg1) (V c main_v9) (V c main_arg5) (V c main_v1) 7 (by norm_num) := by
    intro n hn h; subst h; rfl
  rw [hlast t.val hN h7]
  obtain ⟨-, -, -, -, -, -, -, -, -, -, -, -, e12, e13⟩ := idx2 t
  funext j
  obtain ⟨p, q, rfl⟩ : ∃ (p : Fin 8) (q : Fin 512), j = ix2 p q := ⟨j 0, j 1, eq_ix2 j⟩
  show statAt (V c main_arg1) (V c main_v9) (V c main_arg5) (V c main_v1) 7 _ (ix2 p q)
    = statAt (V c main_arg1) (V c main_v9) (V c main_arg5) (V c main_v1) 7 _ (((cfg2.win 6).blk t).view.emb (ix2 p q))
  refine congrArg _ (funext fun a => Fin.ext ?_)
  match a with
  | ⟨0, _⟩ => show p.val = win2_6.index t (0 : Fin 2) * 8 + 1 * p.val; omega
  | ⟨1, _⟩ => show q.val = win2_6.index t (1 : Fin 2) * 512 + 1 * q.val; omega

/-- An index of the statistics array is in point t's block iff each coordinate is in the block's range. -/
theorem mem_blk2_6 (t : Fin cfg2.N) (i : S8x512.Idx) :
    i ∈ ((cfg2.win 6).blk t).view.set ↔ ∀ a : Fin 2, win2_6.index t a * S8x512.size a ≤ (i a).val ∧ (i a).val < win2_6.index t a * S8x512.size a + S8x512.size a := by
  show i ∈ ((View.whole main_v10_2).slice (win2_6.rect t)).set ↔ _
  rw [View.set_slice_whole, Rect.mem_set_unit]
  exact Iff.rfl

/-- The last point's block is the whole statistics array. -/
theorem cover2_6' (i : S8x512.Idx) : ∃ t : Fin cfg2.N, (cfg2.win 6).flush t = true ∧ i ∈ ((cfg2.win 6).blk t).view.set := by
  have hi0 : (i 0).val < 8 := (i 0).isLt
  have hi1 : (i 1).val < 512 := (i 1).isLt
  refine ⟨⟨7, by rw [show cfg2.N = 8 from N_2]; omega⟩, (flush2_6 _).mpr rfl, ?_⟩
  rw [mem_blk2_6]
  obtain ⟨-, -, -, -, -, -, -, -, -, -, -, -, e12, e13⟩ := idx2 ⟨7, by rw [show cfg2.N = 8 from N_2]; omega⟩
  intro a
  match a with
  | ⟨0, _⟩ => show win2_6.index _ (0 : Fin 2) * 8 ≤ (i 0).val ∧ (i 0).val < win2_6.index _ (0 : Fin 2) * 8 + 8; rw [e12]; omega
  | ⟨1, _⟩ => show win2_6.index _ (1 : Fin 2) * 512 ≤ (i 1).val ∧ (i 1).val < win2_6.index _ (1 : Fin 2) * 512 + 512; rw [e13]; omega

/-- After the call, the statistics array is the recursion over the eight row blocks of adj. -/
theorem final2_6 (c : Dev nD) :
    (dat2 V c).arrAt 6 cfg2.N = statAt (V c main_arg1) (V c main_v9) (V c main_arg5) (V c main_v1) 7 (by norm_num) :=
  (dat2 V c).arrAt_eq_of_cover 6 (statAt (V c main_arg1) (V c main_v9) (V c main_arg5) (V c main_v1) 7 (by norm_num))
    (flushed2_6 V c) cover2_6'

/-! ## Rows 0 and 1 of the statistics, as sums -/

/-- The h payload of row block b of adj against the whole arrays, at an index: hK of the arrays 512·b rows further down. -/
theorem pay2h_rows (adj : FVec Ideal S4096x4096 .f32) (tt : FVec Ideal S4096x256 .f32) (fw : FVec Ideal S128x512 .f32) (fb1 : FVec Ideal S1x512 .f32)
    (b : ℕ) (hb : b < 8) (p q : Fin 512) (r : Fin 4096) (hr : r.val = b * 512 + p.val) :
    k2_pay3 (rowsOf adj b hb) tt fw fb1 (ix2 p q) = hK adj tt fw fb1 (ix2 r q) := by
  refine (pay2h_apply (rowsOf adj b hb) tt fw fb1 p q).trans ?_
  unfold hK
  refine congrArg₂ (· + ·) (Finset.sum_congr rfl fun k _ => congrArg₂ (· * ·) ?_ rfl) rfl
  refine (pay2_apply (rowsOf adj b hb) tt p (Fin.castLE (by decide) k)).trans ?_
  unfold mlK
  refine congrArg lk (Finset.sum_congr rfl fun k' _ => congrArg₂ (· * ·) ?_ rfl)
  exact congrArg adj (congrArg (fun x => ix2 x k') (Fin.ext hr.symm))

/-- The accumulation payload at an index: what the point before left plus this block's sums. -/
theorem pay2acc_apply (new : FVec Ideal S8x512 .f32) (prev : Vec Ideal S8x512 .f32) (i : S8x512.Idx) :
    k2_pay1 new prev i = prev i + new i := by
  unfold k2_pay1
  simp only [shapeCast_self]
  all_goals rfl

/-- Row 0 of the statistics payload: the column sums of the h payload over the block's 512 rows. -/
theorem pay4_row0 (x0 : Vec Ideal S512x4096 .f32) (x1 : Vec Ideal S4096x256 .f32) (x2 : Vec Ideal S128x512 .f32) (x3 : Vec Ideal S1x512 .f32)
    (col : Fin 512) :
    k2_pay4 x0 x1 x2 x3 (ix2 (0 : Fin 8) col) = ∑ p : Fin 512, k2_pay3 x0 x1 x2 x3 (ix2 p col) := by
  unfold k2_pay4
  dsimp only
  refine (concatenate_apply_piece (t := S8x512) 0 _ _ (ix2 (0 : Fin 8) col) 0 (by show (0 : ℕ) < 3; omega) S1x512 _ rfl rfl 0 rfl
    (ix2 (0 : Fin 1) col) ?_ ?_).trans ?_
  · intro b hb
    match b with
    | ⟨0, _⟩ => exact absurd rfl hb
    | ⟨1, _⟩ => rfl
  · rfl
  refine (shapeCast_a_1a_apply _ shapeCasts_S512_S1x512 0 col).trans ?_
  exact Cert.LibAxisFolds.colSum_apply (k2_pay3 x0 x1 x2 x3) _ _ _ _ col

/-- Row 1 of the statistics payload: the column sums of the squares of the h payload over the block's 512 rows. -/
theorem pay4_row1 (x0 : Vec Ideal S512x4096 .f32) (x1 : Vec Ideal S4096x256 .f32) (x2 : Vec Ideal S128x512 .f32) (x3 : Vec Ideal S1x512 .f32)
    (col : Fin 512) :
    k2_pay4 x0 x1 x2 x3 (ix2 (1 : Fin 8) col)
      = ∑ p : Fin 512, k2_pay3 x0 x1 x2 x3 (ix2 p col) * k2_pay3 x0 x1 x2 x3 (ix2 p col) := by
  unfold k2_pay4
  dsimp only
  refine (concatenate_apply_piece (t := S8x512) 0 _ _ (ix2 (1 : Fin 8) col) 1 (by show (1 : ℕ) < 3; omega) S1x512 _ rfl rfl 1 rfl
    (ix2 (0 : Fin 1) col) ?_ ?_).trans ?_
  · intro b hb
    match b with
    | ⟨0, _⟩ => exact absurd rfl hb
    | ⟨1, _⟩ => rfl
  · rfl
  refine (shapeCast_a_1a_apply _ shapeCasts_S512_S1x512 0 col).trans ?_
  exact Cert.LibAxisFolds.colSum_apply (mulf (k2_pay3 x0 x1 x2 x3) (k2_pay3 x0 x1 x2 x3)) _ _ _ _ col

/-- Row 0 of the recursion at point n: the column sums of hK over row blocks 0 … n. -/
theorem statAt_row0 (adj : FVec Ideal S4096x4096 .f32) (tt : FVec Ideal S4096x256 .f32) (fw : FVec Ideal S128x512 .f32) (fb1 : FVec Ideal S1x512 .f32)
    (col : Fin 512) : ∀ (n : ℕ) (hn : n < 8),
    statAt adj tt fw fb1 n hn (ix2 (0 : Fin 8) col)
      = ∑ b ∈ Finset.range (n + 1), if hb : b < 8 then ∑ p : Fin 512, hK adj tt fw fb1 (ix2 ⟨b * 512 + p.val, by omega⟩ col) else 0
  | 0, hn => by
    show k2_pay4 (rowsOf adj 0 hn) tt fw fb1 (ix2 (0 : Fin 8) col) = _
    rw [Finset.sum_range_one, dif_pos hn, pay4_row0]
    exact Finset.sum_congr rfl fun p _ => pay2h_rows adj tt fw fb1 0 hn p col _ rfl
  | n + 1, hn => by
    show k2_pay1 (k2_pay4 (rowsOf adj (n + 1) hn) tt fw fb1) (statAt adj tt fw fb1 n (by omega)) (ix2 (0 : Fin 8) col) = _
    rw [pay2acc_apply, statAt_row0 adj tt fw fb1 col n (by omega), Finset.sum_range_succ _ (n + 1), dif_pos hn, pay4_row0]
    exact congrArg _ (Finset.sum_congr rfl fun p _ => pay2h_rows adj tt fw fb1 (n + 1) hn p col _ rfl)

/-- Row 1 of the recursion at point n: the column sums of the squares of hK over row blocks 0 … n. -/
theorem statAt_row1 (adj : FVec Ideal S4096x4096 .f32) (tt : FVec Ideal S4096x256 .f32) (fw : FVec Ideal S128x512 .f32) (fb1 : FVec Ideal S1x512 .f32)
    (col : Fin 512) : ∀ (n : ℕ) (hn : n < 8),
    statAt adj tt fw fb1 n hn (ix2 (1 : Fin 8) col)
      = ∑ b ∈ Finset.range (n + 1), if hb : b < 8 then ∑ p : Fin 512,
          hK adj tt fw fb1 (ix2 ⟨b * 512 + p.val, by omega⟩ col) * hK adj tt fw fb1 (ix2 ⟨b * 512 + p.val, by omega⟩ col) else 0
  | 0, hn => by
    show k2_pay4 (rowsOf adj 0 hn) tt fw fb1 (ix2 (1 : Fin 8) col) = _
    rw [Finset.sum_range_one, dif_pos hn, pay4_row1]
    exact Finset.sum_congr rfl fun p _ => congrArg₂ (· * ·) (pay2h_rows adj tt fw fb1 0 hn p col _ rfl) (pay2h_rows adj tt fw fb1 0 hn p col _ rfl)
  | n + 1, hn => by
    show k2_pay1 (k2_pay4 (rowsOf adj (n + 1) hn) tt fw fb1) (statAt adj tt fw fb1 n (by omega)) (ix2 (1 : Fin 8) col) = _
    rw [pay2acc_apply, statAt_row1 adj tt fw fb1 col n (by omega), Finset.sum_range_succ _ (n + 1), dif_pos hn, pay4_row1]
    exact congrArg _ (Finset.sum_congr rfl fun p _ =>
      congrArg₂ (· * ·) (pay2h_rows adj tt fw fb1 (n + 1) hn p col _ rfl) (pay2h_rows adj tt fw fb1 (n + 1) hn p col _ rfl))

/-- Row 0 of the statistics array: the column sums of hK over all 4096 rows, block by block. -/
theorem stat_row0 (adj : FVec Ideal S4096x4096 .f32) (tt : FVec Ideal S4096x256 .f32) (fw : FVec Ideal S128x512 .f32) (fb1 : FVec Ideal S1x512 .f32)
    (col : Fin 512) :
    statAt adj tt fw fb1 7 (by norm_num) (ix2 (0 : Fin 8) col)
      = ∑ b : Fin 8, ∑ p : Fin 512, hK adj tt fw fb1 (ix2 ⟨b.val * 512 + p.val, by omega⟩ col) := by
  refine (statAt_row0 adj tt fw fb1 col 7 (by norm_num)).trans ?_
  rw [Finset.sum_range]
  exact Finset.sum_congr rfl fun b _ => dif_pos b.isLt

/-- Row 1 of the statistics array: the column sums of the squares of hK over all 4096 rows, block by block. -/
theorem stat_row1 (adj : FVec Ideal S4096x4096 .f32) (tt : FVec Ideal S4096x256 .f32) (fw : FVec Ideal S128x512 .f32) (fb1 : FVec Ideal S1x512 .f32)
    (col : Fin 512) :
    statAt adj tt fw fb1 7 (by norm_num) (ix2 (1 : Fin 8) col)
      = ∑ b : Fin 8, ∑ p : Fin 512,
          hK adj tt fw fb1 (ix2 ⟨b.val * 512 + p.val, by omega⟩ col) * hK adj tt fw fb1 (ix2 ⟨b.val * 512 + p.val, by omega⟩ col) := by
  refine (statAt_row1 adj tt fw fb1 col 7 (by norm_num)).trans ?_
  rw [Finset.sum_range]
  exact Finset.sum_congr rfl fun b _ => dif_pos b.isLt

end Cert.KernelIdeal.Hand

end
-- ==== Proof.Ideal.Value4.lean ====
/-
  The fifth pallas_call, read as values on the extended reals: after its sixteen grid points each of the four output
  arrays is ONE closed-form function of the call's input arrays, index by index. Output 10 is the batch-normalised
  activations (column mean and variance from the column sums and sums of squares, divided by the number of rows),
  scaled by gamma, shifted by beta, through the leaky unit; outputs 11, 12 and 13 are the three decoder heads over it:
  the clamped softplus, the clamped exponential, and the logistic of a column-wise scaled and shifted dense layer.
  Per output window: what the body's payload is at a block index; where each input block's entry sits in its array
  (the row-blocked windows at rows 256 t …, the others whole); so point t writes back block t of the closed form; the
  sixteen row blocks cover the array; hence the array after the call is the closed form.
-/
import proofs.«117800_g2173253451805_cont_8to1_1923_4_alg».proof.Proof.Ideal.Region4
import proofs.«117800_g2173253451805_cont_8to1_1923_4_alg».proof.Proof.Spec
import proofs.«117800_g2173253451805_cont_8to1_1923_4_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Hand Idealize.ShloMosaic.ValueIdx
open Cert.Spec
open scoped BigOperators

variable (V : (c : Dev nD) → (b : Ref sig .tc) → Buf (Elt Ideal) ((c : Thread nD τ).loc b))

/-! ## Coordinates -/

/-- The one row of a [1, n] array. -/
abbrev r0 {n : Nat} (q : Fin n) : (⟨2, ![1, n]⟩ : Shape).Idx := ix2 (0 : Fin 1) q
/-- Row 0 of the [8, 512] array of column statistics: the column sums. -/
abbrev s0 (q : Fin 512) : S8x512.Idx := ix2 (0 : Fin 8) q
/-- Row 1 of it: the column sums of squares. -/
abbrev s1 (q : Fin 512) : S8x512.Idx := ix2 (1 : Fin 8) q

/-! ## The lane-wise functions at an index, on the extended reals -/

section AtIndex
variable {s : Shape} {φ : FTy}
theorem rsqrt_apply (a : FVec Ideal s φ) (i : s.Idx) : rsqrt a i = Ideal.rsqrt (a i) := rfl
theorem exp_apply (a : FVec Ideal s φ) (i : s.Idx) : exp a i = Ideal.exp (a i) := rfl
theorem log1p_apply (a : FVec Ideal s φ) (i : s.Idx) : log1p a i = Ideal.log1p (a i) := rfl
theorem logistic_apply (a : FVec Ideal s φ) (i : s.Idx) : logistic a i = Ideal.logistic (a i) := rfl
theorem absf_apply (a : FVec Ideal s φ) (i : s.Idx) : absf a i = Cert.Spec.abs (a i) := rfl
end AtIndex

/-! ## The closed forms -/

/-- The batch mean of column c: its sum over the rows, divided by their number. -/
def bm (st : FVec Ideal S8x512 .f32) (c : Fin 512) : EReal := Ideal.div (st (s0 c)) rows
/-- The batch variance of column c: the mean of the squares minus the square of the mean. -/
def bv (st : FVec Ideal S8x512 .f32) (c : Fin 512) : EReal := Ideal.div (st (s1 c)) rows - bm st c * bm st c
/-- The reciprocal standard deviation of column c. -/
def inv (st : FVec Ideal S8x512 .f32) (c : Fin 512) : EReal := Ideal.rsqrt (bv st c + eps)

/-- The normalised activations, scaled by gamma, shifted by beta, through the leaky unit. -/
def outK (h : FVec Ideal S4096x512 .f32) (st : FVec Ideal S8x512 .f32) (g b : FVec Ideal S1x512 .f32) : FVec Ideal S4096x512 .f32 :=
  fun i => lk (((h i - bm st (i 1)) * inv st (i 1)) * g (r0 (i 1)) + b (r0 (i 1)))

/-- A dense layer: the rows of o against the columns of w, plus the bias row. -/
def lin (o : FVec Ideal S4096x512 .f32) (w : FVec Ideal S512x2000 .f32) (bias : FVec Ideal S1x2000 .f32) : FVec Ideal S4096x2000 .f32 :=
  fun i => (∑ k : Fin 512, o (ix2 (i 0) k) * w (ix2 k (i 1))) + bias (r0 (i 1))

/-- The softplus as printed: x itself where x - 0 is unordered with itself, else max x 0 + log1p (exp (0 - |x - 0|)). -/
def spK (x : EReal) : EReal :=
  Scalar.select (FloatOps.cmpf (F := Ideal) (φ := .f32) .one (x - z) (x - z)) (x + z) (max x z + Ideal.log1p (Ideal.exp (z - Cert.Spec.abs (x - z))))

/-- The dispersion head: the clamped softplus of the dense layer. -/
def thetaK (h : FVec Ideal S4096x512 .f32) (st : FVec Ideal S8x512 .f32) (g b : FVec Ideal S1x512 .f32)
    (tw : FVec Ideal S512x2000 .f32) (tb : FVec Ideal S1x2000 .f32) : FVec Ideal S4096x2000 .f32 :=
  fun i => clamp (spK (lin (outK h st g b) tw tb i))

/-- The mean head: the clamped exponential of the dense layer. -/
def meanK (h : FVec Ideal S4096x512 .f32) (st : FVec Ideal S8x512 .f32) (g b : FVec Ideal S1x512 .f32)
    (mw : FVec Ideal S512x2000 .f32) (mb : FVec Ideal S1x2000 .f32) : FVec Ideal S4096x2000 .f32 :=
  fun i => clamp (Ideal.exp (lin (outK h st g b) mw mb i))

/-- The dropout head: the logistic of the mean head's dense layer scaled and shifted column by column. -/
def piK (h : FVec Ideal S4096x512 .f32) (st : FVec Ideal S8x512 .f32) (g b : FVec Ideal S1x512 .f32)
    (mw : FVec Ideal S512x2000 .f32) (mb pw pb : FVec Ideal S1x2000 .f32) : FVec Ideal S4096x2000 .f32 :=
  fun i => Ideal.logistic (lin (outK h st g b) mw mb i * pw (r0 (i 1)) + pb (r0 (i 1)))

/-! ## The body's payloads read at an index -/

/-- The two one-row rectangles through which the body reads the statistics: row 0 and row 1. -/
theorem ld_row0 (x1 : Vec Ideal S8x512 .f32) (q : Fin 512) :
    View.ld x1 (Rect.unit (s := S8x512) ![0, 0] S1x512.size inb_S8x512_S1x512_0_0) (r0 q) = x1 (s0 q) := by
  show x1 ((Rect.unit (s := S8x512) ![0, 0] S1x512.size inb_S8x512_S1x512_0_0).emb (r0 q)) = x1 (s0 q)
  congr 1; funext a; apply Fin.ext
  match a with
  | ⟨0, _⟩ => rfl
  | ⟨1, _⟩ => show 0 + 1 * q.val = q.val; omega

theorem ld_row1 (x1 : Vec Ideal S8x512 .f32) (q : Fin 512) :
    View.ld x1 (Rect.unit (s := S8x512) ![1, 0] S1x512.size inb_S8x512_S1x512_1_0) (r0 q) = x1 (s1 q) := by
  show x1 ((Rect.unit (s := S8x512) ![1, 0] S1x512.size inb_S8x512_S1x512_1_0).emb (r0 q)) = x1 (s1 q)
  congr 1; funext a; apply Fin.ext
  match a with
  | ⟨0, _⟩ => rfl
  | ⟨1, _⟩ => show 0 + 1 * q.val = q.val; omega

/-- The normalising payload at a block index, over any five loaded blocks. -/
theorem pay2_ix (v0 v2 : Vec Ideal S1x512 .f32) (v13 : Vec Ideal S256x512 .f32) (v19 v23 : Vec Ideal S1x512 .f32) (p : Fin 256) (q : Fin 512) :
    k4_pay2 v0 v2 v13 v19 v23 (ix2 p q) = lk (((v13 (ix2 p q) - Ideal.div (v0 (r0 q)) rows) * Ideal.rsqrt (Ideal.div (v2 (r0 q)) rows - Ideal.div (v0 (r0 q)) rows * Ideal.div (v0 (r0 q)) rows + eps)) * v19 (r0 q) + v23 (r0 q)) := by
  have hb : ∀ (v : FVec Ideal S1x512 .f32), broadcastTo S256x512 v broadcasts_S1x512_S256x512 (ix2 p q) = v (r0 q) := fun v => broadcastTo_1b_ab_apply v _ p q
  unfold k4_pay2
  simp only [shapeCast_self, select_apply, cmpf_apply, mulf_apply, addf_apply, subf_apply, hb, divf_apply, broadcast_apply, rsqrt_apply]
  rfl

/-- The same with the statistics read through the body's two rectangles: the block of the closed form. -/
theorem pay2_blk (x0 : Vec Ideal S256x512 .f32) (x1 : Vec Ideal S8x512 .f32) (x2 x3 : Vec Ideal S1x512 .f32) (p : Fin 256) (q : Fin 512) :
    k4_pay2 (View.ld x1 (Rect.unit (s := S8x512) ![0, 0] S1x512.size inb_S8x512_S1x512_0_0)) (View.ld x1 (Rect.unit (s := S8x512) ![1, 0] S1x512.size inb_S8x512_S1x512_1_0)) x0 x2 x3 (ix2 p q)
      = lk (((x0 (ix2 p q) - bm x1 q) * inv x1 q) * x2 (r0 q) + x3 (r0 q)) := by
  rw [pay2_ix, ld_row0, ld_row1]
  rfl

/-! ## Where the windows' blocks sit -/

theorem hz4 : (![0, 0] : Fin 2 → Nat) = fun _ => 0 := funext fun a => by fin_cases a <;> rfl

/-- The printed index maps, decided over the sixteen grid points: the row-blocked windows (the input 0 and the four
    outputs) are at block (t, 0); every other window is its whole array, at block (0, 0). -/
theorem idx4 : ∀ t : Fin cfg4.N, t.val < 16
    ∧ (win4_0.index t (0 : Fin 2) = t.val ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = 0 ∧ win4_9.index t (1 : Fin 2) = 0)
    ∧ (win4_10.index t (0 : Fin 2) = t.val ∧ win4_10.index t (1 : Fin 2) = 0)
    ∧ (win4_11.index t (0 : Fin 2) = t.val ∧ win4_11.index t (1 : Fin 2) = 0)
    ∧ (win4_12.index t (0 : Fin 2) = t.val ∧ win4_12.index t (1 : Fin 2) = 0)
    ∧ (win4_13.index t (0 : Fin 2) = t.val ∧ win4_13.index t (1 : Fin 2) = 0) :=
  (by decide +kernel : ∀ t : Fin grid4.N, _)

/-- Every row block is some point's. -/
theorem idx4_onto : ∀ q : Fin 16, ∃ t : Fin cfg4.N, t.val = q.val :=
  (by decide +kernel : ∀ q : Fin 16, ∃ t : Fin grid4.N, t.val = q.val)

/-- Input window 0's block at point t is rows 256 t … 256 t + 255 of h. -/
theorem iblk4_0_at (c : Dev nD) (t : Fin cfg4.N) (x : S256x512.Idx) (k : S4096x512.Idx)
    (hk0 : (k 0).val = 256 * t.val + (x 0).val) (hk1 : (k 1).val = (x 1).val) :
    (iblk4 V c 0 t : Vec Ideal S256x512 .f32) x = (V c main_v10_1 : FVec Ideal S4096x512 .f32) k := by
  obtain ⟨-, ⟨e0, e1⟩, -⟩ := idx4 t
  unfold iblk4
  rw [View.read_apply]
  show V c main_v10_1 _ = V c main_v10_1 _
  congr 1
  funext a; apply Fin.ext
  match a with
  | ⟨0, _⟩ => show win4_0.index t (0 : Fin 2) * 256 + 1 * (x 0).val = (k 0).val; rw [e0, hk0]; omega
  | ⟨1, _⟩ => show win4_0.index t (1 : Fin 2) * 512 + 1 * (x 1).val = (k 1).val; rw [e1, hk1]; omega

/-- Input window 1's block is the whole array of column statistics, at every point. -/
theorem iblk4_1_eq (c : Dev nD) (t : Fin cfg4.N) :
    (iblk4 V c 1 t : Vec Ideal S8x512 .f32) = (V c main_v10_2 : FVec Ideal S8x512 .f32) := by
  obtain ⟨-, -, ⟨e0, e1⟩, -⟩ := idx4 t
  funext x
  unfold iblk4
  rw [View.read_apply]
  show V c main_v10_2 _ = V c main_v10_2 x
  congr 1
  funext a; apply Fin.ext
  match a with
  | ⟨0, _⟩ => show win4_1.index t (0 : Fin 2) * 8 + 1 * (x 0).val = (x 0).val; rw [e0]; omega
  | ⟨1, _⟩ => show win4_1.index t (1 : Fin 2) * 512 + 1 * (x 1).val = (x 1).val; rw [e1]; omega

/-- Input window 2's block is the whole array gamma, at every point. -/
theorem iblk4_2_eq (c : Dev nD) (t : Fin cfg4.N) :
    (iblk4 V c 2 t : Vec Ideal S1x512 .f32) = (V c main_v2 : FVec Ideal S1x512 .f32) := by
  obtain ⟨-, -, -, ⟨e0, e1⟩, -⟩ := idx4 t
  funext x
  unfold iblk4
  rw [View.read_apply]
  show V c main_v2 _ = V c main_v2 x
  congr 1
  funext a; apply Fin.ext
  match a with
  | ⟨0, _⟩ => show win4_2.index t (0 : Fin 2) * 1 + 1 * (x 0).val = (x 0).val; rw [e0]; omega
  | ⟨1, _⟩ => show win4_2.index t (1 : Fin 2) * 512 + 1 * (x 1).val = (x 1).val; rw [e1]; omega

/-- Input window 3's block is the whole array beta, at every point. -/
theorem iblk4_3_eq (c : Dev nD) (t : Fin cfg4.N) :
    (iblk4 V c 3 t : Vec Ideal S1x512 .f32) = (V c main_v3 : FVec Ideal S1x512 .f32) := by
  obtain ⟨-, -, -, -, ⟨e0, e1⟩, -⟩ := idx4 t
  funext x
  unfold iblk4
  rw [View.read_apply]
  show V c main_v3 _ = V c main_v3 x
  congr 1
  funext a; apply Fin.ext
  match a with
  | ⟨0, _⟩ => show win4_3.index t (0 : Fin 2) * 1 + 1 * (x 0).val = (x 0).val; rw [e0]; omega
  | ⟨1, _⟩ => show win4_3.index t (1 : Fin 2) * 512 + 1 * (x 1).val = (x 1).val; rw [e1]; omega

/-- Input window 4's block is the whole array theta_w, at every point. -/
theorem iblk4_4_eq (c : Dev nD) (t : Fin cfg4.N) :
    (iblk4 V c 4 t : Vec Ideal S512x2000 .f32) = (V c main_arg9 : FVec Ideal S512x2000 .f32) := by
  obtain ⟨-, -, -, -, -, ⟨e0, e1⟩, -⟩ := idx4 t
  funext x
  unfold iblk4
  rw [View.read_apply]
  show V c main_arg9 _ = V c main_arg9 x
  congr 1
  funext a; apply Fin.ext
  match a with
  | ⟨0, _⟩ => show win4_4.index t (0 : Fin 2) * 512 + 1 * (x 0).val = (x 0).val; rw [e0]; omega
  | ⟨1, _⟩ => show win4_4.index t (1 : Fin 2) * 2000 + 1 * (x 1).val = (x 1).val; rw [e1]; omega

/-- Input window 5's block is the whole array theta_b, at every point. -/
theorem iblk4_5_eq (c : Dev nD) (t : Fin cfg4.N) :
    (iblk4 V c 5 t : Vec Ideal S1x2000 .f32) = (V c main_v4 : FVec Ideal S1x2000 .f32) := by
  obtain ⟨-, -, -, -, -, -, ⟨e0, e1⟩, -⟩ := idx4 t
  funext x
  unfold iblk4
  rw [View.read_apply]
  show V c main_v4 _ = V c main_v4 x
  congr 1
  funext a; apply Fin.ext
  match a with
  | ⟨0, _⟩ => show win4_5.index t (0 : Fin 2) * 1 + 1 * (x 0).val = (x 0).val; rw [e0]; omega
  | ⟨1, _⟩ => show win4_5.index t (1 : Fin 2) * 2000 + 1 * (x 1).val = (x 1).val; rw [e1]; omega

/-- Input window 6's block is the whole array mean_w, at every point. -/
theorem iblk4_6_eq (c : Dev nD) (t : Fin cfg4.N) :
    (iblk4 V c 6 t : Vec Ideal S512x2000 .f32) = (V c main_arg11 : FVec Ideal S512x2000 .f32) := by
  obtain ⟨-, -, -, -, -, -, -, ⟨e0, e1⟩, -⟩ := idx4 t
  funext x
  unfold iblk4
  rw [View.read_apply]
  show V c main_arg11 _ = V c main_arg11 x
  congr 1
  funext a; apply Fin.ext
  match a with
  | ⟨0, _⟩ => show win4_6.index t (0 : Fin 2) * 512 + 1 * (x 0).val = (x 0).val; rw [e0]; omega
  | ⟨1, _⟩ => show win4_6.index t (1 : Fin 2) * 2000 + 1 * (x 1).val = (x 1).val; rw [e1]; omega

/-- Input window 7's block is the whole array mean_b, at every point. -/
theorem iblk4_7_eq (c : Dev nD) (t : Fin cfg4.N) :
    (iblk4 V c 7 t : Vec Ideal S1x2000 .f32) = (V c main_v5 : FVec Ideal S1x2000 .f32) := by
  obtain ⟨-, -, -, -, -, -, -, -, ⟨e0, e1⟩, -⟩ := idx4 t
  funext x
  unfold iblk4
  rw [View.read_apply]
  show V c main_v5 _ = V c main_v5 x
  congr 1
  funext a; apply Fin.ext
  match a with
  | ⟨0, _⟩ => show win4_7.index t (0 : Fin 2) * 1 + 1 * (x 0).val = (x 0).val; rw [e0]; omega
  | ⟨1, _⟩ => show win4_7.index t (1 : Fin 2) * 2000 + 1 * (x 1).val = (x 1).val; rw [e1]; omega

/-- Input window 8's block is the whole array pi_w, at every point. -/
theorem iblk4_8_eq (c : Dev nD) (t : Fin cfg4.N) :
    (iblk4 V c 8 t : Vec Ideal S1x2000 .f32) = (V c main_v6 : FVec Ideal S1x2000 .f32) := by
  obtain ⟨-, -, -, -, -, -, -, -, -, ⟨e0, e1⟩, -⟩ := idx4 t
  funext x
  unfold iblk4
  rw [View.read_apply]
  show V c main_v6 _ = V c main_v6 x
  congr 1
  funext a; apply Fin.ext
  match a with
  | ⟨0, _⟩ => show win4_8.index t (0 : Fin 2) * 1 + 1 * (x 0).val = (x 0).val; rw [e0]; omega
  | ⟨1, _⟩ => show win4_8.index t (1 : Fin 2) * 2000 + 1 * (x 1).val = (x 1).val; rw [e1]; omega

/-- Input window 9's block is the whole array pi_b, at every point. -/
theorem iblk4_9_eq (c : Dev nD) (t : Fin cfg4.N) :
    (iblk4 V c 9 t : Vec Ideal S1x2000 .f32) = (V c main_v7 : FVec Ideal S1x2000 .f32) := by
  obtain ⟨-, -, -, -, -, -, -, -, -, -, ⟨e0, e1⟩, -⟩ := idx4 t
  funext x
  unfold iblk4
  rw [View.read_apply]
  show V c main_v7 _ = V c main_v7 x
  congr 1
  funext a; apply Fin.ext
  match a with
  | ⟨0, _⟩ => show win4_9.index t (0 : Fin 2) * 1 + 1 * (x 0).val = (x 0).val; rw [e0]; omega
  | ⟨1, _⟩ => show win4_9.index t (1 : Fin 2) * 2000 + 1 * (x 1).val = (x 1).val; rw [e1]; omega

/-! ## Output window 10: the normalised block -/

/-- The body's block at a block index is the closed form at the array index the block index sits at. -/
theorem pay2_arr (x0 : Vec Ideal S256x512 .f32) (x1 : Vec Ideal S8x512 .f32) (x2 x3 : Vec Ideal S1x512 .f32)
    (A0 : FVec Ideal S4096x512 .f32) (j : S256x512.Idx) (k : S4096x512.Idx)
    (h0 : x0 j = A0 k) (hk : (k 1).val = (j 1).val) :
    k4_pay2 (View.ld x1 (Rect.unit (s := S8x512) ![0, 0] S1x512.size inb_S8x512_S1x512_0_0)) (View.ld x1 (Rect.unit (s := S8x512) ![1, 0] S1x512.size inb_S8x512_S1x512_1_0)) x0 x2 x3 j
      = outK A0 x1 x2 x3 k := by
  obtain ⟨p, q, rfl⟩ : ∃ (p : Fin 256) (q : Fin 512), j = ix2 p q := ⟨j 0, j 1, eq_ix2 j⟩
  have hq : (k 1 : Fin 512) = q := Fin.ext hk
  rw [pay2_blk, h0]
  unfold outK
  rw [hq]

/-- What point t writes back to output window 10 is block t of the closed form. -/
theorem flushed4_10_eq (c : Dev nD) (t : Fin cfg4.N) :
    (dat4 V c).flushed 10 t = ((cfg4.win 10).blk t).view.read (Elt Ideal) (outK (V c main_v10_1) (V c main_v10_2) (V c main_v2) (V c main_v3)) := by
  show (cfg4.win 10).cut (grid4.coords t) ((dat4 V c).after 10 t) = _
  rw [after4_10]
  unfold out4_10
  rw [View.canon_unit_zero hz4]
  simp only [View.ld_unit_zero (S := S256x512) hz4, View.ld_unit_zero (S := S1x512) hz4]
  obtain ⟨-, -, -, -, -, -, -, -, -, -, -, ⟨e0, e1⟩, -⟩ := idx4 t
  funext j
  rw [View.read_apply]
  refine (pay2_arr (iblk4 V c 0 t) (iblk4 V c 1 t) (iblk4 V c 2 t) (iblk4 V c 3 t) (V c main_v10_1) _ (((cfg4.win 10).blk t).view.emb j) (iblk4_0_at V c t _ _ ?_ ?_) ?_).trans ?_
  · show win4_10.index t (0 : Fin 2) * 256 + 1 * (j 0).val = 256 * t.val + (j 0).val; rw [e0]; omega
  · show win4_10.index t (1 : Fin 2) * 512 + 1 * (j 1).val = (j 1).val; rw [e1]; omega
  · show win4_10.index t (1 : Fin 2) * 512 + 1 * (j 1).val = (j 1).val; rw [e1]; omega
  · rw [iblk4_1_eq, iblk4_2_eq, iblk4_3_eq]; rfl

/-- An index of the array is in point t's block of output window 10 iff each coordinate is in the block's range on its axis. -/
theorem mem_blk4_10 (t : Fin cfg4.N) (i : S4096x512.Idx) :
    i ∈ ((cfg4.win 10).blk t).view.set ↔ ∀ a : Fin 2, win4_10.index t a * S256x512.size a ≤ (i a).val ∧ (i a).val < win4_10.index t a * S256x512.size a + S256x512.size a := by
  show i ∈ ((View.whole main_v15_0).slice (win4_10.rect t)).set ↔ _
  rw [View.set_slice_whole, Rect.mem_set_unit]
  exact Iff.rfl

/-- The sixteen row blocks of output window 10 cover its array. -/
theorem covered4_10 (i : S4096x512.Idx) :
    ∃ t : Fin cfg4.N, (cfg4.win 10).flush t = true ∧ i ∈ ((cfg4.win 10).blk t).view.set := by
  have hi0 : (i 0).val < 4096 := (i 0).isLt
  have hi1 : (i 1).val < 512 := (i 1).isLt
  obtain ⟨t, ht⟩ := idx4_onto ⟨(i 0).val / 256, by omega⟩
  have ht' : t.val = (i 0).val / 256 := ht
  obtain ⟨-, -, -, -, -, -, -, -, -, -, -, ⟨e0, e1⟩, -⟩ := idx4 t
  refine ⟨t, flush4_10 t, ?_⟩
  rw [mem_blk4_10]
  intro a
  match a with
  | ⟨0, _⟩ => show win4_10.index t (0 : Fin 2) * 256 ≤ (i 0).val ∧ (i 0).val < win4_10.index t (0 : Fin 2) * 256 + 256; rw [e0]; omega
  | ⟨1, _⟩ => show win4_10.index t (1 : Fin 2) * 512 ≤ (i 1).val ∧ (i 1).val < win4_10.index t (1 : Fin 2) * 512 + 512; rw [e1]; omega

/-- After the call, output window 10's array is the normalised activations through the leaky unit, index by index. -/
theorem final4_10 (c : Dev nD) :
    (dat4 V c).arrAt 10 cfg4.N = outK (V c main_v10_1) (V c main_v10_2) (V c main_v2) (V c main_v3) :=
  (dat4 V c).arrAt_eq_of_cover 10 (outK (V c main_v10_1) (V c main_v10_2) (V c main_v2) (V c main_v3))
    (fun t _ => flushed4_10_eq V c t) covered4_10

/-! ## The decoder heads' payloads at an index -/

/-- A dense layer's block: the product into the zero accumulator plus the broadcast bias row. -/
theorem pay5_ix (v31 : FVec Ideal S256x512 .f32) (v60 : Vec Ideal S512x2000 .f32) (v64 : Vec Ideal S1x2000 .f32) (p : Fin 256) (q : Fin 2000) :
    k4_pay5 v31 v60 v64 (ix2 p q) = (∑ k : Fin 512, v31 (ix2 p k) * v60 (ix2 k q)) + v64 (r0 q) := by
  unfold k4_pay5
  simp only [shapeCast_self]
  refine (addf_apply _ _ _).trans ?_
  refine congrArg₂ (· + ·) ?_ (broadcastTo_1b_ab_apply v64 _ p q)
  exact PlainDot.matmul_zero_plain dot_S256x512_S512x2000_S256x2000_1_0_0_1_n_n rfl rfl rfl rfl rfl rfl none _ _ (ix2 p q)

/-- The product alone, of the normalising payload. -/
theorem pay3_ix (v0 v2 : Vec Ideal S1x512 .f32) (v13 : Vec Ideal S256x512 .f32) (v19 v23 : Vec Ideal S1x512 .f32) (v33 : Vec Ideal S512x2000 .f32) (p : Fin 256) (q : Fin 2000) :
    k4_pay3 v0 v2 v13 v19 v23 v33 (ix2 p q) = ∑ k : Fin 512, k4_pay2 v0 v2 v13 v19 v23 (ix2 p k) * v33 (ix2 k q) := by
  unfold k4_pay3
  exact PlainDot.matmul_zero_plain dot_S256x512_S512x2000_S256x2000_1_0_0_1_n_n rfl rfl rfl rfl rfl rfl none _ _ (ix2 p q)

/-- The clamped softplus of a block plus a broadcast bias row. -/
theorem pay4_ix (v36 : FVec Ideal S256x2000 .f32) (v37 : Vec Ideal S1x2000 .f32) (p : Fin 256) (q : Fin 2000) :
    k4_pay4 v36 v37 (ix2 p q) = clamp (spK (v36 (ix2 p q) + v37 (r0 q))) := by
  have hb : ∀ (v : FVec Ideal S1x2000 .f32), broadcastTo S256x2000 v broadcasts_S1x2000_S256x2000 (ix2 p q) = v (r0 q) := fun v => broadcastTo_1b_ab_apply v _ p q
  unfold k4_pay4
  simp only [shapeCast_self, select_apply, cmpf_apply, mulf_apply, addf_apply, subf_apply, maximumf_apply, minimumf_apply, hb, broadcast_apply, absf_apply, exp_apply, log1p_apply]
  rfl

/-- The clamped exponential of a dense layer's block. -/
theorem pay6_ix (v31 : FVec Ideal S256x512 .f32) (v60 : Vec Ideal S512x2000 .f32) (v64 : Vec Ideal S1x2000 .f32) (j : S256x2000.Idx) :
    k4_pay6 v31 v60 v64 j = clamp (Ideal.exp (k4_pay5 v31 v60 v64 j)) := rfl

/-- A broadcast row. -/
theorem pay7_ix (v74 : Vec Ideal S1x2000 .f32) (p : Fin 256) (q : Fin 2000) : k4_pay7 v74 (ix2 p q) = v74 (r0 q) := by
  unfold k4_pay7
  simp only [shapeCast_self]
  exact broadcastTo_1b_ab_apply v74 _ p q

/-- The logistic of a block times a block plus a broadcast row. -/
theorem pay1_ix (v67 v76 : FVec Ideal S256x2000 .f32) (v78 : Vec Ideal S1x2000 .f32) (p : Fin 256) (q : Fin 2000) :
    k4_pay1 v67 v76 v78 (ix2 p q) = Ideal.logistic (v67 (ix2 p q) * v76 (ix2 p q) + v78 (r0 q)) := by
  have hb : ∀ (v : FVec Ideal S1x2000 .f32), broadcastTo S256x2000 v broadcasts_S1x2000_S256x2000 (ix2 p q) = v (r0 q) := fun v => broadcastTo_1b_ab_apply v _ p q
  unfold k4_pay1
  simp only [shapeCast_self, logistic_apply, mulf_apply, addf_apply, hb]

/-! ## The heads' blocks as blocks of the closed forms -/

/-- The dense layer's block over the normalising payload is the block of the dense layer over the closed form:
    row p of the block is row P of the array. -/
theorem pay5_arr (x0 : Vec Ideal S256x512 .f32) (x1 : Vec Ideal S8x512 .f32) (x2 x3 : Vec Ideal S1x512 .f32)
    (x6 : Vec Ideal S512x2000 .f32) (x7 : Vec Ideal S1x2000 .f32) (A0 : FVec Ideal S4096x512 .f32)
    (p : Fin 256) (q : Fin 2000) (P : Fin 4096) (h0 : ∀ k' : Fin 512, x0 (ix2 p k') = A0 (ix2 P k')) :
    k4_pay5 (k4_pay2 (View.ld x1 (Rect.unit (s := S8x512) ![0, 0] S1x512.size inb_S8x512_S1x512_0_0)) (View.ld x1 (Rect.unit (s := S8x512) ![1, 0] S1x512.size inb_S8x512_S1x512_1_0)) x0 x2 x3) x6 x7 (ix2 p q) = lin (outK A0 x1 x2 x3) x6 x7 (ix2 P q) := by
  rw [pay5_ix]
  show _ = (∑ k' : Fin 512, outK A0 x1 x2 x3 (ix2 P k') * x6 (ix2 k' q)) + x7 (r0 q)
  refine congrArg₂ (· + ·) (Finset.sum_congr rfl fun k' _ => congrArg₂ (· * ·) ?_ rfl) rfl
  exact pay2_arr x0 x1 x2 x3 A0 (ix2 p k') (ix2 P k') (h0 k') rfl

/-- The mean head's block. -/
theorem pay6_arr (x0 : Vec Ideal S256x512 .f32) (x1 : Vec Ideal S8x512 .f32) (x2 x3 : Vec Ideal S1x512 .f32)
    (x6 : Vec Ideal S512x2000 .f32) (x7 : Vec Ideal S1x2000 .f32) (A0 : FVec Ideal S4096x512 .f32) (j : S256x2000.Idx) (k : S4096x2000.Idx)
    (h0 : ∀ k' : Fin 512, x0 (ix2 (j 0) k') = A0 (ix2 (k 0) k')) (hk : (k 1).val = (j 1).val) :
    k4_pay6 (k4_pay2 (View.ld x1 (Rect.unit (s := S8x512) ![0, 0] S1x512.size inb_S8x512_S1x512_0_0)) (View.ld x1 (Rect.unit (s := S8x512) ![1, 0] S1x512.size inb_S8x512_S1x512_1_0)) x0 x2 x3) x6 x7 j = meanK A0 x1 x2 x3 x6 x7 k := by
  obtain ⟨p, q, rfl⟩ : ∃ (p : Fin 256) (q : Fin 2000), j = ix2 p q := ⟨j 0, j 1, eq_ix2 j⟩
  obtain ⟨P, Q, rfl⟩ : ∃ (P : Fin 4096) (Q : Fin 2000), k = ix2 P Q := ⟨k 0, k 1, eq_ix2 k⟩
  have hQ : Q = q := Fin.ext hk
  subst hQ
  rw [pay6_ix, pay5_arr x0 x1 x2 x3 x6 x7 A0 _ _ P h0]
  rfl

/-- The dropout head's block. -/
theorem pay1_arr (x0 : Vec Ideal S256x512 .f32) (x1 : Vec Ideal S8x512 .f32) (x2 x3 : Vec Ideal S1x512 .f32)
    (x6 : Vec Ideal S512x2000 .f32) (x7 x8 x9 : Vec Ideal S1x2000 .f32) (A0 : FVec Ideal S4096x512 .f32) (j : S256x2000.Idx) (k : S4096x2000.Idx)
    (h0 : ∀ k' : Fin 512, x0 (ix2 (j 0) k') = A0 (ix2 (k 0) k')) (hk : (k 1).val = (j 1).val) :
    k4_pay1 (k4_pay5 (k4_pay2 (View.ld x1 (Rect.unit (s := S8x512) ![0, 0] S1x512.size inb_S8x512_S1x512_0_0)) (View.ld x1 (Rect.unit (s := S8x512) ![1, 0] S1x512.size inb_S8x512_S1x512_1_0)) x0 x2 x3) x6 x7) (k4_pay7 x8) x9 j = piK A0 x1 x2 x3 x6 x7 x8 x9 k := by
  obtain ⟨p, q, rfl⟩ : ∃ (p : Fin 256) (q : Fin 2000), j = ix2 p q := ⟨j 0, j 1, eq_ix2 j⟩
  obtain ⟨P, Q, rfl⟩ : ∃ (P : Fin 4096) (Q : Fin 2000), k = ix2 P Q := ⟨k 0, k 1, eq_ix2 k⟩
  have hQ : Q = q := Fin.ext hk
  subst hQ
  rw [pay1_ix, pay7_ix, pay5_arr x0 x1 x2 x3 x6 x7 A0 _ _ P h0]
  rfl

/-- The dispersion head's block. -/
theorem pay4_arr (x0 : Vec Ideal S256x512 .f32) (x1 : Vec Ideal S8x512 .f32) (x2 x3 : Vec Ideal S1x512 .f32)
    (x4 : Vec Ideal S512x2000 .f32) (x5 : Vec Ideal S1x2000 .f32) (A0 : FVec Ideal S4096x512 .f32) (j : S256x2000.Idx) (k : S4096x2000.Idx)
    (h0 : ∀ k' : Fin 512, x0 (ix2 (j 0) k') = A0 (ix2 (k 0) k')) (hk : (k 1).val = (j 1).val) :
    k4_pay4 (k4_pay3 (View.ld x1 (Rect.unit (s := S8x512) ![0, 0] S1x512.size inb_S8x512_S1x512_0_0)) (View.ld x1 (Rect.unit (s := S8x512) ![1, 0] S1x512.size inb_S8x512_S1x512_1_0)) x0 x2 x3 x4) x5 j = thetaK A0 x1 x2 x3 x4 x5 k := by
  obtain ⟨p, q, rfl⟩ : ∃ (p : Fin 256) (q : Fin 2000), j = ix2 p q := ⟨j 0, j 1, eq_ix2 j⟩
  obtain ⟨P, Q, rfl⟩ : ∃ (P : Fin 4096) (Q : Fin 2000), k = ix2 P Q := ⟨k 0, k 1, eq_ix2 k⟩
  have hQ : Q = q := Fin.ext hk
  subst hQ
  rw [pay4_ix, pay3_ix]
  show _ = clamp (spK ((∑ k' : Fin 512, outK A0 x1 x2 x3 (ix2 P k') * x4 (ix2 k' Q)) + x5 (r0 Q)))
  refine congrArg (fun s => clamp (spK (s + x5 (r0 Q)))) (Finset.sum_congr rfl fun k' _ => congrArg₂ (· * ·) ?_ rfl)
  exact pay2_arr x0 x1 x2 x3 A0 (ix2 _ k') (ix2 P k') (h0 k') rfl

/-! ## Output window 12: the mean head -/

/-- What point t writes back to output window 12 is block t of the mean head. -/
theorem flushed4_12_eq (c : Dev nD) (t : Fin cfg4.N) :
    (dat4 V c).flushed 12 t = ((cfg4.win 12).blk t).view.read (Elt Ideal) (meanK (V c main_v10_1) (V c main_v10_2) (V c main_v2) (V c main_v3) (V c main_arg11) (V c main_v5)) := by
  show (cfg4.win 12).cut (grid4.coords t) ((dat4 V c).after 12 t) = _
  rw [after4_12]
  unfold out4_12
  rw [View.canon_unit_zero hz4]
  simp only [View.ld_unit_zero (S := S256x512) hz4, View.ld_unit_zero (S := S1x512) hz4, View.ld_unit_zero (S := S512x2000) hz4, View.ld_unit_zero (S := S1x2000) hz4]
  obtain ⟨-, -, -, -, -, -, -, -, -, -, -, -, -, ⟨e0, e1⟩, -⟩ := idx4 t
  funext j
  rw [View.read_apply]
  refine (pay6_arr (iblk4 V c 0 t) (iblk4 V c 1 t) (iblk4 V c 2 t) (iblk4 V c 3 t) (iblk4 V c 6 t) (iblk4 V c 7 t) (V c main_v10_1) _ (((cfg4.win 12).blk t).view.emb j) (fun k' => iblk4_0_at V c t _ _ ?_ ?_) ?_).trans ?_
  · show win4_12.index t (0 : Fin 2) * 256 + 1 * (j 0).val = 256 * t.val + (j 0).val; rw [e0]; omega
  · rfl
  · show win4_12.index t (1 : Fin 2) * 2000 + 1 * (j 1).val = (j 1).val; rw [e1]; omega
  · rw [iblk4_1_eq, iblk4_2_eq, iblk4_3_eq, iblk4_6_eq, iblk4_7_eq]; rfl

/-- An index of the array is in point t's block of output window 12 iff each coordinate is in the block's range on its axis. -/
theorem mem_blk4_12 (t : Fin cfg4.N) (i : S4096x2000.Idx) :
    i ∈ ((cfg4.win 12).blk t).view.set ↔ ∀ a : Fin 2, win4_12.index t a * S256x2000.size a ≤ (i a).val ∧ (i a).val < win4_12.index t a * S256x2000.size a + S256x2000.size a := by
  show i ∈ ((View.whole main_v15_2).slice (win4_12.rect t)).set ↔ _
  rw [View.set_slice_whole, Rect.mem_set_unit]
  exact Iff.rfl

/-- The sixteen row blocks of output window 12 cover its array. -/
theorem covered4_12 (i : S4096x2000.Idx) :
    ∃ t : Fin cfg4.N, (cfg4.win 12).flush t = true ∧ i ∈ ((cfg4.win 12).blk t).view.set := by
  have hi0 : (i 0).val < 4096 := (i 0).isLt
  have hi1 : (i 1).val < 2000 := (i 1).isLt
  obtain ⟨t, ht⟩ := idx4_onto ⟨(i 0).val / 256, by omega⟩
  have ht' : t.val = (i 0).val / 256 := ht
  obtain ⟨-, -, -, -, -, -, -, -, -, -, -, -, -, ⟨e0, e1⟩, -⟩ := idx4 t
  refine ⟨t, flush4_12 t, ?_⟩
  rw [mem_blk4_12]
  intro a
  match a with
  | ⟨0, _⟩ => show win4_12.index t (0 : Fin 2) * 256 ≤ (i 0).val ∧ (i 0).val < win4_12.index t (0 : Fin 2) * 256 + 256; rw [e0]; omega
  | ⟨1, _⟩ => show win4_12.index t (1 : Fin 2) * 2000 ≤ (i 1).val ∧ (i 1).val < win4_12.index t (1 : Fin 2) * 2000 + 2000; rw [e1]; omega

/-- After the call, output window 12's array is the clamped exponential of the mean layer over the normalised activations, index by index. -/
theorem final4_12 (c : Dev nD) :
    (dat4 V c).arrAt 12 cfg4.N = meanK (V c main_v10_1) (V c main_v10_2) (V c main_v2) (V c main_v3) (V c main_arg11) (V c main_v5) :=
  (dat4 V c).arrAt_eq_of_cover 12 (meanK (V c main_v10_1) (V c main_v10_2) (V c main_v2) (V c main_v3) (V c main_arg11) (V c main_v5))
    (fun t _ => flushed4_12_eq V c t) covered4_12

/-! ## Output window 13: the dropout head -/

/-- What point t writes back to output window 13 is block t of the dropout head. -/
theorem flushed4_13_eq (c : Dev nD) (t : Fin cfg4.N) :
    (dat4 V c).flushed 13 t = ((cfg4.win 13).blk t).view.read (Elt Ideal) (piK (V c main_v10_1) (V c main_v10_2) (V c main_v2) (V c main_v3) (V c main_arg11) (V c main_v5) (V c main_v6) (V c main_v7)) := by
  show (cfg4.win 13).cut (grid4.coords t) ((dat4 V c).after 13 t) = _
  rw [after4_13]
  unfold out4_13
  rw [View.canon_unit_zero hz4]
  simp only [View.ld_unit_zero (S := S256x512) hz4, View.ld_unit_zero (S := S1x512) hz4, View.ld_unit_zero (S := S512x2000) hz4, View.ld_unit_zero (S := S1x2000) hz4]
  obtain ⟨-, -, -, -, -, -, -, -, -, -, -, -, -, -, ⟨e0, e1⟩⟩ := idx4 t
  funext j
  rw [View.read_apply]
  refine (pay1_arr (iblk4 V c 0 t) (iblk4 V c 1 t) (iblk4 V c 2 t) (iblk4 V c 3 t) (iblk4 V c 6 t) (iblk4 V c 7 t) (iblk4 V c 8 t) (iblk4 V c 9 t) (V c main_v10_1) _ (((cfg4.win 13).blk t).view.emb j) (fun k' => iblk4_0_at V c t _ _ ?_ ?_) ?_).trans ?_
  · show win4_13.index t (0 : Fin 2) * 256 + 1 * (j 0).val = 256 * t.val + (j 0).val; rw [e0]; omega
  · rfl
  · show win4_13.index t (1 : Fin 2) * 2000 + 1 * (j 1).val = (j 1).val; rw [e1]; omega
  · rw [iblk4_1_eq, iblk4_2_eq, iblk4_3_eq, iblk4_6_eq, iblk4_7_eq, iblk4_8_eq, iblk4_9_eq]; rfl

/-- An index of the array is in point t's block of output window 13 iff each coordinate is in the block's range on its axis. -/
theorem mem_blk4_13 (t : Fin cfg4.N) (i : S4096x2000.Idx) :
    i ∈ ((cfg4.win 13).blk t).view.set ↔ ∀ a : Fin 2, win4_13.index t a * S256x2000.size a ≤ (i a).val ∧ (i a).val < win4_13.index t a * S256x2000.size a + S256x2000.size a := by
  show i ∈ ((View.whole main_v15_3).slice (win4_13.rect t)).set ↔ _
  rw [View.set_slice_whole, Rect.mem_set_unit]
  exact Iff.rfl

/-- The sixteen row blocks of output window 13 cover its array. -/
theorem covered4_13 (i : S4096x2000.Idx) :
    ∃ t : Fin cfg4.N, (cfg4.win 13).flush t = true ∧ i ∈ ((cfg4.win 13).blk t).view.set := by
  have hi0 : (i 0).val < 4096 := (i 0).isLt
  have hi1 : (i 1).val < 2000 := (i 1).isLt
  obtain ⟨t, ht⟩ := idx4_onto ⟨(i 0).val / 256, by omega⟩
  have ht' : t.val = (i 0).val / 256 := ht
  obtain ⟨-, -, -, -, -, -, -, -, -, -, -, -, -, -, ⟨e0, e1⟩⟩ := idx4 t
  refine ⟨t, flush4_13 t, ?_⟩
  rw [mem_blk4_13]
  intro a
  match a with
  | ⟨0, _⟩ => show win4_13.index t (0 : Fin 2) * 256 ≤ (i 0).val ∧ (i 0).val < win4_13.index t (0 : Fin 2) * 256 + 256; rw [e0]; omega
  | ⟨1, _⟩ => show win4_13.index t (1 : Fin 2) * 2000 ≤ (i 1).val ∧ (i 1).val < win4_13.index t (1 : Fin 2) * 2000 + 2000; rw [e1]; omega

/-- After the call, output window 13's array is the logistic of the mean layer scaled and shifted column by column, index by index. -/
theorem final4_13 (c : Dev nD) :
    (dat4 V c).arrAt 13 cfg4.N = piK (V c main_v10_1) (V c main_v10_2) (V c main_v2) (V c main_v3) (V c main_arg11) (V c main_v5) (V c main_v6) (V c main_v7) :=
  (dat4 V c).arrAt_eq_of_cover 13 (piK (V c main_v10_1) (V c main_v10_2) (V c main_v2) (V c main_v3) (V c main_arg11) (V c main_v5) (V c main_v6) (V c main_v7))
    (fun t _ => flushed4_13_eq V c t) covered4_13

/-! ## Output window 11: the dispersion head -/

/-- What point t writes back to output window 11 is block t of the dispersion head. -/
theorem flushed4_11_eq (c : Dev nD) (t : Fin cfg4.N) :
    (dat4 V c).flushed 11 t = ((cfg4.win 11).blk t).view.read (Elt Ideal) (thetaK (V c main_v10_1) (V c main_v10_2) (V c main_v2) (V c main_v3) (V c main_arg9) (V c main_v4)) := by
  show (cfg4.win 11).cut (grid4.coords t) ((dat4 V c).after 11 t) = _
  rw [after4_11]
  unfold out4_11
  rw [View.canon_unit_zero hz4]
  simp only [View.ld_unit_zero (S := S256x512) hz4, View.ld_unit_zero (S := S1x512) hz4, View.ld_unit_zero (S := S512x2000) hz4, View.ld_unit_zero (S := S1x2000) hz4]
  obtain ⟨-, -, -, -, -, -, -, -, -, -, -, -, ⟨e0, e1⟩, -⟩ := idx4 t
  funext j
  rw [View.read_apply]
  refine (pay4_arr (iblk4 V c 0 t) (iblk4 V c 1 t) (iblk4 V c 2 t) (iblk4 V c 3 t) (iblk4 V c 4 t) (iblk4 V c 5 t) (V c main_v10_1) _ (((cfg4.win 11).blk t).view.emb j) (fun k' => iblk4_0_at V c t _ _ ?_ ?_) ?_).trans ?_
  · show win4_11.index t (0 : Fin 2) * 256 + 1 * (j 0).val = 256 * t.val + (j 0).val; rw [e0]; omega
  · rfl
  · show win4_11.index t (1 : Fin 2) * 2000 + 1 * (j 1).val = (j 1).val; rw [e1]; omega
  · rw [iblk4_1_eq, iblk4_2_eq, iblk4_3_eq, iblk4_4_eq, iblk4_5_eq]; rfl

/-- An index of the array is in point t's block of output window 11 iff each coordinate is in the block's range on its axis. -/
theorem mem_blk4_11 (t : Fin cfg4.N) (i : S4096x2000.Idx) :
    i ∈ ((cfg4.win 11).blk t).view.set ↔ ∀ a : Fin 2, win4_11.index t a * S256x2000.size a ≤ (i a).val ∧ (i a).val < win4_11.index t a * S256x2000.size a + S256x2000.size a := by
  show i ∈ ((View.whole main_v15_1).slice (win4_11.rect t)).set ↔ _
  rw [View.set_slice_whole, Rect.mem_set_unit]
  exact Iff.rfl

/-- The sixteen row blocks of output window 11 cover its array. -/
theorem covered4_11 (i : S4096x2000.Idx) :
    ∃ t : Fin cfg4.N, (cfg4.win 11).flush t = true ∧ i ∈ ((cfg4.win 11).blk t).view.set := by
  have hi0 : (i 0).val < 4096 := (i 0).isLt
  have hi1 : (i 1).val < 2000 := (i 1).isLt
  obtain ⟨t, ht⟩ := idx4_onto ⟨(i 0).val / 256, by omega⟩
  have ht' : t.val = (i 0).val / 256 := ht
  obtain ⟨-, -, -, -, -, -, -, -, -, -, -, -, ⟨e0, e1⟩, -⟩ := idx4 t
  refine ⟨t, flush4_11 t, ?_⟩
  rw [mem_blk4_11]
  intro a
  match a with
  | ⟨0, _⟩ => show win4_11.index t (0 : Fin 2) * 256 ≤ (i 0).val ∧ (i 0).val < win4_11.index t (0 : Fin 2) * 256 + 256; rw [e0]; omega
  | ⟨1, _⟩ => show win4_11.index t (1 : Fin 2) * 2000 ≤ (i 1).val ∧ (i 1).val < win4_11.index t (1 : Fin 2) * 2000 + 2000; rw [e1]; omega

/-- After the call, output window 11's array is the clamped softplus of the dispersion layer over the normalised activations, index by index. -/
theorem final4_11 (c : Dev nD) :
    (dat4 V c).arrAt 11 cfg4.N = thetaK (V c main_v10_1) (V c main_v10_2) (V c main_v2) (V c main_v3) (V c main_arg9) (V c main_v4) :=
  (dat4 V c).arrAt_eq_of_cover 11 (thetaK (V c main_v10_1) (V c main_v10_2) (V c main_v2) (V c main_v3) (V c main_arg9) (V c main_v4))
    (fun t _ => flushed4_11_eq V c t) covered4_11

end Cert.KernelIdeal.Hand

end
-- ==== Proof.Ideal.OutputsB.lean ====
/-
  The idealized kernel's remaining results as closed forms of the argument arrays: h = mu · fc1_w + fc1_b with its running
  column statistics (third call), and the normalised, activated block with its three decoder heads (fifth call), each
  carried back through the fold of boundary contents to the launch memory.
-/
import proofs.«117800_g2173253451805_cont_8to1_1923_4_alg».proof.Proof.Ideal.OutputsA
import proofs.«117800_g2173253451805_cont_8to1_1923_4_alg».proof.Proof.Ideal.Value2h
import proofs.«117800_g2173253451805_cont_8to1_1923_4_alg».proof.Proof.Ideal.Value4

set_option maxRecDepth 16384

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen Cert.Spec

section Forms
variable (a0 : FVec Ideal S4096x2000 .f32) (a1 : FVec Ideal S4096x4096 .f32) (a2 : FVec Ideal S2000x512 .f32)
  (a3 a4 : FVec Ideal S512x128 .f32) (a5 : FVec Ideal S128x512 .f32) (a6 a7 a8 : FVec Ideal S512 .f32)
  (a9 : FVec Ideal S512x2000 .f32) (a10 : FVec Ideal S2000 .f32) (a11 : FVec Ideal S512x2000 .f32) (a12 a13 a14 : FVec Ideal S2000 .f32)

/-- A [512] vector as a one-row matrix. -/
def row512 (v : FVec Ideal S512 .f32) : FVec Ideal S1x512 .f32 := shapeCast S1x512 v shapeCasts_S512_S1x512
/-- A [2000] vector as a one-row matrix. -/
def row2000 (v : FVec Ideal S2000 .f32) : FVec Ideal S1x2000 .f32 := shapeCast S1x2000 v shapeCasts_S2000_S1x2000
/-- h = mu · fc1_w + fc1_b. -/
def kH : FVec Ideal S4096x512 .f32 := hK a1 (kT a0 a1 a2 a3 a4) a5 (row512 a6)
/-- The column sums of h and of h², accumulated over the eight blocks of 512 rows. -/
def kST : FVec Ideal S8x512 .f32 := statAt a1 (kT a0 a1 a2 a3 a4) a5 (row512 a6) 7 (by norm_num)
def kOUT : FVec Ideal S4096x512 .f32 := outK (kH a0 a1 a2 a3 a4 a5 a6) (kST a0 a1 a2 a3 a4 a5 a6) (row512 a7) (row512 a8)
def kTH : FVec Ideal S4096x2000 .f32 := thetaK (kH a0 a1 a2 a3 a4 a5 a6) (kST a0 a1 a2 a3 a4 a5 a6) (row512 a7) (row512 a8) a9 (row2000 a10)
def kME : FVec Ideal S4096x2000 .f32 := meanK (kH a0 a1 a2 a3 a4 a5 a6) (kST a0 a1 a2 a3 a4 a5 a6) (row512 a7) (row512 a8) a11 (row2000 a12)
def kPI : FVec Ideal S4096x2000 .f32 := piK (kH a0 a1 a2 a3 a4 a5 a6) (kST a0 a1 a2 a3 a4 a5 a6) (row512 a7) (row512 a8) a11 (row2000 a12) (row2000 a13) (row2000 a14)
end Forms

variable (m : (ℓ : Loc nD τ sig) → Buf (Elt Ideal) ℓ) (ρ : Dev nD → PrngReg)

abbrev arg5 (c : Dev nD) := m ((c : Thread nD τ).loc main_arg5)
abbrev arg6 (c : Dev nD) := m ((c : Thread nD τ).loc main_arg6)
abbrev arg7 (c : Dev nD) := m ((c : Thread nD τ).loc main_arg7)
abbrev arg8 (c : Dev nD) := m ((c : Thread nD τ).loc main_arg8)
abbrev arg9 (c : Dev nD) := m ((c : Thread nD τ).loc main_arg9)
abbrev arg10 (c : Dev nD) := m ((c : Thread nD τ).loc main_arg10)
abbrev arg11 (c : Dev nD) := m ((c : Thread nD τ).loc main_arg11)
abbrev arg12 (c : Dev nD) := m ((c : Thread nD τ).loc main_arg12)
abbrev arg13 (c : Dev nD) := m ((c : Thread nD τ).loc main_arg13)
abbrev arg14 (c : Dev nD) := m ((c : Thread nD τ).loc main_arg14)

theorem at_v1 (c : Dev nD) : W1 m ρ c (Proc.devRef .tc main_v1) = row512 (arg6 m c) := W1_v1 m ρ c
theorem at_v2 (c : Dev nD) : W1 m ρ c (Proc.devRef .tc main_v2) = row512 (arg7 m c) := W1_v2 m ρ c
theorem at_v3 (c : Dev nD) : W1 m ρ c (Proc.devRef .tc main_v3) = row512 (arg8 m c) := W1_v3 m ρ c
theorem at_v4 (c : Dev nD) : W1 m ρ c (Proc.devRef .tc main_v4) = row2000 (arg10 m c) := W1_v4 m ρ c
theorem at_v5 (c : Dev nD) : W1 m ρ c (Proc.devRef .tc main_v5) = row2000 (arg12 m c) := W1_v5 m ρ c
theorem at_v6 (c : Dev nD) : W1 m ρ c (Proc.devRef .tc main_v6) = row2000 (arg13 m c) := W1_v6 m ρ c
theorem at_v7 (c : Dev nD) : W1 m ρ c (Proc.devRef .tc main_v7) = row2000 (arg14 m c) := W1_v7 m ρ c

theorem at_v10_1 (c : Dev nD) : W4 m ρ c (Proc.devRef .tc main_v10_1) = kH (arg0 m c) (arg1 m c) (arg2 m c) (arg3 m c) (arg4 m c) (arg5 m c) (arg6 m c) := by
  refine (W4_arr m ρ c 5).trans ((final2_5 (V3 m ρ) c).trans ?_)
  show hK (W3 m ρ c (Proc.devRef .tc main_arg1)) (W3 m ρ c (Proc.devRef .tc main_v9)) (W3 m ρ c (Proc.devRef .tc main_arg5)) (W3 m ρ c (Proc.devRef .tc main_v1)) = _
  rw [tr_arg1_W3_W0, at_v9, tr_arg5_W3_W0, tr_v1_W3_W1, at_v1]
  rfl

theorem at_v10_2 (c : Dev nD) : W4 m ρ c (Proc.devRef .tc main_v10_2) = kST (arg0 m c) (arg1 m c) (arg2 m c) (arg3 m c) (arg4 m c) (arg5 m c) (arg6 m c) := by
  refine (W4_arr m ρ c 6).trans ((final2_6 (V3 m ρ) c).trans ?_)
  show statAt (W3 m ρ c (Proc.devRef .tc main_arg1)) (W3 m ρ c (Proc.devRef .tc main_v9)) (W3 m ρ c (Proc.devRef .tc main_arg5)) (W3 m ρ c (Proc.devRef .tc main_v1)) 7 _ = _
  rw [tr_arg1_W3_W0, at_v9, tr_arg5_W3_W0, tr_v1_W3_W1, at_v1]
  rfl

/-- The four inputs every output of the fifth call shares, as that call finds them. -/
theorem in4 (c : Dev nD) :
    W6 m ρ c (Proc.devRef .tc main_v10_1) = kH (arg0 m c) (arg1 m c) (arg2 m c) (arg3 m c) (arg4 m c) (arg5 m c) (arg6 m c)
    ∧ W6 m ρ c (Proc.devRef .tc main_v10_2) = kST (arg0 m c) (arg1 m c) (arg2 m c) (arg3 m c) (arg4 m c) (arg5 m c) (arg6 m c)
    ∧ W6 m ρ c (Proc.devRef .tc main_v2) = row512 (arg7 m c)
    ∧ W6 m ρ c (Proc.devRef .tc main_v3) = row512 (arg8 m c) :=
  ⟨(tr_v10_1_W6_W4 m ρ c).trans (at_v10_1 m ρ c), (tr_v10_2_W6_W4 m ρ c).trans (at_v10_2 m ρ c),
   (tr_v2_W6_W1 m ρ c).trans (at_v2 m ρ c), (tr_v3_W6_W1 m ρ c).trans (at_v3 m ρ c)⟩

theorem end_v15_0 (c : Dev nD) : W7 m ρ c (Proc.devRef .tc main_v15_0) = kOUT (arg0 m c) (arg1 m c) (arg2 m c) (arg3 m c) (arg4 m c) (arg5 m c) (arg6 m c) (arg7 m c) (arg8 m c) := by
  obtain ⟨e1, e2, e3, e4⟩ := in4 m ρ c
  refine (W7_arr m ρ c 10).trans ((final4_10 (V6 m ρ) c).trans ?_)
  show outK (W6 m ρ c (Proc.devRef .tc main_v10_1)) (W6 m ρ c (Proc.devRef .tc main_v10_2)) (W6 m ρ c (Proc.devRef .tc main_v2)) (W6 m ρ c (Proc.devRef .tc main_v3)) = _
  rw [e1, e2, e3, e4]
  rfl

theorem end_v15_1 (c : Dev nD) : W7 m ρ c (Proc.devRef .tc main_v15_1)
    = kTH (arg0 m c) (arg1 m c) (arg2 m c) (arg3 m c) (arg4 m c) (arg5 m c) (arg6 m c) (arg7 m c) (arg8 m c) (arg9 m c) (arg10 m c) := by
  obtain ⟨e1, e2, e3, e4⟩ := in4 m ρ c
  refine (W7_arr m ρ c 11).trans ((final4_11 (V6 m ρ) c).trans ?_)
  show thetaK (W6 m ρ c (Proc.devRef .tc main_v10_1)) (W6 m ρ c (Proc.devRef .tc main_v10_2)) (W6 m ρ c (Proc.devRef .tc main_v2)) (W6 m ρ c (Proc.devRef .tc main_v3))
    (W6 m ρ c (Proc.devRef .tc main_arg9)) (W6 m ρ c (Proc.devRef .tc main_v4)) = _
  rw [e1, e2, e3, e4, tr_arg9_W6_W0, tr_v4_W6_W1, at_v4]
  rfl

theorem end_v15_2 (c : Dev nD) : W7 m ρ c (Proc.devRef .tc main_v15_2)
    = kME (arg0 m c) (arg1 m c) (arg2 m c) (arg3 m c) (arg4 m c) (arg5 m c) (arg6 m c) (arg7 m c) (arg8 m c) (arg11 m c) (arg12 m c) := by
  obtain ⟨e1, e2, e3, e4⟩ := in4 m ρ c
  refine (W7_arr m ρ c 12).trans ((final4_12 (V6 m ρ) c).trans ?_)
  show meanK (W6 m ρ c (Proc.devRef .tc main_v10_1)) (W6 m ρ c (Proc.devRef .tc main_v10_2)) (W6 m ρ c (Proc.devRef .tc main_v2)) (W6 m ρ c (Proc.devRef .tc main_v3))
    (W6 m ρ c (Proc.devRef .tc main_arg11)) (W6 m ρ c (Proc.devRef .tc main_v5)) = _
  rw [e1, e2, e3, e4, tr_arg11_W6_W0, tr_v5_W6_W1, at_v5]
  rfl

theorem end_v15_3 (c : Dev nD) : W7 m ρ c (Proc.devRef .tc main_v15_3)
    = kPI (arg0 m c) (arg1 m c) (arg2 m c) (arg3 m c) (arg4 m c) (arg5 m c) (arg6 m c) (arg7 m c) (arg8 m c) (arg11 m c) (arg12 m c) (arg13 m c) (arg14 m c) := by
  obtain ⟨e1, e2, e3, e4⟩ := in4 m ρ c
  refine (W7_arr m ρ c 13).trans ((final4_13 (V6 m ρ) c).trans ?_)
  show piK (W6 m ρ c (Proc.devRef .tc main_v10_1)) (W6 m ρ c (Proc.devRef .tc main_v10_2)) (W6 m ρ c (Proc.devRef .tc main_v2)) (W6 m ρ c (Proc.devRef .tc main_v3))
    (W6 m ρ c (Proc.devRef .tc main_arg11)) (W6 m ρ c (Proc.devRef .tc main_v5)) (W6 m ρ c (Proc.devRef .tc main_v6)) (W6 m ρ c (Proc.devRef .tc main_v7)) = _
  rw [e1, e2, e3, e4, tr_arg11_W6_W0, tr_v5_W6_W1, at_v5, tr_v6_W6_W1, at_v6, tr_v7_W6_W1, at_v7]
  rfl

end Cert.KernelIdeal.Hand

end
-- ==== Proof.Ideal.KernelVals.lean ====
/-
  The idealized kernel's run with its results named: every weakly fair execution terminates, nothing faulting, with the
  eight results at their closed forms of the argument arrays and the fifteen arguments as launched.
-/
import proofs.«117800_g2173253451805_cont_8to1_1923_4_alg».proof.Proof.Ideal.OutputsB
import proofs.«117800_g2173253451805_cont_8to1_1923_4_alg».proof.Proof.Ideal.Frame

set_option maxRecDepth 16384

noncomputable section

namespace Cert.KernelIdeal.Hand

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

theorem run_vals : θ_run (defs (F := Ideal)) (onTc (τ := τ) (main (F := Ideal))) ⟨m, fun _ => 0, ρ⟩ (fun r => ∀ c : Dev nD,
      r.2.mem ((c.tc : Thread nD τ).loc main_v14) = kADJ (arg0 m c) (arg1 m c) (arg2 m c) (arg3 m c) (arg4 m c)
      ∧ r.2.mem ((c.tc : Thread nD τ).loc main_v11) = kMU (arg0 m c) (arg1 m c) (arg2 m c) (arg3 m c) (arg4 m c)
      ∧ r.2.mem ((c.tc : Thread nD τ).loc main_v12) = kLV (arg0 m c) (arg1 m c) (arg2 m c) (arg3 m c) (arg4 m c)
      ∧ r.2.mem ((c.tc : Thread nD τ).loc main_v11) = kMU (arg0 m c) (arg1 m c) (arg2 m c) (arg3 m c) (arg4 m c)
      ∧ r.2.mem ((c.tc : Thread nD τ).loc main_v15_0) = kOUT (arg0 m c) (arg1 m c) (arg2 m c) (arg3 m c) (arg4 m c) (arg5 m c) (arg6 m c) (arg7 m c) (arg8 m c)
      ∧ r.2.mem ((c.tc : Thread nD τ).loc main_v15_3) = kPI (arg0 m c) (arg1 m c) (arg2 m c) (arg3 m c) (arg4 m c) (arg5 m c) (arg6 m c) (arg7 m c) (arg8 m c) (arg11 m c) (arg12 m c) (arg13 m c) (arg14 m c)
      ∧ r.2.mem ((c.tc : Thread nD τ).loc main_v15_1) = kTH (arg0 m c) (arg1 m c) (arg2 m c) (arg3 m c) (arg4 m c) (arg5 m c) (arg6 m c) (arg7 m c) (arg8 m c) (arg9 m c) (arg10 m c)
      ∧ r.2.mem ((c.tc : Thread nD τ).loc main_v15_2) = kME (arg0 m c) (arg1 m c) (arg2 m c) (arg3 m c) (arg4 m c) (arg5 m c) (arg6 m c) (arg7 m c) (arg8 m c) (arg11 m c) (arg12 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨
    (h c _ (mem_uc main_v14 (by decide))).trans (end_v14 m ρ c),
    (h c _ (mem_uc main_v11 (by decide))).trans (end_v11 m ρ c),
    (h c _ (mem_uc main_v12 (by decide))).trans (end_v12 m ρ c),
    (h c _ (mem_uc main_v11 (by decide))).trans (end_v11 m ρ c),
    (h c _ (mem_uc main_v15_0 (by decide))).trans (end_v15_0 m ρ c),
    (h c _ (mem_uc main_v15_3 (by decide))).trans (end_v15_3 m ρ c),
    (h c _ (mem_uc main_v15_1 (by decide))).trans (end_v15_1 m ρ c),
    (h c _ (mem_uc main_v15_2 (by decide))).trans (end_v15_2 m ρ c),
    (h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c),
    (h c _ (mem_uc main_arg11 (by decide))).trans (W7_main_arg11 m ρ c),
    (h c _ (mem_uc main_arg12 (by decide))).trans (W7_main_arg12 m ρ c),
    (h c _ (mem_uc main_arg13 (by decide))).trans (W7_main_arg13 m ρ c),
    (h c _ (mem_uc main_arg14 (by decide))).trans (W7_main_arg14 m ρ c)⟩) (run_all m ρ)

end Cert.KernelIdeal.Hand

end
-- ==== Proof.Ref.Val.lean ====
import proofs.«117800_g2173253451805_cont_8to1_1923_4_alg».proof.Proof.Ref.Run

/-!
# What the reference's line leaves at each reference

`val V r` is the contents of the reference `r` after the whole line `ops` from the contents `V`. The line is in
single-assignment form (`writesAre`), so each operation's own equation holds of these final contents: at its result,
`val V` is the operation's function of `val V` at its operands. The equations are stated in the three modules
that follow, one per operation, in program order.
-/

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-- What the whole line leaves at the reference `r`, from the contents `V`. -/
def val (V : Valuation τ sig (Elt F)) (r : Ref sig .tc) : r.ty.Contents (Elt F) :=
  StableHlo.after (ops (F := F)) V (Proc.devRef .tc r)

/-- It is the fold of the operations at the reference. -/
theorem val_eq (V : Valuation τ sig (Elt F)) (r : Ref sig .tc) :
    val V r = StableHlo.after (ops (F := F)) V (Proc.devRef .tc r) := rfl

/-- An argument keeps its launch contents: no operation writes it. -/
theorem val_arg (V : Valuation τ sig (Elt F)) {r : Ref sig .tc} (hr : r ∉ ws) : val V r = V (Proc.devRef .tc r) :=
  Cert.Lib.AfterAssign.after_of_not_written writesAre V hr

end Cert.ReferenceIdeal.Hand

end
-- ==== Proof.Ref.EqnsA.lean ====
import proofs.«117800_g2173253451805_cont_8to1_1923_4_alg».proof.Proof.Ref.Val

/-!
# The operations' equations at the final contents: operations 0 to 45

`e k`: at the result of operation `k` of the line, the final contents are that operation's function of the final
contents at its operands (a constant's: the constant). Each is the single-assignment reading of the fold at position `k`:
the rest of the line from `k` is that operation and what follows (a computation), no later operation writes its
result and none from `k` on writes an operand (decided over the list of written references).
-/

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

theorem e0 (V : Valuation τ sig (Elt F)) :
    (val V main_v0 : (⟨S4096x512, .f32⟩ : BufTy).Contents (Elt F)) = ((fun l r => Host.dotGeneral dot_S4096x2000_S2000x512_S4096x512_1_0_0_1_n_n none l r) : (⟨S4096x2000, .f32⟩ : BufTy).Contents (Elt F) → (⟨S2000x512, .f32⟩ : BufTy).Contents (Elt F) → (⟨S4096x512, .f32⟩ : BufTy).Contents (Elt F)) (val V main_arg0 : (⟨S4096x2000, .f32⟩ : BufTy).Contents (Elt F)) (val V main_arg2 : (⟨S2000x512, .f32⟩ : BufTy).Contents (Elt F)) :=
  Cert.Lib.AfterAssign.after_binary writesAre 0 rfl V (by decide) (by decide) (by decide)

theorem e1 (V : Valuation τ sig (Elt F)) :
    (val V main_v1 : (⟨S4096x512, .f32⟩ : BufTy).Contents (Elt F)) = ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)) (val V main_arg1 : (⟨S4096x4096, .f32⟩ : BufTy).Contents (Elt F)) (val V main_v0 : (⟨S4096x512, .f32⟩ : BufTy).Contents (Elt F)) :=
  Cert.Lib.AfterAssign.after_binary writesAre 1 rfl V (by decide) (by decide) (by decide)

theorem e2 (V : Valuation τ sig (Elt F)) :
    (val V main_cst : (⟨S_, .f32⟩ : BufTy).Contents (Elt F)) = (constant S_ .f32 0x00000000#32) :=
  Cert.Lib.AfterAssign.after_nullary writesAre 2 rfl V (by decide)

theorem e3 (V : Valuation τ sig (Elt F)) :
    (val V main_v2 : (⟨S4096x512, .f32⟩ : BufTy).Contents (Elt F)) = (broadcastInDim S4096x512 ![] bcast_S_S4096x512 : (⟨S_, .f32⟩ : BufTy).Contents (Elt F) → (⟨S4096x512, .f32⟩ : BufTy).Contents (Elt F)) (val V main_cst : (⟨S_, .f32⟩ : BufTy).Contents (Elt F)) :=
  Cert.Lib.AfterAssign.after_unary writesAre 3 rfl V (by decide) (by decide)

theorem e4 (V : Valuation τ sig (Elt F)) :
    (val V main_v3 : (⟨S4096x512, .i1⟩ : BufTy).Contents (Elt F)) = (cmpf .ogt : (⟨S4096x512, .f32⟩ : BufTy).Contents (Elt F) → (⟨S4096x512, .f32⟩ : BufTy).Contents (Elt F) → (⟨S4096x512, .i1⟩ : BufTy).Contents (Elt F)) (val V main_v1 : (⟨S4096x512, .f32⟩ : BufTy).Contents (Elt F)) (val V main_v2 : (⟨S4096x512, .f32⟩ : BufTy).Contents (Elt F)) :=
  Cert.Lib.AfterAssign.after_binary writesAre 4 rfl V (by decide) (by decide) (by decide)

theorem e5 (V : Valuation τ sig (Elt F)) :
    (val V main_cst_0 : (⟨S_, .f32⟩ : BufTy).Contents (Elt F)) = (constant S_ .f32 0x3C23D70A#32) :=
  Cert.Lib.AfterAssign.after_nullary writesAre 5 rfl V (by decide)

theorem e6 (V : Valuation τ sig (Elt F)) :
    (val V main_v4 : (⟨S4096x512, .f32⟩ : BufTy).Contents (Elt F)) = (broadcastInDim S4096x512 ![] bcast_S_S4096x512 : (⟨S_, .f32⟩ : BufTy).Contents (Elt F) → (⟨S4096x512, .f32⟩ : BufTy).Contents (Elt F)) (val V main_cst_0 : (⟨S_, .f32⟩ : BufTy).Contents (Elt F)) :=
  Cert.Lib.AfterAssign.after_unary writesAre 6 rfl V (by decide) (by decide)

theorem e7 (V : Valuation τ sig (Elt F)) :
    (val V main_v5 : (⟨S4096x512, .f32⟩ : BufTy).Contents (Elt F)) = (mulf : (⟨S4096x512, .f32⟩ : BufTy).Contents (Elt F) → (⟨S4096x512, .f32⟩ : BufTy).Contents (Elt F) → (⟨S4096x512, .f32⟩ : BufTy).Contents (Elt F)) (val V main_v4 : (⟨S4096x512, .f32⟩ : BufTy).Contents (Elt F)) (val V main_v1 : (⟨S4096x512, .f32⟩ : BufTy).Contents (Elt F)) :=
  Cert.Lib.AfterAssign.after_binary writesAre 7 rfl V (by decide) (by decide) (by decide)

theorem e8 (V : Valuation τ sig (Elt F)) :
    (val V main_v6 : (⟨S4096x512, .f32⟩ : BufTy).Contents (Elt F)) = select (val V main_v3 : (⟨S4096x512, .i1⟩ : BufTy).Contents (Elt F)) (val V main_v1 : (⟨S4096x512, .f32⟩ : BufTy).Contents (Elt F)) (val V main_v5 : (⟨S4096x512, .f32⟩ : BufTy).Contents (Elt F)) :=
  Cert.Lib.AfterAssign.after_ternary writesAre 8 rfl V (by decide) (by decide) (by decide) (by decide)

theorem e9 (V : Valuation τ sig (Elt F)) :
    (val V main_v7 : (⟨S4096x128, .f32⟩ : BufTy).Contents (Elt F)) = ((fun l r => Host.dotGeneral dot_S4096x512_S512x128_S4096x128_1_0_0_1_n_n none l r) : (⟨S4096x512, .f32⟩ : BufTy).Contents (Elt F) → (⟨S512x128, .f32⟩ : BufTy).Contents (Elt F) → (⟨S4096x128, .f32⟩ : BufTy).Contents (Elt F)) (val V main_v6 : (⟨S4096x512, .f32⟩ : BufTy).Contents (Elt F)) (val V main_arg3 : (⟨S512x128, .f32⟩ : BufTy).Contents (Elt F)) :=
  Cert.Lib.AfterAssign.after_binary writesAre 9 rfl V (by decide) (by decide) (by decide)

theorem e10 (V : Valuation τ sig (Elt F)) :
    (val V main_v8 : (⟨S4096x128, .f32⟩ : BufTy).Contents (Elt F)) = ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)) (val V main_arg1 : (⟨S4096x4096, .f32⟩ : BufTy).Contents (Elt F)) (val V main_v7 : (⟨S4096x128, .f32⟩ : BufTy).Contents (Elt F)) :=
  Cert.Lib.AfterAssign.after_binary writesAre 10 rfl V (by decide) (by decide) (by decide)

theorem e11 (V : Valuation τ sig (Elt F)) :
    (val V main_cst_1 : (⟨S_, .f32⟩ : BufTy).Contents (Elt F)) = (constant S_ .f32 0x00000000#32) :=
  Cert.Lib.AfterAssign.after_nullary writesAre 11 rfl V (by decide)

theorem e12 (V : Valuation τ sig (Elt F)) :
    (val V main_v9 : (⟨S4096x128, .f32⟩ : BufTy).Contents (Elt F)) = (broadcastInDim S4096x128 ![] bcast_S_S4096x128 : (⟨S_, .f32⟩ : BufTy).Contents (Elt F) → (⟨S4096x128, .f32⟩ : BufTy).Contents (Elt F)) (val V main_cst_1 : (⟨S_, .f32⟩ : BufTy).Contents (Elt F)) :=
  Cert.Lib.AfterAssign.after_unary writesAre 12 rfl V (by decide) (by decide)

theorem e13 (V : Valuation τ sig (Elt F)) :
    (val V main_v10 : (⟨S4096x128, .i1⟩ : BufTy).Contents (Elt F)) = (cmpf .ogt : (⟨S4096x128, .f32⟩ : BufTy).Contents (Elt F) → (⟨S4096x128, .f32⟩ : BufTy).Contents (Elt F) → (⟨S4096x128, .i1⟩ : BufTy).Contents (Elt F)) (val V main_v8 : (⟨S4096x128, .f32⟩ : BufTy).Contents (Elt F)) (val V main_v9 : (⟨S4096x128, .f32⟩ : BufTy).Contents (Elt F)) :=
  Cert.Lib.AfterAssign.after_binary writesAre 13 rfl V (by decide) (by decide) (by decide)

theorem e14 (V : Valuation τ sig (Elt F)) :
    (val V main_cst_2 : (⟨S_, .f32⟩ : BufTy).Contents (Elt F)) = (constant S_ .f32 0x3C23D70A#32) :=
  Cert.Lib.AfterAssign.after_nullary writesAre 14 rfl V (by decide)

theorem e15 (V : Valuation τ sig (Elt F)) :
    (val V main_v11 : (⟨S4096x128, .f32⟩ : BufTy).Contents (Elt F)) = (broadcastInDim S4096x128 ![] bcast_S_S4096x128 : (⟨S_, .f32⟩ : BufTy).Contents (Elt F) → (⟨S4096x128, .f32⟩ : BufTy).Contents (Elt F)) (val V main_cst_2 : (⟨S_, .f32⟩ : BufTy).Contents (Elt F)) :=
  Cert.Lib.AfterAssign.after_unary writesAre 15 rfl V (by decide) (by decide)

theorem e16 (V : Valuation τ sig (Elt F)) :
    (val V main_v12 : (⟨S4096x128, .f32⟩ : BufTy).Contents (Elt F)) = (mulf : (⟨S4096x128, .f32⟩ : BufTy).Contents (Elt F) → (⟨S4096x128, .f32⟩ : BufTy).Contents (Elt F) → (⟨S4096x128, .f32⟩ : BufTy).Contents (Elt F)) (val V main_v11 : (⟨S4096x128, .f32⟩ : BufTy).Contents (Elt F)) (val V main_v8 : (⟨S4096x128, .f32⟩ : BufTy).Contents (Elt F)) :=
  Cert.Lib.AfterAssign.after_binary writesAre 16 rfl V (by decide) (by decide) (by decide)

theorem e17 (V : Valuation τ sig (Elt F)) :
    (val V main_v13 : (⟨S4096x128, .f32⟩ : BufTy).Contents (Elt F)) = select (val V main_v10 : (⟨S4096x128, .i1⟩ : BufTy).Contents (Elt F)) (val V main_v8 : (⟨S4096x128, .f32⟩ : BufTy).Contents (Elt F)) (val V main_v12 : (⟨S4096x128, .f32⟩ : BufTy).Contents (Elt F)) :=
  Cert.Lib.AfterAssign.after_ternary writesAre 17 rfl V (by decide) (by decide) (by decide) (by decide)

theorem e18 (V : Valuation τ sig (Elt F)) :
    (val V main_v14 : (⟨S4096x128, .f32⟩ : BufTy).Contents (Elt F)) = ((fun l r => Host.dotGeneral dot_S4096x512_S512x128_S4096x128_1_0_0_1_n_n none l r) : (⟨S4096x512, .f32⟩ : BufTy).Contents (Elt F) → (⟨S512x128, .f32⟩ : BufTy).Contents (Elt F) → (⟨S4096x128, .f32⟩ : BufTy).Contents (Elt F)) (val V main_v6 : (⟨S4096x512, .f32⟩ : BufTy).Contents (Elt F)) (val V main_arg4 : (⟨S512x128, .f32⟩ : BufTy).Contents (Elt F)) :=
  Cert.Lib.AfterAssign.after_binary writesAre 18 rfl V (by decide) (by decide) (by decide)

theorem e19 (V : Valuation τ sig (Elt F)) :
    (val V main_v15 : (⟨S4096x128, .f32⟩ : BufTy).Contents (Elt F)) = ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)) (val V main_arg1 : (⟨S4096x4096, .f32⟩ : BufTy).Contents (Elt F)) (val V main_v14 : (⟨S4096x128, .f32⟩ : BufTy).Contents (Elt F)) :=
  Cert.Lib.AfterAssign.after_binary writesAre 19 rfl V (by decide) (by decide) (by decide)

theorem e20 (V : Valuation τ sig (Elt F)) :
    (val V main_cst_3 : (⟨S_, .f32⟩ : BufTy).Contents (Elt F)) = (constant S_ .f32 0x00000000#32) :=
  Cert.Lib.AfterAssign.after_nullary writesAre 20 rfl V (by decide)

theorem e21 (V : Valuation τ sig (Elt F)) :
    (val V main_v16 : (⟨S4096x128, .f32⟩ : BufTy).Contents (Elt F)) = (broadcastInDim S4096x128 ![] bcast_S_S4096x128 : (⟨S_, .f32⟩ : BufTy).Contents (Elt F) → (⟨S4096x128, .f32⟩ : BufTy).Contents (Elt F)) (val V main_cst_3 : (⟨S_, .f32⟩ : BufTy).Contents (Elt F)) :=
  Cert.Lib.AfterAssign.after_unary writesAre 21 rfl V (by decide) (by decide)

theorem e22 (V : Valuation τ sig (Elt F)) :
    (val V main_v17 : (⟨S4096x128, .i1⟩ : BufTy).Contents (Elt F)) = (cmpf .ogt : (⟨S4096x128, .f32⟩ : BufTy).Contents (Elt F) → (⟨S4096x128, .f32⟩ : BufTy).Contents (Elt F) → (⟨S4096x128, .i1⟩ : BufTy).Contents (Elt F)) (val V main_v15 : (⟨S4096x128, .f32⟩ : BufTy).Contents (Elt F)) (val V main_v16 : (⟨S4096x128, .f32⟩ : BufTy).Contents (Elt F)) :=
  Cert.Lib.AfterAssign.after_binary writesAre 22 rfl V (by decide) (by decide) (by decide)

theorem e23 (V : Valuation τ sig (Elt F)) :
    (val V main_cst_4 : (⟨S_, .f32⟩ : BufTy).Contents (Elt F)) = (constant S_ .f32 0x3C23D70A#32) :=
  Cert.Lib.AfterAssign.after_nullary writesAre 23 rfl V (by decide)

theorem e24 (V : Valuation τ sig (Elt F)) :
    (val V main_v18 : (⟨S4096x128, .f32⟩ : BufTy).Contents (Elt F)) = (broadcastInDim S4096x128 ![] bcast_S_S4096x128 : (⟨S_, .f32⟩ : BufTy).Contents (Elt F) → (⟨S4096x128, .f32⟩ : BufTy).Contents (Elt F)) (val V main_cst_4 : (⟨S_, .f32⟩ : BufTy).Contents (Elt F)) :=
  Cert.Lib.AfterAssign.after_unary writesAre 24 rfl V (by decide) (by decide)

theorem e25 (V : Valuation τ sig (Elt F)) :
    (val V main_v19 : (⟨S4096x128, .f32⟩ : BufTy).Contents (Elt F)) = (mulf : (⟨S4096x128, .f32⟩ : BufTy).Contents (Elt F) → (⟨S4096x128, .f32⟩ : BufTy).Contents (Elt F) → (⟨S4096x128, .f32⟩ : BufTy).Contents (Elt F)) (val V main_v18 : (⟨S4096x128, .f32⟩ : BufTy).Contents (Elt F)) (val V main_v15 : (⟨S4096x128, .f32⟩ : BufTy).Contents (Elt F)) :=
  Cert.Lib.AfterAssign.after_binary writesAre 25 rfl V (by decide) (by decide) (by decide)

theorem e26 (V : Valuation τ sig (Elt F)) :
    (val V main_v20 : (⟨S4096x128, .f32⟩ : BufTy).Contents (Elt F)) = select (val V main_v17 : (⟨S4096x128, .i1⟩ : BufTy).Contents (Elt F)) (val V main_v15 : (⟨S4096x128, .f32⟩ : BufTy).Contents (Elt F)) (val V main_v19 : (⟨S4096x128, .f32⟩ : BufTy).Contents (Elt F)) :=
  Cert.Lib.AfterAssign.after_ternary writesAre 26 rfl V (by decide) (by decide) (by decide) (by decide)

theorem e27 (V : Valuation τ sig (Elt F)) :
    (val V main_v21 : (⟨S128x4096, .f32⟩ : BufTy).Contents (Elt F)) = ((transpose S128x4096 [1, 0] · transposes_S4096x128_S128x4096_1_0) : (⟨S4096x128, .f32⟩ : BufTy).Contents (Elt F) → (⟨S128x4096, .f32⟩ : BufTy).Contents (Elt F)) (val V main_v13 : (⟨S4096x128, .f32⟩ : BufTy).Contents (Elt F)) :=
  Cert.Lib.AfterAssign.after_unary writesAre 27 rfl V (by decide) (by decide)

theorem e28 (V : Valuation τ sig (Elt F)) :
    (val V main_v22 : (⟨S4096x4096, .f32⟩ : BufTy).Contents (Elt F)) = ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)) (val V main_v13 : (⟨S4096x128, .f32⟩ : BufTy).Contents (Elt F)) (val V main_v21 : (⟨S128x4096, .f32⟩ : BufTy).Contents (Elt F)) :=
  Cert.Lib.AfterAssign.after_binary writesAre 28 rfl V (by decide) (by decide) (by decide)

theorem e29 (V : Valuation τ sig (Elt F)) :
    (val V main_v23 : (⟨S4096x512, .f32⟩ : BufTy).Contents (Elt F)) = ((fun l r => Host.dotGeneral dot_S4096x128_S128x512_S4096x512_1_0_0_1_n_n none l r) : (⟨S4096x128, .f32⟩ : BufTy).Contents (Elt F) → (⟨S128x512, .f32⟩ : BufTy).Contents (Elt F) → (⟨S4096x512, .f32⟩ : BufTy).Contents (Elt F)) (val V main_v13 : (⟨S4096x128, .f32⟩ : BufTy).Contents (Elt F)) (val V main_arg5 : (⟨S128x512, .f32⟩ : BufTy).Contents (Elt F)) :=
  Cert.Lib.AfterAssign.after_binary writesAre 29 rfl V (by decide) (by decide) (by decide)

theorem e30 (V : Valuation τ sig (Elt F)) :
    (val V main_v24 : (⟨S1x512, .f32⟩ : BufTy).Contents (Elt F)) = (broadcastInDim S1x512 ![1] bcast_S512_S1x512_1 : (⟨S512, .f32⟩ : BufTy).Contents (Elt F) → (⟨S1x512, .f32⟩ : BufTy).Contents (Elt F)) (val V main_arg6 : (⟨S512, .f32⟩ : BufTy).Contents (Elt F)) :=
  Cert.Lib.AfterAssign.after_unary writesAre 30 rfl V (by decide) (by decide)

theorem e31 (V : Valuation τ sig (Elt F)) :
    (val V main_v25 : (⟨S4096x512, .f32⟩ : BufTy).Contents (Elt F)) = (broadcastInDim S4096x512 ![0, 1] bcast_S1x512_S4096x512_0_1 : (⟨S1x512, .f32⟩ : BufTy).Contents (Elt F) → (⟨S4096x512, .f32⟩ : BufTy).Contents (Elt F)) (val V main_v24 : (⟨S1x512, .f32⟩ : BufTy).Contents (Elt F)) :=
  Cert.Lib.AfterAssign.after_unary writesAre 31 rfl V (by decide) (by decide)

theorem e32 (V : Valuation τ sig (Elt F)) :
    (val V main_v26 : (⟨S4096x512, .f32⟩ : BufTy).Contents (Elt F)) = (addf : (⟨S4096x512, .f32⟩ : BufTy).Contents (Elt F) → (⟨S4096x512, .f32⟩ : BufTy).Contents (Elt F) → (⟨S4096x512, .f32⟩ : BufTy).Contents (Elt F)) (val V main_v23 : (⟨S4096x512, .f32⟩ : BufTy).Contents (Elt F)) (val V main_v25 : (⟨S4096x512, .f32⟩ : BufTy).Contents (Elt F)) :=
  Cert.Lib.AfterAssign.after_binary writesAre 32 rfl V (by decide) (by decide) (by decide)

theorem e33 (V : Valuation τ sig (Elt F)) :
    (val V main_cst_5 : (⟨S_, .f32⟩ : BufTy).Contents (Elt F)) = (constant S_ .f32 0x00000000#32) :=
  Cert.Lib.AfterAssign.after_nullary writesAre 33 rfl V (by decide)

theorem e34 (V : Valuation τ sig (Elt F)) :
    (val V main_v27 : (⟨S512, .f32⟩ : BufTy).Contents (Elt F)) = ((fun x v => Host.reduceAdd x v reducesTo_S4096x512_S512_d0 h_S_) : (⟨S4096x512, .f32⟩ : BufTy).Contents (Elt F) → (⟨S_, .f32⟩ : BufTy).Contents (Elt F) → (⟨S512, .f32⟩ : BufTy).Contents (Elt F)) (val V main_v26 : (⟨S4096x512, .f32⟩ : BufTy).Contents (Elt F)) (val V main_cst_5 : (⟨S_, .f32⟩ : BufTy).Contents (Elt F)) :=
  Cert.Lib.AfterAssign.after_binary writesAre 34 rfl V (by decide) (by decide) (by decide)

theorem e35 (V : Valuation τ sig (Elt F)) :
    (val V main_cst_6 : (⟨S_, .f32⟩ : BufTy).Contents (Elt F)) = (constant S_ .f32 0x45800000#32) :=
  Cert.Lib.AfterAssign.after_nullary writesAre 35 rfl V (by decide)

theorem e36 (V : Valuation τ sig (Elt F)) :
    (val V main_v28 : (⟨S512, .f32⟩ : BufTy).Contents (Elt F)) = (broadcastInDim S512 ![] bcast_S_S512 : (⟨S_, .f32⟩ : BufTy).Contents (Elt F) → (⟨S512, .f32⟩ : BufTy).Contents (Elt F)) (val V main_cst_6 : (⟨S_, .f32⟩ : BufTy).Contents (Elt F)) :=
  Cert.Lib.AfterAssign.after_unary writesAre 36 rfl V (by decide) (by decide)

theorem e37 (V : Valuation τ sig (Elt F)) :
    (val V main_v29 : (⟨S512, .f32⟩ : BufTy).Contents (Elt F)) = (Host.divf : (⟨S512, .f32⟩ : BufTy).Contents (Elt F) → (⟨S512, .f32⟩ : BufTy).Contents (Elt F) → (⟨S512, .f32⟩ : BufTy).Contents (Elt F)) (val V main_v27 : (⟨S512, .f32⟩ : BufTy).Contents (Elt F)) (val V main_v28 : (⟨S512, .f32⟩ : BufTy).Contents (Elt F)) :=
  Cert.Lib.AfterAssign.after_binary writesAre 37 rfl V (by decide) (by decide) (by decide)

theorem e38 (V : Valuation τ sig (Elt F)) :
    (val V main_c : (⟨S_, .i32⟩ : BufTy).Contents (Elt F)) = (constantI S_ 32 0#32) :=
  Cert.Lib.AfterAssign.after_nullary writesAre 38 rfl V (by decide)

theorem e39 (V : Valuation τ sig (Elt F)) :
    (val V main_call3_cst : (⟨S_, .f32⟩ : BufTy).Contents (Elt F)) = (constant S_ .f32 0x00000000#32) :=
  Cert.Lib.AfterAssign.after_nullary writesAre 39 rfl V (by decide)

theorem e40 (V : Valuation τ sig (Elt F)) :
    (val V main_call3_v0 : (⟨S512, .f32⟩ : BufTy).Contents (Elt F)) = (fun x v => Host.reduceAdd x v reducesTo_S4096x512_S512_d0 h_S_) (val V main_v26 : (⟨S4096x512, .f32⟩ : BufTy).Contents (Elt F)) (val V main_call3_cst : (⟨S_, .f32⟩ : BufTy).Contents (Elt F)) :=
  Cert.Lib.AfterAssign.after_binary writesAre 40 rfl V (by decide) (by decide) (by decide)

theorem e41 (V : Valuation τ sig (Elt F)) :
    (val V main_call3_v1 : (⟨S1x512, .f32⟩ : BufTy).Contents (Elt F)) = (broadcastInDim S1x512 ![1] bcast_S512_S1x512_1) (val V main_call3_v0 : (⟨S512, .f32⟩ : BufTy).Contents (Elt F)) :=
  Cert.Lib.AfterAssign.after_unary writesAre 41 rfl V (by decide) (by decide)

theorem e42 (V : Valuation τ sig (Elt F)) :
    (val V main_call3_cst_0 : (⟨S_, .f32⟩ : BufTy).Contents (Elt F)) = (constant S_ .f32 0x45800000#32) :=
  Cert.Lib.AfterAssign.after_nullary writesAre 42 rfl V (by decide)

theorem e43 (V : Valuation τ sig (Elt F)) :
    (val V main_call3_v2 : (⟨S1x512, .f32⟩ : BufTy).Contents (Elt F)) = (broadcastInDim S1x512 ![] bcast_S_S1x512) (val V main_call3_cst_0 : (⟨S_, .f32⟩ : BufTy).Contents (Elt F)) :=
  Cert.Lib.AfterAssign.after_unary writesAre 43 rfl V (by decide) (by decide)

theorem e44 (V : Valuation τ sig (Elt F)) :
    (val V main_call3_v3 : (⟨S1x512, .f32⟩ : BufTy).Contents (Elt F)) = Host.divf (val V main_call3_v1 : (⟨S1x512, .f32⟩ : BufTy).Contents (Elt F)) (val V main_call3_v2 : (⟨S1x512, .f32⟩ : BufTy).Contents (Elt F)) :=
  Cert.Lib.AfterAssign.after_binary writesAre 44 rfl V (by decide) (by decide) (by decide)

theorem e45 (V : Valuation τ sig (Elt F)) :
    (val V main_call3_v4 : (⟨S4096x512, .f32⟩ : BufTy).Contents (Elt F)) = (broadcastInDim S4096x512 ![0, 1] bcast_S1x512_S4096x512_0_1) (val V main_call3_v3 : (⟨S1x512, .f32⟩ : BufTy).Contents (Elt F)) :=
  Cert.Lib.AfterAssign.after_unary writesAre 45 rfl V (by decide) (by decide)

end Cert.ReferenceIdeal.Hand

end
-- ==== Proof.Ref.EqnsB.lean ====
import proofs.«117800_g2173253451805_cont_8to1_1923_4_alg».proof.Proof.Ref.Val

/-!
# The operations' equations at the final contents: operations 46 to 91

`e k`: at the result of operation `k` of the line, the final contents are that operation's function of the final
contents at its operands (a constant's: the constant). Each is the single-assignment reading of the fold at position `k`:
the rest of the line from `k` is that operation and what follows (a computation), no later operation writes its
result and none from `k` on writes an operand (decided over the list of written references).
-/

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

theorem e46 (V : Valuation τ sig (Elt F)) :
    (val V main_call3_v5 : (⟨S4096x512, .f32⟩ : BufTy).Contents (Elt F)) = subf (val V main_v26 : (⟨S4096x512, .f32⟩ : BufTy).Contents (Elt F)) (val V main_call3_v4 : (⟨S4096x512, .f32⟩ : BufTy).Contents (Elt F)) :=
  Cert.Lib.AfterAssign.after_binary writesAre 46 rfl V (by decide) (by decide) (by decide)

theorem e47 (V : Valuation τ sig (Elt F)) :
    (val V main_call3_v6 : (⟨S4096x512, .f32⟩ : BufTy).Contents (Elt F)) = mulf (val V main_call3_v5 : (⟨S4096x512, .f32⟩ : BufTy).Contents (Elt F)) (val V main_call3_v5 : (⟨S4096x512, .f32⟩ : BufTy).Contents (Elt F)) :=
  Cert.Lib.AfterAssign.after_binary writesAre 47 rfl V (by decide) (by decide) (by decide)

theorem e48 (V : Valuation τ sig (Elt F)) :
    (val V main_call3_v7 : (⟨S_, .f32⟩ : BufTy).Contents (Elt F)) = (sitofp .f32) (val V main_c : (⟨S_, .i32⟩ : BufTy).Contents (Elt F)) :=
  Cert.Lib.AfterAssign.after_unary writesAre 48 rfl V (by decide) (by decide)

theorem e49 (V : Valuation τ sig (Elt F)) :
    (val V main_call3_cst_1 : (⟨S_, .f32⟩ : BufTy).Contents (Elt F)) = (constant S_ .f32 0x45800000#32) :=
  Cert.Lib.AfterAssign.after_nullary writesAre 49 rfl V (by decide)

theorem e50 (V : Valuation τ sig (Elt F)) :
    (val V main_call3_v8 : (⟨S_, .f32⟩ : BufTy).Contents (Elt F)) = subf (val V main_call3_cst_1 : (⟨S_, .f32⟩ : BufTy).Contents (Elt F)) (val V main_call3_v7 : (⟨S_, .f32⟩ : BufTy).Contents (Elt F)) :=
  Cert.Lib.AfterAssign.after_binary writesAre 50 rfl V (by decide) (by decide) (by decide)

theorem e51 (V : Valuation τ sig (Elt F)) :
    (val V main_call3_cst_2 : (⟨S_, .f32⟩ : BufTy).Contents (Elt F)) = (constant S_ .f32 0x00000000#32) :=
  Cert.Lib.AfterAssign.after_nullary writesAre 51 rfl V (by decide)

theorem e52 (V : Valuation τ sig (Elt F)) :
    (val V main_call3_v9 : (⟨S512, .f32⟩ : BufTy).Contents (Elt F)) = (fun x v => Host.reduceAdd x v reducesTo_S4096x512_S512_d0 h_S_) (val V main_call3_v6 : (⟨S4096x512, .f32⟩ : BufTy).Contents (Elt F)) (val V main_call3_cst_2 : (⟨S_, .f32⟩ : BufTy).Contents (Elt F)) :=
  Cert.Lib.AfterAssign.after_binary writesAre 52 rfl V (by decide) (by decide) (by decide)

theorem e53 (V : Valuation τ sig (Elt F)) :
    (val V main_call3_v10 : (⟨S512, .f32⟩ : BufTy).Contents (Elt F)) = (broadcastInDim S512 ![] bcast_S_S512) (val V main_call3_v8 : (⟨S_, .f32⟩ : BufTy).Contents (Elt F)) :=
  Cert.Lib.AfterAssign.after_unary writesAre 53 rfl V (by decide) (by decide)

theorem e54 (V : Valuation τ sig (Elt F)) :
    (val V main_call3_v11 : (⟨S512, .f32⟩ : BufTy).Contents (Elt F)) = Host.divf (val V main_call3_v9 : (⟨S512, .f32⟩ : BufTy).Contents (Elt F)) (val V main_call3_v10 : (⟨S512, .f32⟩ : BufTy).Contents (Elt F)) :=
  Cert.Lib.AfterAssign.after_binary writesAre 54 rfl V (by decide) (by decide) (by decide)

theorem e55 (V : Valuation τ sig (Elt F)) :
    (val V main_call3_cst_3 : (⟨S_, .f32⟩ : BufTy).Contents (Elt F)) = (constant S_ .f32 0x00000000#32) :=
  Cert.Lib.AfterAssign.after_nullary writesAre 55 rfl V (by decide)

theorem e56 (V : Valuation τ sig (Elt F)) :
    (val V main_call3_v12 : (⟨S_, .i1⟩ : BufTy).Contents (Elt F)) = (cmpf .ogt) (val V main_call3_v8 : (⟨S_, .f32⟩ : BufTy).Contents (Elt F)) (val V main_call3_cst_3 : (⟨S_, .f32⟩ : BufTy).Contents (Elt F)) :=
  Cert.Lib.AfterAssign.after_binary writesAre 56 rfl V (by decide) (by decide) (by decide)

theorem e57 (V : Valuation τ sig (Elt F)) :
    (val V main_call3_cst_4 : (⟨S_, .f32⟩ : BufTy).Contents (Elt F)) = (constant S_ .f32 0x7FC00000#32) :=
  Cert.Lib.AfterAssign.after_nullary writesAre 57 rfl V (by decide)

theorem e58 (V : Valuation τ sig (Elt F)) :
    (val V main_call3_call0_v0 : (⟨S_, .f32⟩ : BufTy).Contents (Elt F)) = id (val V main_call3_cst_4 : (⟨S_, .f32⟩ : BufTy).Contents (Elt F)) :=
  Cert.Lib.AfterAssign.after_unary writesAre 58 rfl V (by decide) (by decide)

theorem e59 (V : Valuation τ sig (Elt F)) :
    (val V main_call3_call0_v1 : (⟨S512, .f32⟩ : BufTy).Contents (Elt F)) = (broadcastInDim S512 ![] bcast_S_S512) (val V main_call3_call0_v0 : (⟨S_, .f32⟩ : BufTy).Contents (Elt F)) :=
  Cert.Lib.AfterAssign.after_unary writesAre 59 rfl V (by decide) (by decide)

theorem e60 (V : Valuation τ sig (Elt F)) :
    (val V main_v30 : (⟨S512, .f32⟩ : BufTy).Contents (Elt F)) = (fun p a b => select (broadcastInDim S512 ![] bcast_S_S512 p) a b) (val V main_call3_v12 : (⟨S_, .i1⟩ : BufTy).Contents (Elt F)) (val V main_call3_v11 : (⟨S512, .f32⟩ : BufTy).Contents (Elt F)) (val V main_call3_call0_v1 : (⟨S512, .f32⟩ : BufTy).Contents (Elt F)) :=
  Cert.Lib.AfterAssign.after_ternary writesAre 60 rfl V (by decide) (by decide) (by decide) (by decide)

theorem e61 (V : Valuation τ sig (Elt F)) :
    (val V main_v31 : (⟨S1x512, .f32⟩ : BufTy).Contents (Elt F)) = (broadcastInDim S1x512 ![1] bcast_S512_S1x512_1 : (⟨S512, .f32⟩ : BufTy).Contents (Elt F) → (⟨S1x512, .f32⟩ : BufTy).Contents (Elt F)) (val V main_v29 : (⟨S512, .f32⟩ : BufTy).Contents (Elt F)) :=
  Cert.Lib.AfterAssign.after_unary writesAre 61 rfl V (by decide) (by decide)

theorem e62 (V : Valuation τ sig (Elt F)) :
    (val V main_v32 : (⟨S4096x512, .f32⟩ : BufTy).Contents (Elt F)) = (broadcastInDim S4096x512 ![0, 1] bcast_S1x512_S4096x512_0_1 : (⟨S1x512, .f32⟩ : BufTy).Contents (Elt F) → (⟨S4096x512, .f32⟩ : BufTy).Contents (Elt F)) (val V main_v31 : (⟨S1x512, .f32⟩ : BufTy).Contents (Elt F)) :=
  Cert.Lib.AfterAssign.after_unary writesAre 62 rfl V (by decide) (by decide)

theorem e63 (V : Valuation τ sig (Elt F)) :
    (val V main_v33 : (⟨S4096x512, .f32⟩ : BufTy).Contents (Elt F)) = (subf : (⟨S4096x512, .f32⟩ : BufTy).Contents (Elt F) → (⟨S4096x512, .f32⟩ : BufTy).Contents (Elt F) → (⟨S4096x512, .f32⟩ : BufTy).Contents (Elt F)) (val V main_v26 : (⟨S4096x512, .f32⟩ : BufTy).Contents (Elt F)) (val V main_v32 : (⟨S4096x512, .f32⟩ : BufTy).Contents (Elt F)) :=
  Cert.Lib.AfterAssign.after_binary writesAre 63 rfl V (by decide) (by decide) (by decide)

theorem e64 (V : Valuation τ sig (Elt F)) :
    (val V main_cst_7 : (⟨S_, .f32⟩ : BufTy).Contents (Elt F)) = (constant S_ .f32 0x3727C5AC#32) :=
  Cert.Lib.AfterAssign.after_nullary writesAre 64 rfl V (by decide)

theorem e65 (V : Valuation τ sig (Elt F)) :
    (val V main_v34 : (⟨S512, .f32⟩ : BufTy).Contents (Elt F)) = (broadcastInDim S512 ![] bcast_S_S512 : (⟨S_, .f32⟩ : BufTy).Contents (Elt F) → (⟨S512, .f32⟩ : BufTy).Contents (Elt F)) (val V main_cst_7 : (⟨S_, .f32⟩ : BufTy).Contents (Elt F)) :=
  Cert.Lib.AfterAssign.after_unary writesAre 65 rfl V (by decide) (by decide)

theorem e66 (V : Valuation τ sig (Elt F)) :
    (val V main_v35 : (⟨S512, .f32⟩ : BufTy).Contents (Elt F)) = (addf : (⟨S512, .f32⟩ : BufTy).Contents (Elt F) → (⟨S512, .f32⟩ : BufTy).Contents (Elt F) → (⟨S512, .f32⟩ : BufTy).Contents (Elt F)) (val V main_v30 : (⟨S512, .f32⟩ : BufTy).Contents (Elt F)) (val V main_v34 : (⟨S512, .f32⟩ : BufTy).Contents (Elt F)) :=
  Cert.Lib.AfterAssign.after_binary writesAre 66 rfl V (by decide) (by decide) (by decide)

theorem e67 (V : Valuation τ sig (Elt F)) :
    (val V main_v36 : (⟨S512, .f32⟩ : BufTy).Contents (Elt F)) = (Host.sqrt : (⟨S512, .f32⟩ : BufTy).Contents (Elt F) → (⟨S512, .f32⟩ : BufTy).Contents (Elt F)) (val V main_v35 : (⟨S512, .f32⟩ : BufTy).Contents (Elt F)) :=
  Cert.Lib.AfterAssign.after_unary writesAre 67 rfl V (by decide) (by decide)

theorem e68 (V : Valuation τ sig (Elt F)) :
    (val V main_v37 : (⟨S1x512, .f32⟩ : BufTy).Contents (Elt F)) = (broadcastInDim S1x512 ![1] bcast_S512_S1x512_1 : (⟨S512, .f32⟩ : BufTy).Contents (Elt F) → (⟨S1x512, .f32⟩ : BufTy).Contents (Elt F)) (val V main_v36 : (⟨S512, .f32⟩ : BufTy).Contents (Elt F)) :=
  Cert.Lib.AfterAssign.after_unary writesAre 68 rfl V (by decide) (by decide)

theorem e69 (V : Valuation τ sig (Elt F)) :
    (val V main_v38 : (⟨S4096x512, .f32⟩ : BufTy).Contents (Elt F)) = (broadcastInDim S4096x512 ![0, 1] bcast_S1x512_S4096x512_0_1 : (⟨S1x512, .f32⟩ : BufTy).Contents (Elt F) → (⟨S4096x512, .f32⟩ : BufTy).Contents (Elt F)) (val V main_v37 : (⟨S1x512, .f32⟩ : BufTy).Contents (Elt F)) :=
  Cert.Lib.AfterAssign.after_unary writesAre 69 rfl V (by decide) (by decide)

theorem e70 (V : Valuation τ sig (Elt F)) :
    (val V main_v39 : (⟨S4096x512, .f32⟩ : BufTy).Contents (Elt F)) = (Host.divf : (⟨S4096x512, .f32⟩ : BufTy).Contents (Elt F) → (⟨S4096x512, .f32⟩ : BufTy).Contents (Elt F) → (⟨S4096x512, .f32⟩ : BufTy).Contents (Elt F)) (val V main_v33 : (⟨S4096x512, .f32⟩ : BufTy).Contents (Elt F)) (val V main_v38 : (⟨S4096x512, .f32⟩ : BufTy).Contents (Elt F)) :=
  Cert.Lib.AfterAssign.after_binary writesAre 70 rfl V (by decide) (by decide) (by decide)

theorem e71 (V : Valuation τ sig (Elt F)) :
    (val V main_v40 : (⟨S1x512, .f32⟩ : BufTy).Contents (Elt F)) = (broadcastInDim S1x512 ![1] bcast_S512_S1x512_1 : (⟨S512, .f32⟩ : BufTy).Contents (Elt F) → (⟨S1x512, .f32⟩ : BufTy).Contents (Elt F)) (val V main_arg7 : (⟨S512, .f32⟩ : BufTy).Contents (Elt F)) :=
  Cert.Lib.AfterAssign.after_unary writesAre 71 rfl V (by decide) (by decide)

theorem e72 (V : Valuation τ sig (Elt F)) :
    (val V main_v41 : (⟨S4096x512, .f32⟩ : BufTy).Contents (Elt F)) = (broadcastInDim S4096x512 ![0, 1] bcast_S1x512_S4096x512_0_1 : (⟨S1x512, .f32⟩ : BufTy).Contents (Elt F) → (⟨S4096x512, .f32⟩ : BufTy).Contents (Elt F)) (val V main_v40 : (⟨S1x512, .f32⟩ : BufTy).Contents (Elt F)) :=
  Cert.Lib.AfterAssign.after_unary writesAre 72 rfl V (by decide) (by decide)

theorem e73 (V : Valuation τ sig (Elt F)) :
    (val V main_v42 : (⟨S4096x512, .f32⟩ : BufTy).Contents (Elt F)) = (mulf : (⟨S4096x512, .f32⟩ : BufTy).Contents (Elt F) → (⟨S4096x512, .f32⟩ : BufTy).Contents (Elt F) → (⟨S4096x512, .f32⟩ : BufTy).Contents (Elt F)) (val V main_v39 : (⟨S4096x512, .f32⟩ : BufTy).Contents (Elt F)) (val V main_v41 : (⟨S4096x512, .f32⟩ : BufTy).Contents (Elt F)) :=
  Cert.Lib.AfterAssign.after_binary writesAre 73 rfl V (by decide) (by decide) (by decide)

theorem e74 (V : Valuation τ sig (Elt F)) :
    (val V main_v43 : (⟨S1x512, .f32⟩ : BufTy).Contents (Elt F)) = (broadcastInDim S1x512 ![1] bcast_S512_S1x512_1 : (⟨S512, .f32⟩ : BufTy).Contents (Elt F) → (⟨S1x512, .f32⟩ : BufTy).Contents (Elt F)) (val V main_arg8 : (⟨S512, .f32⟩ : BufTy).Contents (Elt F)) :=
  Cert.Lib.AfterAssign.after_unary writesAre 74 rfl V (by decide) (by decide)

theorem e75 (V : Valuation τ sig (Elt F)) :
    (val V main_v44 : (⟨S4096x512, .f32⟩ : BufTy).Contents (Elt F)) = (broadcastInDim S4096x512 ![0, 1] bcast_S1x512_S4096x512_0_1 : (⟨S1x512, .f32⟩ : BufTy).Contents (Elt F) → (⟨S4096x512, .f32⟩ : BufTy).Contents (Elt F)) (val V main_v43 : (⟨S1x512, .f32⟩ : BufTy).Contents (Elt F)) :=
  Cert.Lib.AfterAssign.after_unary writesAre 75 rfl V (by decide) (by decide)

theorem e76 (V : Valuation τ sig (Elt F)) :
    (val V main_v45 : (⟨S4096x512, .f32⟩ : BufTy).Contents (Elt F)) = (addf : (⟨S4096x512, .f32⟩ : BufTy).Contents (Elt F) → (⟨S4096x512, .f32⟩ : BufTy).Contents (Elt F) → (⟨S4096x512, .f32⟩ : BufTy).Contents (Elt F)) (val V main_v42 : (⟨S4096x512, .f32⟩ : BufTy).Contents (Elt F)) (val V main_v44 : (⟨S4096x512, .f32⟩ : BufTy).Contents (Elt F)) :=
  Cert.Lib.AfterAssign.after_binary writesAre 76 rfl V (by decide) (by decide) (by decide)

theorem e77 (V : Valuation τ sig (Elt F)) :
    (val V main_cst_8 : (⟨S_, .f32⟩ : BufTy).Contents (Elt F)) = (constant S_ .f32 0x00000000#32) :=
  Cert.Lib.AfterAssign.after_nullary writesAre 77 rfl V (by decide)

theorem e78 (V : Valuation τ sig (Elt F)) :
    (val V main_v46 : (⟨S4096x512, .f32⟩ : BufTy).Contents (Elt F)) = (broadcastInDim S4096x512 ![] bcast_S_S4096x512 : (⟨S_, .f32⟩ : BufTy).Contents (Elt F) → (⟨S4096x512, .f32⟩ : BufTy).Contents (Elt F)) (val V main_cst_8 : (⟨S_, .f32⟩ : BufTy).Contents (Elt F)) :=
  Cert.Lib.AfterAssign.after_unary writesAre 78 rfl V (by decide) (by decide)

theorem e79 (V : Valuation τ sig (Elt F)) :
    (val V main_v47 : (⟨S4096x512, .i1⟩ : BufTy).Contents (Elt F)) = (cmpf .ogt : (⟨S4096x512, .f32⟩ : BufTy).Contents (Elt F) → (⟨S4096x512, .f32⟩ : BufTy).Contents (Elt F) → (⟨S4096x512, .i1⟩ : BufTy).Contents (Elt F)) (val V main_v45 : (⟨S4096x512, .f32⟩ : BufTy).Contents (Elt F)) (val V main_v46 : (⟨S4096x512, .f32⟩ : BufTy).Contents (Elt F)) :=
  Cert.Lib.AfterAssign.after_binary writesAre 79 rfl V (by decide) (by decide) (by decide)

theorem e80 (V : Valuation τ sig (Elt F)) :
    (val V main_cst_9 : (⟨S_, .f32⟩ : BufTy).Contents (Elt F)) = (constant S_ .f32 0x3C23D70A#32) :=
  Cert.Lib.AfterAssign.after_nullary writesAre 80 rfl V (by decide)

theorem e81 (V : Valuation τ sig (Elt F)) :
    (val V main_v48 : (⟨S4096x512, .f32⟩ : BufTy).Contents (Elt F)) = (broadcastInDim S4096x512 ![] bcast_S_S4096x512 : (⟨S_, .f32⟩ : BufTy).Contents (Elt F) → (⟨S4096x512, .f32⟩ : BufTy).Contents (Elt F)) (val V main_cst_9 : (⟨S_, .f32⟩ : BufTy).Contents (Elt F)) :=
  Cert.Lib.AfterAssign.after_unary writesAre 81 rfl V (by decide) (by decide)

theorem e82 (V : Valuation τ sig (Elt F)) :
    (val V main_v49 : (⟨S4096x512, .f32⟩ : BufTy).Contents (Elt F)) = (mulf : (⟨S4096x512, .f32⟩ : BufTy).Contents (Elt F) → (⟨S4096x512, .f32⟩ : BufTy).Contents (Elt F) → (⟨S4096x512, .f32⟩ : BufTy).Contents (Elt F)) (val V main_v48 : (⟨S4096x512, .f32⟩ : BufTy).Contents (Elt F)) (val V main_v45 : (⟨S4096x512, .f32⟩ : BufTy).Contents (Elt F)) :=
  Cert.Lib.AfterAssign.after_binary writesAre 82 rfl V (by decide) (by decide) (by decide)

theorem e83 (V : Valuation τ sig (Elt F)) :
    (val V main_v50 : (⟨S4096x512, .f32⟩ : BufTy).Contents (Elt F)) = select (val V main_v47 : (⟨S4096x512, .i1⟩ : BufTy).Contents (Elt F)) (val V main_v45 : (⟨S4096x512, .f32⟩ : BufTy).Contents (Elt F)) (val V main_v49 : (⟨S4096x512, .f32⟩ : BufTy).Contents (Elt F)) :=
  Cert.Lib.AfterAssign.after_ternary writesAre 83 rfl V (by decide) (by decide) (by decide) (by decide)

theorem e84 (V : Valuation τ sig (Elt F)) :
    (val V main_v51 : (⟨S4096x2000, .f32⟩ : BufTy).Contents (Elt F)) = ((fun l r => Host.dotGeneral dot_S4096x512_S512x2000_S4096x2000_1_0_0_1_n_n none l r) : (⟨S4096x512, .f32⟩ : BufTy).Contents (Elt F) → (⟨S512x2000, .f32⟩ : BufTy).Contents (Elt F) → (⟨S4096x2000, .f32⟩ : BufTy).Contents (Elt F)) (val V main_v50 : (⟨S4096x512, .f32⟩ : BufTy).Contents (Elt F)) (val V main_arg9 : (⟨S512x2000, .f32⟩ : BufTy).Contents (Elt F)) :=
  Cert.Lib.AfterAssign.after_binary writesAre 84 rfl V (by decide) (by decide) (by decide)

theorem e85 (V : Valuation τ sig (Elt F)) :
    (val V main_v52 : (⟨S1x2000, .f32⟩ : BufTy).Contents (Elt F)) = (broadcastInDim S1x2000 ![1] bcast_S2000_S1x2000_1 : (⟨S2000, .f32⟩ : BufTy).Contents (Elt F) → (⟨S1x2000, .f32⟩ : BufTy).Contents (Elt F)) (val V main_arg10 : (⟨S2000, .f32⟩ : BufTy).Contents (Elt F)) :=
  Cert.Lib.AfterAssign.after_unary writesAre 85 rfl V (by decide) (by decide)

theorem e86 (V : Valuation τ sig (Elt F)) :
    (val V main_v53 : (⟨S4096x2000, .f32⟩ : BufTy).Contents (Elt F)) = (broadcastInDim S4096x2000 ![0, 1] bcast_S1x2000_S4096x2000_0_1 : (⟨S1x2000, .f32⟩ : BufTy).Contents (Elt F) → (⟨S4096x2000, .f32⟩ : BufTy).Contents (Elt F)) (val V main_v52 : (⟨S1x2000, .f32⟩ : BufTy).Contents (Elt F)) :=
  Cert.Lib.AfterAssign.after_unary writesAre 86 rfl V (by decide) (by decide)

theorem e87 (V : Valuation τ sig (Elt F)) :
    (val V main_v54 : (⟨S4096x2000, .f32⟩ : BufTy).Contents (Elt F)) = (addf : (⟨S4096x2000, .f32⟩ : BufTy).Contents (Elt F) → (⟨S4096x2000, .f32⟩ : BufTy).Contents (Elt F) → (⟨S4096x2000, .f32⟩ : BufTy).Contents (Elt F)) (val V main_v51 : (⟨S4096x2000, .f32⟩ : BufTy).Contents (Elt F)) (val V main_v53 : (⟨S4096x2000, .f32⟩ : BufTy).Contents (Elt F)) :=
  Cert.Lib.AfterAssign.after_binary writesAre 87 rfl V (by decide) (by decide) (by decide)

theorem e88 (V : Valuation τ sig (Elt F)) :
    (val V main_call5_cst : (⟨S_, .f32⟩ : BufTy).Contents (Elt F)) = (constant S_ .f32 0x00000000#32) :=
  Cert.Lib.AfterAssign.after_nullary writesAre 88 rfl V (by decide)

theorem e89 (V : Valuation τ sig (Elt F)) :
    (val V main_call5_v0 : (⟨S4096x2000, .f32⟩ : BufTy).Contents (Elt F)) = (broadcastInDim S4096x2000 ![] bcast_S_S4096x2000) (val V main_call5_cst : (⟨S_, .f32⟩ : BufTy).Contents (Elt F)) :=
  Cert.Lib.AfterAssign.after_unary writesAre 89 rfl V (by decide) (by decide)

theorem e90 (V : Valuation τ sig (Elt F)) :
    (val V main_call5_v1 : (⟨S4096x2000, .f32⟩ : BufTy).Contents (Elt F)) = maximumf (val V main_v54 : (⟨S4096x2000, .f32⟩ : BufTy).Contents (Elt F)) (val V main_call5_v0 : (⟨S4096x2000, .f32⟩ : BufTy).Contents (Elt F)) :=
  Cert.Lib.AfterAssign.after_binary writesAre 90 rfl V (by decide) (by decide) (by decide)

theorem e91 (V : Valuation τ sig (Elt F)) :
    (val V main_call5_v2 : (⟨S4096x2000, .f32⟩ : BufTy).Contents (Elt F)) = (broadcastInDim S4096x2000 ![] bcast_S_S4096x2000) (val V main_call5_cst : (⟨S_, .f32⟩ : BufTy).Contents (Elt F)) :=
  Cert.Lib.AfterAssign.after_unary writesAre 91 rfl V (by decide) (by decide)

end Cert.ReferenceIdeal.Hand

end
-- ==== Proof.Ref.EqnsC.lean ====
import proofs.«117800_g2173253451805_cont_8to1_1923_4_alg».proof.Proof.Ref.Val

/-!
# The operations' equations at the final contents: operations 92 to 136

`e k`: at the result of operation `k` of the line, the final contents are that operation's function of the final
contents at its operands (a constant's: the constant). Each is the single-assignment reading of the fold at position `k`:
the rest of the line from `k` is that operation and what follows (a computation), no later operation writes its
result and none from `k` on writes an operand (decided over the list of written references).
-/

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

theorem e92 (V : Valuation τ sig (Elt F)) :
    (val V main_call5_v3 : (⟨S4096x2000, .f32⟩ : BufTy).Contents (Elt F)) = subf (val V main_v54 : (⟨S4096x2000, .f32⟩ : BufTy).Contents (Elt F)) (val V main_call5_v2 : (⟨S4096x2000, .f32⟩ : BufTy).Contents (Elt F)) :=
  Cert.Lib.AfterAssign.after_binary writesAre 92 rfl V (by decide) (by decide) (by decide)

theorem e93 (V : Valuation τ sig (Elt F)) :
    (val V main_call5_v4 : (⟨S4096x2000, .i1⟩ : BufTy).Contents (Elt F)) = (cmpf .une) (val V main_call5_v3 : (⟨S4096x2000, .f32⟩ : BufTy).Contents (Elt F)) (val V main_call5_v3 : (⟨S4096x2000, .f32⟩ : BufTy).Contents (Elt F)) :=
  Cert.Lib.AfterAssign.after_binary writesAre 93 rfl V (by decide) (by decide) (by decide)

theorem e94 (V : Valuation τ sig (Elt F)) :
    (val V main_call5_v5 : (⟨S4096x2000, .f32⟩ : BufTy).Contents (Elt F)) = (broadcastInDim S4096x2000 ![] bcast_S_S4096x2000) (val V main_call5_cst : (⟨S_, .f32⟩ : BufTy).Contents (Elt F)) :=
  Cert.Lib.AfterAssign.after_unary writesAre 94 rfl V (by decide) (by decide)

theorem e95 (V : Valuation τ sig (Elt F)) :
    (val V main_call5_v6 : (⟨S4096x2000, .f32⟩ : BufTy).Contents (Elt F)) = addf (val V main_v54 : (⟨S4096x2000, .f32⟩ : BufTy).Contents (Elt F)) (val V main_call5_v5 : (⟨S4096x2000, .f32⟩ : BufTy).Contents (Elt F)) :=
  Cert.Lib.AfterAssign.after_binary writesAre 95 rfl V (by decide) (by decide) (by decide)

theorem e96 (V : Valuation τ sig (Elt F)) :
    (val V main_call5_v7 : (⟨S4096x2000, .f32⟩ : BufTy).Contents (Elt F)) = Host.absf (val V main_call5_v3 : (⟨S4096x2000, .f32⟩ : BufTy).Contents (Elt F)) :=
  Cert.Lib.AfterAssign.after_unary writesAre 96 rfl V (by decide) (by decide)

theorem e97 (V : Valuation τ sig (Elt F)) :
    (val V main_call5_v8 : (⟨S4096x2000, .f32⟩ : BufTy).Contents (Elt F)) = Host.negf (val V main_call5_v7 : (⟨S4096x2000, .f32⟩ : BufTy).Contents (Elt F)) :=
  Cert.Lib.AfterAssign.after_unary writesAre 97 rfl V (by decide) (by decide)

theorem e98 (V : Valuation τ sig (Elt F)) :
    (val V main_call5_v9 : (⟨S4096x2000, .f32⟩ : BufTy).Contents (Elt F)) = Host.exp (val V main_call5_v8 : (⟨S4096x2000, .f32⟩ : BufTy).Contents (Elt F)) :=
  Cert.Lib.AfterAssign.after_unary writesAre 98 rfl V (by decide) (by decide)

theorem e99 (V : Valuation τ sig (Elt F)) :
    (val V main_call5_v10 : (⟨S4096x2000, .f32⟩ : BufTy).Contents (Elt F)) = Host.log1p (val V main_call5_v9 : (⟨S4096x2000, .f32⟩ : BufTy).Contents (Elt F)) :=
  Cert.Lib.AfterAssign.after_unary writesAre 99 rfl V (by decide) (by decide)

theorem e100 (V : Valuation τ sig (Elt F)) :
    (val V main_call5_v11 : (⟨S4096x2000, .f32⟩ : BufTy).Contents (Elt F)) = addf (val V main_call5_v1 : (⟨S4096x2000, .f32⟩ : BufTy).Contents (Elt F)) (val V main_call5_v10 : (⟨S4096x2000, .f32⟩ : BufTy).Contents (Elt F)) :=
  Cert.Lib.AfterAssign.after_binary writesAre 100 rfl V (by decide) (by decide) (by decide)

theorem e101 (V : Valuation τ sig (Elt F)) :
    (val V main_v55 : (⟨S4096x2000, .f32⟩ : BufTy).Contents (Elt F)) = select (val V main_call5_v4 : (⟨S4096x2000, .i1⟩ : BufTy).Contents (Elt F)) (val V main_call5_v6 : (⟨S4096x2000, .f32⟩ : BufTy).Contents (Elt F)) (val V main_call5_v11 : (⟨S4096x2000, .f32⟩ : BufTy).Contents (Elt F)) :=
  Cert.Lib.AfterAssign.after_ternary writesAre 101 rfl V (by decide) (by decide) (by decide) (by decide)

theorem e102 (V : Valuation τ sig (Elt F)) :
    (val V main_cst_10 : (⟨S_, .f32⟩ : BufTy).Contents (Elt F)) = (constant S_ .f32 0x3727C5AC#32) :=
  Cert.Lib.AfterAssign.after_nullary writesAre 102 rfl V (by decide)

theorem e103 (V : Valuation τ sig (Elt F)) :
    (val V main_cst_11 : (⟨S_, .f32⟩ : BufTy).Contents (Elt F)) = (constant S_ .f32 0x49742400#32) :=
  Cert.Lib.AfterAssign.after_nullary writesAre 103 rfl V (by decide)

theorem e104 (V : Valuation τ sig (Elt F)) :
    (val V main_call6_v0 : (⟨S_, .f32⟩ : BufTy).Contents (Elt F)) = id (val V main_cst_10 : (⟨S_, .f32⟩ : BufTy).Contents (Elt F)) :=
  Cert.Lib.AfterAssign.after_unary writesAre 104 rfl V (by decide) (by decide)

theorem e105 (V : Valuation τ sig (Elt F)) :
    (val V main_call6_v1 : (⟨S4096x2000, .f32⟩ : BufTy).Contents (Elt F)) = (broadcastInDim S4096x2000 ![] bcast_S_S4096x2000) (val V main_call6_v0 : (⟨S_, .f32⟩ : BufTy).Contents (Elt F)) :=
  Cert.Lib.AfterAssign.after_unary writesAre 105 rfl V (by decide) (by decide)

theorem e106 (V : Valuation τ sig (Elt F)) :
    (val V main_call6_v2 : (⟨S4096x2000, .f32⟩ : BufTy).Contents (Elt F)) = maximumf (val V main_call6_v1 : (⟨S4096x2000, .f32⟩ : BufTy).Contents (Elt F)) (val V main_v55 : (⟨S4096x2000, .f32⟩ : BufTy).Contents (Elt F)) :=
  Cert.Lib.AfterAssign.after_binary writesAre 106 rfl V (by decide) (by decide) (by decide)

theorem e107 (V : Valuation τ sig (Elt F)) :
    (val V main_call6_v3 : (⟨S_, .f32⟩ : BufTy).Contents (Elt F)) = id (val V main_cst_11 : (⟨S_, .f32⟩ : BufTy).Contents (Elt F)) :=
  Cert.Lib.AfterAssign.after_unary writesAre 107 rfl V (by decide) (by decide)

theorem e108 (V : Valuation τ sig (Elt F)) :
    (val V main_call6_v4 : (⟨S4096x2000, .f32⟩ : BufTy).Contents (Elt F)) = (broadcastInDim S4096x2000 ![] bcast_S_S4096x2000) (val V main_call6_v3 : (⟨S_, .f32⟩ : BufTy).Contents (Elt F)) :=
  Cert.Lib.AfterAssign.after_unary writesAre 108 rfl V (by decide) (by decide)

theorem e109 (V : Valuation τ sig (Elt F)) :
    (val V main_v56 : (⟨S4096x2000, .f32⟩ : BufTy).Contents (Elt F)) = minimumf (val V main_call6_v4 : (⟨S4096x2000, .f32⟩ : BufTy).Contents (Elt F)) (val V main_call6_v2 : (⟨S4096x2000, .f32⟩ : BufTy).Contents (Elt F)) :=
  Cert.Lib.AfterAssign.after_binary writesAre 109 rfl V (by decide) (by decide) (by decide)

theorem e110 (V : Valuation τ sig (Elt F)) :
    (val V main_v57 : (⟨S4096x2000, .f32⟩ : BufTy).Contents (Elt F)) = ((fun l r => Host.dotGeneral dot_S4096x512_S512x2000_S4096x2000_1_0_0_1_n_n none l r) : (⟨S4096x512, .f32⟩ : BufTy).Contents (Elt F) → (⟨S512x2000, .f32⟩ : BufTy).Contents (Elt F) → (⟨S4096x2000, .f32⟩ : BufTy).Contents (Elt F)) (val V main_v50 : (⟨S4096x512, .f32⟩ : BufTy).Contents (Elt F)) (val V main_arg11 : (⟨S512x2000, .f32⟩ : BufTy).Contents (Elt F)) :=
  Cert.Lib.AfterAssign.after_binary writesAre 110 rfl V (by decide) (by decide) (by decide)

theorem e111 (V : Valuation τ sig (Elt F)) :
    (val V main_v58 : (⟨S1x2000, .f32⟩ : BufTy).Contents (Elt F)) = (broadcastInDim S1x2000 ![1] bcast_S2000_S1x2000_1 : (⟨S2000, .f32⟩ : BufTy).Contents (Elt F) → (⟨S1x2000, .f32⟩ : BufTy).Contents (Elt F)) (val V main_arg12 : (⟨S2000, .f32⟩ : BufTy).Contents (Elt F)) :=
  Cert.Lib.AfterAssign.after_unary writesAre 111 rfl V (by decide) (by decide)

theorem e112 (V : Valuation τ sig (Elt F)) :
    (val V main_v59 : (⟨S4096x2000, .f32⟩ : BufTy).Contents (Elt F)) = (broadcastInDim S4096x2000 ![0, 1] bcast_S1x2000_S4096x2000_0_1 : (⟨S1x2000, .f32⟩ : BufTy).Contents (Elt F) → (⟨S4096x2000, .f32⟩ : BufTy).Contents (Elt F)) (val V main_v58 : (⟨S1x2000, .f32⟩ : BufTy).Contents (Elt F)) :=
  Cert.Lib.AfterAssign.after_unary writesAre 112 rfl V (by decide) (by decide)

theorem e113 (V : Valuation τ sig (Elt F)) :
    (val V main_v60 : (⟨S4096x2000, .f32⟩ : BufTy).Contents (Elt F)) = (addf : (⟨S4096x2000, .f32⟩ : BufTy).Contents (Elt F) → (⟨S4096x2000, .f32⟩ : BufTy).Contents (Elt F) → (⟨S4096x2000, .f32⟩ : BufTy).Contents (Elt F)) (val V main_v57 : (⟨S4096x2000, .f32⟩ : BufTy).Contents (Elt F)) (val V main_v59 : (⟨S4096x2000, .f32⟩ : BufTy).Contents (Elt F)) :=
  Cert.Lib.AfterAssign.after_binary writesAre 113 rfl V (by decide) (by decide) (by decide)

theorem e114 (V : Valuation τ sig (Elt F)) :
    (val V main_v61 : (⟨S4096x2000, .f32⟩ : BufTy).Contents (Elt F)) = (Host.exp : (⟨S4096x2000, .f32⟩ : BufTy).Contents (Elt F) → (⟨S4096x2000, .f32⟩ : BufTy).Contents (Elt F)) (val V main_v60 : (⟨S4096x2000, .f32⟩ : BufTy).Contents (Elt F)) :=
  Cert.Lib.AfterAssign.after_unary writesAre 114 rfl V (by decide) (by decide)

theorem e115 (V : Valuation τ sig (Elt F)) :
    (val V main_cst_12 : (⟨S_, .f32⟩ : BufTy).Contents (Elt F)) = (constant S_ .f32 0x3727C5AC#32) :=
  Cert.Lib.AfterAssign.after_nullary writesAre 115 rfl V (by decide)

theorem e116 (V : Valuation τ sig (Elt F)) :
    (val V main_cst_13 : (⟨S_, .f32⟩ : BufTy).Contents (Elt F)) = (constant S_ .f32 0x49742400#32) :=
  Cert.Lib.AfterAssign.after_nullary writesAre 116 rfl V (by decide)

theorem e117 (V : Valuation τ sig (Elt F)) :
    (val V main_call7_v0 : (⟨S_, .f32⟩ : BufTy).Contents (Elt F)) = id (val V main_cst_12 : (⟨S_, .f32⟩ : BufTy).Contents (Elt F)) :=
  Cert.Lib.AfterAssign.after_unary writesAre 117 rfl V (by decide) (by decide)

theorem e118 (V : Valuation τ sig (Elt F)) :
    (val V main_call7_v1 : (⟨S4096x2000, .f32⟩ : BufTy).Contents (Elt F)) = (broadcastInDim S4096x2000 ![] bcast_S_S4096x2000) (val V main_call7_v0 : (⟨S_, .f32⟩ : BufTy).Contents (Elt F)) :=
  Cert.Lib.AfterAssign.after_unary writesAre 118 rfl V (by decide) (by decide)

theorem e119 (V : Valuation τ sig (Elt F)) :
    (val V main_call7_v2 : (⟨S4096x2000, .f32⟩ : BufTy).Contents (Elt F)) = maximumf (val V main_call7_v1 : (⟨S4096x2000, .f32⟩ : BufTy).Contents (Elt F)) (val V main_v61 : (⟨S4096x2000, .f32⟩ : BufTy).Contents (Elt F)) :=
  Cert.Lib.AfterAssign.after_binary writesAre 119 rfl V (by decide) (by decide) (by decide)

theorem e120 (V : Valuation τ sig (Elt F)) :
    (val V main_call7_v3 : (⟨S_, .f32⟩ : BufTy).Contents (Elt F)) = id (val V main_cst_13 : (⟨S_, .f32⟩ : BufTy).Contents (Elt F)) :=
  Cert.Lib.AfterAssign.after_unary writesAre 120 rfl V (by decide) (by decide)

theorem e121 (V : Valuation τ sig (Elt F)) :
    (val V main_call7_v4 : (⟨S4096x2000, .f32⟩ : BufTy).Contents (Elt F)) = (broadcastInDim S4096x2000 ![] bcast_S_S4096x2000) (val V main_call7_v3 : (⟨S_, .f32⟩ : BufTy).Contents (Elt F)) :=
  Cert.Lib.AfterAssign.after_unary writesAre 121 rfl V (by decide) (by decide)

theorem e122 (V : Valuation τ sig (Elt F)) :
    (val V main_v62 : (⟨S4096x2000, .f32⟩ : BufTy).Contents (Elt F)) = minimumf (val V main_call7_v4 : (⟨S4096x2000, .f32⟩ : BufTy).Contents (Elt F)) (val V main_call7_v2 : (⟨S4096x2000, .f32⟩ : BufTy).Contents (Elt F)) :=
  Cert.Lib.AfterAssign.after_binary writesAre 122 rfl V (by decide) (by decide) (by decide)

theorem e123 (V : Valuation τ sig (Elt F)) :
    (val V main_v63 : (⟨S1x2000, .f32⟩ : BufTy).Contents (Elt F)) = (broadcastInDim S1x2000 ![1] bcast_S2000_S1x2000_1 : (⟨S2000, .f32⟩ : BufTy).Contents (Elt F) → (⟨S1x2000, .f32⟩ : BufTy).Contents (Elt F)) (val V main_arg13 : (⟨S2000, .f32⟩ : BufTy).Contents (Elt F)) :=
  Cert.Lib.AfterAssign.after_unary writesAre 123 rfl V (by decide) (by decide)

theorem e124 (V : Valuation τ sig (Elt F)) :
    (val V main_v64 : (⟨S4096x2000, .f32⟩ : BufTy).Contents (Elt F)) = (broadcastInDim S4096x2000 ![0, 1] bcast_S1x2000_S4096x2000_0_1 : (⟨S1x2000, .f32⟩ : BufTy).Contents (Elt F) → (⟨S4096x2000, .f32⟩ : BufTy).Contents (Elt F)) (val V main_v63 : (⟨S1x2000, .f32⟩ : BufTy).Contents (Elt F)) :=
  Cert.Lib.AfterAssign.after_unary writesAre 124 rfl V (by decide) (by decide)

theorem e125 (V : Valuation τ sig (Elt F)) :
    (val V main_v65 : (⟨S4096x2000, .f32⟩ : BufTy).Contents (Elt F)) = (mulf : (⟨S4096x2000, .f32⟩ : BufTy).Contents (Elt F) → (⟨S4096x2000, .f32⟩ : BufTy).Contents (Elt F) → (⟨S4096x2000, .f32⟩ : BufTy).Contents (Elt F)) (val V main_v60 : (⟨S4096x2000, .f32⟩ : BufTy).Contents (Elt F)) (val V main_v64 : (⟨S4096x2000, .f32⟩ : BufTy).Contents (Elt F)) :=
  Cert.Lib.AfterAssign.after_binary writesAre 125 rfl V (by decide) (by decide) (by decide)

theorem e126 (V : Valuation τ sig (Elt F)) :
    (val V main_v66 : (⟨S1x2000, .f32⟩ : BufTy).Contents (Elt F)) = (broadcastInDim S1x2000 ![1] bcast_S2000_S1x2000_1 : (⟨S2000, .f32⟩ : BufTy).Contents (Elt F) → (⟨S1x2000, .f32⟩ : BufTy).Contents (Elt F)) (val V main_arg14 : (⟨S2000, .f32⟩ : BufTy).Contents (Elt F)) :=
  Cert.Lib.AfterAssign.after_unary writesAre 126 rfl V (by decide) (by decide)

theorem e127 (V : Valuation τ sig (Elt F)) :
    (val V main_v67 : (⟨S4096x2000, .f32⟩ : BufTy).Contents (Elt F)) = (broadcastInDim S4096x2000 ![0, 1] bcast_S1x2000_S4096x2000_0_1 : (⟨S1x2000, .f32⟩ : BufTy).Contents (Elt F) → (⟨S4096x2000, .f32⟩ : BufTy).Contents (Elt F)) (val V main_v66 : (⟨S1x2000, .f32⟩ : BufTy).Contents (Elt F)) :=
  Cert.Lib.AfterAssign.after_unary writesAre 127 rfl V (by decide) (by decide)

theorem e128 (V : Valuation τ sig (Elt F)) :
    (val V main_v68 : (⟨S4096x2000, .f32⟩ : BufTy).Contents (Elt F)) = (addf : (⟨S4096x2000, .f32⟩ : BufTy).Contents (Elt F) → (⟨S4096x2000, .f32⟩ : BufTy).Contents (Elt F) → (⟨S4096x2000, .f32⟩ : BufTy).Contents (Elt F)) (val V main_v65 : (⟨S4096x2000, .f32⟩ : BufTy).Contents (Elt F)) (val V main_v67 : (⟨S4096x2000, .f32⟩ : BufTy).Contents (Elt F)) :=
  Cert.Lib.AfterAssign.after_binary writesAre 128 rfl V (by decide) (by decide) (by decide)

theorem e129 (V : Valuation τ sig (Elt F)) :
    (val V main_v69 : (⟨S4096x2000, .f32⟩ : BufTy).Contents (Elt F)) = (Host.negf : (⟨S4096x2000, .f32⟩ : BufTy).Contents (Elt F) → (⟨S4096x2000, .f32⟩ : BufTy).Contents (Elt F)) (val V main_v68 : (⟨S4096x2000, .f32⟩ : BufTy).Contents (Elt F)) :=
  Cert.Lib.AfterAssign.after_unary writesAre 129 rfl V (by decide) (by decide)

theorem e130 (V : Valuation τ sig (Elt F)) :
    (val V main_v70 : (⟨S4096x2000, .f32⟩ : BufTy).Contents (Elt F)) = (Host.exp : (⟨S4096x2000, .f32⟩ : BufTy).Contents (Elt F) → (⟨S4096x2000, .f32⟩ : BufTy).Contents (Elt F)) (val V main_v69 : (⟨S4096x2000, .f32⟩ : BufTy).Contents (Elt F)) :=
  Cert.Lib.AfterAssign.after_unary writesAre 130 rfl V (by decide) (by decide)

theorem e131 (V : Valuation τ sig (Elt F)) :
    (val V main_cst_14 : (⟨S_, .f32⟩ : BufTy).Contents (Elt F)) = (constant S_ .f32 0x3F800000#32) :=
  Cert.Lib.AfterAssign.after_nullary writesAre 131 rfl V (by decide)

theorem e132 (V : Valuation τ sig (Elt F)) :
    (val V main_v71 : (⟨S4096x2000, .f32⟩ : BufTy).Contents (Elt F)) = (broadcastInDim S4096x2000 ![] bcast_S_S4096x2000 : (⟨S_, .f32⟩ : BufTy).Contents (Elt F) → (⟨S4096x2000, .f32⟩ : BufTy).Contents (Elt F)) (val V main_cst_14 : (⟨S_, .f32⟩ : BufTy).Contents (Elt F)) :=
  Cert.Lib.AfterAssign.after_unary writesAre 132 rfl V (by decide) (by decide)

theorem e133 (V : Valuation τ sig (Elt F)) :
    (val V main_v72 : (⟨S4096x2000, .f32⟩ : BufTy).Contents (Elt F)) = (addf : (⟨S4096x2000, .f32⟩ : BufTy).Contents (Elt F) → (⟨S4096x2000, .f32⟩ : BufTy).Contents (Elt F) → (⟨S4096x2000, .f32⟩ : BufTy).Contents (Elt F)) (val V main_v71 : (⟨S4096x2000, .f32⟩ : BufTy).Contents (Elt F)) (val V main_v70 : (⟨S4096x2000, .f32⟩ : BufTy).Contents (Elt F)) :=
  Cert.Lib.AfterAssign.after_binary writesAre 133 rfl V (by decide) (by decide) (by decide)

theorem e134 (V : Valuation τ sig (Elt F)) :
    (val V main_cst_15 : (⟨S_, .f32⟩ : BufTy).Contents (Elt F)) = (constant S_ .f32 0x3F800000#32) :=
  Cert.Lib.AfterAssign.after_nullary writesAre 134 rfl V (by decide)

theorem e135 (V : Valuation τ sig (Elt F)) :
    (val V main_v73 : (⟨S4096x2000, .f32⟩ : BufTy).Contents (Elt F)) = (broadcastInDim S4096x2000 ![] bcast_S_S4096x2000 : (⟨S_, .f32⟩ : BufTy).Contents (Elt F) → (⟨S4096x2000, .f32⟩ : BufTy).Contents (Elt F)) (val V main_cst_15 : (⟨S_, .f32⟩ : BufTy).Contents (Elt F)) :=
  Cert.Lib.AfterAssign.after_unary writesAre 135 rfl V (by decide) (by decide)

theorem e136 (V : Valuation τ sig (Elt F)) :
    (val V main_v74 : (⟨S4096x2000, .f32⟩ : BufTy).Contents (Elt F)) = (Host.divf : (⟨S4096x2000, .f32⟩ : BufTy).Contents (Elt F) → (⟨S4096x2000, .f32⟩ : BufTy).Contents (Elt F) → (⟨S4096x2000, .f32⟩ : BufTy).Contents (Elt F)) (val V main_v73 : (⟨S4096x2000, .f32⟩ : BufTy).Contents (Elt F)) (val V main_v72 : (⟨S4096x2000, .f32⟩ : BufTy).Contents (Elt F)) :=
  Cert.Lib.AfterAssign.after_binary writesAre 136 rfl V (by decide) (by decide) (by decide)

end Cert.ReferenceIdeal.Hand

end
-- ==== Proof.Ref.Eqns.lean ====
import proofs.«117800_g2173253451805_cont_8to1_1923_4_alg».proof.Proof.Ref.EqnsA
import proofs.«117800_g2173253451805_cont_8to1_1923_4_alg».proof.Proof.Ref.EqnsB
import proofs.«117800_g2173253451805_cont_8to1_1923_4_alg».proof.Proof.Ref.EqnsC

/-!
# The 137 equations together

The final contents `val V r` are read, from here on, only through the equations `e0 … e136` and `val_arg`. A module
that reads them makes the definition locally irreducible, so that no comparison of terms unfolds the fold of the line.
-/
-- ==== Proof.Ref.Kit.lean ====
import Idealize.ShloMosaic.Lib.IdealHost
import Idealize.ShloMosaic.Lib.ValueLayout
import Idealize.ShloMosaic.Lib.Pipeline.Value
import proofs.«117800_g2173253451805_cont_8to1_1923_4_alg».proof.Proof.LibPlainDot
import proofs.«117800_g2173253451805_cont_8to1_1923_4_alg».proof.Proof.Spec

/-!
# Host operations of a matrix program read at an index, on the extended reals

The handful of readings the reference's operations need once an operation's equation is applied at an index
written with `ix1` / `ix2`: a plain matrix product as the sum over the contracted coordinate, a sum down the
rows of a matrix from an initial value, a vector broadcast to a one-row matrix and a one-row matrix broadcast
down the rows, congruence of the products under a sum and of a select, and the values of the two words the
variance's normaliser needs (the word of 4096 and the integer 0 converted).
-/

noncomputable section

open scoped BigOperators

namespace Cert.ReferenceIdeal.Kit

open Idealize.ShloMosaic Idealize.ShloMosaic.ValueIdx

/-- A plain matrix product on the host, read at (i, c): the sum over the contracted coordinate. -/
theorem dot_apply {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![M, K]⟩ φ₁) (r : FVec Ideal ⟨2, ![K, N]⟩ φ₂) (i : Fin M) (c : Fin N) :
    Host.dotGeneral d none l r (ix2 i c) = ∑ k : Fin K, l (ix2 i k) * r (ix2 k c) :=
  PlainDot.dotGeneral_plain d h1 h2 h3 h4 h5 h6 none .single l r (ix2 i c)

/-- The host's sum of an `[a, b]` matrix down its rows from an initial value, read at column `c`: the initial
    value plus the sum over that column. -/
theorem hostColSum_apply {a b : ℕ} {φ : FTy} (src : FVec Ideal ⟨2, ![a, b]⟩ φ)
    (init : (⟨0, ![]⟩ : Shape).Idx → Ideal φ) (h' : (⟨2, ![a, b]⟩ : Shape).ReducesTo [0] ⟨1, ![b]⟩)
    (hu : 0 < (⟨0, ![]⟩ : Shape).numel) (h : (⟨2, ![a, b]⟩ : Shape).Reduces [0] ⟨1, ![b]⟩) (c : Fin b) :
    Host.reduceAdd src init h' hu (ix1 c) = init (Shape.Idx.first hu) + ∑ k : Fin a, src (ix2 k c) := by
  refine (Ideal.hostReduceAdd_single h' h src (init (Shape.Idx.first hu)) (ix1 c)).trans ?_
  refine congrArg (init (Shape.Idx.first hu) + ·) (Finset.sum_congr rfl fun k _ => congrArg src ?_)
  funext ax; apply Fin.ext
  match ax with
  | ⟨0, _⟩ => rfl
  | ⟨1, _⟩ => rfl

/-- A vector broadcast to a one-row matrix reads, at (u, c), the vector at c. -/
theorem bcast_vec_row {α : Type} {b : ℕ} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) :=
  broadcastInDim_apply _ h x _ (ix1 c) fun a => match a with
    | ⟨0, _⟩ => by
      show c.val = if b = 1 then 0 else c.val
      split
      · have := c.isLt; omega
      · rfl

/-- A one-row matrix broadcast down the rows reads, at (i, c), the row at c. -/
theorem bcast_row_rows {α : Type} {a b : ℕ} (h : (⟨2, ![1, b]⟩ : Shape).BroadcastsInDim ⟨2, ![a, b]⟩ ![0, 1])
    (x : (⟨2, ![1, b]⟩ : Shape).Idx → α) (i : Fin a) (c : Fin b) :
    broadcastInDim ⟨2, ![a, b]⟩ ![0, 1] h x (ix2 i c) = x (ix2 (0 : Fin 1) c) :=
  broadcastInDim_apply _ h x _ (ix2 (0 : Fin 1) c) fun ax => match ax with
    | ⟨0, _⟩ => rfl
    | ⟨1, _⟩ => by
      show c.val = if b = 1 then 0 else c.val
      split
      · have := c.isLt; omega
      · rfl

/-- Two sums of products agree when their factors do, term by term. -/
theorem sum_mul_congr {K : ℕ} {f g f' g' : Fin K → EReal} (hf : ∀ k, f k = f' k) (hg : ∀ k, g k = g' k) :
    ∑ k : Fin K, f k * g k = ∑ k : Fin K, f' k * g' k :=
  Finset.sum_congr rfl fun k _ => by rw [hf k, hg k]

/-- Two sums agree when their terms do. -/
theorem sum_congr' {K : ℕ} {f f' : Fin K → EReal} (hf : ∀ k, f k = f' k) : ∑ k : Fin K, f k = ∑ k : Fin K, f' k :=
  Finset.sum_congr rfl fun k _ => hf k

/-- A select between equal operands under equal conditions. -/
theorem select_congr {α : Type} {c c' : BitVec 1} {a a' b b' : α} (hc : c = c') (ha : a = a') (hb : b = b') :
    Scalar.select c a b = Scalar.select c' a' b' := by rw [hc, ha, hb]

/-- On the extended reals nothing differs from itself: the unordered-or-unequal test of a value against itself
    is the bit 0. -/
theorem cmp_une_self (a : EReal) : FloatOps.cmpf (F := Ideal) (φ := .f32) .une a a = 0#1 := by
  show Ideal.cmp .une a a = 0#1
  simp [Ideal.cmp]

/-- The word `0x45800000` is the real 4096. -/
theorem rows_eq : Cert.Spec.rows = ((4096 : ℝ) : EReal) := by
  unfold Cert.Spec.rows
  simp [Ideal.ofBits, Ideal.ieee, -EReal.coe_mul]; norm_num

/-- The 32-bit integer 0 converted to a float is the extended real 0. -/
theorem sitofp_zero : FloatOps.sitofp (F := Ideal) .f32 (0#32 : BitVec 32) = 0 := by
  show (((0#32 : BitVec 32).toInt : ℝ) : EReal) = 0
  simp

/-- The variance's normaliser: the number of rows less the converted 0 is the number of rows. -/
theorem rows_sub_sitofp_zero : Cert.Spec.rows - FloatOps.sitofp (F := Ideal) .f32 (0#32 : BitVec 32) = Cert.Spec.rows := by
  rw [sitofp_zero, sub_zero]

/-- … and it is above the word of zero, so the test that guards the variance's division is the bit 1. -/
theorem rows_gt_z : FloatOps.cmpf (F := Ideal) (φ := .f32) .ogt Cert.Spec.rows Cert.Spec.z = 1#1 := by
  show Ideal.cmp .ogt Cert.Spec.rows Cert.Spec.z = 1#1
  have hz : Cert.Spec.z = 0 := Ideal.ofBits_zero_f32
  rw [rows_eq, hz]
  have : (0 : EReal) < ((4096 : ℝ) : EReal) := by exact_mod_cast (by norm_num : (0 : ℝ) < 4096)
  simp [Ideal.cmp, this]

end Cert.ReferenceIdeal.Kit

end
-- ==== Proof.RefForms.lean ====
/-
  The reference's results as closed forms of the fifteen argument arrays, index by index, on the extended reals:
  a two-layer graph convolution (two products with the adjacency matrix, the leaky unit after each), mu and logvar
  from the two second-layer weights, the inner-product decoder mu · muᵀ, a linear layer on mu followed by batch
  normalisation with the two-pass variance, the leaky unit, and three heads: a clamped softplus, a clamped
  exponential, and a logistic.
-/
import proofs.«117800_g2173253451805_cont_8to1_1923_4_alg».proof.Proof.Spec

noncomputable section

open scoped BigOperators

namespace Cert.RefForms

open Idealize.ShloMosaic Idealize.ShloMosaic.ValueIdx Cert.Spec

variable (a0 : FVec Ideal ⟨2, ![4096, 2000]⟩ .f32) (a1 : FVec Ideal ⟨2, ![4096, 4096]⟩ .f32) (a2 : FVec Ideal ⟨2, ![2000, 512]⟩ .f32)
  (a3 a4 : FVec Ideal ⟨2, ![512, 128]⟩ .f32) (a5 : FVec Ideal ⟨2, ![128, 512]⟩ .f32)
  (a6 a7 a8 : FVec Ideal ⟨1, ![512]⟩ .f32) (a9 : FVec Ideal ⟨2, ![512, 2000]⟩ .f32) (a10 : FVec Ideal ⟨1, ![2000]⟩ .f32)
  (a11 : FVec Ideal ⟨2, ![512, 2000]⟩ .f32) (a12 a13 a14 : FVec Ideal ⟨1, ![2000]⟩ .f32)

/-- x · gc1_w. -/
def xw : FVec Ideal ⟨2, ![4096, 512]⟩ .f32 := fun i => ∑ k : Fin 2000, a0 (ix2 (i 0) k) * a2 (ix2 k (i 1))
/-- h1 = leaky(adj · xw). -/
def h1 : FVec Ideal ⟨2, ![4096, 512]⟩ .f32 := fun i => lk (∑ k : Fin 4096, a1 (ix2 (i 0) k) * xw a0 a2 (ix2 k (i 1)))
/-- leaky(adj · (h1 · w)) for a second-layer weight w. -/
def enc (w : FVec Ideal ⟨2, ![512, 128]⟩ .f32) : FVec Ideal ⟨2, ![4096, 128]⟩ .f32 :=
  fun i => lk (∑ k : Fin 4096, a1 (ix2 (i 0) k) * (∑ l : Fin 512, h1 a0 a1 a2 (ix2 k l) * w (ix2 l (i 1))))
/-- mu. -/
def mu : FVec Ideal ⟨2, ![4096, 128]⟩ .f32 := enc a0 a1 a2 a3
/-- logvar. -/
def logvar : FVec Ideal ⟨2, ![4096, 128]⟩ .f32 := enc a0 a1 a2 a4
/-- adj_rec = mu · muᵀ. -/
def adjRec : FVec Ideal ⟨2, ![4096, 4096]⟩ .f32 := fun i => ∑ k : Fin 128, mu a0 a1 a2 a3 (ix2 (i 0) k) * mu a0 a1 a2 a3 (ix2 (i 1) k)
/-- h = mu · fc1_w + fc1_b. -/
def hh : FVec Ideal ⟨2, ![4096, 512]⟩ .f32 := fun i => (∑ k : Fin 128, mu a0 a1 a2 a3 (ix2 (i 0) k) * a5 (ix2 k (i 1))) + a6 (ix1 (i 1))
/-- The column mean of h (the host sum starts from the zero word). -/
def mean (c : Fin 512) : EReal := Ideal.div (z + ∑ i : Fin 4096, hh a0 a1 a2 a3 a5 a6 (ix2 i c)) rows
/-- The column variance of h, two-pass. -/
def var (c : Fin 512) : EReal :=
  Ideal.div (z + ∑ i : Fin 4096, (hh a0 a1 a2 a3 a5 a6 (ix2 i c) - mean a0 a1 a2 a3 a5 a6 c) * (hh a0 a1 a2 a3 a5 a6 (ix2 i c) - mean a0 a1 a2 a3 a5 a6 c)) rows
/-- output = leaky((h − mean) / sqrt(var + eps) · gamma + beta). -/
def output : FVec Ideal ⟨2, ![4096, 512]⟩ .f32 := fun i =>
  lk (Ideal.div (hh a0 a1 a2 a3 a5 a6 i - mean a0 a1 a2 a3 a5 a6 (i 1)) (Ideal.sqrt (var a0 a1 a2 a3 a5 a6 (i 1) + eps)) * a7 (ix1 (i 1)) + a8 (ix1 (i 1)))
/-- A linear head on output: output · w + b. -/
def lin (w : FVec Ideal ⟨2, ![512, 2000]⟩ .f32) (b : FVec Ideal ⟨1, ![2000]⟩ .f32) : FVec Ideal ⟨2, ![4096, 2000]⟩ .f32 :=
  fun i => (∑ k : Fin 512, output a0 a1 a2 a3 a5 a6 a7 a8 (ix2 (i 0) k) * w (ix2 k (i 1))) + b (ix1 (i 1))
/-- softplus as jax spells it once its NaN test is decided: max(x, 0) + log1p(exp(−|x − 0|)). -/
def softplus (x : EReal) : EReal := max x z + Ideal.log1p (Ideal.exp (-(Spec.abs (x - z))))
/-- theta_res. -/
def theta : FVec Ideal ⟨2, ![4096, 2000]⟩ .f32 := fun i => clamp (softplus (lin a0 a1 a2 a3 a5 a6 a7 a8 a9 a10 i))
/-- mean_res. -/
def meanRes : FVec Ideal ⟨2, ![4096, 2000]⟩ .f32 := fun i => clamp (Ideal.exp (lin a0 a1 a2 a3 a5 a6 a7 a8 a11 a12 i))
/-- pi_res = 1 / (1 + exp(−(mean · pi_w + pi_b))). -/
def piRes : FVec Ideal ⟨2, ![4096, 2000]⟩ .f32 := fun i =>
  Ideal.div one (one + Ideal.exp (-(lin a0 a1 a2 a3 a5 a6 a7 a8 a11 a12 i * a13 (ix1 (i 1)) + a14 (ix1 (i 1)))))

end Cert.RefForms

end
-- ==== Proof.Ref.Args.lean ====
import proofs.«117800_g2173253451805_cont_8to1_1923_4_alg».proof.Proof.Ref.Eqns
import proofs.«117800_g2173253451805_cont_8to1_1923_4_alg».proof.Proof.Ref.Kit
import proofs.«117800_g2173253451805_cont_8to1_1923_4_alg».proof.Proof.RefForms

/-!
# The fifteen argument arrays

`A k V` is the launch contents of the `k`-th argument, typed as the array it is; the whole line leaves every argument
as it was (`r_arg k`).
-/

noncomputable section

open scoped BigOperators

namespace Cert.ReferenceIdeal.Hand

open Cert.ReferenceIdeal Cert.ReferenceIdeal.Gen Idealize.ShloMosaic Idealize.ShloMosaic.TcCoe Idealize.SL.Sem
  Idealize.ShloMosaic.StableHlo Idealize.ShloMosaic.ValueIdx Cert

attribute [local irreducible] val

/-- Argument 0's array. -/
abbrev A0 (V : Valuation τ sig (Elt Ideal)) : FVec Ideal ⟨2, ![4096, 2000]⟩ .f32 := V (Proc.devRef .tc main_arg0)
/-- Argument 1's array. -/
abbrev A1 (V : Valuation τ sig (Elt Ideal)) : FVec Ideal ⟨2, ![4096, 4096]⟩ .f32 := V (Proc.devRef .tc main_arg1)
/-- Argument 2's array. -/
abbrev A2 (V : Valuation τ sig (Elt Ideal)) : FVec Ideal ⟨2, ![2000, 512]⟩ .f32 := V (Proc.devRef .tc main_arg2)
/-- Argument 3's array. -/
abbrev A3 (V : Valuation τ sig (Elt Ideal)) : FVec Ideal ⟨2, ![512, 128]⟩ .f32 := V (Proc.devRef .tc main_arg3)
/-- Argument 4's array. -/
abbrev A4 (V : Valuation τ sig (Elt Ideal)) : FVec Ideal ⟨2, ![512, 128]⟩ .f32 := V (Proc.devRef .tc main_arg4)
/-- Argument 5's array. -/
abbrev A5 (V : Valuation τ sig (Elt Ideal)) : FVec Ideal ⟨2, ![128, 512]⟩ .f32 := V (Proc.devRef .tc main_arg5)
/-- Argument 6's array. -/
abbrev A6 (V : Valuation τ sig (Elt Ideal)) : FVec Ideal ⟨1, ![512]⟩ .f32 := V (Proc.devRef .tc main_arg6)
/-- Argument 7's array. -/
abbrev A7 (V : Valuation τ sig (Elt Ideal)) : FVec Ideal ⟨1, ![512]⟩ .f32 := V (Proc.devRef .tc main_arg7)
/-- Argument 8's array. -/
abbrev A8 (V : Valuation τ sig (Elt Ideal)) : FVec Ideal ⟨1, ![512]⟩ .f32 := V (Proc.devRef .tc main_arg8)
/-- Argument 9's array. -/
abbrev A9 (V : Valuation τ sig (Elt Ideal)) : FVec Ideal ⟨2, ![512, 2000]⟩ .f32 := V (Proc.devRef .tc main_arg9)
/-- Argument 10's array. -/
abbrev A10 (V : Valuation τ sig (Elt Ideal)) : FVec Ideal ⟨1, ![2000]⟩ .f32 := V (Proc.devRef .tc main_arg10)
/-- Argument 11's array. -/
abbrev A11 (V : Valuation τ sig (Elt Ideal)) : FVec Ideal ⟨2, ![512, 2000]⟩ .f32 := V (Proc.devRef .tc main_arg11)
/-- Argument 12's array. -/
abbrev A12 (V : Valuation τ sig (Elt Ideal)) : FVec Ideal ⟨1, ![2000]⟩ .f32 := V (Proc.devRef .tc main_arg12)
/-- Argument 13's array. -/
abbrev A13 (V : Valuation τ sig (Elt Ideal)) : FVec Ideal ⟨1, ![2000]⟩ .f32 := V (Proc.devRef .tc main_arg13)
/-- Argument 14's array. -/
abbrev A14 (V : Valuation τ sig (Elt Ideal)) : FVec Ideal ⟨1, ![2000]⟩ .f32 := V (Proc.devRef .tc main_arg14)

theorem r_arg0 (V : Valuation τ sig (Elt Ideal)) (j : (⟨2, ![4096, 2000]⟩ : Shape).Idx) : val V main_arg0 j = A0 V j :=
  congrFun (val_arg V (r := main_arg0) (by decide)) j
theorem r_arg1 (V : Valuation τ sig (Elt Ideal)) (j : (⟨2, ![4096, 4096]⟩ : Shape).Idx) : val V main_arg1 j = A1 V j :=
  congrFun (val_arg V (r := main_arg1) (by decide)) j
theorem r_arg2 (V : Valuation τ sig (Elt Ideal)) (j : (⟨2, ![2000, 512]⟩ : Shape).Idx) : val V main_arg2 j = A2 V j :=
  congrFun (val_arg V (r := main_arg2) (by decide)) j
theorem r_arg3 (V : Valuation τ sig (Elt Ideal)) (j : (⟨2, ![512, 128]⟩ : Shape).Idx) : val V main_arg3 j = A3 V j :=
  congrFun (val_arg V (r := main_arg3) (by decide)) j
theorem r_arg4 (V : Valuation τ sig (Elt Ideal)) (j : (⟨2, ![512, 128]⟩ : Shape).Idx) : val V main_arg4 j = A4 V j :=
  congrFun (val_arg V (r := main_arg4) (by decide)) j
theorem r_arg5 (V : Valuation τ sig (Elt Ideal)) (j : (⟨2, ![128, 512]⟩ : Shape).Idx) : val V main_arg5 j = A5 V j :=
  congrFun (val_arg V (r := main_arg5) (by decide)) j
theorem r_arg6 (V : Valuation τ sig (Elt Ideal)) (j : (⟨1, ![512]⟩ : Shape).Idx) : val V main_arg6 j = A6 V j :=
  congrFun (val_arg V (r := main_arg6) (by decide)) j
theorem r_arg7 (V : Valuation τ sig (Elt Ideal)) (j : (⟨1, ![512]⟩ : Shape).Idx) : val V main_arg7 j = A7 V j :=
  congrFun (val_arg V (r := main_arg7) (by decide)) j
theorem r_arg8 (V : Valuation τ sig (Elt Ideal)) (j : (⟨1, ![512]⟩ : Shape).Idx) : val V main_arg8 j = A8 V j :=
  congrFun (val_arg V (r := main_arg8) (by decide)) j
theorem r_arg9 (V : Valuation τ sig (Elt Ideal)) (j : (⟨2, ![512, 2000]⟩ : Shape).Idx) : val V main_arg9 j = A9 V j :=
  congrFun (val_arg V (r := main_arg9) (by decide)) j
theorem r_arg10 (V : Valuation τ sig (Elt Ideal)) (j : (⟨1, ![2000]⟩ : Shape).Idx) : val V main_arg10 j = A10 V j :=
  congrFun (val_arg V (r := main_arg10) (by decide)) j
theorem r_arg11 (V : Valuation τ sig (Elt Ideal)) (j : (⟨2, ![512, 2000]⟩ : Shape).Idx) : val V main_arg11 j = A11 V j :=
  congrFun (val_arg V (r := main_arg11) (by decide)) j
theorem r_arg12 (V : Valuation τ sig (Elt Ideal)) (j : (⟨1, ![2000]⟩ : Shape).Idx) : val V main_arg12 j = A12 V j :=
  congrFun (val_arg V (r := main_arg12) (by decide)) j
theorem r_arg13 (V : Valuation τ sig (Elt Ideal)) (j : (⟨1, ![2000]⟩ : Shape).Idx) : val V main_arg13 j = A13 V j :=
  congrFun (val_arg V (r := main_arg13) (by decide)) j
theorem r_arg14 (V : Valuation τ sig (Elt Ideal)) (j : (⟨1, ![2000]⟩ : Shape).Idx) : val V main_arg14 j = A14 V j :=
  congrFun (val_arg V (r := main_arg14) (by decide)) j

end Cert.ReferenceIdeal.Hand

end
-- ==== Proof.Ref.ReadA.lean ====
import proofs.«117800_g2173253451805_cont_8to1_1923_4_alg».proof.Proof.Ref.Args

/-!
# The encoder read at an index: operations 0 to 28

In program order, each value of the two graph-convolution layers at an index, as a closed form of the argument
arrays: the first product, the product with the adjacency matrix, the leaky unit (a comparison with the broadcast
zero word, the product with the broadcast slope word, the select), the same twice more for the two second-layer
weights — mu and logvar —, mu transposed, and the inner-product decoder.
-/

noncomputable section

open scoped BigOperators

namespace Cert.ReferenceIdeal.Hand

open Cert.ReferenceIdeal Cert.ReferenceIdeal.Gen Idealize.ShloMosaic Idealize.ShloMosaic.TcCoe Idealize.SL.Sem
  Idealize.ShloMosaic.StableHlo Idealize.ShloMosaic.ValueIdx Cert

attribute [local irreducible] val

theorem r_v0 (V : Valuation τ sig (Elt Ideal)) (i : Fin 4096) (c : Fin 512) :
    val V main_v0 (ix2 i c) = RefForms.xw (A0 V) (A2 V) (ix2 i c) :=
  (congrFun (e0 V) _).trans ((Kit.dot_apply dot_S4096x2000_S2000x512_S4096x512_1_0_0_1_n_n rfl rfl rfl rfl rfl rfl _ _ i c).trans (Kit.sum_mul_congr (fun k => (r_arg0 V _)) (fun k => (r_arg2 V _))))

theorem r_v1 (V : Valuation τ sig (Elt Ideal)) (i : Fin 4096) (c : Fin 512) :
    val V main_v1 (ix2 i c) = (∑ k : Fin 4096, (A1 V) (ix2 i k) * RefForms.xw (A0 V) (A2 V) (ix2 k c)) :=
  (congrFun (e1 V) _).trans ((Kit.dot_apply dot_S4096x4096_S4096x512_S4096x512_1_0_0_1_n_n rfl rfl rfl rfl rfl rfl _ _ i c).trans (Kit.sum_mul_congr (fun k => (r_arg1 V _)) (fun k => (r_v0 V k c))))

theorem r_cst (V : Valuation τ sig (Elt Ideal)) (j : S_.Idx) :
    val V main_cst j = Spec.z :=
  congrFun (e2 V) j

theorem r_v2 (V : Valuation τ sig (Elt Ideal)) (j : S4096x512.Idx) :
    val V main_v2 j = Spec.z :=
  (congrFun (e3 V) j).trans ((broadcastInDim_scalar_apply _ _ j).trans (r_cst V ix0))

theorem r_v3 (V : Valuation τ sig (Elt Ideal)) (i : Fin 4096) (c : Fin 512) :
    val V main_v3 (ix2 i c) = FloatOps.cmpf (F := Ideal) (φ := .f32) .ogt (∑ k : Fin 4096, (A1 V) (ix2 i k) * RefForms.xw (A0 V) (A2 V) (ix2 k c)) Spec.z :=
  (congrFun (e4 V) _).trans (congrArg₂ (FloatOps.cmpf (F := Ideal) (φ := .f32) .ogt) (r_v1 V i c) (r_v2 V _))

theorem r_cst_0 (V : Valuation τ sig (Elt Ideal)) (j : S_.Idx) :
    val V main_cst_0 j = Spec.slope :=
  congrFun (e5 V) j

theorem r_v4 (V : Valuation τ sig (Elt Ideal)) (j : S4096x512.Idx) :
    val V main_v4 j = Spec.slope :=
  (congrFun (e6 V) j).trans ((broadcastInDim_scalar_apply _ _ j).trans (r_cst_0 V ix0))

theorem r_v5 (V : Valuation τ sig (Elt Ideal)) (i : Fin 4096) (c : Fin 512) :
    val V main_v5 (ix2 i c) = Spec.slope * (∑ k : Fin 4096, (A1 V) (ix2 i k) * RefForms.xw (A0 V) (A2 V) (ix2 k c)) :=
  (congrFun (e7 V) _).trans (congrArg₂ (· * ·) (r_v4 V _) (r_v1 V i c))

theorem r_v6 (V : Valuation τ sig (Elt Ideal)) (i : Fin 4096) (c : Fin 512) :
    val V main_v6 (ix2 i c) = RefForms.h1 (A0 V) (A1 V) (A2 V) (ix2 i c) :=
  (congrFun (e8 V) _).trans (Kit.select_congr (r_v3 V i c) (r_v1 V i c) (r_v5 V i c))

theorem r_v7 (V : Valuation τ sig (Elt Ideal)) (i : Fin 4096) (c : Fin 128) :
    val V main_v7 (ix2 i c) = (∑ l : Fin 512, RefForms.h1 (A0 V) (A1 V) (A2 V) (ix2 i l) * (A3 V) (ix2 l c)) :=
  (congrFun (e9 V) _).trans ((Kit.dot_apply dot_S4096x512_S512x128_S4096x128_1_0_0_1_n_n rfl rfl rfl rfl rfl rfl _ _ i c).trans (Kit.sum_mul_congr (fun k => (r_v6 V i k)) (fun k => (r_arg3 V _))))

theorem r_v8 (V : Valuation τ sig (Elt Ideal)) (i : Fin 4096) (c : Fin 128) :
    val V main_v8 (ix2 i c) = (∑ k : Fin 4096, (A1 V) (ix2 i k) * (∑ l : Fin 512, RefForms.h1 (A0 V) (A1 V) (A2 V) (ix2 k l) * (A3 V) (ix2 l c))) :=
  (congrFun (e10 V) _).trans ((Kit.dot_apply dot_S4096x4096_S4096x128_S4096x128_1_0_0_1_n_n rfl rfl rfl rfl rfl rfl _ _ i c).trans (Kit.sum_mul_congr (fun k => (r_arg1 V _)) (fun k => (r_v7 V k c))))

theorem r_cst_1 (V : Valuation τ sig (Elt Ideal)) (j : S_.Idx) :
    val V main_cst_1 j = Spec.z :=
  congrFun (e11 V) j

theorem r_v9 (V : Valuation τ sig (Elt Ideal)) (j : S4096x128.Idx) :
    val V main_v9 j = Spec.z :=
  (congrFun (e12 V) j).trans ((broadcastInDim_scalar_apply _ _ j).trans (r_cst_1 V ix0))

theorem r_v10 (V : Valuation τ sig (Elt Ideal)) (i : Fin 4096) (c : Fin 128) :
    val V main_v10 (ix2 i c) = FloatOps.cmpf (F := Ideal) (φ := .f32) .ogt (∑ k : Fin 4096, (A1 V) (ix2 i k) * (∑ l : Fin 512, RefForms.h1 (A0 V) (A1 V) (A2 V) (ix2 k l) * (A3 V) (ix2 l c))) Spec.z :=
  (congrFun (e13 V) _).trans (congrArg₂ (FloatOps.cmpf (F := Ideal) (φ := .f32) .ogt) (r_v8 V i c) (r_v9 V _))

theorem r_cst_2 (V : Valuation τ sig (Elt Ideal)) (j : S_.Idx) :
    val V main_cst_2 j = Spec.slope :=
  congrFun (e14 V) j

theorem r_v11 (V : Valuation τ sig (Elt Ideal)) (j : S4096x128.Idx) :
    val V main_v11 j = Spec.slope :=
  (congrFun (e15 V) j).trans ((broadcastInDim_scalar_apply _ _ j).trans (r_cst_2 V ix0))

theorem r_v12 (V : Valuation τ sig (Elt Ideal)) (i : Fin 4096) (c : Fin 128) :
    val V main_v12 (ix2 i c) = Spec.slope * (∑ k : Fin 4096, (A1 V) (ix2 i k) * (∑ l : Fin 512, RefForms.h1 (A0 V) (A1 V) (A2 V) (ix2 k l) * (A3 V) (ix2 l c))) :=
  (congrFun (e16 V) _).trans (congrArg₂ (· * ·) (r_v11 V _) (r_v8 V i c))

theorem r_v13 (V : Valuation τ sig (Elt Ideal)) (i : Fin 4096) (c : Fin 128) :
    val V main_v13 (ix2 i c) = RefForms.mu (A0 V) (A1 V) (A2 V) (A3 V) (ix2 i c) :=
  (congrFun (e17 V) _).trans (Kit.select_congr (r_v10 V i c) (r_v8 V i c) (r_v12 V i c))

theorem r_v14 (V : Valuation τ sig (Elt Ideal)) (i : Fin 4096) (c : Fin 128) :
    val V main_v14 (ix2 i c) = (∑ l : Fin 512, RefForms.h1 (A0 V) (A1 V) (A2 V) (ix2 i l) * (A4 V) (ix2 l c)) :=
  (congrFun (e18 V) _).trans ((Kit.dot_apply dot_S4096x512_S512x128_S4096x128_1_0_0_1_n_n rfl rfl rfl rfl rfl rfl _ _ i c).trans (Kit.sum_mul_congr (fun k => (r_v6 V i k)) (fun k => (r_arg4 V _))))

theorem r_v15 (V : Valuation τ sig (Elt Ideal)) (i : Fin 4096) (c : Fin 128) :
    val V main_v15 (ix2 i c) = (∑ k : Fin 4096, (A1 V) (ix2 i k) * (∑ l : Fin 512, RefForms.h1 (A0 V) (A1 V) (A2 V) (ix2 k l) * (A4 V) (ix2 l c))) :=
  (congrFun (e19 V) _).trans ((Kit.dot_apply dot_S4096x4096_S4096x128_S4096x128_1_0_0_1_n_n rfl rfl rfl rfl rfl rfl _ _ i c).trans (Kit.sum_mul_congr (fun k => (r_arg1 V _)) (fun k => (r_v14 V k c))))

theorem r_cst_3 (V : Valuation τ sig (Elt Ideal)) (j : S_.Idx) :
    val V main_cst_3 j = Spec.z :=
  congrFun (e20 V) j

theorem r_v16 (V : Valuation τ sig (Elt Ideal)) (j : S4096x128.Idx) :
    val V main_v16 j = Spec.z :=
  (congrFun (e21 V) j).trans ((broadcastInDim_scalar_apply _ _ j).trans (r_cst_3 V ix0))

theorem r_v17 (V : Valuation τ sig (Elt Ideal)) (i : Fin 4096) (c : Fin 128) :
    val V main_v17 (ix2 i c) = FloatOps.cmpf (F := Ideal) (φ := .f32) .ogt (∑ k : Fin 4096, (A1 V) (ix2 i k) * (∑ l : Fin 512, RefForms.h1 (A0 V) (A1 V) (A2 V) (ix2 k l) * (A4 V) (ix2 l c))) Spec.z :=
  (congrFun (e22 V) _).trans (congrArg₂ (FloatOps.cmpf (F := Ideal) (φ := .f32) .ogt) (r_v15 V i c) (r_v16 V _))

theorem r_cst_4 (V : Valuation τ sig (Elt Ideal)) (j : S_.Idx) :
    val V main_cst_4 j = Spec.slope :=
  congrFun (e23 V) j

theorem r_v18 (V : Valuation τ sig (Elt Ideal)) (j : S4096x128.Idx) :
    val V main_v18 j = Spec.slope :=
  (congrFun (e24 V) j).trans ((broadcastInDim_scalar_apply _ _ j).trans (r_cst_4 V ix0))

theorem r_v19 (V : Valuation τ sig (Elt Ideal)) (i : Fin 4096) (c : Fin 128) :
    val V main_v19 (ix2 i c) = Spec.slope * (∑ k : Fin 4096, (A1 V) (ix2 i k) * (∑ l : Fin 512, RefForms.h1 (A0 V) (A1 V) (A2 V) (ix2 k l) * (A4 V) (ix2 l c))) :=
  (congrFun (e25 V) _).trans (congrArg₂ (· * ·) (r_v18 V _) (r_v15 V i c))

theorem r_v20 (V : Valuation τ sig (Elt Ideal)) (i : Fin 4096) (c : Fin 128) :
    val V main_v20 (ix2 i c) = RefForms.logvar (A0 V) (A1 V) (A2 V) (A4 V) (ix2 i c) :=
  (congrFun (e26 V) _).trans (Kit.select_congr (r_v17 V i c) (r_v15 V i c) (r_v19 V i c))

theorem r_v21 (V : Valuation τ sig (Elt Ideal)) (i : Fin 128) (c : Fin 4096) :
    val V main_v21 (ix2 i c) = RefForms.mu (A0 V) (A1 V) (A2 V) (A3 V) (ix2 c i) :=
  (congrFun (e27 V) _).trans ((transpose_ix2_apply _ _ i c).trans (r_v13 V c i))

theorem r_v22 (V : Valuation τ sig (Elt Ideal)) (i : Fin 4096) (c : Fin 4096) :
    val V main_v22 (ix2 i c) = RefForms.adjRec (A0 V) (A1 V) (A2 V) (A3 V) (ix2 i c) :=
  (congrFun (e28 V) _).trans ((Kit.dot_apply dot_S4096x128_S128x4096_S4096x4096_1_0_0_1_n_n rfl rfl rfl rfl rfl rfl _ _ i c).trans (Kit.sum_mul_congr (fun k => (r_v13 V i k)) (fun k => (r_v21 V k c))))

end Cert.ReferenceIdeal.Hand

end
-- ==== Proof.Ref.ReadB.lean ====
import proofs.«117800_g2173253451805_cont_8to1_1923_4_alg».proof.Proof.Ref.ReadA

/-!
# The decoder's hidden layer read at an index: operations 29 to 83

The linear layer on mu with its bias, the column mean (the host's sum from the zero word, divided by the word of
4096), the variance as the outlined function computes it — the same mean again, the squared deviations summed from
the zero word, divided by the normaliser 4096 − 0 (the integer 0 converted), under a select whose test 4096 − 0 > 0
is decided —, the normalisation by the square root of the variance plus the epsilon word, the scale and shift, and
the leaky unit.
-/

noncomputable section

open scoped BigOperators

namespace Cert.ReferenceIdeal.Hand

open Cert.ReferenceIdeal Cert.ReferenceIdeal.Gen Idealize.ShloMosaic Idealize.ShloMosaic.TcCoe Idealize.SL.Sem
  Idealize.ShloMosaic.StableHlo Idealize.ShloMosaic.ValueIdx Cert

attribute [local irreducible] val

theorem r_v23 (V : Valuation τ sig (Elt Ideal)) (i : Fin 4096) (c : Fin 512) :
    val V main_v23 (ix2 i c) = (∑ k : Fin 128, RefForms.mu (A0 V) (A1 V) (A2 V) (A3 V) (ix2 i k) * (A5 V) (ix2 k c)) :=
  (congrFun (e29 V) _).trans ((Kit.dot_apply dot_S4096x128_S128x512_S4096x512_1_0_0_1_n_n rfl rfl rfl rfl rfl rfl _ _ i c).trans (Kit.sum_mul_congr (fun k => (r_v13 V i k)) (fun k => (r_arg5 V _))))

theorem r_v24 (V : Valuation τ sig (Elt Ideal)) (u : Fin 1) (c : Fin 512) :
    val V main_v24 (ix2 u c) = (A6 V) (ix1 c) :=
  (congrFun (e30 V) _).trans ((Kit.bcast_vec_row _ _ u c).trans (r_arg6 V _))

theorem r_v25 (V : Valuation τ sig (Elt Ideal)) (i : Fin 4096) (c : Fin 512) :
    val V main_v25 (ix2 i c) = (A6 V) (ix1 c) :=
  (congrFun (e31 V) _).trans ((Kit.bcast_row_rows _ _ i c).trans (r_v24 V (0 : Fin 1) c))

theorem r_v26 (V : Valuation τ sig (Elt Ideal)) (i : Fin 4096) (c : Fin 512) :
    val V main_v26 (ix2 i c) = RefForms.hh (A0 V) (A1 V) (A2 V) (A3 V) (A5 V) (A6 V) (ix2 i c) :=
  (congrFun (e32 V) _).trans (congrArg₂ (· + ·) (r_v23 V i c) (r_v25 V i c))

theorem r_cst_5 (V : Valuation τ sig (Elt Ideal)) (j : S_.Idx) :
    val V main_cst_5 j = Spec.z :=
  congrFun (e33 V) j

theorem r_v27 (V : Valuation τ sig (Elt Ideal)) (c : Fin 512) :
    val V main_v27 (ix1 c) = (Spec.z + ∑ i : Fin 4096, RefForms.hh (A0 V) (A1 V) (A2 V) (A3 V) (A5 V) (A6 V) (ix2 i c)) :=
  (congrFun (e34 V) _).trans ((Kit.hostColSum_apply _ _ _ _ (by decide) c).trans (congrArg₂ (· + ·) (r_cst_5 V _) (Kit.sum_congr' fun i => (r_v26 V i c))))

theorem r_cst_6 (V : Valuation τ sig (Elt Ideal)) (j : S_.Idx) :
    val V main_cst_6 j = Spec.rows :=
  congrFun (e35 V) j

theorem r_v28 (V : Valuation τ sig (Elt Ideal)) (j : S512.Idx) :
    val V main_v28 j = Spec.rows :=
  (congrFun (e36 V) j).trans ((broadcastInDim_scalar_apply _ _ j).trans (r_cst_6 V ix0))

theorem r_v29 (V : Valuation τ sig (Elt Ideal)) (c : Fin 512) :
    val V main_v29 (ix1 c) = RefForms.mean (A0 V) (A1 V) (A2 V) (A3 V) (A5 V) (A6 V) c :=
  (congrFun (e37 V) _).trans (congrArg₂ Ideal.div (r_v27 V c) (r_v28 V _))

theorem r_c (V : Valuation τ sig (Elt Ideal)) (j : S_.Idx) :
    val V main_c j = (0#32 : BitVec 32) :=
  congrFun (e38 V) j

theorem r_call3_cst (V : Valuation τ sig (Elt Ideal)) (j : S_.Idx) :
    val V main_call3_cst j = Spec.z :=
  congrFun (e39 V) j

theorem r_call3_v0 (V : Valuation τ sig (Elt Ideal)) (c : Fin 512) :
    val V main_call3_v0 (ix1 c) = (Spec.z + ∑ i : Fin 4096, RefForms.hh (A0 V) (A1 V) (A2 V) (A3 V) (A5 V) (A6 V) (ix2 i c)) :=
  (congrFun (e40 V) _).trans ((Kit.hostColSum_apply _ _ _ _ (by decide) c).trans (congrArg₂ (· + ·) (r_call3_cst V _) (Kit.sum_congr' fun i => (r_v26 V i c))))

theorem r_call3_v1 (V : Valuation τ sig (Elt Ideal)) (u : Fin 1) (c : Fin 512) :
    val V main_call3_v1 (ix2 u c) = (Spec.z + ∑ i : Fin 4096, RefForms.hh (A0 V) (A1 V) (A2 V) (A3 V) (A5 V) (A6 V) (ix2 i c)) :=
  (congrFun (e41 V) _).trans ((Kit.bcast_vec_row _ _ u c).trans (r_call3_v0 V c))

theorem r_call3_cst_0 (V : Valuation τ sig (Elt Ideal)) (j : S_.Idx) :
    val V main_call3_cst_0 j = Spec.rows :=
  congrFun (e42 V) j

theorem r_call3_v2 (V : Valuation τ sig (Elt Ideal)) (j : S1x512.Idx) :
    val V main_call3_v2 j = Spec.rows :=
  (congrFun (e43 V) j).trans ((broadcastInDim_scalar_apply _ _ j).trans (r_call3_cst_0 V ix0))

theorem r_call3_v3 (V : Valuation τ sig (Elt Ideal)) (u : Fin 1) (c : Fin 512) :
    val V main_call3_v3 (ix2 u c) = RefForms.mean (A0 V) (A1 V) (A2 V) (A3 V) (A5 V) (A6 V) c :=
  (congrFun (e44 V) _).trans (congrArg₂ Ideal.div (r_call3_v1 V u c) (r_call3_v2 V _))

theorem r_call3_v4 (V : Valuation τ sig (Elt Ideal)) (i : Fin 4096) (c : Fin 512) :
    val V main_call3_v4 (ix2 i c) = RefForms.mean (A0 V) (A1 V) (A2 V) (A3 V) (A5 V) (A6 V) c :=
  (congrFun (e45 V) _).trans ((Kit.bcast_row_rows _ _ i c).trans (r_call3_v3 V (0 : Fin 1) c))

theorem r_call3_v5 (V : Valuation τ sig (Elt Ideal)) (i : Fin 4096) (c : Fin 512) :
    val V main_call3_v5 (ix2 i c) = (RefForms.hh (A0 V) (A1 V) (A2 V) (A3 V) (A5 V) (A6 V) (ix2 i c) - RefForms.mean (A0 V) (A1 V) (A2 V) (A3 V) (A5 V) (A6 V) c) :=
  (congrFun (e46 V) _).trans (congrArg₂ (· - ·) (r_v26 V i c) (r_call3_v4 V i c))

theorem r_call3_v6 (V : Valuation τ sig (Elt Ideal)) (i : Fin 4096) (c : Fin 512) :
    val V main_call3_v6 (ix2 i c) = (RefForms.hh (A0 V) (A1 V) (A2 V) (A3 V) (A5 V) (A6 V) (ix2 i c) - RefForms.mean (A0 V) (A1 V) (A2 V) (A3 V) (A5 V) (A6 V) c) * (RefForms.hh (A0 V) (A1 V) (A2 V) (A3 V) (A5 V) (A6 V) (ix2 i c) - RefForms.mean (A0 V) (A1 V) (A2 V) (A3 V) (A5 V) (A6 V) c) :=
  (congrFun (e47 V) _).trans (congrArg₂ (· * ·) (r_call3_v5 V i c) (r_call3_v5 V i c))

theorem r_call3_v7 (V : Valuation τ sig (Elt Ideal)) (j : S_.Idx) :
    val V main_call3_v7 j = FloatOps.sitofp (F := Ideal) .f32 (0#32 : BitVec 32) :=
  (congrFun (e48 V) _).trans (congrArg (FloatOps.sitofp (F := Ideal) .f32) (r_c V _))

theorem r_call3_cst_1 (V : Valuation τ sig (Elt Ideal)) (j : S_.Idx) :
    val V main_call3_cst_1 j = Spec.rows :=
  congrFun (e49 V) j

theorem r_call3_v8 (V : Valuation τ sig (Elt Ideal)) (j : S_.Idx) :
    val V main_call3_v8 j = Spec.rows :=
  ((congrFun (e50 V) _).trans (congrArg₂ (· - ·) (r_call3_cst_1 V _) (r_call3_v7 V _))).trans Kit.rows_sub_sitofp_zero

theorem r_call3_cst_2 (V : Valuation τ sig (Elt Ideal)) (j : S_.Idx) :
    val V main_call3_cst_2 j = Spec.z :=
  congrFun (e51 V) j

theorem r_call3_v9 (V : Valuation τ sig (Elt Ideal)) (c : Fin 512) :
    val V main_call3_v9 (ix1 c) = (Spec.z + ∑ i : Fin 4096, (RefForms.hh (A0 V) (A1 V) (A2 V) (A3 V) (A5 V) (A6 V) (ix2 i c) - RefForms.mean (A0 V) (A1 V) (A2 V) (A3 V) (A5 V) (A6 V) c) * (RefForms.hh (A0 V) (A1 V) (A2 V) (A3 V) (A5 V) (A6 V) (ix2 i c) - RefForms.mean (A0 V) (A1 V) (A2 V) (A3 V) (A5 V) (A6 V) c)) :=
  (congrFun (e52 V) _).trans ((Kit.hostColSum_apply _ _ _ _ (by decide) c).trans (congrArg₂ (· + ·) (r_call3_cst_2 V _) (Kit.sum_congr' fun i => (r_call3_v6 V i c))))

theorem r_call3_v10 (V : Valuation τ sig (Elt Ideal)) (j : S512.Idx) :
    val V main_call3_v10 j = Spec.rows :=
  (congrFun (e53 V) j).trans ((broadcastInDim_scalar_apply _ _ j).trans (r_call3_v8 V ix0))

theorem r_call3_v11 (V : Valuation τ sig (Elt Ideal)) (c : Fin 512) :
    val V main_call3_v11 (ix1 c) = RefForms.var (A0 V) (A1 V) (A2 V) (A3 V) (A5 V) (A6 V) c :=
  (congrFun (e54 V) _).trans (congrArg₂ Ideal.div (r_call3_v9 V c) (r_call3_v10 V _))

theorem r_call3_cst_3 (V : Valuation τ sig (Elt Ideal)) (j : S_.Idx) :
    val V main_call3_cst_3 j = Spec.z :=
  congrFun (e55 V) j

theorem r_call3_v12 (V : Valuation τ sig (Elt Ideal)) (j : S_.Idx) :
    val V main_call3_v12 j = (1#1 : BitVec 1) :=
  ((congrFun (e56 V) _).trans (congrArg₂ (FloatOps.cmpf (F := Ideal) (φ := .f32) .ogt) (r_call3_v8 V _) (r_call3_cst_3 V _))).trans Kit.rows_gt_z

theorem r_call3_cst_4 (V : Valuation τ sig (Elt Ideal)) (j : S_.Idx) :
    val V main_call3_cst_4 j = Ideal.ofBits .f32 0x7FC00000#32 :=
  congrFun (e57 V) j

theorem r_call3_call0_v0 (V : Valuation τ sig (Elt Ideal)) (j : S_.Idx) :
    val V main_call3_call0_v0 j = Ideal.ofBits .f32 0x7FC00000#32 :=
  (congrFun (e58 V) j).trans (r_call3_cst_4 V j)

theorem r_call3_call0_v1 (V : Valuation τ sig (Elt Ideal)) (j : S512.Idx) :
    val V main_call3_call0_v1 j = Ideal.ofBits .f32 0x7FC00000#32 :=
  (congrFun (e59 V) j).trans ((broadcastInDim_scalar_apply _ _ j).trans (r_call3_call0_v0 V ix0))

theorem r_v30 (V : Valuation τ sig (Elt Ideal)) (c : Fin 512) :
    val V main_v30 (ix1 c) = RefForms.var (A0 V) (A1 V) (A2 V) (A3 V) (A5 V) (A6 V) c :=
  ((congrFun (e60 V) _).trans (Kit.select_congr ((broadcastInDim_scalar_apply _ _ _).trans (r_call3_v12 V ix0)) (r_call3_v11 V c) (r_call3_call0_v1 V _))).trans (select_one _ _)

theorem r_v31 (V : Valuation τ sig (Elt Ideal)) (u : Fin 1) (c : Fin 512) :
    val V main_v31 (ix2 u c) = RefForms.mean (A0 V) (A1 V) (A2 V) (A3 V) (A5 V) (A6 V) c :=
  (congrFun (e61 V) _).trans ((Kit.bcast_vec_row _ _ u c).trans (r_v29 V c))

theorem r_v32 (V : Valuation τ sig (Elt Ideal)) (i : Fin 4096) (c : Fin 512) :
    val V main_v32 (ix2 i c) = RefForms.mean (A0 V) (A1 V) (A2 V) (A3 V) (A5 V) (A6 V) c :=
  (congrFun (e62 V) _).trans ((Kit.bcast_row_rows _ _ i c).trans (r_v31 V (0 : Fin 1) c))

theorem r_v33 (V : Valuation τ sig (Elt Ideal)) (i : Fin 4096) (c : Fin 512) :
    val V main_v33 (ix2 i c) = (RefForms.hh (A0 V) (A1 V) (A2 V) (A3 V) (A5 V) (A6 V) (ix2 i c) - RefForms.mean (A0 V) (A1 V) (A2 V) (A3 V) (A5 V) (A6 V) c) :=
  (congrFun (e63 V) _).trans (congrArg₂ (· - ·) (r_v26 V i c) (r_v32 V i c))

theorem r_cst_7 (V : Valuation τ sig (Elt Ideal)) (j : S_.Idx) :
    val V main_cst_7 j = Spec.eps :=
  congrFun (e64 V) j

theorem r_v34 (V : Valuation τ sig (Elt Ideal)) (j : S512.Idx) :
    val V main_v34 j = Spec.eps :=
  (congrFun (e65 V) j).trans ((broadcastInDim_scalar_apply _ _ j).trans (r_cst_7 V ix0))

theorem r_v35 (V : Valuation τ sig (Elt Ideal)) (c : Fin 512) :
    val V main_v35 (ix1 c) = RefForms.var (A0 V) (A1 V) (A2 V) (A3 V) (A5 V) (A6 V) c + Spec.eps :=
  (congrFun (e66 V) _).trans (congrArg₂ (· + ·) (r_v30 V c) (r_v34 V _))

theorem r_v36 (V : Valuation τ sig (Elt Ideal)) (c : Fin 512) :
    val V main_v36 (ix1 c) = Ideal.sqrt (RefForms.var (A0 V) (A1 V) (A2 V) (A3 V) (A5 V) (A6 V) c + Spec.eps) :=
  (congrFun (e67 V) _).trans (congrArg Ideal.sqrt (r_v35 V c))

theorem r_v37 (V : Valuation τ sig (Elt Ideal)) (u : Fin 1) (c : Fin 512) :
    val V main_v37 (ix2 u c) = Ideal.sqrt (RefForms.var (A0 V) (A1 V) (A2 V) (A3 V) (A5 V) (A6 V) c + Spec.eps) :=
  (congrFun (e68 V) _).trans ((Kit.bcast_vec_row _ _ u c).trans (r_v36 V c))

theorem r_v38 (V : Valuation τ sig (Elt Ideal)) (i : Fin 4096) (c : Fin 512) :
    val V main_v38 (ix2 i c) = Ideal.sqrt (RefForms.var (A0 V) (A1 V) (A2 V) (A3 V) (A5 V) (A6 V) c + Spec.eps) :=
  (congrFun (e69 V) _).trans ((Kit.bcast_row_rows _ _ i c).trans (r_v37 V (0 : Fin 1) c))

theorem r_v39 (V : Valuation τ sig (Elt Ideal)) (i : Fin 4096) (c : Fin 512) :
    val V main_v39 (ix2 i c) = Ideal.div (RefForms.hh (A0 V) (A1 V) (A2 V) (A3 V) (A5 V) (A6 V) (ix2 i c) - RefForms.mean (A0 V) (A1 V) (A2 V) (A3 V) (A5 V) (A6 V) c) (Ideal.sqrt (RefForms.var (A0 V) (A1 V) (A2 V) (A3 V) (A5 V) (A6 V) c + Spec.eps)) :=
  (congrFun (e70 V) _).trans (congrArg₂ Ideal.div (r_v33 V i c) (r_v38 V i c))

theorem r_v40 (V : Valuation τ sig (Elt Ideal)) (u : Fin 1) (c : Fin 512) :
    val V main_v40 (ix2 u c) = (A7 V) (ix1 c) :=
  (congrFun (e71 V) _).trans ((Kit.bcast_vec_row _ _ u c).trans (r_arg7 V _))

theorem r_v41 (V : Valuation τ sig (Elt Ideal)) (i : Fin 4096) (c : Fin 512) :
    val V main_v41 (ix2 i c) = (A7 V) (ix1 c) :=
  (congrFun (e72 V) _).trans ((Kit.bcast_row_rows _ _ i c).trans (r_v40 V (0 : Fin 1) c))

theorem r_v42 (V : Valuation τ sig (Elt Ideal)) (i : Fin 4096) (c : Fin 512) :
    val V main_v42 (ix2 i c) = Ideal.div (RefForms.hh (A0 V) (A1 V) (A2 V) (A3 V) (A5 V) (A6 V) (ix2 i c) - RefForms.mean (A0 V) (A1 V) (A2 V) (A3 V) (A5 V) (A6 V) c) (Ideal.sqrt (RefForms.var (A0 V) (A1 V) (A2 V) (A3 V) (A5 V) (A6 V) c + Spec.eps)) * (A7 V) (ix1 c) :=
  (congrFun (e73 V) _).trans (congrArg₂ (· * ·) (r_v39 V i c) (r_v41 V i c))

theorem r_v43 (V : Valuation τ sig (Elt Ideal)) (u : Fin 1) (c : Fin 512) :
    val V main_v43 (ix2 u c) = (A8 V) (ix1 c) :=
  (congrFun (e74 V) _).trans ((Kit.bcast_vec_row _ _ u c).trans (r_arg8 V _))

theorem r_v44 (V : Valuation τ sig (Elt Ideal)) (i : Fin 4096) (c : Fin 512) :
    val V main_v44 (ix2 i c) = (A8 V) (ix1 c) :=
  (congrFun (e75 V) _).trans ((Kit.bcast_row_rows _ _ i c).trans (r_v43 V (0 : Fin 1) c))

theorem r_v45 (V : Valuation τ sig (Elt Ideal)) (i : Fin 4096) (c : Fin 512) :
    val V main_v45 (ix2 i c) = (Ideal.div (RefForms.hh (A0 V) (A1 V) (A2 V) (A3 V) (A5 V) (A6 V) (ix2 i c) - RefForms.mean (A0 V) (A1 V) (A2 V) (A3 V) (A5 V) (A6 V) c) (Ideal.sqrt (RefForms.var (A0 V) (A1 V) (A2 V) (A3 V) (A5 V) (A6 V) c + Spec.eps)) * (A7 V) (ix1 c) + (A8 V) (ix1 c)) :=
  (congrFun (e76 V) _).trans (congrArg₂ (· + ·) (r_v42 V i c) (r_v44 V i c))

theorem r_cst_8 (V : Valuation τ sig (Elt Ideal)) (j : S_.Idx) :
    val V main_cst_8 j = Spec.z :=
  congrFun (e77 V) j

theorem r_v46 (V : Valuation τ sig (Elt Ideal)) (j : S4096x512.Idx) :
    val V main_v46 j = Spec.z :=
  (congrFun (e78 V) j).trans ((broadcastInDim_scalar_apply _ _ j).trans (r_cst_8 V ix0))

theorem r_v47 (V : Valuation τ sig (Elt Ideal)) (i : Fin 4096) (c : Fin 512) :
    val V main_v47 (ix2 i c) = FloatOps.cmpf (F := Ideal) (φ := .f32) .ogt (Ideal.div (RefForms.hh (A0 V) (A1 V) (A2 V) (A3 V) (A5 V) (A6 V) (ix2 i c) - RefForms.mean (A0 V) (A1 V) (A2 V) (A3 V) (A5 V) (A6 V) c) (Ideal.sqrt (RefForms.var (A0 V) (A1 V) (A2 V) (A3 V) (A5 V) (A6 V) c + Spec.eps)) * (A7 V) (ix1 c) + (A8 V) (ix1 c)) Spec.z :=
  (congrFun (e79 V) _).trans (congrArg₂ (FloatOps.cmpf (F := Ideal) (φ := .f32) .ogt) (r_v45 V i c) (r_v46 V _))

theorem r_cst_9 (V : Valuation τ sig (Elt Ideal)) (j : S_.Idx) :
    val V main_cst_9 j = Spec.slope :=
  congrFun (e80 V) j

theorem r_v48 (V : Valuation τ sig (Elt Ideal)) (j : S4096x512.Idx) :
    val V main_v48 j = Spec.slope :=
  (congrFun (e81 V) j).trans ((broadcastInDim_scalar_apply _ _ j).trans (r_cst_9 V ix0))

theorem r_v49 (V : Valuation τ sig (Elt Ideal)) (i : Fin 4096) (c : Fin 512) :
    val V main_v49 (ix2 i c) = Spec.slope * (Ideal.div (RefForms.hh (A0 V) (A1 V) (A2 V) (A3 V) (A5 V) (A6 V) (ix2 i c) - RefForms.mean (A0 V) (A1 V) (A2 V) (A3 V) (A5 V) (A6 V) c) (Ideal.sqrt (RefForms.var (A0 V) (A1 V) (A2 V) (A3 V) (A5 V) (A6 V) c + Spec.eps)) * (A7 V) (ix1 c) + (A8 V) (ix1 c)) :=
  (congrFun (e82 V) _).trans (congrArg₂ (· * ·) (r_v48 V _) (r_v45 V i c))

theorem r_v50 (V : Valuation τ sig (Elt Ideal)) (i : Fin 4096) (c : Fin 512) :
    val V main_v50 (ix2 i c) = RefForms.output (A0 V) (A1 V) (A2 V) (A3 V) (A5 V) (A6 V) (A7 V) (A8 V) (ix2 i c) :=
  (congrFun (e83 V) _).trans (Kit.select_congr (r_v47 V i c) (r_v45 V i c) (r_v49 V i c))

end Cert.ReferenceIdeal.Hand

end
-- ==== Proof.Ref.ReadC.lean ====
import proofs.«117800_g2173253451805_cont_8to1_1923_4_alg».proof.Proof.Ref.ReadB

/-!
# The clamped softplus head read at an index: operations 84 to 109

The linear head on the output, the softplus as the program spells it (its test of a value against itself is the bit 0
on the extended reals, so the select keeps the branch max(x, 0) + log1p(exp(−|x − 0|))), and the clamp to the two printed
bounds.
-/

noncomputable section

open scoped BigOperators

namespace Cert.ReferenceIdeal.Hand

open Cert.ReferenceIdeal Cert.ReferenceIdeal.Gen Idealize.ShloMosaic Idealize.ShloMosaic.TcCoe Idealize.SL.Sem
  Idealize.ShloMosaic.StableHlo Idealize.ShloMosaic.ValueIdx Cert

attribute [local irreducible] val

theorem r_v51 (V : Valuation τ sig (Elt Ideal)) (i : Fin 4096) (c : Fin 2000) :
    val V main_v51 (ix2 i c) = (∑ k : Fin 512, RefForms.output (A0 V) (A1 V) (A2 V) (A3 V) (A5 V) (A6 V) (A7 V) (A8 V) (ix2 i k) * (A9 V) (ix2 k c)) :=
  (congrFun (e84 V) _).trans ((Kit.dot_apply dot_S4096x512_S512x2000_S4096x2000_1_0_0_1_n_n rfl rfl rfl rfl rfl rfl _ _ i c).trans (Kit.sum_mul_congr (fun k => (r_v50 V i k)) (fun k => (r_arg9 V _))))

theorem r_v52 (V : Valuation τ sig (Elt Ideal)) (u : Fin 1) (c : Fin 2000) :
    val V main_v52 (ix2 u c) = (A10 V) (ix1 c) :=
  (congrFun (e85 V) _).trans ((Kit.bcast_vec_row _ _ u c).trans (r_arg10 V _))

theorem r_v53 (V : Valuation τ sig (Elt Ideal)) (i : Fin 4096) (c : Fin 2000) :
    val V main_v53 (ix2 i c) = (A10 V) (ix1 c) :=
  (congrFun (e86 V) _).trans ((Kit.bcast_row_rows _ _ i c).trans (r_v52 V (0 : Fin 1) c))

theorem r_v54 (V : Valuation τ sig (Elt Ideal)) (i : Fin 4096) (c : Fin 2000) :
    val V main_v54 (ix2 i c) = RefForms.lin (A0 V) (A1 V) (A2 V) (A3 V) (A5 V) (A6 V) (A7 V) (A8 V) (A9 V) (A10 V) (ix2 i c) :=
  (congrFun (e87 V) _).trans (congrArg₂ (· + ·) (r_v51 V i c) (r_v53 V i c))

theorem r_call5_cst (V : Valuation τ sig (Elt Ideal)) (j : S_.Idx) :
    val V main_call5_cst j = Spec.z :=
  congrFun (e88 V) j

theorem r_call5_v0 (V : Valuation τ sig (Elt Ideal)) (j : S4096x2000.Idx) :
    val V main_call5_v0 j = Spec.z :=
  (congrFun (e89 V) j).trans ((broadcastInDim_scalar_apply _ _ j).trans (r_call5_cst V ix0))

theorem r_call5_v1 (V : Valuation τ sig (Elt Ideal)) (i : Fin 4096) (c : Fin 2000) :
    val V main_call5_v1 (ix2 i c) = max (RefForms.lin (A0 V) (A1 V) (A2 V) (A3 V) (A5 V) (A6 V) (A7 V) (A8 V) (A9 V) (A10 V) (ix2 i c)) Spec.z :=
  (congrFun (e90 V) _).trans (congrArg₂ (max : EReal → EReal → EReal) (r_v54 V i c) (r_call5_v0 V _))

theorem r_call5_v2 (V : Valuation τ sig (Elt Ideal)) (j : S4096x2000.Idx) :
    val V main_call5_v2 j = Spec.z :=
  (congrFun (e91 V) j).trans ((broadcastInDim_scalar_apply _ _ j).trans (r_call5_cst V ix0))

theorem r_call5_v3 (V : Valuation τ sig (Elt Ideal)) (i : Fin 4096) (c : Fin 2000) :
    val V main_call5_v3 (ix2 i c) = RefForms.lin (A0 V) (A1 V) (A2 V) (A3 V) (A5 V) (A6 V) (A7 V) (A8 V) (A9 V) (A10 V) (ix2 i c) - Spec.z :=
  (congrFun (e92 V) _).trans (congrArg₂ (· - ·) (r_v54 V i c) (r_call5_v2 V _))

theorem r_call5_v4 (V : Valuation τ sig (Elt Ideal)) (i : Fin 4096) (c : Fin 2000) :
    val V main_call5_v4 (ix2 i c) = (0#1 : BitVec 1) :=
  ((congrFun (e93 V) _).trans (congrArg₂ (FloatOps.cmpf (F := Ideal) (φ := .f32) .une) (r_call5_v3 V i c) (r_call5_v3 V i c))).trans (Kit.cmp_une_self _)

theorem r_call5_v5 (V : Valuation τ sig (Elt Ideal)) (j : S4096x2000.Idx) :
    val V main_call5_v5 j = Spec.z :=
  (congrFun (e94 V) j).trans ((broadcastInDim_scalar_apply _ _ j).trans (r_call5_cst V ix0))

theorem r_call5_v6 (V : Valuation τ sig (Elt Ideal)) (i : Fin 4096) (c : Fin 2000) :
    val V main_call5_v6 (ix2 i c) = RefForms.lin (A0 V) (A1 V) (A2 V) (A3 V) (A5 V) (A6 V) (A7 V) (A8 V) (A9 V) (A10 V) (ix2 i c) + Spec.z :=
  (congrFun (e95 V) _).trans (congrArg₂ (· + ·) (r_v54 V i c) (r_call5_v5 V _))

theorem r_call5_v7 (V : Valuation τ sig (Elt Ideal)) (i : Fin 4096) (c : Fin 2000) :
    val V main_call5_v7 (ix2 i c) = Spec.abs (RefForms.lin (A0 V) (A1 V) (A2 V) (A3 V) (A5 V) (A6 V) (A7 V) (A8 V) (A9 V) (A10 V) (ix2 i c) - Spec.z) :=
  (congrFun (e96 V) _).trans (congrArg Spec.abs (r_call5_v3 V i c))

theorem r_call5_v8 (V : Valuation τ sig (Elt Ideal)) (i : Fin 4096) (c : Fin 2000) :
    val V main_call5_v8 (ix2 i c) = -(Spec.abs (RefForms.lin (A0 V) (A1 V) (A2 V) (A3 V) (A5 V) (A6 V) (A7 V) (A8 V) (A9 V) (A10 V) (ix2 i c) - Spec.z)) :=
  (congrFun (e97 V) _).trans (congrArg (Neg.neg : EReal → EReal) (r_call5_v7 V i c))

theorem r_call5_v9 (V : Valuation τ sig (Elt Ideal)) (i : Fin 4096) (c : Fin 2000) :
    val V main_call5_v9 (ix2 i c) = Ideal.exp (-(Spec.abs (RefForms.lin (A0 V) (A1 V) (A2 V) (A3 V) (A5 V) (A6 V) (A7 V) (A8 V) (A9 V) (A10 V) (ix2 i c) - Spec.z))) :=
  (congrFun (e98 V) _).trans (congrArg Ideal.exp (r_call5_v8 V i c))

theorem r_call5_v10 (V : Valuation τ sig (Elt Ideal)) (i : Fin 4096) (c : Fin 2000) :
    val V main_call5_v10 (ix2 i c) = Ideal.log1p (Ideal.exp (-(Spec.abs (RefForms.lin (A0 V) (A1 V) (A2 V) (A3 V) (A5 V) (A6 V) (A7 V) (A8 V) (A9 V) (A10 V) (ix2 i c) - Spec.z)))) :=
  (congrFun (e99 V) _).trans (congrArg Ideal.log1p (r_call5_v9 V i c))

theorem r_call5_v11 (V : Valuation τ sig (Elt Ideal)) (i : Fin 4096) (c : Fin 2000) :
    val V main_call5_v11 (ix2 i c) = RefForms.softplus (RefForms.lin (A0 V) (A1 V) (A2 V) (A3 V) (A5 V) (A6 V) (A7 V) (A8 V) (A9 V) (A10 V) (ix2 i c)) :=
  (congrFun (e100 V) _).trans (congrArg₂ (· + ·) (r_call5_v1 V i c) (r_call5_v10 V i c))

theorem r_v55 (V : Valuation τ sig (Elt Ideal)) (i : Fin 4096) (c : Fin 2000) :
    val V main_v55 (ix2 i c) = RefForms.softplus (RefForms.lin (A0 V) (A1 V) (A2 V) (A3 V) (A5 V) (A6 V) (A7 V) (A8 V) (A9 V) (A10 V) (ix2 i c)) :=
  ((congrFun (e101 V) _).trans (Kit.select_congr (r_call5_v4 V i c) (r_call5_v6 V i c) (r_call5_v11 V i c))).trans (select_zero _ _)

theorem r_cst_10 (V : Valuation τ sig (Elt Ideal)) (j : S_.Idx) :
    val V main_cst_10 j = Spec.eps :=
  congrFun (e102 V) j

theorem r_cst_11 (V : Valuation τ sig (Elt Ideal)) (j : S_.Idx) :
    val V main_cst_11 j = Spec.big :=
  congrFun (e103 V) j

theorem r_call6_v0 (V : Valuation τ sig (Elt Ideal)) (j : S_.Idx) :
    val V main_call6_v0 j = Spec.eps :=
  (congrFun (e104 V) j).trans (r_cst_10 V j)

theorem r_call6_v1 (V : Valuation τ sig (Elt Ideal)) (j : S4096x2000.Idx) :
    val V main_call6_v1 j = Spec.eps :=
  (congrFun (e105 V) j).trans ((broadcastInDim_scalar_apply _ _ j).trans (r_call6_v0 V ix0))

theorem r_call6_v2 (V : Valuation τ sig (Elt Ideal)) (i : Fin 4096) (c : Fin 2000) :
    val V main_call6_v2 (ix2 i c) = max Spec.eps (RefForms.softplus (RefForms.lin (A0 V) (A1 V) (A2 V) (A3 V) (A5 V) (A6 V) (A7 V) (A8 V) (A9 V) (A10 V) (ix2 i c))) :=
  (congrFun (e106 V) _).trans (congrArg₂ (max : EReal → EReal → EReal) (r_call6_v1 V _) (r_v55 V i c))

theorem r_call6_v3 (V : Valuation τ sig (Elt Ideal)) (j : S_.Idx) :
    val V main_call6_v3 j = Spec.big :=
  (congrFun (e107 V) j).trans (r_cst_11 V j)

theorem r_call6_v4 (V : Valuation τ sig (Elt Ideal)) (j : S4096x2000.Idx) :
    val V main_call6_v4 j = Spec.big :=
  (congrFun (e108 V) j).trans ((broadcastInDim_scalar_apply _ _ j).trans (r_call6_v3 V ix0))

theorem r_v56 (V : Valuation τ sig (Elt Ideal)) (i : Fin 4096) (c : Fin 2000) :
    val V main_v56 (ix2 i c) = RefForms.theta (A0 V) (A1 V) (A2 V) (A3 V) (A5 V) (A6 V) (A7 V) (A8 V) (A9 V) (A10 V) (ix2 i c) :=
  (congrFun (e109 V) _).trans (congrArg₂ (min : EReal → EReal → EReal) (r_call6_v4 V _) (r_call6_v2 V i c))

end Cert.ReferenceIdeal.Hand

end
-- ==== Proof.Ref.ReadD.lean ====
import proofs.«117800_g2173253451805_cont_8to1_1923_4_alg».proof.Proof.Ref.ReadB

/-!
# The exponential and logistic heads read at an index: operations 110 to 136

The second linear head on the output, its exponential clamped to the two printed bounds, and the logistic
1 / (1 + exp(−(mean · pi_w + pi_b))) as the program spells it: a product, a sum, a negation, an exponential, a sum
with the broadcast word of one and a division of the broadcast word of one by it.
-/

noncomputable section

open scoped BigOperators

namespace Cert.ReferenceIdeal.Hand

open Cert.ReferenceIdeal Cert.ReferenceIdeal.Gen Idealize.ShloMosaic Idealize.ShloMosaic.TcCoe Idealize.SL.Sem
  Idealize.ShloMosaic.StableHlo Idealize.ShloMosaic.ValueIdx Cert

attribute [local irreducible] val

theorem r_v57 (V : Valuation τ sig (Elt Ideal)) (i : Fin 4096) (c : Fin 2000) :
    val V main_v57 (ix2 i c) = (∑ k : Fin 512, RefForms.output (A0 V) (A1 V) (A2 V) (A3 V) (A5 V) (A6 V) (A7 V) (A8 V) (ix2 i k) * (A11 V) (ix2 k c)) :=
  (congrFun (e110 V) _).trans ((Kit.dot_apply dot_S4096x512_S512x2000_S4096x2000_1_0_0_1_n_n rfl rfl rfl rfl rfl rfl _ _ i c).trans (Kit.sum_mul_congr (fun k => (r_v50 V i k)) (fun k => (r_arg11 V _))))

theorem r_v58 (V : Valuation τ sig (Elt Ideal)) (u : Fin 1) (c : Fin 2000) :
    val V main_v58 (ix2 u c) = (A12 V) (ix1 c) :=
  (congrFun (e111 V) _).trans ((Kit.bcast_vec_row _ _ u c).trans (r_arg12 V _))

theorem r_v59 (V : Valuation τ sig (Elt Ideal)) (i : Fin 4096) (c : Fin 2000) :
    val V main_v59 (ix2 i c) = (A12 V) (ix1 c) :=
  (congrFun (e112 V) _).trans ((Kit.bcast_row_rows _ _ i c).trans (r_v58 V (0 : Fin 1) c))

theorem r_v60 (V : Valuation τ sig (Elt Ideal)) (i : Fin 4096) (c : Fin 2000) :
    val V main_v60 (ix2 i c) = RefForms.lin (A0 V) (A1 V) (A2 V) (A3 V) (A5 V) (A6 V) (A7 V) (A8 V) (A11 V) (A12 V) (ix2 i c) :=
  (congrFun (e113 V) _).trans (congrArg₂ (· + ·) (r_v57 V i c) (r_v59 V i c))

theorem r_v61 (V : Valuation τ sig (Elt Ideal)) (i : Fin 4096) (c : Fin 2000) :
    val V main_v61 (ix2 i c) = Ideal.exp (RefForms.lin (A0 V) (A1 V) (A2 V) (A3 V) (A5 V) (A6 V) (A7 V) (A8 V) (A11 V) (A12 V) (ix2 i c)) :=
  (congrFun (e114 V) _).trans (congrArg Ideal.exp (r_v60 V i c))

theorem r_cst_12 (V : Valuation τ sig (Elt Ideal)) (j : S_.Idx) :
    val V main_cst_12 j = Spec.eps :=
  congrFun (e115 V) j

theorem r_cst_13 (V : Valuation τ sig (Elt Ideal)) (j : S_.Idx) :
    val V main_cst_13 j = Spec.big :=
  congrFun (e116 V) j

theorem r_call7_v0 (V : Valuation τ sig (Elt Ideal)) (j : S_.Idx) :
    val V main_call7_v0 j = Spec.eps :=
  (congrFun (e117 V) j).trans (r_cst_12 V j)

theorem r_call7_v1 (V : Valuation τ sig (Elt Ideal)) (j : S4096x2000.Idx) :
    val V main_call7_v1 j = Spec.eps :=
  (congrFun (e118 V) j).trans ((broadcastInDim_scalar_apply _ _ j).trans (r_call7_v0 V ix0))

theorem r_call7_v2 (V : Valuation τ sig (Elt Ideal)) (i : Fin 4096) (c : Fin 2000) :
    val V main_call7_v2 (ix2 i c) = max Spec.eps (Ideal.exp (RefForms.lin (A0 V) (A1 V) (A2 V) (A3 V) (A5 V) (A6 V) (A7 V) (A8 V) (A11 V) (A12 V) (ix2 i c))) :=
  (congrFun (e119 V) _).trans (congrArg₂ (max : EReal → EReal → EReal) (r_call7_v1 V _) (r_v61 V i c))

theorem r_call7_v3 (V : Valuation τ sig (Elt Ideal)) (j : S_.Idx) :
    val V main_call7_v3 j = Spec.big :=
  (congrFun (e120 V) j).trans (r_cst_13 V j)

theorem r_call7_v4 (V : Valuation τ sig (Elt Ideal)) (j : S4096x2000.Idx) :
    val V main_call7_v4 j = Spec.big :=
  (congrFun (e121 V) j).trans ((broadcastInDim_scalar_apply _ _ j).trans (r_call7_v3 V ix0))

theorem r_v62 (V : Valuation τ sig (Elt Ideal)) (i : Fin 4096) (c : Fin 2000) :
    val V main_v62 (ix2 i c) = RefForms.meanRes (A0 V) (A1 V) (A2 V) (A3 V) (A5 V) (A6 V) (A7 V) (A8 V) (A11 V) (A12 V) (ix2 i c) :=
  (congrFun (e122 V) _).trans (congrArg₂ (min : EReal → EReal → EReal) (r_call7_v4 V _) (r_call7_v2 V i c))

theorem r_v63 (V : Valuation τ sig (Elt Ideal)) (u : Fin 1) (c : Fin 2000) :
    val V main_v63 (ix2 u c) = (A13 V) (ix1 c) :=
  (congrFun (e123 V) _).trans ((Kit.bcast_vec_row _ _ u c).trans (r_arg13 V _))

theorem r_v64 (V : Valuation τ sig (Elt Ideal)) (i : Fin 4096) (c : Fin 2000) :
    val V main_v64 (ix2 i c) = (A13 V) (ix1 c) :=
  (congrFun (e124 V) _).trans ((Kit.bcast_row_rows _ _ i c).trans (r_v63 V (0 : Fin 1) c))

theorem r_v65 (V : Valuation τ sig (Elt Ideal)) (i : Fin 4096) (c : Fin 2000) :
    val V main_v65 (ix2 i c) = RefForms.lin (A0 V) (A1 V) (A2 V) (A3 V) (A5 V) (A6 V) (A7 V) (A8 V) (A11 V) (A12 V) (ix2 i c) * (A13 V) (ix1 c) :=
  (congrFun (e125 V) _).trans (congrArg₂ (· * ·) (r_v60 V i c) (r_v64 V i c))

theorem r_v66 (V : Valuation τ sig (Elt Ideal)) (u : Fin 1) (c : Fin 2000) :
    val V main_v66 (ix2 u c) = (A14 V) (ix1 c) :=
  (congrFun (e126 V) _).trans ((Kit.bcast_vec_row _ _ u c).trans (r_arg14 V _))

theorem r_v67 (V : Valuation τ sig (Elt Ideal)) (i : Fin 4096) (c : Fin 2000) :
    val V main_v67 (ix2 i c) = (A14 V) (ix1 c) :=
  (congrFun (e127 V) _).trans ((Kit.bcast_row_rows _ _ i c).trans (r_v66 V (0 : Fin 1) c))

theorem r_v68 (V : Valuation τ sig (Elt Ideal)) (i : Fin 4096) (c : Fin 2000) :
    val V main_v68 (ix2 i c) = RefForms.lin (A0 V) (A1 V) (A2 V) (A3 V) (A5 V) (A6 V) (A7 V) (A8 V) (A11 V) (A12 V) (ix2 i c) * (A13 V) (ix1 c) + (A14 V) (ix1 c) :=
  (congrFun (e128 V) _).trans (congrArg₂ (· + ·) (r_v65 V i c) (r_v67 V i c))

theorem r_v69 (V : Valuation τ sig (Elt Ideal)) (i : Fin 4096) (c : Fin 2000) :
    val V main_v69 (ix2 i c) = -(RefForms.lin (A0 V) (A1 V) (A2 V) (A3 V) (A5 V) (A6 V) (A7 V) (A8 V) (A11 V) (A12 V) (ix2 i c) * (A13 V) (ix1 c) + (A14 V) (ix1 c)) :=
  (congrFun (e129 V) _).trans (congrArg (Neg.neg : EReal → EReal) (r_v68 V i c))

theorem r_v70 (V : Valuation τ sig (Elt Ideal)) (i : Fin 4096) (c : Fin 2000) :
    val V main_v70 (ix2 i c) = Ideal.exp (-(RefForms.lin (A0 V) (A1 V) (A2 V) (A3 V) (A5 V) (A6 V) (A7 V) (A8 V) (A11 V) (A12 V) (ix2 i c) * (A13 V) (ix1 c) + (A14 V) (ix1 c))) :=
  (congrFun (e130 V) _).trans (congrArg Ideal.exp (r_v69 V i c))

theorem r_cst_14 (V : Valuation τ sig (Elt Ideal)) (j : S_.Idx) :
    val V main_cst_14 j = Spec.one :=
  congrFun (e131 V) j

theorem r_v71 (V : Valuation τ sig (Elt Ideal)) (j : S4096x2000.Idx) :
    val V main_v71 j = Spec.one :=
  (congrFun (e132 V) j).trans ((broadcastInDim_scalar_apply _ _ j).trans (r_cst_14 V ix0))

theorem r_v72 (V : Valuation τ sig (Elt Ideal)) (i : Fin 4096) (c : Fin 2000) :
    val V main_v72 (ix2 i c) = Spec.one + Ideal.exp (-(RefForms.lin (A0 V) (A1 V) (A2 V) (A3 V) (A5 V) (A6 V) (A7 V) (A8 V) (A11 V) (A12 V) (ix2 i c) * (A13 V) (ix1 c) + (A14 V) (ix1 c))) :=
  (congrFun (e133 V) _).trans (congrArg₂ (· + ·) (r_v71 V _) (r_v70 V i c))

theorem r_cst_15 (V : Valuation τ sig (Elt Ideal)) (j : S_.Idx) :
    val V main_cst_15 j = Spec.one :=
  congrFun (e134 V) j

theorem r_v73 (V : Valuation τ sig (Elt Ideal)) (j : S4096x2000.Idx) :
    val V main_v73 j = Spec.one :=
  (congrFun (e135 V) j).trans ((broadcastInDim_scalar_apply _ _ j).trans (r_cst_15 V ix0))

theorem r_v74 (V : Valuation τ sig (Elt Ideal)) (i : Fin 4096) (c : Fin 2000) :
    val V main_v74 (ix2 i c) = RefForms.piRes (A0 V) (A1 V) (A2 V) (A3 V) (A5 V) (A6 V) (A7 V) (A8 V) (A11 V) (A12 V) (A13 V) (A14 V) (ix2 i c) :=
  (congrFun (e136 V) _).trans (congrArg₂ Ideal.div (r_v73 V _) (r_v72 V i c))

end Cert.ReferenceIdeal.Hand

end
-- ==== Proof.Ref.Read.lean ====
import proofs.«117800_g2173253451805_cont_8to1_1923_4_alg».proof.Proof.Ref.ReadA
import proofs.«117800_g2173253451805_cont_8to1_1923_4_alg».proof.Proof.Ref.ReadC
import proofs.«117800_g2173253451805_cont_8to1_1923_4_alg».proof.Proof.Ref.ReadD

/-!
# The reference's results as closed forms of its arguments, and its run

Each result buffer, after the whole line, holds the closed form `RefForms.…` of the fifteen argument arrays
(`ref_v22` … `ref_v74`, for any contents `V` the line starts from), and the run of `@main` from any memory with
zero counters ends with the eight results at those forms of the launch arguments and the fifteen arguments
unchanged (`run_vals`).
-/

noncomputable section

open scoped BigOperators

namespace Cert.ReferenceIdeal.Hand

open Cert.ReferenceIdeal Cert.ReferenceIdeal.Gen Idealize.ShloMosaic Idealize.ShloMosaic.TcCoe Idealize.SL.Sem
  Idealize.ShloMosaic.StableHlo Idealize.ShloMosaic.ValueIdx Cert

attribute [local irreducible] val

/-- The whole line leaves, at `main_v22`, `RefForms.adjRec` of the argument arrays. -/
theorem ref_v22 (V : Valuation τ sig (Elt Ideal)) :
    StableHlo.after (ops (F := Ideal)) V (main_v22 : DevRef τ sig)
      = RefForms.adjRec (V (main_arg0 : DevRef τ sig)) (V (main_arg1 : DevRef τ sig)) (V (main_arg2 : DevRef τ sig)) (V (main_arg3 : DevRef τ sig)) :=
  (val_eq V main_v22).symm.trans (funext fun (j : (⟨2, ![4096, 4096]⟩ : Shape).Idx) =>
    (congrArg (val V main_v22) (eq_ix2 j)).trans ((r_v22 V (j 0) (j 1)).trans
      (congrArg (RefForms.adjRec (A0 V) (A1 V) (A2 V) (A3 V)) (eq_ix2 j).symm)))

/-- The whole line leaves, at `main_v13`, `RefForms.mu` of the argument arrays. -/
theorem ref_v13 (V : Valuation τ sig (Elt Ideal)) :
    StableHlo.after (ops (F := Ideal)) V (main_v13 : DevRef τ sig)
      = RefForms.mu (V (main_arg0 : DevRef τ sig)) (V (main_arg1 : DevRef τ sig)) (V (main_arg2 : DevRef τ sig)) (V (main_arg3 : DevRef τ sig)) :=
  (val_eq V main_v13).symm.trans (funext fun (j : (⟨2, ![4096, 128]⟩ : Shape).Idx) =>
    (congrArg (val V main_v13) (eq_ix2 j)).trans ((r_v13 V (j 0) (j 1)).trans
      (congrArg (RefForms.mu (A0 V) (A1 V) (A2 V) (A3 V)) (eq_ix2 j).symm)))

/-- The whole line leaves, at `main_v20`, `RefForms.logvar` of the argument arrays. -/
theorem ref_v20 (V : Valuation τ sig (Elt Ideal)) :
    StableHlo.after (ops (F := Ideal)) V (main_v20 : DevRef τ sig)
      = RefForms.logvar (V (main_arg0 : DevRef τ sig)) (V (main_arg1 : DevRef τ sig)) (V (main_arg2 : DevRef τ sig)) (V (main_arg4 : DevRef τ sig)) :=
  (val_eq V main_v20).symm.trans (funext fun (j : (⟨2, ![4096, 128]⟩ : Shape).Idx) =>
    (congrArg (val V main_v20) (eq_ix2 j)).trans ((r_v20 V (j 0) (j 1)).trans
      (congrArg (RefForms.logvar (A0 V) (A1 V) (A2 V) (A4 V)) (eq_ix2 j).symm)))

/-- The whole line leaves, at `main_v50`, `RefForms.output` of the argument arrays. -/
theorem ref_v50 (V : Valuation τ sig (Elt Ideal)) :
    StableHlo.after (ops (F := Ideal)) V (main_v50 : DevRef τ sig)
      = RefForms.output (V (main_arg0 : DevRef τ sig)) (V (main_arg1 : DevRef τ sig)) (V (main_arg2 : DevRef τ sig)) (V (main_arg3 : DevRef τ sig)) (V (main_arg5 : DevRef τ sig)) (V (main_arg6 : DevRef τ sig)) (V (main_arg7 : DevRef τ sig)) (V (main_arg8 : DevRef τ sig)) :=
  (val_eq V main_v50).symm.trans (funext fun (j : (⟨2, ![4096, 512]⟩ : Shape).Idx) =>
    (congrArg (val V main_v50) (eq_ix2 j)).trans ((r_v50 V (j 0) (j 1)).trans
      (congrArg (RefForms.output (A0 V) (A1 V) (A2 V) (A3 V) (A5 V) (A6 V) (A7 V) (A8 V)) (eq_ix2 j).symm)))

/-- The whole line leaves, at `main_v56`, `RefForms.theta` of the argument arrays. -/
theorem ref_v56 (V : Valuation τ sig (Elt Ideal)) :
    StableHlo.after (ops (F := Ideal)) V (main_v56 : DevRef τ sig)
      = RefForms.theta (V (main_arg0 : DevRef τ sig)) (V (main_arg1 : DevRef τ sig)) (V (main_arg2 : DevRef τ sig)) (V (main_arg3 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) :=
  (val_eq V main_v56).symm.trans (funext fun (j : (⟨2, ![4096, 2000]⟩ : Shape).Idx) =>
    (congrArg (val V main_v56) (eq_ix2 j)).trans ((r_v56 V (j 0) (j 1)).trans
      (congrArg (RefForms.theta (A0 V) (A1 V) (A2 V) (A3 V) (A5 V) (A6 V) (A7 V) (A8 V) (A9 V) (A10 V)) (eq_ix2 j).symm)))

/-- The whole line leaves, at `main_v62`, `RefForms.meanRes` of the argument arrays. -/
theorem ref_v62 (V : Valuation τ sig (Elt Ideal)) :
    StableHlo.after (ops (F := Ideal)) V (main_v62 : DevRef τ sig)
      = RefForms.meanRes (V (main_arg0 : DevRef τ sig)) (V (main_arg1 : DevRef τ sig)) (V (main_arg2 : DevRef τ sig)) (V (main_arg3 : DevRef τ sig)) (V (main_arg5 : DevRef τ sig)) (V (main_arg6 : DevRef τ sig)) (V (main_arg7 : DevRef τ sig)) (V (main_arg8 : DevRef τ sig)) (V (main_arg11 : DevRef τ sig)) (V (main_arg12 : DevRef τ sig)) :=
  (val_eq V main_v62).symm.trans (funext fun (j : (⟨2, ![4096, 2000]⟩ : Shape).Idx) =>
    (congrArg (val V main_v62) (eq_ix2 j)).trans ((r_v62 V (j 0) (j 1)).trans
      (congrArg (RefForms.meanRes (A0 V) (A1 V) (A2 V) (A3 V) (A5 V) (A6 V) (A7 V) (A8 V) (A11 V) (A12 V)) (eq_ix2 j).symm)))

/-- The whole line leaves, at `main_v74`, `RefForms.piRes` of the argument arrays. -/
theorem ref_v74 (V : Valuation τ sig (Elt Ideal)) :
    StableHlo.after (ops (F := Ideal)) V (main_v74 : DevRef τ sig)
      = RefForms.piRes (V (main_arg0 : DevRef τ sig)) (V (main_arg1 : DevRef τ sig)) (V (main_arg2 : DevRef τ sig)) (V (main_arg3 : DevRef τ sig)) (V (main_arg5 : DevRef τ sig)) (V (main_arg6 : DevRef τ sig)) (V (main_arg7 : DevRef τ sig)) (V (main_arg8 : DevRef τ sig)) (V (main_arg11 : DevRef τ sig)) (V (main_arg12 : DevRef τ sig)) (V (main_arg13 : DevRef τ sig)) (V (main_arg14 : DevRef τ sig)) :=
  (val_eq V main_v74).symm.trans (funext fun (j : (⟨2, ![4096, 2000]⟩ : Shape).Idx) =>
    (congrArg (val V main_v74) (eq_ix2 j)).trans ((r_v74 V (j 0) (j 1)).trans
      (congrArg (RefForms.piRes (A0 V) (A1 V) (A2 V) (A3 V) (A5 V) (A6 V) (A7 V) (A8 V) (A11 V) (A12 V) (A13 V) (A14 V)) (eq_ix2 j).symm)))

/-- From any memory with zero counters, every weakly fair execution of `@main` on the TensorCores terminates with
    the eight results at the closed forms of the launch arguments, and the arguments unchanged. -/
theorem run_vals (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v22) = RefForms.adjRec (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v13) = RefForms.mu (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v20) = RefForms.logvar (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v13) = RefForms.mu (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v50) = RefForms.output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v74) = RefForms.piRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v56) = RefForms.theta (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v62) = RefForms.meanRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c main_v22).trans (ref_v22 _),
     (h c main_v13).trans (ref_v13 _),
     (h c main_v20).trans (ref_v20 _),
     (h c main_v13).trans (ref_v13 _),
     (h c main_v50).trans (ref_v50 _),
     (h c main_v74).trans (ref_v74 _),
     (h c main_v56).trans (ref_v56 _),
     (h c main_v62).trans (ref_v62 _),
     (h c main_arg0).trans (Cert.Lib.AfterAssign.after_of_not_written writesAre _ (by decide)),
     (h c main_arg1).trans (Cert.Lib.AfterAssign.after_of_not_written writesAre _ (by decide)),
     (h c main_arg2).trans (Cert.Lib.AfterAssign.after_of_not_written writesAre _ (by decide)),
     (h c main_arg3).trans (Cert.Lib.AfterAssign.after_of_not_written writesAre _ (by decide)),
     (h c main_arg4).trans (Cert.Lib.AfterAssign.after_of_not_written writesAre _ (by decide)),
     (h c main_arg5).trans (Cert.Lib.AfterAssign.after_of_not_written writesAre _ (by decide)),
     (h c main_arg6).trans (Cert.Lib.AfterAssign.after_of_not_written writesAre _ (by decide)),
     (h c main_arg7).trans (Cert.Lib.AfterAssign.after_of_not_written writesAre _ (by decide)),
     (h c main_arg8).trans (Cert.Lib.AfterAssign.after_of_not_written writesAre _ (by decide)),
     (h c main_arg9).trans (Cert.Lib.AfterAssign.after_of_not_written writesAre _ (by decide)),
     (h c main_arg10).trans (Cert.Lib.AfterAssign.after_of_not_written writesAre _ (by decide)),
     (h c main_arg11).trans (Cert.Lib.AfterAssign.after_of_not_written writesAre _ (by decide)),
     (h c main_arg12).trans (Cert.Lib.AfterAssign.after_of_not_written writesAre _ (by decide)),
     (h c main_arg13).trans (Cert.Lib.AfterAssign.after_of_not_written writesAre _ (by decide)),
     (h c main_arg14).trans (Cert.Lib.AfterAssign.after_of_not_written writesAre _ (by decide))⟩)
    (run_main m ρ)

end Cert.ReferenceIdeal.Hand

end
-- ==== Proof.Bridge1.lean ====
/-
  The kernel's mu, logvar and adj_rec are the reference's. The kernel multiplies by the two second-layer weights laid
  side by side and splits the result afterwards; a column of a product depends only on the same column of the right
  factor, so the left half of leaky(adj · (h1 · [w | w'])) is leaky(adj · (h1 · w)) and the right half the same with
  w'. The decoder's transpose read at (k, j) is mu at (j, k).
-/
import proofs.«117800_g2173253451805_cont_8to1_1923_4_alg».proof.Proof.Ideal.OutputsA
import proofs.«117800_g2173253451805_cont_8to1_1923_4_alg».proof.Proof.RefForms
import Idealize.ShloMosaic.Lib.ValueLayout

set_option maxRecDepth 16384

noncomputable section

open scoped BigOperators

namespace Cert.Bridge

open Idealize.ShloMosaic Idealize.ShloMosaic.ValueIdx
open Cert.KernelIdeal Cert.KernelIdeal.Hand Cert.Spec

variable (a0 : FVec Ideal S4096x2000 .f32) (a1 : FVec Ideal S4096x4096 .f32) (a2 : FVec Ideal S2000x512 .f32)
  (a3 a4 : FVec Ideal S512x128 .f32)

theorem kXW_eq : kXW a0 a2 = RefForms.xw a0 a2 := rfl

/-- A column in the left half of the side-by-side weight is that column of the first weight. -/
theorem kWG_left (l : Fin 512) (j : Fin 128) (q : Fin 256) (hq : q.val = j.val) : kWG a3 a4 (ix2 l q) = a3 (ix2 l j) := by
  unfold kWG
  exact concatenate_pair_apply_left (1 : Fin 2) a3 a4 _ (ix2 l q) rfl (ix2 l j)
    (fun b => by match b with | ⟨0, _⟩ => rfl | ⟨1, _⟩ => exact hq.symm)

/-- A column in the right half is that column, less 128, of the second weight. -/
theorem kWG_right (l : Fin 512) (j : Fin 128) (q : Fin 256) (hq : q.val = 128 + j.val) : kWG a3 a4 (ix2 l q) = a4 (ix2 l j) := by
  unfold kWG
  exact concatenate_pair_apply_right (1 : Fin 2) a3 a4 _ (ix2 l q) rfl rfl (ix2 l j)
    (fun b hb => by match b with | ⟨0, _⟩ => rfl | ⟨1, _⟩ => exact absurd rfl hb)
    (by show j.val + 128 = q.val; omega)

theorem kT_left (k : Fin 4096) (j : Fin 128) (q : Fin 256) (hq : q.val = j.val) :
    kT a0 a1 a2 a3 a4 (ix2 k q) = ∑ l : Fin 512, RefForms.h1 a0 a1 a2 (ix2 k l) * a3 (ix2 l j) := by
  unfold kT prod1
  refine Finset.sum_congr rfl fun l _ => ?_
  exact congrArg₂ (· * ·) rfl (kWG_left a3 a4 l j _ hq)

theorem kT_right (k : Fin 4096) (j : Fin 128) (q : Fin 256) (hq : q.val = 128 + j.val) :
    kT a0 a1 a2 a3 a4 (ix2 k q) = ∑ l : Fin 512, RefForms.h1 a0 a1 a2 (ix2 k l) * a4 (ix2 l j) := by
  unfold kT prod1
  refine Finset.sum_congr rfl fun l _ => ?_
  exact congrArg₂ (· * ·) rfl (kWG_right a3 a4 l j _ hq)

theorem kML_left (i : Fin 4096) (j : Fin 128) (q : Fin 256) (hq : q.val = j.val) :
    kML a0 a1 a2 a3 a4 (ix2 i q) = RefForms.enc a0 a1 a2 a3 (ix2 i j) := by
  unfold kML mlK RefForms.enc
  refine congrArg lk (Finset.sum_congr rfl fun k _ => ?_)
  exact congrArg₂ (· * ·) rfl (kT_left a0 a1 a2 a3 a4 k j _ hq)

theorem kML_right (i : Fin 4096) (j : Fin 128) (q : Fin 256) (hq : q.val = 128 + j.val) :
    kML a0 a1 a2 a3 a4 (ix2 i q) = RefForms.enc a0 a1 a2 a4 (ix2 i j) := by
  unfold kML mlK RefForms.enc
  refine congrArg lk (Finset.sum_congr rfl fun k _ => ?_)
  exact congrArg₂ (· * ·) rfl (kT_right a0 a1 a2 a3 a4 k j _ hq)

/-- The kernel's mu is the reference's. -/
theorem kMU_eq : kMU a0 a1 a2 a3 a4 = RefForms.mu a0 a1 a2 a3 := by
  funext i
  obtain ⟨p, q, rfl⟩ : ∃ (p : Fin 4096) (q : Fin 128), i = ix2 p q := ⟨i 0, i 1, eq_ix2 i⟩
  unfold kMU RefForms.mu
  refine (slice2_axis1_apply 0 _ _ p q ⟨q.val, by have := q.isLt; omega⟩ (by simp)).trans ?_
  exact kML_left a0 a1 a2 a3 a4 p q _ rfl

/-- The kernel's logvar is the reference's. -/
theorem kLV_eq : kLV a0 a1 a2 a3 a4 = RefForms.logvar a0 a1 a2 a4 := by
  funext i
  obtain ⟨p, q, rfl⟩ : ∃ (p : Fin 4096) (q : Fin 128), i = ix2 p q := ⟨i 0, i 1, eq_ix2 i⟩
  unfold kLV RefForms.logvar
  refine (slice2_axis1_apply 128 _ _ p q ⟨128 + q.val, by have := q.isLt; omega⟩ rfl).trans ?_
  exact kML_right a0 a1 a2 a3 a4 p q _ rfl

/-- The kernel's adj_rec is the reference's. -/
theorem kADJ_eq : kADJ a0 a1 a2 a3 a4 = RefForms.adjRec a0 a1 a2 a3 := by
  funext i
  unfold kADJ prod3 RefForms.adjRec
  rw [kMU_eq]
  refine Finset.sum_congr rfl fun k _ => ?_
  exact congrArg₂ (· * ·) rfl (transpose_ix2_apply (RefForms.mu a0 a1 a2 a3) _ k (i 1))

end Cert.Bridge

end
-- ==== Proof.Consts.lean ====
/-
  The values of the four float words the comparison of the two programs needs: +0.0 is 0, 1.0 is 1, 4096.0 is 4096, and
  the word printed for 1e-5 is a positive real number. Every other literal occurs identically on both sides.
-/
import proofs.«117800_g2173253451805_cont_8to1_1923_4_alg».proof.Proof.Spec

noncomputable section

namespace Cert.Consts

open Idealize.ShloMosaic Cert.Spec

theorem z_eq : z = 0 := by
  unfold z; simp [Ideal.ofBits, Ideal.ieee]

theorem one_eq : one = 1 := by
  unfold one; simp [Ideal.ofBits, Ideal.ieee, -EReal.coe_mul]; norm_num

theorem rows_eq : rows = ((4096 : ℝ) : EReal) := by
  unfold rows; simp [Ideal.ofBits, Ideal.ieee, -EReal.coe_mul]; norm_num

theorem eps_pos : ∃ e : ℝ, 0 < e ∧ eps = (e : EReal) := by
  unfold eps
  refine ⟨_, ?_, by simp [Ideal.ofBits, Ideal.ieee, -EReal.coe_mul]; rfl⟩
  positivity

end Cert.Consts

end
-- ==== Proof.LibBatchNorm.lean ====
/-
  Batch normalisation over the extended reals, for arrays all of whose entries are real numbers.

  The one-pass statistics  mean = (Σ h)/n,  var = (Σ h²)/n − mean²  and the two-pass statistics
  mean = (0 + Σ h)/n,  var = (0 + Σ (h − mean)²)/n  of a column h : R → EReal agree when n = |R| ≠ 0 and every
  entry of h is a real number: on ℝ this is  Σ (h − m)² = Σ h² − 2 m Σ h + |R| m²  with  m = (Σ h)/|R|.
  On the extended reals the identity needs the entries real (an infinite entry makes one side −∞ and the other +∞),
  so the module also carries the closure of "is a real number" under the operations a normalised two-layer
  perceptron is made of: sums, products, differences, finite sums, a quotient by a nonzero real, a maximum, and
  the reciprocal square root of a positive real.
-/
import Idealize.ShloMosaic.PureOps.Ideal
import Idealize.ShloMosaic.PureOps.Ideal.Laws

noncomputable section

namespace Cert.LibBatchNorm

open Idealize.ShloMosaic

/-! ## Real entries -/

/-- An extended real that is an ordinary real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

/-- A finite sum of real numbers is a real number. -/
theorem IsReal.sum {ι : Type*} (s : Finset ι) {f : ι → EReal} (h : ∀ i ∈ s, IsReal (f i)) :
    IsReal (∑ i ∈ s, f i) := by
  classical
  induction s using Finset.induction_on with
  | empty => simpa using isReal_zero
  | insert a s ha ih =>
    rw [Finset.sum_insert ha]
    exact (h _ (Finset.mem_insert_self _ _)).add (ih fun i hi => h i (Finset.mem_insert_of_mem hi))

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real number by a nonzero real is a real number. -/
theorem IsReal.div_coe {x : EReal} (hx : IsReal x) {n : ℝ} (hn : n ≠ 0) : IsReal (Ideal.div x (n : EReal)) := by
  rw [Ideal.div_coe hn]; exact hx.mul (isReal_coe _)

/-- The reciprocal square root of a positive real is a real number. -/
theorem isReal_rsqrt_pos {r : ℝ} (hr : 0 < r) : IsReal (Ideal.rsqrt (r : EReal)) := by
  have : Ideal.rsqrt (r : EReal) = (((Real.sqrt r)⁻¹ : ℝ) : EReal) := by
    rw [Ideal.rsqrt_coe, if_neg (not_lt.mpr hr.le), if_neg hr.ne']
  rw [this]; exact isReal_coe _

/-! ## The two ways to a variance -/

/-- On ℝ: the mean of the squares minus the square of the mean is the mean of the squared deviations, for a
    family indexed by a type of `n` elements. -/
theorem var_identity {R : Type*} [Fintype R] (f : R → ℝ) (n : ℝ) (hn : n ≠ 0) (hc : (Fintype.card R : ℝ) = n) :
    (∑ r, f r * f r) * (1 / n) - ((∑ r, f r) * (1 / n)) * ((∑ r, f r) * (1 / n))
      = (∑ r, (f r - (∑ r, f r) * (1 / n)) * (f r - (∑ r, f r) * (1 / n))) * (1 / n) := by
  have h1 : ∀ m : ℝ, ∑ r, (f r - m) * (f r - m) = (∑ r, f r * f r) - 2 * m * (∑ r, f r) + n * (m * m) := by
    intro m
    have e : ∀ r, (f r - m) * (f r - m) = f r * f r - 2 * m * f r + m * m := fun r => by ring
    simp only [e, Finset.sum_add_distrib, Finset.sum_sub_distrib, ← Finset.mul_sum, Finset.sum_const,
      Finset.card_univ, nsmul_eq_mul, hc]
    ring
  rw [h1]
  field_simp
  ring

variable {R : Type*} [Fintype R]

/-- On the extended reals, for a column of real numbers: the one-pass variance is the two-pass variance. -/
theorem var_eq (h : R → EReal) (hh : ∀ r, IsReal (h r)) (n : ℝ) (hn : n ≠ 0) (hc : (Fintype.card R : ℝ) = n) :
    Ideal.div (∑ r, h r * h r) (n : EReal) - Ideal.div (∑ r, h r) (n : EReal) * Ideal.div (∑ r, h r) (n : EReal)
      = Ideal.div (0 + ∑ r, (h r - Ideal.div (0 + ∑ r, h r) (n : EReal)) * (h r - Ideal.div (0 + ∑ r, h r) (n : EReal)))
          (n : EReal) := by
  choose f hf using hh
  obtain rfl : h = fun r => (f r : EReal) := funext hf
  simp only [zero_add, Ideal.div_coe hn, ← EReal.coe_mul, ← coe_sum, ← EReal.coe_sub]
  exact congrArg _ (var_identity f n hn hc)

/-- The two-pass variance of a column of real numbers is a nonnegative real number. -/
theorem var_real_nonneg (h : R → EReal) (hh : ∀ r, IsReal (h r)) (n : ℝ) (hn : 0 < n) :
    ∃ v : ℝ, 0 ≤ v ∧ Ideal.div (0 + ∑ r, (h r - Ideal.div (0 + ∑ r, h r) (n : EReal)) * (h r - Ideal.div (0 + ∑ r, h r) (n : EReal)))
          (n : EReal) = (v : EReal) := by
  choose f hf using hh
  obtain rfl : h = fun r => (f r : EReal) := funext hf
  simp only [zero_add, Ideal.div_coe hn.ne', ← EReal.coe_mul, ← coe_sum, ← EReal.coe_sub]
  exact ⟨_, mul_nonneg (Finset.sum_nonneg fun r _ => mul_self_nonneg _) (by positivity), rfl⟩

end Cert.LibBatchNorm

end
-- ==== Proof.LibBlockNorm.lean ====
/-
  Three small facts on the extended reals, stated generally.

  * For a positive real r, multiplying by the reciprocal square root of r is dividing by the square root of r — for
    every extended real numerator, infinite ones included.
  * A sum over n blocks of k consecutive positions each is the sum over all n · k positions.
  * A select between two real numbers is a real number.
-/
import Idealize.ShloMosaic.PureOps.Ideal
import Idealize.ShloMosaic.PureOps.Ideal.Laws
import Idealize.ShloMosaic.Lib.ValueIdx

noncomputable section

open scoped BigOperators

namespace Cert.LibBlockNorm

open Idealize.ShloMosaic

/-- y · rsqrt(r) = y / sqrt(r) for a positive real r and any extended real y. -/
theorem mul_rsqrt_eq_div_sqrt (y : EReal) {r : ℝ} (hr : 0 < r) :
    y * Ideal.rsqrt (r : EReal) = Ideal.div y (Ideal.sqrt (r : EReal)) := by
  have hs : Real.sqrt r ≠ 0 := (Real.sqrt_pos.mpr hr).ne'
  rw [Ideal.rsqrt_coe, if_neg (not_lt.mpr hr.le), if_neg hr.ne', Ideal.sqrt_coe, if_neg (not_lt.mpr hr.le),
    Ideal.div_coe hs, one_div]

/-- The sum over n blocks of k consecutive positions is the sum over all n · k positions. -/
theorem sum_blocks {M : Type*} [AddCommMonoid M] (n k : ℕ) (f : Fin (n * k) → M) :
    ∑ b : Fin n, ∑ p : Fin k, f ⟨b.val * k + p.val, by
        have hb := b.isLt; have hp := p.isLt
        calc b.val * k + p.val < b.val * k + k := by omega
          _ = (b.val + 1) * k := by ring
          _ ≤ n * k := Nat.mul_le_mul_right k hb⟩ = ∑ i : Fin (n * k), f i := by
  rw [← Fintype.sum_prod_type', ← (finProdFinEquiv (m := n) (n := k)).sum_comp]
  refine Finset.sum_congr rfl fun x _ => congrArg f (Fin.ext ?_)
  show x.1.val * k + x.2.val = x.2.val + k * x.1.val
  ring

/-- A select between two values with a property has the property. -/
theorem select_prop {α : Type} (P : α → Prop) (b : BitVec 1) {x y : α} (hx : P x) (hy : P y) : P (Scalar.select b x y) := by
  unfold Scalar.select
  split <;> assumption

end Cert.LibBlockNorm

end
-- ==== Proof.BnBridge.lean ====
/-
  Batch normalisation of one column, two spellings, equal when the column's entries are real numbers.
  One spelling: mean = Σh / n, variance = Σh² / n − mean², and (x − mean) · rsqrt(variance + eps).
  The other: mean = (0 + Σh) / n, variance = (0 + Σ(h − mean)²) / n, and (x − mean) / sqrt(variance + eps).
  The variance identity holds on real columns; the variance is then a non-negative real, eps a positive real, so the
  radicand is a positive real and the product with its reciprocal square root is the quotient by its square root.
-/
import proofs.«117800_g2173253451805_cont_8to1_1923_4_alg».proof.Proof.Consts
import proofs.«117800_g2173253451805_cont_8to1_1923_4_alg».proof.Proof.LibBatchNorm
import proofs.«117800_g2173253451805_cont_8to1_1923_4_alg».proof.Proof.LibBlockNorm

noncomputable section

open scoped BigOperators

namespace Cert.BnBridge

open Idealize.ShloMosaic Cert.Spec Cert.LibBatchNorm Cert.LibBlockNorm

theorem norm_eq (h : Fin 4096 → EReal) (hh : ∀ i, IsReal (h i)) (x g b : EReal) :
    ((x - Ideal.div (∑ i, h i) rows)
        * Ideal.rsqrt ((Ideal.div (∑ i, h i * h i) rows - Ideal.div (∑ i, h i) rows * Ideal.div (∑ i, h i) rows) + eps)) * g + b
      = Ideal.div (x - Ideal.div (z + ∑ i, h i) rows)
          (Ideal.sqrt (Ideal.div (z + ∑ i, (h i - Ideal.div (z + ∑ i, h i) rows) * (h i - Ideal.div (z + ∑ i, h i) rows)) rows + eps)) * g + b := by
  have hv := var_eq h hh 4096 (by norm_num) (by simp)
  obtain ⟨v, hv0, hve⟩ := var_real_nonneg h hh 4096 (by norm_num)
  obtain ⟨e, he0, hee⟩ := Consts.eps_pos
  rw [Consts.z_eq, Consts.rows_eq, hv, hve, hee, ← EReal.coe_add, zero_add,
    mul_rsqrt_eq_div_sqrt _ (by positivity : (0 : ℝ) < v + e)]

end Cert.BnBridge

end
-- ==== Proof.RealChain.lean ====
/-
  Under real inputs every entry of h = mu · fc1_w + fc1_b is a real number: products and finite sums of reals are real, and
  the leaky unit returns its argument or the slope times it.
-/
import proofs.«117800_g2173253451805_cont_8to1_1923_4_alg».proof.Proof.RefForms
import proofs.«117800_g2173253451805_cont_8to1_1923_4_alg».proof.Proof.Consts
import proofs.«117800_g2173253451805_cont_8to1_1923_4_alg».proof.Proof.LibBatchNorm
import proofs.«117800_g2173253451805_cont_8to1_1923_4_alg».proof.Proof.LibBlockNorm

noncomputable section

open scoped BigOperators

namespace Cert.RealChain

open Idealize.ShloMosaic Idealize.ShloMosaic.ValueIdx Cert.Spec Cert.LibBatchNorm

/-- The slope's word denotes a real number. -/
theorem slope_real : IsReal Spec.slope := by
  unfold Spec.slope
  exact ⟨_, by simp [Ideal.ofBits, Ideal.ieee, -EReal.coe_mul]; rfl⟩

/-- The leaky unit of a real number is a real number. -/
theorem lk_real {v : EReal} (hv : IsReal v) : IsReal (lk v) :=
  Cert.LibBlockNorm.select_prop IsReal _ hv (slope_real.mul hv)

variable (a0 : FVec Ideal ⟨2, ![4096, 2000]⟩ .f32) (a1 : FVec Ideal ⟨2, ![4096, 4096]⟩ .f32) (a2 : FVec Ideal ⟨2, ![2000, 512]⟩ .f32)
  (a3 : FVec Ideal ⟨2, ![512, 128]⟩ .f32) (a5 : FVec Ideal ⟨2, ![128, 512]⟩ .f32) (a6 : FVec Ideal ⟨1, ![512]⟩ .f32)
  (r0 : ∀ i, IsReal (a0 i)) (r1 : ∀ i, IsReal (a1 i)) (r2 : ∀ i, IsReal (a2 i)) (r3 : ∀ i, IsReal (a3 i))
  (r5 : ∀ i, IsReal (a5 i)) (r6 : ∀ i, IsReal (a6 i))

include r0 r2 in
theorem xw_real (i) : IsReal (RefForms.xw a0 a2 i) :=
  IsReal.sum _ fun k _ => (r0 _).mul (r2 _)

include r0 r1 r2 in
theorem h1_real (i) : IsReal (RefForms.h1 a0 a1 a2 i) :=
  lk_real (IsReal.sum _ fun k _ => (r1 _).mul (xw_real a0 a2 r0 r2 _))

include r0 r1 r2 r3 in
theorem mu_real (i) : IsReal (RefForms.mu a0 a1 a2 a3 i) :=
  lk_real (IsReal.sum _ fun k _ => (r1 _).mul (IsReal.sum _ fun l _ => (h1_real a0 a1 a2 r0 r1 r2 _).mul (r3 _)))

include r0 r1 r2 r3 r5 r6 in
theorem hh_real (i) : IsReal (RefForms.hh a0 a1 a2 a3 a5 a6 i) :=
  (IsReal.sum _ fun k _ => (mu_real a0 a1 a2 a3 r0 r1 r2 r3 _).mul (r5 _)).add (r6 _)

end Cert.RealChain

end
-- ==== Proof.Bridge2.lean ====
/-
  The kernel's remaining four results are the reference's, on real inputs. h is the same linear layer on the same mu. The
  kernel's statistics block holds, in its first two rows, the column sums of h and of h² (eight block sums of 512 rows
  are the sum over all 4096 rows); from them the one-pass mean and variance equal the reference's two-pass ones because
  every entry of h is a real number, and the product with the reciprocal square root is the quotient by the square root
  because the radicand is a positive real. The three heads then apply the same functions to the same block: the softplus's
  self-comparison is false on the extended reals, 0 − y is −y, and the logistic is 1 / (1 + exp(−x)) by definition.
-/
import proofs.«117800_g2173253451805_cont_8to1_1923_4_alg».proof.Proof.Ideal.OutputsB
import proofs.«117800_g2173253451805_cont_8to1_1923_4_alg».proof.Proof.Bridge1
import proofs.«117800_g2173253451805_cont_8to1_1923_4_alg».proof.Proof.BnBridge
import proofs.«117800_g2173253451805_cont_8to1_1923_4_alg».proof.Proof.RealChain
import Idealize.ShloMosaic.Lib.ValueLayout

set_option maxRecDepth 16384

noncomputable section

open scoped BigOperators

namespace Cert.Bridge

open Idealize.ShloMosaic Idealize.ShloMosaic.ValueIdx
open Cert.KernelIdeal Cert.KernelIdeal.Hand Cert.Spec Cert.LibBatchNorm

variable (a0 : FVec Ideal S4096x2000 .f32) (a1 : FVec Ideal S4096x4096 .f32) (a2 : FVec Ideal S2000x512 .f32)
  (a3 a4 : FVec Ideal S512x128 .f32) (a5 : FVec Ideal S128x512 .f32) (a6 a7 a8 : FVec Ideal S512 .f32)
  (a9 : FVec Ideal S512x2000 .f32) (a10 : FVec Ideal S2000 .f32) (a11 : FVec Ideal S512x2000 .f32) (a12 a13 a14 : FVec Ideal S2000 .f32)

theorem row512_apply (v : FVec Ideal S512 .f32) (c : Fin 512) : row512 v (ix2 (0 : Fin 1) c) = v (ix1 c) :=
  shapeCast_a_1a_apply v _ 0 c
theorem row2000_apply (v : FVec Ideal S2000 .f32) (c : Fin 2000) : row2000 v (ix2 (0 : Fin 1) c) = v (ix1 c) :=
  shapeCast_a_1a_apply v _ 0 c

/-- The kernel's h is the reference's. -/
theorem kH_eq : kH a0 a1 a2 a3 a4 a5 a6 = RefForms.hh a0 a1 a2 a3 a5 a6 := by
  funext i
  unfold kH hK RefForms.hh
  refine congrArg₂ (· + ·) (Finset.sum_congr rfl fun k _ => ?_) (row512_apply a6 (i 1))
  exact congrArg₂ (· * ·) (kML_left a0 a1 a2 a3 a4 (i 0) k _ rfl) rfl

/-- Row 0 of the statistics: the column sum of h over all rows. -/
theorem kST_row0 (c : Fin 512) : kST a0 a1 a2 a3 a4 a5 a6 (ix2 (0 : Fin 8) c) = ∑ i : Fin 4096, RefForms.hh a0 a1 a2 a3 a5 a6 (ix2 i c) := by
  unfold kST
  rw [stat_row0]
  rw [← Cert.LibBlockNorm.sum_blocks 8 512 (fun i => RefForms.hh a0 a1 a2 a3 a5 a6 (ix2 i c))]
  refine Finset.sum_congr rfl fun b _ => Finset.sum_congr rfl fun p _ => ?_
  exact congrFun (kH_eq a0 a1 a2 a3 a4 a5 a6) _

/-- Row 1 of the statistics: the column sum of h² over all rows. -/
theorem kST_row1 (c : Fin 512) : kST a0 a1 a2 a3 a4 a5 a6 (ix2 (1 : Fin 8) c)
    = ∑ i : Fin 4096, RefForms.hh a0 a1 a2 a3 a5 a6 (ix2 i c) * RefForms.hh a0 a1 a2 a3 a5 a6 (ix2 i c) := by
  unfold kST
  rw [stat_row1]
  rw [← Cert.LibBlockNorm.sum_blocks 8 512 (fun i => RefForms.hh a0 a1 a2 a3 a5 a6 (ix2 i c) * RefForms.hh a0 a1 a2 a3 a5 a6 (ix2 i c))]
  refine Finset.sum_congr rfl fun b _ => Finset.sum_congr rfl fun p _ => ?_
  exact congrArg₂ (· * ·) (congrFun (kH_eq a0 a1 a2 a3 a4 a5 a6) _) (congrFun (kH_eq a0 a1 a2 a3 a4 a5 a6) _)

section Real
variable (hr0 : ∀ i, IsReal (a0 i)) (hr1 : ∀ i, IsReal (a1 i)) (hr2 : ∀ i, IsReal (a2 i)) (hr3 : ∀ i, IsReal (a3 i))
  (hr5 : ∀ i, IsReal (a5 i)) (hr6 : ∀ i, IsReal (a6 i))

/-- The kernel's normalised block at an entry, spelled out. -/
theorem kOUT_apply (p : Fin 4096) (q : Fin 512) : kOUT a0 a1 a2 a3 a4 a5 a6 a7 a8 (ix2 p q)
    = lk (((kH a0 a1 a2 a3 a4 a5 a6 (ix2 p q) - Ideal.div (kST a0 a1 a2 a3 a4 a5 a6 (ix2 (0 : Fin 8) q)) rows)
        * Ideal.rsqrt ((Ideal.div (kST a0 a1 a2 a3 a4 a5 a6 (ix2 (1 : Fin 8) q)) rows - Ideal.div (kST a0 a1 a2 a3 a4 a5 a6 (ix2 (0 : Fin 8) q)) rows * Ideal.div (kST a0 a1 a2 a3 a4 a5 a6 (ix2 (0 : Fin 8) q)) rows) + eps))
        * row512 a7 (ix2 (0 : Fin 1) q) + row512 a8 (ix2 (0 : Fin 1) q)) := rfl

/-- The reference's output at an entry, spelled out. -/
theorem output_apply (p : Fin 4096) (q : Fin 512) : RefForms.output a0 a1 a2 a3 a5 a6 a7 a8 (ix2 p q)
    = lk (Ideal.div (RefForms.hh a0 a1 a2 a3 a5 a6 (ix2 p q) - Ideal.div (z + ∑ i : Fin 4096, RefForms.hh a0 a1 a2 a3 a5 a6 (ix2 i q)) rows)
        (Ideal.sqrt (Ideal.div (z + ∑ i : Fin 4096, (RefForms.hh a0 a1 a2 a3 a5 a6 (ix2 i q) - Ideal.div (z + ∑ i : Fin 4096, RefForms.hh a0 a1 a2 a3 a5 a6 (ix2 i q)) rows)
            * (RefForms.hh a0 a1 a2 a3 a5 a6 (ix2 i q) - Ideal.div (z + ∑ i : Fin 4096, RefForms.hh a0 a1 a2 a3 a5 a6 (ix2 i q)) rows)) rows + eps))
        * a7 (ix1 q) + a8 (ix1 q)) := rfl

include hr0 hr1 hr2 hr3 hr5 hr6 in
/-- The kernel's normalised, activated block is the reference's output. -/
theorem kOUT_eq : kOUT a0 a1 a2 a3 a4 a5 a6 a7 a8 = RefForms.output a0 a1 a2 a3 a5 a6 a7 a8 := by
  funext i
  obtain ⟨p, q, rfl⟩ : ∃ (p : Fin 4096) (q : Fin 512), i = ix2 p q := ⟨i 0, i 1, eq_ix2 i⟩
  rw [kOUT_apply, output_apply, kST_row0, kST_row1, kH_eq, row512_apply, row512_apply]
  exact congrArg lk (Cert.BnBridge.norm_eq (fun i' => RefForms.hh a0 a1 a2 a3 a5 a6 (ix2 i' q))
    (fun i' => Cert.RealChain.hh_real a0 a1 a2 a3 a5 a6 hr0 hr1 hr2 hr3 hr5 hr6 _) _ _ _)

include hr0 hr1 hr2 hr3 hr5 hr6 in
/-- The linear heads agree: the same block, the same weight, the bias read off its one-row form. -/
theorem lin_eq (w : FVec Ideal S512x2000 .f32) (b : FVec Ideal S2000 .f32) :
    lin (kOUT a0 a1 a2 a3 a4 a5 a6 a7 a8) w (row2000 b) = RefForms.lin a0 a1 a2 a3 a5 a6 a7 a8 w b := by
  funext i
  obtain ⟨p, q, rfl⟩ : ∃ (p : Fin 4096) (q : Fin 2000), i = ix2 p q := ⟨i 0, i 1, eq_ix2 i⟩
  show (∑ k : Fin 512, kOUT a0 a1 a2 a3 a4 a5 a6 a7 a8 (ix2 p k) * w (ix2 k q)) + row2000 b (ix2 (0 : Fin 1) q)
    = (∑ k : Fin 512, RefForms.output a0 a1 a2 a3 a5 a6 a7 a8 (ix2 p k) * w (ix2 k q)) + b (ix1 q)
  rw [kOUT_eq a0 a1 a2 a3 a4 a5 a6 a7 a8 hr0 hr1 hr2 hr3 hr5 hr6, row2000_apply]
end Real

/-- The printed softplus, its self-comparison decided, is max(x, 0) + log1p(exp(−|x − 0|)). -/
theorem spK_eq (x : EReal) : spK x = RefForms.softplus x := by
  unfold spK RefForms.softplus
  have hc : FloatOps.cmpf (F := Ideal) (φ := .f32) .one (x - z) (x - z) = 0#1 := by
    show BitVec.ofBool (decide ((x - z) ≠ (x - z))) = 0#1
    simp
  rw [hc, select_zero]
  have hz : z - Spec.abs (x - z) = -(Spec.abs (x - z)) := by
    rw [Consts.z_eq, sub_eq_add_neg, zero_add]
  rw [hz]

/-- The logistic is 1 / (1 + exp(−x)). -/
theorem logistic_eq (x : EReal) : Ideal.logistic x = Ideal.div one (one + Ideal.exp (-x)) := by
  rw [Consts.one_eq]; rfl

section Real2
variable (hr0 : ∀ i, IsReal (a0 i)) (hr1 : ∀ i, IsReal (a1 i)) (hr2 : ∀ i, IsReal (a2 i)) (hr3 : ∀ i, IsReal (a3 i))
  (hr5 : ∀ i, IsReal (a5 i)) (hr6 : ∀ i, IsReal (a6 i))

include hr0 hr1 hr2 hr3 hr5 hr6 in
theorem kTH_eq : kTH a0 a1 a2 a3 a4 a5 a6 a7 a8 a9 a10 = RefForms.theta a0 a1 a2 a3 a5 a6 a7 a8 a9 a10 := by
  funext i
  unfold kTH thetaK RefForms.theta
  show clamp (spK (lin (kOUT a0 a1 a2 a3 a4 a5 a6 a7 a8) a9 (row2000 a10) i)) = _
  rw [lin_eq a0 a1 a2 a3 a4 a5 a6 a7 a8 hr0 hr1 hr2 hr3 hr5 hr6, spK_eq]

include hr0 hr1 hr2 hr3 hr5 hr6 in
theorem kME_eq : kME a0 a1 a2 a3 a4 a5 a6 a7 a8 a11 a12 = RefForms.meanRes a0 a1 a2 a3 a5 a6 a7 a8 a11 a12 := by
  funext i
  unfold kME meanK RefForms.meanRes
  show clamp (Ideal.exp (lin (kOUT a0 a1 a2 a3 a4 a5 a6 a7 a8) a11 (row2000 a12) i)) = _
  rw [lin_eq a0 a1 a2 a3 a4 a5 a6 a7 a8 hr0 hr1 hr2 hr3 hr5 hr6]

include hr0 hr1 hr2 hr3 hr5 hr6 in
theorem kPI_eq : kPI a0 a1 a2 a3 a4 a5 a6 a7 a8 a11 a12 a13 a14 = RefForms.piRes a0 a1 a2 a3 a5 a6 a7 a8 a11 a12 a13 a14 := by
  funext i
  obtain ⟨p, q, rfl⟩ : ∃ (p : Fin 4096) (q : Fin 2000), i = ix2 p q := ⟨i 0, i 1, eq_ix2 i⟩
  show Ideal.logistic (lin (kOUT a0 a1 a2 a3 a4 a5 a6 a7 a8) a11 (row2000 a12) (ix2 p q) * row2000 a13 (ix2 (0 : Fin 1) q) + row2000 a14 (ix2 (0 : Fin 1) q))
    = Ideal.div one (one + Ideal.exp (-(RefForms.lin a0 a1 a2 a3 a5 a6 a7 a8 a11 a12 (ix2 p q) * a13 (ix1 q) + a14 (ix1 q))))
  rw [lin_eq a0 a1 a2 a3 a4 a5 a6 a7 a8 hr0 hr1 hr2 hr3 hr5 hr6, row2000_apply, row2000_apply, logistic_eq]
end Real2

end Cert.Bridge

end
-- ==== Proof.PreReal.lean ====
/-
  The precondition read back: where the printed predicate `finite_inputs` holds, the entries of the argument
  arrays are real numbers.

  The predicate is the conjunction, over the fifteen argument arrays x, of  all (|x| < +∞).  At the instance
  where a float is an extended real, |x| is  max x (-x)  and the constant is ⊤, so one conjunct says of each
  entry that  max x (-x) < ⊤ : the entry is neither ⊤ (then max x (-x) = ⊤) nor ⊥ (then -x = ⊤), hence the
  coercion of a real number.
-/
import proofs.«117800_g2173253451805_cont_8to1_1923_4_alg».proof.Defs
import proofs.«117800_g2173253451805_cont_8to1_1923_4_alg».proof.Proof.LibBatchNorm
import Idealize.ShloMosaic.Lib.ReduceAll

noncomputable section

namespace Cert.PreReal

open Idealize.ShloMosaic
open Cert.LibBatchNorm

/-- The scalar shape has one index. -/
instance : Subsingleton Cert.Pre_finite_inputs.S_.Idx := ⟨fun a b => funext fun d => d.elim0⟩

/-- An extended real whose absolute value  max x (-x)  is below ⊤ is a real number. -/
theorem isReal_of_abs_lt_top (x : EReal) (h : max x (-x) < ⊤) : IsReal x := by
  induction x using EReal.rec with
  | bot => simp at h
  | coe r => exact ⟨r, rfl⟩
  | top => simp at h

/-- The bit pattern 0x7F800000 denotes +∞. -/
theorem inf_eq_top : Ideal.ofBits .f32 0x7F800000#32 = (⊤ : EReal) := by
  simp [Ideal.ofBits, Ideal.ieee]

/-- One element of  |x| < +∞ : the comparison's word is 1 only at a real number. -/
theorem isReal_of_cmp (x : EReal)
    (h : FloatOps.cmpf (F := Ideal) (φ := .f32) .olt (FloatOps.hostAbsf (F := Ideal) (φ := .f32) x)
          (FloatOps.ofBits (F := Ideal) .f32 0x7F800000#32) = 1#1) : IsReal x := by
  apply isReal_of_abs_lt_top
  have h' : Ideal.cmp .olt (max x (-x)) (Ideal.ofBits .f32 0x7F800000#32) = 1#1 := h
  rw [inf_eq_top] at h'
  unfold Ideal.cmp at h'
  by_contra hn
  simp [hn] at h'

/-- One conjunct of the predicate, generic in the array's shape: where  all (|x| < +∞)  is 1, every entry of x is
    a real number. -/
theorem real_of_all {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim s ![] bc (constant Cert.Pre_finite_inputs.S_ .f32 0x7F800000#32)))
          (constantI Cert.Pre_finite_inputs.S_ 1 1#1) hr hu j = 1#1)
    (i : s.Idx) : IsReal (x i) :=
  isReal_of_cmp (x i) (Host.reduce_andi_all _ _ hr hu j e i)

/-- THE PRECONDITION DECODED: on every device, every entry of each of the fifteen argument arrays is a real number.
    The predicate's value at its one index is the left-nested conjunction of the fifteen  all (|x| < +∞) ; each
    conjunct is read back by `real_of_all`. -/
theorem real_inputs_all [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S4096x2000.Idx, IsReal (m ((c.tc : Thread Cert.KernelIdeal.nD Cert.KernelIdeal.τ).loc Cert.KernelIdeal.main_arg0) i))
    ∧ (∀ i : Cert.KernelIdeal.S4096x4096.Idx, IsReal (m ((c.tc : Thread Cert.KernelIdeal.nD Cert.KernelIdeal.τ).loc Cert.KernelIdeal.main_arg1) i))
    ∧ (∀ i : Cert.KernelIdeal.S2000x512.Idx, IsReal (m ((c.tc : Thread Cert.KernelIdeal.nD Cert.KernelIdeal.τ).loc Cert.KernelIdeal.main_arg2) i))
    ∧ (∀ i : Cert.KernelIdeal.S512x128.Idx, IsReal (m ((c.tc : Thread Cert.KernelIdeal.nD Cert.KernelIdeal.τ).loc Cert.KernelIdeal.main_arg3) i))
    ∧ (∀ i : Cert.KernelIdeal.S512x128.Idx, IsReal (m ((c.tc : Thread Cert.KernelIdeal.nD Cert.KernelIdeal.τ).loc Cert.KernelIdeal.main_arg4) i))
    ∧ (∀ i : Cert.KernelIdeal.S128x512.Idx, IsReal (m ((c.tc : Thread Cert.KernelIdeal.nD Cert.KernelIdeal.τ).loc Cert.KernelIdeal.main_arg5) i))
    ∧ (∀ i : Cert.KernelIdeal.S512.Idx, IsReal (m ((c.tc : Thread Cert.KernelIdeal.nD Cert.KernelIdeal.τ).loc Cert.KernelIdeal.main_arg6) i))
    ∧ (∀ i : Cert.KernelIdeal.S512.Idx, IsReal (m ((c.tc : Thread Cert.KernelIdeal.nD Cert.KernelIdeal.τ).loc Cert.KernelIdeal.main_arg7) i))
    ∧ (∀ i : Cert.KernelIdeal.S512.Idx, IsReal (m ((c.tc : Thread Cert.KernelIdeal.nD Cert.KernelIdeal.τ).loc Cert.KernelIdeal.main_arg8) i))
    ∧ (∀ i : Cert.KernelIdeal.S512x2000.Idx, IsReal (m ((c.tc : Thread Cert.KernelIdeal.nD Cert.KernelIdeal.τ).loc Cert.KernelIdeal.main_arg9) i))
    ∧ (∀ i : Cert.KernelIdeal.S2000.Idx, IsReal (m ((c.tc : Thread Cert.KernelIdeal.nD Cert.KernelIdeal.τ).loc Cert.KernelIdeal.main_arg10) i))
    ∧ (∀ i : Cert.KernelIdeal.S512x2000.Idx, IsReal (m ((c.tc : Thread Cert.KernelIdeal.nD Cert.KernelIdeal.τ).loc Cert.KernelIdeal.main_arg11) i))
    ∧ (∀ i : Cert.KernelIdeal.S2000.Idx, IsReal (m ((c.tc : Thread Cert.KernelIdeal.nD Cert.KernelIdeal.τ).loc Cert.KernelIdeal.main_arg12) i))
    ∧ (∀ i : Cert.KernelIdeal.S2000.Idx, IsReal (m ((c.tc : Thread Cert.KernelIdeal.nD Cert.KernelIdeal.τ).loc Cert.KernelIdeal.main_arg13) i))
    ∧ (∀ i : Cert.KernelIdeal.S2000.Idx, IsReal (m ((c.tc : Thread Cert.KernelIdeal.nD Cert.KernelIdeal.τ).loc Cert.KernelIdeal.main_arg14) i)) := by
  have e := congrFun (h c) (fun a => a.elim0)
  unfold Cert.Pre_finite_inputs.fn Cert.Pre_finite_inputs.fn_part1 Cert.Pre_finite_inputs.fn_part2
    Cert.Pre_finite_inputs.fn_part3 Cert.Pre_finite_inputs.fn_part4 at e
  simp only [Idealize.ShloMosaic.andi, IntOp.andi_eq_one] at e
  obtain ⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩ := e
  exact ⟨fun i => real_of_all _ _ _ _ _ e0 i,
    fun i => real_of_all _ _ _ _ _ e1 i,
    fun i => real_of_all _ _ _ _ _ e2 i,
    fun i => real_of_all _ _ _ _ _ e3 i,
    fun i => real_of_all _ _ _ _ _ e4 i,
    fun i => real_of_all _ _ _ _ _ e5 i,
    fun i => real_of_all _ _ _ _ _ e6 i,
    fun i => real_of_all _ _ _ _ _ e7 i,
    fun i => real_of_all _ _ _ _ _ e8 i,
    fun i => real_of_all _ _ _ _ _ e9 i,
    fun i => real_of_all _ _ _ _ _ e10 i,
    fun i => real_of_all _ _ _ _ _ e11 i,
    fun i => real_of_all _ _ _ _ _ e12 i,
    fun i => real_of_all _ _ _ _ _ e13 i,
    fun i => real_of_all _ _ _ _ _ e14 i⟩

/-- The same for arguments 0, 1, 2, 3, 5 and 6 alone: every entry of each of these six arrays is a real number. -/
theorem real_inputs [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S4096x2000.Idx, IsReal (m ((c.tc : Thread Cert.KernelIdeal.nD Cert.KernelIdeal.τ).loc Cert.KernelIdeal.main_arg0) i))
    ∧ (∀ i : Cert.KernelIdeal.S4096x4096.Idx, IsReal (m ((c.tc : Thread Cert.KernelIdeal.nD Cert.KernelIdeal.τ).loc Cert.KernelIdeal.main_arg1) i))
    ∧ (∀ i : Cert.KernelIdeal.S2000x512.Idx, IsReal (m ((c.tc : Thread Cert.KernelIdeal.nD Cert.KernelIdeal.τ).loc Cert.KernelIdeal.main_arg2) i))
    ∧ (∀ i : Cert.KernelIdeal.S512x128.Idx, IsReal (m ((c.tc : Thread Cert.KernelIdeal.nD Cert.KernelIdeal.τ).loc Cert.KernelIdeal.main_arg3) i))
    ∧ (∀ i : Cert.KernelIdeal.S128x512.Idx, IsReal (m ((c.tc : Thread Cert.KernelIdeal.nD Cert.KernelIdeal.τ).loc Cert.KernelIdeal.main_arg5) i))
    ∧ (∀ i : Cert.KernelIdeal.S512.Idx, IsReal (m ((c.tc : Thread Cert.KernelIdeal.nD Cert.KernelIdeal.τ).loc Cert.KernelIdeal.main_arg6) i)) := by
  obtain ⟨h0, h1, h2, h3, h4, h5, h6, h7, h8, h9, h10, h11, h12, h13, h14⟩ := real_inputs_all m h c
  exact ⟨h0, h1, h2, h3, h5, h6⟩

end Cert.PreReal

end
-- ==== Proof.Algebraic.lean ====
/-
  The two idealized programs, run from memories agreeing on the arguments, end with equal results. The idealized kernel's
  run leaves its eight results at closed forms of its argument arrays; the reference's run leaves its eight at the
  reference's forms of its own; the arguments agree, the precondition makes every entry a real number, and on real inputs
  the kernel's forms are the reference's.
-/
import proofs.«117800_g2173253451805_cont_8to1_1923_4_alg».proof.Defs
import proofs.«117800_g2173253451805_cont_8to1_1923_4_alg».proof.Proof.Gen.Pre_finite_inputs
import proofs.«117800_g2173253451805_cont_8to1_1923_4_alg».proof.Proof.Ideal.KernelVals
import proofs.«117800_g2173253451805_cont_8to1_1923_4_alg».proof.Proof.Ref.Read
import proofs.«117800_g2173253451805_cont_8to1_1923_4_alg».proof.Proof.Bridge2
import proofs.«117800_g2173253451805_cont_8to1_1923_4_alg».proof.Proof.PreReal

set_option maxRecDepth 16384

noncomputable section

namespace Cert.Proof

open Idealize.ShloMosaic Idealize.SL.Sem

theorem algebraic : Cert.algebraic_KernelIdeal_ReferenceIdeal := by
  intro m ρ m' ρ' hpre hagree
  refine ⟨_, _, _, _, _, _, _, _, Cert.KernelIdeal.Hand.run_vals m ρ, ?_⟩
  refine (θ_run (Cert.ReferenceIdeal.defs (F := Ideal)) _ _).mono (fun r h c => ?_) (Cert.ReferenceIdeal.Hand.run_vals m' ρ')
  obtain ⟨e0, e1, e2, e3, e4, e5, e6, e7, e8, e9, e10, e11, e12, e13, e14⟩ := hagree c
  obtain ⟨q0, q1, q2, q3, q4, q5, q6, q7, q8, q9, q10, q11, q12, q13, q14⟩ := Cert.PreReal.real_inputs_all m hpre c
  obtain ⟨h22, h13, h20, h13', h50, h74, h56, h62, k0, k1, k2, k3, k4, k5, k6, k7, k8, k9, k10, k11, k12, k13, k14⟩ := h c
  rw [e0, e1, e2, e3] at h22 h13 h13'
  rw [e0, e1, e2, e4] at h20
  rw [e0, e1, e2, e3, e5, e6, e7, e8] at h50
  rw [e0, e1, e2, e3, e5, e6, e7, e8, e11, e12, e13, e14] at h74
  rw [e0, e1, e2, e3, e5, e6, e7, e8, e9, e10] at h56
  rw [e0, e1, e2, e3, e5, e6, e7, e8, e11, e12] at h62
  exact ⟨h22.trans (Cert.Bridge.kADJ_eq _ _ _ _ _).symm,
    h13.trans (Cert.Bridge.kMU_eq _ _ _ _ _).symm,
    h20.trans (Cert.Bridge.kLV_eq _ _ _ _ _).symm,
    h13'.trans (Cert.Bridge.kMU_eq _ _ _ _ _).symm,
    h50.trans (Cert.Bridge.kOUT_eq _ _ _ _ _ _ _ _ _ q0 q1 q2 q3 q5 q6).symm,
    h74.trans (Cert.Bridge.kPI_eq _ _ _ _ _ _ _ _ _ _ _ _ _ q0 q1 q2 q3 q5 q6).symm,
    h56.trans (Cert.Bridge.kTH_eq _ _ _ _ _ _ _ _ _ _ _ q0 q1 q2 q3 q5 q6).symm,
    h62.trans (Cert.Bridge.kME_eq _ _ _ _ _ _ _ _ _ _ _ q0 q1 q2 q3 q5 q6).symm,
    k0, k1, k2, k3, k4, k5, k6, k7, k8, k9, k10, k11, k12, k13, k14⟩

end Cert.Proof

end
-- ==== Proof.lean ====
/-
  The certificate of a graph-convolutional autoencoder's forward pass fused into five pallas_calls against its jnp reference.

  Three frames: each program runs to the end, faults nowhere, and leaves its argument arrays as launched. The kernel's is
  proved from the five calls' bodies and pipelines at any float instance and cited at the word level and at the exact
  reals; the reference's from its straight line of host operations.
  The idealized kernel is the kernel's own text read at the exact reals (the ideal pass rewrote nothing).
  The two idealized programs compute equal results under finite inputs: the products, the leaky units and the halves agree
  index by index; the one-pass column statistics accumulated over eight blocks equal the reference's two-pass mean and
  variance because every entry of the normalised layer's input is a real number; the reciprocal square root of a positive
  real is the reciprocal of its square root; the three heads apply the same functions.
-/
import proofs.«117800_g2173253451805_cont_8to1_1923_4_alg».proof.Defs
import proofs.«117800_g2173253451805_cont_8to1_1923_4_alg».proof.Proof.Gen.Kernel
import proofs.«117800_g2173253451805_cont_8to1_1923_4_alg».proof.Proof.Gen.KernelIdeal
import proofs.«117800_g2173253451805_cont_8to1_1923_4_alg».proof.Proof.Gen.ReferenceIdeal
import proofs.«117800_g2173253451805_cont_8to1_1923_4_alg».proof.Proof.Gen.Pre_finite_inputs
import proofs.«117800_g2173253451805_cont_8to1_1923_4_alg».proof.Proof.Bits.Frame
import proofs.«117800_g2173253451805_cont_8to1_1923_4_alg».proof.Proof.Ideal.Frame
import proofs.«117800_g2173253451805_cont_8to1_1923_4_alg».proof.Proof.Ref.Run
import proofs.«117800_g2173253451805_cont_8to1_1923_4_alg».proof.Proof.Algebraic

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => Cert.ReferenceIdeal.Hand.frame m ρ,
  trivial,
  Cert.Proof.algebraic⟩

end Cert.Proof

end
